-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v131)) (v1 : (c : Dev Cert.KernelIdeal.nD) → Buf (Elt Ideal) ((c.tc : Thread Cert.KernelIdeal.nD Cert.KernelIdeal.τ).loc Cert.KernelIdeal.main_v122)) (v2 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_v122) = v1 c
          ∧ r.2.mem ((c.tc : Thread Cert.KernelIdeal.nD Cert.KernelIdeal.τ).loc Cert.KernelIdeal.main_v129) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S30000x512 : Shape := ⟨2, ![30000, 512]⟩
abbrev S3x128x128 : Shape := ⟨3, ![3, 128, 128]⟩
abbrev S3x128 : Shape := ⟨2, ![3, 128]⟩
abbrev S2x800000 : Shape := ⟨2, ![2, 800000]⟩
abbrev S4096 : Shape := ⟨1, ![4096]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S30000x512 : S_.BroadcastsInDim S30000x512 (![] : Fin 0 → Fin S30000x512.rank)
  reducesTo_S30000x512_S_d0_1 : S30000x512.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg4 : FVec F S3x128 .f32) (main_arg5 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S50000x128 .f32) (main_arg1 : FVec F S30000x512 .f32) (main_arg2 : FVec F S3x128x128 .f32) (main_arg3 : FVec F S3x128x128 .f32) (main_arg4 : FVec F S3x128 .f32) (main_arg5 : FVec F S3x128 .f32) (main_arg6 : IVec S2x800000 32) (main_arg7 : IVec S4096 32) (main_arg8 : IVec S4096 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S30000x512 .f32 := Host.absf main_arg1
  let main_cst_0 : FVec F S_ .f32 := constant S_ .f32 0x7F800000#32
  let main_v5 : FVec F S30000x512 .f32 := broadcastInDim S30000x512 ![] bcast_S_S30000x512 main_cst_0
  let main_v6 : IVec S30000x512 1 := cmpf .olt main_v4 main_v5
  let main_c_1 : IVec S_ 1 := constantI S_ 1 1#1
  let main_v7 : IVec S_ 1 := (fun x v => Host.reduce IntOp.andi x v reducesTo_S30000x512_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_v13 main_v16
-- ==== Kernel.lean ====
abbrev S50000x128 : Shape := ⟨2, ![50000, 128]⟩
abbrev S30000x512 : Shape := ⟨2, ![30000, 512]⟩
abbrev S3x128x128 : Shape := ⟨3, ![3, 128, 128]⟩
abbrev S3x128 : Shape := ⟨2, ![3, 128]⟩
abbrev S2x800000 : Shape := ⟨2, ![2, 800000]⟩
abbrev S4096 : Shape := ⟨1, ![4096]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S4000x128 : Shape := ⟨2, ![4000, 128]⟩
abbrev S5000 : Shape := ⟨1, ![5000]⟩
abbrev S5000x1 : Shape := ⟨2, ![5000, 1]⟩
abbrev S50000x512 : Shape := ⟨2, ![50000, 512]⟩
abbrev S4096x1 : Shape := ⟨2, ![4096, 1]⟩
abbrev S4096x512 : Shape := ⟨2, ![4096, 512]⟩
abbrev S1024x512 : Shape := ⟨2, ![1024, 512]⟩
abbrev S1024x1 : Shape := ⟨2, ![1024, 1]⟩
abbrev S1024 : Shape := ⟨1, ![1024]⟩

abbrev nBuf : Space → Nat
  | .hbm => 166
  | .vmem => 72
  | .smem => 0
  | _ => 0

abbrev hbmTy0_0 (i : Nat) : BufTy := match i % 128 with
  | 0 => ⟨S50000x128, .f32⟩
  | 1 => ⟨S30000x512, .f32⟩
  | 2 => ⟨S3x128x128, .f32⟩
  | 3 => ⟨S3x128x128, .f32⟩
  | 4 => ⟨S3x128, .f32⟩
  | 5 => ⟨S3x128, .f32⟩
  | 6 => ⟨S2x800000, .i32⟩
  | 7 => ⟨S4096, .i32⟩
  | 8 => ⟨S4096, .i32⟩
  | 9 => ⟨S1x800000, .i32⟩
  | 10 => ⟨S800000, .i32⟩
  | 11 => ⟨S1x800000, .i32⟩
  | 12 => ⟨S800000, .i32⟩
  | 13 => ⟨S1x128x128, .f32⟩
  | 14 => ⟨S128x128, .f32⟩
  | 15 => ⟨S1x128, .f32⟩
  | 16 => ⟨S128, .f32⟩
  | 17 => ⟨S1x128, .f32⟩
  | 18 => ⟨S50000x128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S1x128x128, .f32⟩
  | 47 => ⟨S128x128, .f32⟩
  | 48 => ⟨S1x128, .f32⟩
  | 49 => ⟨S128, .f32⟩
  | 50 => ⟨S1x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S50000x128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S50000x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S1x128x128, .f32⟩
  | 91 => ⟨S128x128, .f32⟩
  | 92 => ⟨S1x128, .f32⟩
  | 93 => ⟨S128, .f32⟩
  | 94 => ⟨S1x128, .f32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S50000x128, .f32⟩
  | 101 => ⟨S1x128x128, .f32⟩
  | 102 => ⟨S128x128, .f32⟩
  | 103 => ⟨S1x128, .f32⟩
  | 104 => ⟨S128, .f32⟩
  | 105 => ⟨S1x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x128, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S1x128x128, .f32⟩
  | 7 => ⟨S128x128, .f32⟩
  | 8 => ⟨S1x128, .f32⟩
  | 9 => ⟨S128, .f32⟩
  | 10 => ⟨S1x128, .f32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S50000x128, .f32⟩
  | 17 => ⟨S50000x512, .f32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S4096x512, .f32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S4096x512, .f32⟩
  | 36 => ⟨S4096x1, .f32⟩
  | 37 => ⟨S4096, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S128x128, .f32⟩
  | .local _ .vmem, ⟨35, _⟩ => ⟨S1x128, .f32⟩
  | .local _ .vmem, ⟨36, _⟩ => ⟨S4000x128, .f32⟩
  | .local _ .vmem, ⟨37, _⟩ => ⟨S4000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S4000x128, .f32⟩
  | .local _ .vmem, ⟨51, _⟩ => ⟨S4000x128, .f32⟩
  | .local _ .vmem, ⟨52, _⟩ => ⟨S4000x128, .f32⟩
  | .local _ .vmem, ⟨53, _⟩ => ⟨S4000x128, .f32⟩
  | .local _ .vmem, ⟨54, _⟩ => ⟨S4000x128, .f32⟩
  | .local _ .vmem, ⟨55, _⟩ => ⟨S4000x128, .f32⟩
  | .local _ .vmem, ⟨56, _⟩ => ⟨S128x128, .f32⟩
  | .local _ .vmem, ⟨57, _⟩ => ⟨S1x128, .f32⟩
  | .local _ .vmem, ⟨58, _⟩ => ⟨S4000x128, .f32⟩
  | .local _ .vmem, ⟨59, _⟩ => ⟨S4000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S1024x512, .f32⟩
  | .local _ .vmem, ⟨67, _⟩ => ⟨S1024x512, .f32⟩
  | .local _ .vmem, ⟨68, _⟩ => ⟨S1024x512, .f32⟩
  | .local _ .vmem, ⟨69, _⟩ => ⟨S1024x512, .f32⟩
  | .local _ .vmem, ⟨70, _⟩ => ⟨S1024x1, .f32⟩
  | .local _ .vmem, ⟨71, _⟩ => ⟨S1024x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_5 : Ref sig .tc := ⟨.hbm, 63, rfl⟩
abbrev main_v47 : Ref sig .tc := ⟨.hbm, 64, rfl⟩
abbrev main_v48 : Ref sig .tc := ⟨.hbm, 65, rfl⟩
abbrev main_c_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_7 : Ref sig .tc := ⟨.hbm, 72, rfl⟩
abbrev main_v54 : Ref sig .tc := ⟨.hbm, 73, rfl⟩
abbrev main_v55 : Ref sig .tc := ⟨.hbm, 74, rfl⟩
abbrev main_c_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_c_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_12 : Ref sig .tc := ⟨.hbm, 107, rfl⟩
abbrev main_v84 : Ref sig .tc := ⟨.hbm, 108, rfl⟩
abbrev main_v85 : Ref sig .tc := ⟨.hbm, 109, rfl⟩
abbrev main_c_13 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_c_14 : Ref sig .tc := ⟨.hbm, 116, rfl⟩
abbrev main_v91 : Ref sig .tc := ⟨.hbm, 117, rfl⟩
abbrev main_v92 : Ref sig .tc := ⟨.hbm, 118, rfl⟩
abbrev main_c_15 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_16 : Ref sig .tc := ⟨.hbm, 125, rfl⟩
abbrev main_v98 : Ref sig .tc := ⟨.hbm, 126, rfl⟩
abbrev main_v99 : Ref sig .tc := ⟨.hbm, 127, rfl⟩
abbrev main_c_17 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_18 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_c_19 : Ref sig .tc := ⟨.hbm, 146, rfl⟩
abbrev main_v116 : Ref sig .tc := ⟨.hbm, 147, rfl⟩
abbrev main_v117 : Ref sig .tc := ⟨.hbm, 148, rfl⟩
abbrev main_c_20 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_c_21 : Ref sig .tc := ⟨.hbm, 155, rfl⟩
abbrev main_v123 : Ref sig .tc := ⟨.hbm, 156, rfl⟩
abbrev main_v124 : Ref sig .tc := ⟨.hbm, 157, rfl⟩
abbrev main_c_22 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc7_stg5_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc8_stg2_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg1_1 : Ref sig .tc := ⟨.vmem, 69, rfl⟩
abbrev cc9_stg2_0 : Ref sig .tc := ⟨.vmem, 70, rfl⟩
abbrev cc9_stg2_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem4_0 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem3_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem2_1 : DmaSem sig := 55
abbrev cc7_sem3_0 : DmaSem sig := 56
abbrev cc7_sem4_0 : DmaSem sig := 57
abbrev cc7_sem5_0 : DmaSem sig := 58
abbrev cc7_sem5_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64
abbrev cc8_sem2_1 : DmaSem sig := 65
abbrev cc9_sem0_0 : DmaSem sig := 66
abbrev cc9_sem0_1 : DmaSem sig := 67
abbrev cc9_sem1_0 : DmaSem sig := 68
abbrev cc9_sem1_1 : DmaSem sig := 69
abbrev cc9_sem2_0 : DmaSem sig := 70
abbrev cc9_sem2_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![200], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1024x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1024x512 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1024x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  bcast_S_S50000x128 : S_.BroadcastsInDim S50000x128 (![] : Fin 0 → Fin S50000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x128_S50000x512_d1 : Shape.Concatenates [S50000x128, S50000x128, S50000x128, S50000x128] S50000x512 1
  bcast_S_S4096 : S_.BroadcastsInDim S4096 (![] : Fin 0 → Fin S4096.rank)
  bcast_S4096_S4096x1_0 : S4096.BroadcastsInDim S4096x1 (![0] : Fin 1 → Fin S4096x1.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S4096x1_S4096 : S4096x1.ShapeCasts S4096
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  gather_S50000x512_S4096x1_S4096x512_1_0_n_n_0_1_1512_wf : GatherDims.WF S50000x512 S4096x1 S4096x512 [1] [0] [] [0] [] 1 ![1, 512]
  gather_S30000x512_S4096x1_S4096x512_1_0_n_n_0_1_1512_wf : GatherDims.WF S30000x512 S4096x1 S4096x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S800000x128.size a
  hwx1_2 : ∀ i : grid1.Coords, EltTy.bits .f32 = 32 ∨ (Rect.block (s := S800000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S800000x128.size a
  hwx1_5 : ∀ i : grid1.Coords, EltTy.bits .f32 = 32 ∨ (Rect.block (s := S800000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S800000x128.size a
  hwx4_0 : ∀ i : grid4.Coords, EltTy.bits .f32 = 32 ∨ (Rect.block (s := S800000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S800000x128.size a
  hwx4_1 : ∀ i : grid4.Coords, EltTy.bits .f32 = 32 ∨ (Rect.block (s := S800000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S800000x128.size a
  hwx4_2 : ∀ i : grid4.Coords, EltTy.bits .f32 = 32 ∨ (Rect.block (s := S800000x128) S4000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S800000x128.size a
  hwx4_5 : ∀ i : grid4.Coords, EltTy.bits .f32 = 32 ∨ (Rect.block (s := S800000x128) S4000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S800000x128.size a
  hwx7_0 : ∀ i : grid7.Coords, EltTy.bits .f32 = 32 ∨ (Rect.block (s := S800000x128) S4000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x128.size a ≤ S800000x128.size a
  hwx7_1 : ∀ i : grid7.Coords, EltTy.bits .f32 = 32 ∨ (Rect.block (s := S800000x128) S4000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x128.size a ≤ S800000x128.size a
  hwx7_2 : ∀ i : grid7.Coords, EltTy.bits .f32 = 32 ∨ (Rect.block (s := S800000x128) S4000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x128.size a ≤ S800000x128.size a
  hwx7_5 : ∀ i : grid7.Coords, EltTy.bits .f32 = 32 ∨ (Rect.block (s := S800000x128) S4000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x512.size a ≤ S4096x512.size a
  hwx9_0 : ∀ i : grid9.Coords, EltTy.bits .f32 = 32 ∨ (Rect.block (s := S4096x512) S1024x512.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1024x512.size a ≤ S4096x512.size a
  hwx9_1 : ∀ i : grid9.Coords, EltTy.bits .f32 = 32 ∨ (Rect.block (s := S4096x512) S1024x512.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x1.size a ≤ S4096x1.size a
  hwx9_2 : ∀ i : grid9.Coords, EltTy.bits .f32 = 32 ∨ (Rect.block (s := S4096x1) S1024x1.size (cc9_transform_2 i) (hinb9_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x512_S4096x1_S4096x512_1_0_n_n_0_1_1512 : GatherDims S50000x512 S4096x1 S4096x512 where
  offsetDims := [1]
  collapsedSliceDims := [0]
  operandBatchingDims := []
  startIndicesBatchingDims := []
  startIndexMap := [0]
  indexVectorDim := 1
  sliceSizes := ![1, 512]
  wf := gather_S50000x512_S4096x1_S4096x512_1_0_n_n_0_1_1512_wf
def gather_S30000x512_S4096x1_S4096x512_1_0_n_n_0_1_1512 : GatherDims S30000x512 S4096x1 S4096x512 where
  offsetDims := [1]
  collapsedSliceDims := [0]
  operandBatchingDims := []
  startIndicesBatchingDims := []
  startIndexMap := [0]
  indexVectorDim := 1
  sliceSizes := ![1, 512]
  wf := gather_S30000x512_S4096x1_S4096x512_1_0_n_n_0_1_1512_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v53) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S4000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v76) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v79) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v90) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v97) S4000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v104) S4000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v106) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v109) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v110) S4000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v113) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v83) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v114) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v122) S1024x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v129) S1024x512.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v130) S1024x1.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S50000x128 : Shape := ⟨2, ![50000, 128]⟩
abbrev S30000x512 : Shape := ⟨2, ![30000, 512]⟩
abbrev S3x128x128 : Shape := ⟨3, ![3, 128, 128]⟩
abbrev S3x128 : Shape := ⟨2, ![3, 128]⟩
abbrev S2x800000 : Shape := ⟨2, ![2, 800000]⟩
abbrev S4096 : Shape := ⟨1, ![4096]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x512 : Shape := ⟨2, ![50000, 512]⟩
abbrev S4096x1 : Shape := ⟨2, ![4096, 1]⟩
abbrev S4096x512 : Shape := ⟨2, ![4096, 512]⟩

abbrev nBuf : Space → Nat
  | .hbm => 239
  | .vmem => 0
  | .smem => 0
  | _ => 0

abbrev hbmTy0_0 (i : Nat) : BufTy := match i % 128 with
  | 0 => ⟨S50000x128, .f32⟩
  | 1 => ⟨S30000x512, .f32⟩
  | 2 => ⟨S3x128x128, .f32⟩
  | 3 => ⟨S3x128x128, .f32⟩
  | 4 => ⟨S3x128, .f32⟩
  | 5 => ⟨S3x128, .f32⟩
  | 6 => ⟨S2x800000, .i32⟩
  | 7 => ⟨S4096, .i32⟩
  | 8 => ⟨S4096, .i32⟩
  | 9 => ⟨S1x800000, .i32⟩
  | 10 => ⟨S800000, .i32⟩
  | 11 => ⟨S1x800000, .i32⟩
  | 12 => ⟨S800000, .i32⟩
  | 13 => ⟨S1x128x128, .f32⟩
  | 14 => ⟨S128x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S800000x128, .f32⟩
  | 49 => ⟨S1x128x128, .f32⟩
  | 50 => ⟨S128x128, .f32⟩
  | 51 => ⟨S800000x128, .f32⟩
  | 52 => ⟨S800000x128, .f32⟩
  | 53 => ⟨S1x128, .f32⟩
  | 54 => ⟨S128, .f32⟩
  | 55 => ⟨S1x128, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x128, .f32⟩
  | 63 => ⟨S_, .f32⟩
  | 64 => ⟨S_, .f32⟩
  | 65 => ⟨S50000x128, .f32⟩
  | 66 => ⟨S50000x128, .i1⟩
  | 67 => ⟨S_, .f32⟩
  | 68 => ⟨S50000x128, .f32⟩
  | 69 => ⟨S50000x128, .f32⟩
  | 70 => ⟨S50000x128, .f32⟩
  | 71 => ⟨S50000x128, .f32⟩
  | 72 => ⟨S_, .f32⟩
  | 73 => ⟨S50000, .f32⟩
  | 74 => ⟨S50000x1, .f32⟩
  | 75 => ⟨S50000x1, .f32⟩
  | 76 => ⟨S_, .f32⟩
  | 77 => ⟨S50000x1, .f32⟩
  | 78 => ⟨S50000x1, .f32⟩
  | 79 => ⟨S50000x128, .f32⟩
  | 80 => ⟨S50000x128, .f32⟩
  | 81 => ⟨S1x128x128, .f32⟩
  | 82 => ⟨S128x128, .f32⟩
  | 83 => ⟨S50000x128, .f32⟩
  | 84 => ⟨S1x128, .f32⟩
  | 85 => ⟨S128, .f32⟩
  | 86 => ⟨S1x128, .f32⟩
  | 87 => ⟨S50000x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S800000x128, .f32⟩
  | 117 => ⟨S1x128x128, .f32⟩
  | 118 => ⟨S128x128, .f32⟩
  | 119 => ⟨S800000x128, .f32⟩
  | 120 => ⟨S800000x128, .f32⟩
  | 121 => ⟨S1x128, .f32⟩
  | 122 => ⟨S128, .f32⟩
  | 123 => ⟨S1x128, .f32⟩
  | 124 => ⟨S800000x128, .f32⟩
  | 125 => ⟨S800000x128, .f32⟩
  | 126 => ⟨S_, .f32⟩
  | 127 => ⟨S50000x128, .f32⟩
  | _ => ⟨S50000x128, .f32⟩

abbrev hbmTy0_1 (i : Nat) : BufTy := match i % 128 with
  | 0 => ⟨S800000x1, .i32⟩
  | 1 => ⟨S50000x128, .f32⟩
  | 2 => ⟨S50000x128, .f32⟩
  | 3 => ⟨S_, .f32⟩
  | 4 => ⟨S_, .f32⟩
  | 5 => ⟨S50000x128, .f32⟩
  | 6 => ⟨S50000x128, .i1⟩
  | 7 => ⟨S_, .f32⟩
  | 8 => ⟨S50000x128, .f32⟩
  | 9 => ⟨S50000x128, .f32⟩
  | 10 => ⟨S50000x128, .f32⟩
  | 11 => ⟨S50000x128, .f32⟩
  | 12 => ⟨S_, .f32⟩
  | 13 => ⟨S50000, .f32⟩
  | 14 => ⟨S50000x1, .f32⟩
  | 15 => ⟨S50000x1, .f32⟩
  | 16 => ⟨S_, .f32⟩
  | 17 => ⟨S50000x1, .f32⟩
  | 18 => ⟨S50000x1, .f32⟩
  | 19 => ⟨S50000x128, .f32⟩
  | 20 => ⟨S50000x128, .f32⟩
  | 21 => ⟨S1x128x128, .f32⟩
  | 22 => ⟨S128x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x128, .f32⟩
  | 57 => ⟨S1x128x128, .f32⟩
  | 58 => ⟨S128x128, .f32⟩
  | 59 => ⟨S800000x128, .f32⟩
  | 60 => ⟨S800000x128, .f32⟩
  | 61 => ⟨S1x128, .f32⟩
  | 62 => ⟨S128, .f32⟩
  | 63 => ⟨S1x128, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S50000x128, .f32⟩
  | 71 => ⟨S_, .f32⟩
  | 72 => ⟨S_, .f32⟩
  | 73 => ⟨S50000x128, .f32⟩
  | 74 => ⟨S50000x128, .i1⟩
  | 75 => ⟨S_, .f32⟩
  | 76 => ⟨S50000x128, .f32⟩
  | 77 => ⟨S50000x128, .f32⟩
  | 78 => ⟨S50000x128, .f32⟩
  | 79 => ⟨S50000x128, .f32⟩
  | 80 => ⟨S_, .f32⟩
  | 81 => ⟨S50000, .f32⟩
  | 82 => ⟨S50000x1, .f32⟩
  | 83 => ⟨S50000x1, .f32⟩
  | 84 => ⟨S_, .f32⟩
  | 85 => ⟨S50000x1, .f32⟩
  | 86 => ⟨S50000x1, .f32⟩
  | 87 => ⟨S50000x128, .f32⟩
  | 88 => ⟨S50000x128, .f32⟩
  | 89 => ⟨S50000x512, .f32⟩
  | 90 => ⟨S_, .i32⟩
  | 91 => ⟨S4096, .i32⟩
  | 92 => ⟨S4096, .i1⟩
  | 93 => ⟨S_, .i32⟩
  | 94 => ⟨S4096, .i32⟩
  | 95 => ⟨S4096, .i32⟩
  | 96 => ⟨S4096, .i32⟩
  | 97 => ⟨S4096x1, .i32⟩
  | 98 => ⟨S4096x512, .f32⟩
  | 99 => ⟨S_, .i32⟩
  | 100 => ⟨S4096, .i32⟩
  | 101 => ⟨S4096, .i1⟩
  | 102 => ⟨S_, .i32⟩
  | 103 => ⟨S4096, .i32⟩
  | 104 => ⟨S4096, .i32⟩
  | 105 => ⟨S4096, .i32⟩
  | 106 => ⟨S4096x1, .i32⟩
  | 107 => ⟨S4096x512, .f32⟩
  | 108 => ⟨S4096x512, .f32⟩
  | 109 => ⟨S_, .f32⟩
  | 110 => ⟨S4096, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_8 : Ref sig .tc := ⟨.hbm, 89, rfl⟩
abbrev main_v64 : Ref sig .tc := ⟨.hbm, 90, rfl⟩
abbrev main_v65 : Ref sig .tc := ⟨.hbm, 91, rfl⟩
abbrev main_c_9 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_10 : Ref sig .tc := ⟨.hbm, 98, rfl⟩
abbrev main_v71 : Ref sig .tc := ⟨.hbm, 99, rfl⟩
abbrev main_v72 : Ref sig .tc := ⟨.hbm, 100, rfl⟩
abbrev main_c_11 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_12 : Ref sig .tc := ⟨.hbm, 107, rfl⟩
abbrev main_v78 : Ref sig .tc := ⟨.hbm, 108, rfl⟩
abbrev main_v79 : Ref sig .tc := ⟨.hbm, 109, rfl⟩
abbrev main_c_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_14 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_15 : Ref sig .tc := ⟨.hbm, 131, rfl⟩
abbrev main_call1_cst : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_call1_v3 : Ref sig .tc := ⟨.hbm, 136, rfl⟩
abbrev main_call1_v4 : Ref sig .tc := ⟨.hbm, 137, rfl⟩
abbrev main_v99 : Ref sig .tc := ⟨.hbm, 138, rfl⟩
abbrev main_v100 : Ref sig .tc := ⟨.hbm, 139, rfl⟩
abbrev main_cst_16 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_17 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_18 : Ref sig .tc := ⟨.hbm, 157, rfl⟩
abbrev main_v116 : Ref sig .tc := ⟨.hbm, 158, rfl⟩
abbrev main_v117 : Ref sig .tc := ⟨.hbm, 159, rfl⟩
abbrev main_c_19 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_c_20 : Ref sig .tc := ⟨.hbm, 166, rfl⟩
abbrev main_v123 : Ref sig .tc := ⟨.hbm, 167, rfl⟩
abbrev main_v124 : Ref sig .tc := ⟨.hbm, 168, rfl⟩
abbrev main_c_21 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_22 : Ref sig .tc := ⟨.hbm, 175, rfl⟩
abbrev main_v130 : Ref sig .tc := ⟨.hbm, 176, rfl⟩
abbrev main_v131 : Ref sig .tc := ⟨.hbm, 177, rfl⟩
abbrev main_c_23 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_24 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_25 : Ref sig .tc := ⟨.hbm, 199, rfl⟩
abbrev main_call2_cst : Ref sig .tc := ⟨.hbm, 200, rfl⟩
abbrev main_call2_v0 : Ref sig .tc := ⟨.hbm, 201, rfl⟩
abbrev main_call2_v1 : Ref sig .tc := ⟨.hbm, 202, rfl⟩
abbrev main_call2_v2 : Ref sig .tc := ⟨.hbm, 203, rfl⟩
abbrev main_call2_v3 : Ref sig .tc := ⟨.hbm, 204, rfl⟩
abbrev main_call2_v4 : Ref sig .tc := ⟨.hbm, 205, rfl⟩
abbrev main_v151 : Ref sig .tc := ⟨.hbm, 206, rfl⟩
abbrev main_v152 : Ref sig .tc := ⟨.hbm, 207, rfl⟩
abbrev main_cst_26 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_cst_27 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_c_28 : Ref sig .tc := ⟨.hbm, 218, rfl⟩
abbrev main_v161 : Ref sig .tc := ⟨.hbm, 219, rfl⟩
abbrev main_v162 : Ref sig .tc := ⟨.hbm, 220, rfl⟩
abbrev main_c_29 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_c_30 : Ref sig .tc := ⟨.hbm, 227, rfl⟩
abbrev main_v168 : Ref sig .tc := ⟨.hbm, 228, rfl⟩
abbrev main_v169 : Ref sig .tc := ⟨.hbm, 229, rfl⟩
abbrev main_c_31 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_cst_32 : Ref sig .tc := ⟨.hbm, 237, rfl⟩
abbrev main_v176 : Ref sig .tc := ⟨.hbm, 238, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x128_S50000x512_d1 : Shape.Concatenates [S50000x128, S50000x128, S50000x128, S50000x128] S50000x512 1
  bcast_S_S4096 : S_.BroadcastsInDim S4096 (![] : Fin 0 → Fin S4096.rank)
  bcast_S4096_S4096x1_0 : S4096.BroadcastsInDim S4096x1 (![0] : Fin 1 → Fin S4096x1.rank)
  reducesTo_S4096x512_S4096_d1 : S4096x512.ReducesTo [1] S4096
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  gather_S50000x512_S4096x1_S4096x512_1_0_n_n_0_1_1512_wf : GatherDims.WF S50000x512 S4096x1 S4096x512 [1] [0] [] [0] [] 1 ![1, 512]
  gather_S30000x512_S4096x1_S4096x512_1_0_n_n_0_1_1512_wf : GatherDims.WF S30000x512 S4096x1 S4096x512 [1] [0] [] [0] [] 1 ![1, 512]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x512_S4096x1_S4096x512_1_0_n_n_0_1_1512 : GatherDims S50000x512 S4096x1 S4096x512 where
  offsetDims := [1]
  collapsedSliceDims := [0]
  operandBatchingDims := []
  startIndicesBatchingDims := []
  startIndexMap := [0]
  indexVectorDim := 1
  sliceSizes := ![1, 512]
  wf := gather_S50000x512_S4096x1_S4096x512_1_0_n_n_0_1_1512_wf
def gather_S30000x512_S4096x1_S4096x512_1_0_n_n_0_1_1512 : GatherDims S30000x512 S4096x1 S4096x512 where
  offsetDims := [1]
  collapsedSliceDims := [0]
  operandBatchingDims := []
  startIndicesBatchingDims := []
  startIndexMap := [0]
  indexVectorDim := 1
  sliceSizes := ![1, 512]
  wf := gather_S30000x512_S4096x1_S4096x512_1_0_n_n_0_1_1512_wf

class Facts : Prop extends Facts₀ where

variable [Facts]
-- ==== Proof.K.Body0.lean ====
import proofs.«144474_j77214922048057_1_alg».proof.Proof.Gen.Kernel.Launch
import proofs.«144474_j77214922048057_1_alg».proof.Proof.Gen.Kernel.Skeleton
import proofs.«144474_j77214922048057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 of the program (a dense layer: the rows of `x` and the weight matrix, each rounded to bf16, multiplied with
    the sums taken in f32 from zero, plus the bias row broadcast down the rows), at arbitrary
    entry contents `V` of the core's buffers: each window's block at a grid point, what the body leaves in the output
    window's buffer as a function of the three input blocks, the body's triple, the pipeline's proof data and the body
    obligation at every point. Everything is stated for any float model `F`. -/

-- membership of an index in a rectangle of these extents unfolds once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of `x`; its block moves with the point): whenever the proof data's array is the entry
    contents and the body leaves the block in place, the buffer the body is handed at any point holds that point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, one block for the whole grid, fetched at the first point only): at a later
    point the block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, likewise one block for the whole grid). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store take the whole of their buffer -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- The output buffer after the body, as a function of the three input blocks: the one store, of the payload at the
    loaded inputs. -/
def out0_3 (x0 : Vec F S5000x128 .f32) (x1 : Vec F S128x128 .f32) (x2 : Vec F S1x128 .f32) : Vec F S5000x128 .f32 :=
  View.canon [⟨r0_0, k0_pay1 (View.ld x0 r0_0) (View.ld x1 r0_1) (View.ld x2 r0_2)⟩]

/-- The store's rectangle is the whole buffer, so every index of the buffer lies in it. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 4000000 in
/-- On whole buffers, the inputs' holding `x0`, `x1`, `x2` and the output's holding anything, the body runs to a state
    where the inputs' are unchanged and the output's holds `out0_3 x0 x1 x2`. (The body also reads the output buffer
    before storing to it; the value read is not used.) -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays at the entry contents; after the body at point `t`, each input's buffer at its
    block and the output's at `out0_3` of the three input blocks; the invariant that of a region touching nothing but
    its windows; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's buffer holds its block when the body is called, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
import proofs.«144474_j77214922048057_1_alg».proof.Proof.Gen.Kernel.Launch
import proofs.«144474_j77214922048057_1_alg».proof.Proof.Gen.Kernel.Skeleton
import proofs.«144474_j77214922048057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1 of the program (the message step: per edge, the source and destination features multiplied entrywise in
    f32; that product and the weight matrix, each rounded to bf16, multiplied with the sums taken in f32 from zero; the
    edge's hidden row plus that; plus the bias row broadcast down the rows), at arbitrary entry contents `V` of the
    core's buffers: each window's block at a grid point, what the body leaves in the output window's buffer as a
    function of the five input blocks, the body's triple, the pipeline's proof data and the body obligation at every
    point. Everything is stated for any float model `F`. -/

-- membership of an index in a rectangle of these extents unfolds once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the source features of the point's edges; its block moves with the point): whenever the proof
    data's array is the entry contents and the body leaves the block in place, the buffer the body is handed at any
    point holds that point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the destination features, likewise moving with the point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the hidden rows of the edges' sources, moving with the point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the weight matrix, one block for the whole grid, fetched at the first point only): at a later
    point the block index has not moved, so the buffer still holds the block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the bias row, likewise one block for the whole grid). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the store take the whole of their buffer -/

abbrev r1_0 : Rect S4000x128 := Rect.unit (s := S4000x128) ![0, 0] S4000x128.size inb_S4000x128_S4000x128_0_0
abbrev r1_3 : Rect S128x128 := Rect.unit (s := S128x128) ![0, 0] S128x128.size inb_S128x128_S128x128_0_0
abbrev r1_4 : Rect S1x128 := Rect.unit (s := S1x128) ![0, 0] S1x128.size inb_S1x128_S1x128_0_0

/-! ## What the body leaves in the output window's buffer -/

/-- The output buffer after the body, as a function of the five input blocks taken in window order (source features,
    destination features, hidden rows, weights, bias): the one store, of the payload at the loaded inputs. The payload
    takes the weights before the hidden rows. -/
def out1_5 (x0 : Vec F S4000x128 .f32) (x1 : Vec F S4000x128 .f32) (x2 : Vec F S4000x128 .f32) (x3 : Vec F S128x128 .f32)
    (x4 : Vec F S1x128 .f32) : Vec F S4000x128 .f32 :=
  View.canon [⟨r1_0, k1_pay1 (View.ld x0 r1_0) (View.ld x1 r1_0) (View.ld x3 r1_3) (View.ld x2 r1_0) (View.ld x4 r1_4)⟩]

/-- The store's rectangle is the whole buffer, so every index of the buffer lies in it. -/
theorem cover1_5 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

/-! ## The body's triple -/

set_option maxHeartbeats 4000000 in
/-- On whole buffers, the inputs' holding `x0` … `x4` and the output's holding anything, the body runs to a state where
    the inputs' are unchanged and the output's holds `out1_5 x0 x1 x2 x3 x4`. (The body also reads the output buffer
    before storing to it; the value read is not used.) -/
theorem sound_kernel1 (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 : Vec F S4000x128 .f32) (x1 : Vec F S4000x128 .f32) (x2 : Vec F S4000x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__msg_kernel i arg1 harg1 arg2 harg2 arg3 harg3 arg4 harg4 arg5 harg5 arg6 harg6) K := by
  simp only [cc1__msg_kernel_eq_skeleton]; unfold cc1__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data on core `c`: the arrays at the entry contents; after the body at point `t`, each input's buffer at its
    block and the output's at `out1_5` of the five input blocks; the invariant that of a region touching nothing but its
    windows; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's buffer holds its block when the body is called, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    is owed pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
import proofs.«144474_j77214922048057_1_alg».proof.Proof.Gen.Kernel.Launch
import proofs.«144474_j77214922048057_1_alg».proof.Proof.Gen.Kernel.Skeleton
import proofs.«144474_j77214922048057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 2 of the program (the update step: the aggregate plus the hidden rows, a leaky rectifier, then each row
    divided by its Euclidean norm bounded below), at arbitrary entry contents `V` of the core's buffers: each window's
    block at a grid point, what the body leaves in the output window's buffer as a function of the two input blocks,
    the body's triple, the pipeline's proof data and the body obligation at every point. Everything is stated for any
    float model `F`. -/

-- membership of an index in a rectangle of these extents unfolds once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the aggregated messages of the point's rows): whenever the proof data's array is the entry
    contents and the body leaves the block in place, the buffer the body is handed at any point holds that point's block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the hidden rows of the same point), likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store take the whole of their buffer -/

abbrev r2_0 : Rect S5000x128 := Rect.unit (s := S5000x128) ![0, 0] S5000x128.size inb_S5000x128_S5000x128_0_0

/-! ## What the body leaves in the output window's buffer -/

/-- The output buffer after the body, as a function of the two input blocks: the one store, of the payload at the
    loaded inputs. -/
def out2_2 (x0 : Vec F S5000x128 .f32) (x1 : Vec F S5000x128 .f32) : Vec F S5000x128 .f32 :=
  View.canon [⟨r2_0, k2_pay1 (View.ld x0 r2_0) (View.ld x1 r2_0)⟩]

/-- The store's rectangle is the whole buffer, so every index of the buffer lies in it. -/
theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 4000000 in
/-- On whole buffers, the inputs' holding `x0`, `x1` and the output's holding anything, the body runs to a state where the
    inputs' are unchanged and the output's holds `out2_2 x0 x1`. (The body also reads the output buffer before storing
    to it; the value read is not used.) -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole)
    (x0 : Vec F S5000x128 .f32) (x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__update_kernel i arg1 harg1 arg2 harg2 arg3 harg3) K := by
  simp only [cc2__update_kernel_eq_skeleton]; unfold cc2__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data on core `c`: the arrays at the entry contents; after the body at point `t`, each input's buffer at its
    block and the output's at `out2_2` of the two input blocks; the invariant that of a region touching nothing but its
    windows; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's buffer holds its block when the body is called, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what
    is owed pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
import proofs.«144474_j77214922048057_1_alg».proof.Proof.Gen.Kernel.Launch
import proofs.«144474_j77214922048057_1_alg».proof.Proof.Gen.Kernel.Skeleton
import proofs.«144474_j77214922048057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3 of the program (a dense layer: the rows of `x` and the weight matrix, each rounded to bf16, multiplied with
    the sums taken in f32 from zero, plus the bias row broadcast down the rows), at arbitrary
    entry contents `V` of the core's buffers: each window's block at a grid point, what the body leaves in the output
    window's buffer as a function of the three input blocks, the body's triple, the pipeline's proof data and the body
    obligation at every point. Everything is stated for any float model `F`. -/

-- membership of an index in a rectangle of these extents unfolds once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the rows of `x`; its block moves with the point): whenever the proof data's array is the entry
    contents and the body leaves the block in place, the buffer the body is handed at any point holds that point's block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the weight matrix, one block for the whole grid, fetched at the first point only): at a later
    point the block index has not moved, so the buffer still holds the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the bias row, likewise one block for the whole grid). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each load and the store take the whole of their buffer -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in the output window's buffer -/

/-- The output buffer after the body, as a function of the three input blocks: the one store, of the payload at the
    loaded inputs. -/
def out3_3 (x0 : Vec F S5000x128 .f32) (x1 : Vec F S128x128 .f32) (x2 : Vec F S1x128 .f32) : Vec F S5000x128 .f32 :=
  View.canon [⟨r3_0, k3_pay1 (View.ld x0 r3_0) (View.ld x1 r3_1) (View.ld x2 r3_2)⟩]

/-- The store's rectangle is the whole buffer, so every index of the buffer lies in it. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 4000000 in
/-- On whole buffers, the inputs' holding `x0`, `x1`, `x2` and the output's holding anything, the body runs to a state
    where the inputs' are unchanged and the output's holds `out3_3 x0 x1 x2`. (The body also reads the output buffer
    before storing to it; the value read is not used.) -/
theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data on core `c`: the arrays at the entry contents; after the body at point `t`, each input's buffer at its
    block and the output's at `out3_3` of the three input blocks; the invariant that of a region touching nothing but
    its windows; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's buffer holds its block when the body is called, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and what
    is owed pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Body4.lean ====
import proofs.«144474_j77214922048057_1_alg».proof.Proof.Gen.Kernel.Launch
import proofs.«144474_j77214922048057_1_alg».proof.Proof.Gen.Kernel.Skeleton
import proofs.«144474_j77214922048057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4 of the program (the message step: per edge, the source and destination features multiplied entrywise in
    f32; that product and the weight matrix, each rounded to bf16, multiplied with the sums taken in f32 from zero; the
    edge's hidden row plus that; plus the bias row broadcast down the rows), at arbitrary entry contents `V` of the
    core's buffers: each window's block at a grid point, what the body leaves in the output window's buffer as a
    function of the five input blocks, the body's triple, the pipeline's proof data and the body obligation at every
    point. Everything is stated for any float model `F`. -/

-- membership of an index in a rectangle of these extents unfolds once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the source features of the point's edges; its block moves with the point): whenever the proof
    data's array is the entry contents and the body leaves the block in place, the buffer the body is handed at any
    point holds that point's block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the destination features, likewise moving with the point). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the hidden rows of the edges' sources, moving with the point). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (the weight matrix, one block for the whole grid, fetched at the first point only): at a later
    point the block index has not moved, so the buffer still holds the block. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4 (the bias row, likewise one block for the whole grid). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each load and the store take the whole of their buffer -/

abbrev r4_0 : Rect S4000x128 := Rect.unit (s := S4000x128) ![0, 0] S4000x128.size inb_S4000x128_S4000x128_0_0
abbrev r4_3 : Rect S128x128 := Rect.unit (s := S128x128) ![0, 0] S128x128.size inb_S128x128_S128x128_0_0
abbrev r4_4 : Rect S1x128 := Rect.unit (s := S1x128) ![0, 0] S1x128.size inb_S1x128_S1x128_0_0

/-! ## What the body leaves in the output window's buffer -/

/-- The output buffer after the body, as a function of the five input blocks taken in window order (source features,
    destination features, hidden rows, weights, bias): the one store, of the payload at the loaded inputs. The payload
    takes the weights before the hidden rows. -/
def out4_5 (x0 : Vec F S4000x128 .f32) (x1 : Vec F S4000x128 .f32) (x2 : Vec F S4000x128 .f32) (x3 : Vec F S128x128 .f32)
    (x4 : Vec F S1x128 .f32) : Vec F S4000x128 .f32 :=
  View.canon [⟨r4_0, k4_pay1 (View.ld x0 r4_0) (View.ld x1 r4_0) (View.ld x3 r4_3) (View.ld x2 r4_0) (View.ld x4 r4_4)⟩]

/-- The store's rectangle is the whole buffer, so every index of the buffer lies in it. -/
theorem cover4_5 (p0 : Vec F S4000x128 .f32) (y : S4000x128.Idx) :
    ∃ pc ∈ ([⟨r4_0, p0⟩] : List (View.Piece (Elt F) S4000x128 .f32)), y ∈ pc.1.set :=
  View.cover_of_tiled [⟨r4_0, p0⟩] S4000x128.size (by rfl) y

/-! ## The body's triple -/

set_option maxHeartbeats 4000000 in
/-- On whole buffers, the inputs' holding `x0` … `x4` and the output's holding anything, the body runs to a state where
    the inputs' are unchanged and the output's holds `out4_5 x0 x1 x2 x3 x4`. (The body also reads the output buffer
    before storing to it; the value read is not used.) -/
theorem sound_kernel4 (c : Dev nD) (E : Set ℕ) (i : grid4.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 : Vec F S4000x128 .f32) (x1 : Vec F S4000x128 .f32) (x2 : Vec F S4000x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__msg_kernel i arg1 harg1 arg2 harg2 arg3 harg3 arg4 harg4 arg5 harg5 arg6 harg6) K := by
  simp only [cc4__msg_kernel_eq_skeleton]; unfold cc4__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data on core `c`: the arrays at the entry contents; after the body at point `t`, each input's buffer at its
    block and the output's at `out4_5` of the five input blocks; the invariant that of a region touching nothing but its
    windows; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

/-- Each input's buffer holds its block when the body is called, at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and what
    is owed pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Body5.lean ====
import proofs.«144474_j77214922048057_1_alg».proof.Proof.Gen.Kernel.Launch
import proofs.«144474_j77214922048057_1_alg».proof.Proof.Gen.Kernel.Skeleton
import proofs.«144474_j77214922048057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 5 of the program (the update step: the aggregate plus the hidden rows, a leaky rectifier, then each row
    divided by its Euclidean norm bounded below), at arbitrary entry contents `V` of the core's buffers: each window's
    block at a grid point, what the body leaves in the output window's buffer as a function of the two input blocks,
    the body's triple, the pipeline's proof data and the body obligation at every point. Everything is stated for any
    float model `F`. -/

-- membership of an index in a rectangle of these extents unfolds once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the aggregated messages of the point's rows): whenever the proof data's array is the entry
    contents and the body leaves the block in place, the buffer the body is handed at any point holds that point's block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the hidden rows of the same point), likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each load and the store take the whole of their buffer -/

abbrev r5_0 : Rect S5000x128 := Rect.unit (s := S5000x128) ![0, 0] S5000x128.size inb_S5000x128_S5000x128_0_0

/-! ## What the body leaves in the output window's buffer -/

/-- The output buffer after the body, as a function of the two input blocks: the one store, of the payload at the
    loaded inputs. -/
def out5_2 (x0 : Vec F S5000x128 .f32) (x1 : Vec F S5000x128 .f32) : Vec F S5000x128 .f32 :=
  View.canon [⟨r5_0, k5_pay1 (View.ld x0 r5_0) (View.ld x1 r5_0)⟩]

/-- The store's rectangle is the whole buffer, so every index of the buffer lies in it. -/
theorem cover5_2 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 4000000 in
/-- On whole buffers, the inputs' holding `x0`, `x1` and the output's holding anything, the body runs to a state where the
    inputs' are unchanged and the output's holds `out5_2 x0 x1`. (The body also reads the output buffer before storing
    to it; the value read is not used.) -/
theorem sound_kernel5 (c : Dev nD) (E : Set ℕ) (i : grid5.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole)
    (x0 : Vec F S5000x128 .f32) (x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__update_kernel i arg1 harg1 arg2 harg2 arg3 harg3) K := by
  simp only [cc5__update_kernel_eq_skeleton]; unfold cc5__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data on core `c`: the arrays at the entry contents; after the body at point `t`, each input's buffer at its
    block and the output's at `out5_2` of the two input blocks; the invariant that of a region touching nothing but its
    windows; full shares; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's buffer holds its block when the body is called, at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's triple applies; the invariant and what
    is owed pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Body6.lean ====
import proofs.«144474_j77214922048057_1_alg».proof.Proof.Gen.Kernel.Launch
import proofs.«144474_j77214922048057_1_alg».proof.Proof.Gen.Kernel.Skeleton
import proofs.«144474_j77214922048057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 6 of the program (a dense layer: the rows of `x` and the weight matrix, each rounded to bf16, multiplied with
    the sums taken in f32 from zero, plus the bias row broadcast down the rows), at arbitrary
    entry contents `V` of the core's buffers: each window's block at a grid point, what the body leaves in the output
    window's buffer as a function of the three input blocks, the body's triple, the pipeline's proof data and the body
    obligation at every point. Everything is stated for any float model `F`. -/

-- membership of an index in a rectangle of these extents unfolds once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the rows of `x`; its block moves with the point): whenever the proof data's array is the entry
    contents and the body leaves the block in place, the buffer the body is handed at any point holds that point's block. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the weight matrix, one block for the whole grid, fetched at the first point only): at a later
    point the block index has not moved, so the buffer still holds the block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2 (the bias row, likewise one block for the whole grid). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each load and the store take the whole of their buffer -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0

/-! ## What the body leaves in the output window's buffer -/

/-- The output buffer after the body, as a function of the three input blocks: the one store, of the payload at the
    loaded inputs. -/
def out6_3 (x0 : Vec F S5000x128 .f32) (x1 : Vec F S128x128 .f32) (x2 : Vec F S1x128 .f32) : Vec F S5000x128 .f32 :=
  View.canon [⟨r6_0, k6_pay1 (View.ld x0 r6_0) (View.ld x1 r6_1) (View.ld x2 r6_2)⟩]

/-- The store's rectangle is the whole buffer, so every index of the buffer lies in it. -/
theorem cover6_3 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 4000000 in
/-- On whole buffers, the inputs' holding `x0`, `x1`, `x2` and the output's holding anything, the body runs to a state
    where the inputs' are unchanged and the output's holds `out6_3 x0 x1 x2`. (The body also reads the output buffer
    before storing to it; the value read is not used.) -/
theorem sound_kernel6 (c : Dev nD) (E : Set ℕ) (i : grid6.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__dense_kernel i arg1 harg1 arg2 harg2 arg3 harg3 arg4 harg4) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data on core `c`: the arrays at the entry contents; after the body at point `t`, each input's buffer at its
    block and the output's at `out6_3` of the three input blocks; the invariant that of a region touching nothing but
    its windows; full shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

/-- Each input's buffer holds its block when the body is called, at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and what
    is owed pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Body7.lean ====
import proofs.«144474_j77214922048057_1_alg».proof.Proof.Gen.Kernel.Launch
import proofs.«144474_j77214922048057_1_alg».proof.Proof.Gen.Kernel.Skeleton
import proofs.«144474_j77214922048057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 7 of the program (the message step: per edge, the source and destination features multiplied entrywise in
    f32; that product and the weight matrix, each rounded to bf16, multiplied with the sums taken in f32 from zero; the
    edge's hidden row plus that; plus the bias row broadcast down the rows), at arbitrary entry contents `V` of the
    core's buffers: each window's block at a grid point, what the body leaves in the output window's buffer as a
    function of the five input blocks, the body's triple, the pipeline's proof data and the body obligation at every
    point. Everything is stated for any float model `F`. -/

-- membership of an index in a rectangle of these extents unfolds once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the source features of the point's edges; its block moves with the point): whenever the proof
    data's array is the entry contents and the body leaves the block in place, the buffer the body is handed at any
    point holds that point's block. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the destination features, likewise moving with the point). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2 (the hidden rows of the edges' sources, moving with the point). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3 (the weight matrix, one block for the whole grid, fetched at the first point only): at a later
    point the block index has not moved, so the buffer still holds the block. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4 (the bias row, likewise one block for the whole grid). -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each load and the store take the whole of their buffer -/

abbrev r7_0 : Rect S4000x128 := Rect.unit (s := S4000x128) ![0, 0] S4000x128.size inb_S4000x128_S4000x128_0_0
abbrev r7_3 : Rect S128x128 := Rect.unit (s := S128x128) ![0, 0] S128x128.size inb_S128x128_S128x128_0_0
abbrev r7_4 : Rect S1x128 := Rect.unit (s := S1x128) ![0, 0] S1x128.size inb_S1x128_S1x128_0_0

/-! ## What the body leaves in the output window's buffer -/

/-- The output buffer after the body, as a function of the five input blocks taken in window order (source features,
    destination features, hidden rows, weights, bias): the one store, of the payload at the loaded inputs. The payload
    takes the weights before the hidden rows. -/
def out7_5 (x0 : Vec F S4000x128 .f32) (x1 : Vec F S4000x128 .f32) (x2 : Vec F S4000x128 .f32) (x3 : Vec F S128x128 .f32)
    (x4 : Vec F S1x128 .f32) : Vec F S4000x128 .f32 :=
  View.canon [⟨r7_0, k7_pay1 (View.ld x0 r7_0) (View.ld x1 r7_0) (View.ld x3 r7_3) (View.ld x2 r7_0) (View.ld x4 r7_4)⟩]

/-- The store's rectangle is the whole buffer, so every index of the buffer lies in it. -/
theorem cover7_5 (p0 : Vec F S4000x128 .f32) (y : S4000x128.Idx) :
    ∃ pc ∈ ([⟨r7_0, p0⟩] : List (View.Piece (Elt F) S4000x128 .f32)), y ∈ pc.1.set :=
  View.cover_of_tiled [⟨r7_0, p0⟩] S4000x128.size (by rfl) y

/-! ## The body's triple -/

set_option maxHeartbeats 4000000 in
/-- On whole buffers, the inputs' holding `x0` … `x4` and the output's holding anything, the body runs to a state where
    the inputs' are unchanged and the output's holds `out7_5 x0 x1 x2 x3 x4`. (The body also reads the output buffer
    before storing to it; the value read is not used.) -/
theorem sound_kernel7 (c : Dev nD) (E : Set ℕ) (i : grid7.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 : Vec F S4000x128 .f32) (x1 : Vec F S4000x128 .f32) (x2 : Vec F S4000x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E
          (cc7__msg_kernel i arg1 harg1 arg2 harg2 arg3 harg3 arg4 harg4 arg5 harg5 arg6 harg6) K := by
  simp only [cc7__msg_kernel_eq_skeleton]; unfold cc7__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data on core `c`: the arrays at the entry contents; after the body at point `t`, each input's buffer at its
    block and the output's at `out7_5` of the five input blocks; the invariant that of a region touching nothing but its
    windows; full shares; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

/-- Each input's buffer holds its block when the body is called, at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so the body's triple applies; the invariant and what
    is owed pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _
    (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Body8.lean ====
import proofs.«144474_j77214922048057_1_alg».proof.Proof.Gen.Kernel.Launch
import proofs.«144474_j77214922048057_1_alg».proof.Proof.Gen.Kernel.Skeleton
import proofs.«144474_j77214922048057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 8 of the program (the update step: the aggregate plus the hidden rows, a leaky rectifier, then each row
    divided by its Euclidean norm bounded below), at arbitrary entry contents `V` of the core's buffers: each window's
    block at a grid point, what the body leaves in the output window's buffer as a function of the two input blocks,
    the body's triple, the pipeline's proof data and the body obligation at every point. Everything is stated for any
    float model `F`. -/

-- membership of an index in a rectangle of these extents unfolds once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0 (the aggregated messages of the point's rows): whenever the proof data's array is the entry
    contents and the body leaves the block in place, the buffer the body is handed at any point holds that point's block. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1 (the hidden rows of the same point), likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each load and the store take the whole of their buffer -/

abbrev r8_0 : Rect S5000x128 := Rect.unit (s := S5000x128) ![0, 0] S5000x128.size inb_S5000x128_S5000x128_0_0

/-! ## What the body leaves in the output window's buffer -/

/-- The output buffer after the body, as a function of the two input blocks: the one store, of the payload at the
    loaded inputs. -/
def out8_2 (x0 : Vec F S5000x128 .f32) (x1 : Vec F S5000x128 .f32) : Vec F S5000x128 .f32 :=
  View.canon [⟨r8_0, k8_pay1 (View.ld x0 r8_0) (View.ld x1 r8_0)⟩]

/-- The store's rectangle is the whole buffer, so every index of the buffer lies in it. -/
theorem cover8_2 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

/-! ## The body's triple -/

set_option maxHeartbeats 4000000 in
/-- On whole buffers, the inputs' holding `x0`, `x1` and the output's holding anything, the body runs to a state where the
    inputs' are unchanged and the output's holds `out8_2 x0 x1`. (The body also reads the output buffer before storing
    to it; the value read is not used.) -/
theorem sound_kernel8 (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole)
    (x0 : Vec F S5000x128 .f32) (x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__update_kernel i arg1 harg1 arg2 harg2 arg3 harg3) K := by
  simp only [cc8__update_kernel_eq_skeleton]; unfold cc8__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data on core `c`: the arrays at the entry contents; after the body at point `t`, each input's buffer at its
    block and the output's at `out8_2` of the two input blocks; the invariant that of a region touching nothing but its
    windows; full shares; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's buffer holds its block when the body is called, at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so the body's triple applies; the invariant and what
    is owed pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Body9.lean ====
import proofs.«144474_j77214922048057_1_alg».proof.Proof.Gen.Kernel.Launch
import proofs.«144474_j77214922048057_1_alg».proof.Proof.Gen.Kernel.Skeleton
import proofs.«144474_j77214922048057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 9 of the program (the score: row by row, the two gathered feature rows multiplied entrywise and summed along
    the row from zero, giving one column), at arbitrary entry contents `V` of the core's buffers: each window's block at
    a grid point, what the body leaves in the output window's buffer as a function of the two input blocks, the body's
    triple, the pipeline's proof data and the body obligation at every point. Everything is stated for any float model
    `F`. -/

-- membership of an index in a rectangle of these extents unfolds once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 (the first gathered feature rows of the point): whenever the proof data's array is the entry
    contents and the body leaves the block in place, the buffer the body is handed at any point holds that point's block. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1 (the second gathered feature rows of the same point), likewise. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each load and the store take the whole of their buffer -/

abbrev r9_0 : Rect S1024x512 := Rect.unit (s := S1024x512) ![0, 0] S1024x512.size inb_S1024x512_S1024x512_0_0
abbrev r9_2 : Rect S1024x1 := Rect.unit (s := S1024x1) ![0, 0] S1024x1.size inb_S1024x1_S1024x1_0_0

/-! ## What the body leaves in the output window's buffer -/

/-- The output buffer after the body, as a function of the two input blocks: the one store, of the payload at the
    loaded inputs. -/
def out9_2 (x0 : Vec F S1024x512 .f32) (x1 : Vec F S1024x512 .f32) : Vec F S1024x1 .f32 :=
  View.canon [⟨r9_2, k9_pay1 (View.ld x0 r9_0) (View.ld x1 r9_0)⟩]

/-- The store's rectangle is the whole buffer, so every index of the buffer lies in it. -/
theorem cover9_2 (p0 : Vec F S1024x1 .f32) (y : S1024x1.Idx) :
    ∃ pc ∈ ([⟨r9_2, p0⟩] : List (View.Piece (Elt F) S1024x1 .f32)), y ∈ pc.1.set :=
  View.cover_of_tiled [⟨r9_2, p0⟩] S1024x1.size (by rfl) y

/-! ## The body's triple -/

set_option maxHeartbeats 4000000 in
/-- On whole buffers, the inputs' holding `x0`, `x1` and the output's holding anything, the body runs to a state where the
    inputs' are unchanged and the output's holds `out9_2 x0 x1`. (The body also reads the output buffer before storing
    to it; the value read is not used.) -/
theorem sound_kernel9 (c : Dev nD) (E : Set ℕ) (i : grid9.Coords)
    (arg1 : Memref sig .tc .vmem S1024x512 .f32) (harg1 : arg1.IsWhole) (arg2 : Memref sig .tc .vmem S1024x512 .f32) (harg2 : arg2.IsWhole)
    (arg3 : Memref sig .tc .vmem S1024x1 .f32) (harg3 : arg3.IsWhole)
    (x0 : Vec F S1024x512 .f32) (x1 : Vec F S1024x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9_2 x0 x1)) -∗ K ⟨⟩))
      ⊢ wp frame (wpE (defs₀ (F := F)) Variants.none c none) E (cc9__score_kernel i arg1 harg1 arg2 harg2 arg3 harg3) K := by
  simp only [cc9__score_kernel_eq_skeleton]; unfold cc9__score_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data on core `c`: the arrays at the entry contents; after the body at point `t`, each input's buffer at its
    block and the output's at `out9_2` of the two input blocks; the invariant that of a region touching nothing but its
    windows; full shares; nothing owed. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Each input's buffer holds its block when the body is called, at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' buffers hold their blocks, so the body's triple applies; the invariant and what
    is owed pass through untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Chain.lean ====
import proofs.«144474_j77214922048057_1_alg».proof.Proof.K.Body0
import proofs.«144474_j77214922048057_1_alg».proof.Proof.K.Body1
import proofs.«144474_j77214922048057_1_alg».proof.Proof.K.Body2
import proofs.«144474_j77214922048057_1_alg».proof.Proof.K.Body3
import proofs.«144474_j77214922048057_1_alg».proof.Proof.K.Body4
import proofs.«144474_j77214922048057_1_alg».proof.Proof.K.Body5
import proofs.«144474_j77214922048057_1_alg».proof.Proof.K.Body6
import proofs.«144474_j77214922048057_1_alg».proof.Proof.K.Body7
import proofs.«144474_j77214922048057_1_alg».proof.Proof.K.Body8
import proofs.«144474_j77214922048057_1_alg».proof.Proof.K.Body9
import proofs.«144474_j77214922048057_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The buffer contents at every boundary of the run

The program is eleven stretches of array operations with ten kernel regions between them. From the launch memory the
contents of a core's buffers are folded through the twenty-one items: a stretch replaces them by what its operations
compute from them; a region replaces its own arrays by what its write-backs leave (an input array is left as found, an
output array is the fold of the blocks written to it) and leaves every other buffer alone. The ten regions' proof data
are each taken at the contents found on entry. Every argument of the program is read back through the fold to the
launch memory: no stretch writes one, and no region has one as its output array. -/

-- deciding that a reference is none of a list of some thirty, among the program's 238, recurses past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After stretch 0: what region 0 (dense) is entered with. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- After region 0: its arrays at what its write-backs leave, every other buffer as it was on entry. -/
abbrev W2 : Dev nD → Valuation τ sig (Elt F) := fun c =>
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
/-- The same read at the TensorCore's references. -/
abbrev V2 : (c : Dev nD) → (b : Ref sig .tc) → Buf (Elt F) ((c : Thread nD τ).loc b) := fun c b => W2 m ρ c b
/-- On leaving region 0 each of its arrays holds what its write-backs leave, and every other buffer what it held on entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After stretch 1: what region 1 (msg) is entered with. -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- After region 1: its arrays at what its write-backs leave, every other buffer as it was on entry. -/
abbrev W4 : Dev nD → Valuation τ sig (Elt F) := fun c =>
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
/-- The same read at the TensorCore's references. -/
abbrev V4 : (c : Dev nD) → (b : Ref sig .tc) → Buf (Elt F) ((c : Thread nD τ).loc b) := fun c b => W4 m ρ c b
/-- On leaving region 1 each of its arrays holds what its write-backs leave, and every other buffer what it held on entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After stretch 2: what region 2 (update) is entered with. -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- After region 2: its arrays at what its write-backs leave, every other buffer as it was on entry. -/
abbrev W6 : Dev nD → Valuation τ sig (Elt F) := fun c =>
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb
/-- The same read at the TensorCore's references. -/
abbrev V6 : (c : Dev nD) → (b : Ref sig .tc) → Buf (Elt F) ((c : Thread nD τ).loc b) := fun c b => W6 m ρ c b
/-- On leaving region 2 each of its arrays holds what its write-backs leave, and every other buffer what it held on entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After stretch 3: what region 3 (dense) is entered with. -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- After region 3: its arrays at what its write-backs leave, every other buffer as it was on entry. -/
abbrev W8 : Dev nD → Valuation τ sig (Elt F) := fun c =>
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb
/-- The same read at the TensorCore's references. -/
abbrev V8 : (c : Dev nD) → (b : Ref sig .tc) → Buf (Elt F) ((c : Thread nD τ).loc b) := fun c b => W8 m ρ c b
/-- On leaving region 3 each of its arrays holds what its write-backs leave, and every other buffer what it held on entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After stretch 4: what region 4 (msg) is entered with. -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- After region 4: its arrays at what its write-backs leave, every other buffer as it was on entry. -/
abbrev W10 : Dev nD → Valuation τ sig (Elt F) := fun c =>
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb
/-- The same read at the TensorCore's references. -/
abbrev V10 : (c : Dev nD) → (b : Ref sig .tc) → Buf (Elt F) ((c : Thread nD τ).loc b) := fun c b => W10 m ρ c b
/-- On leaving region 4 each of its arrays holds what its write-backs leave, and every other buffer what it held on entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After stretch 5: what region 5 (update) is entered with. -/
abbrev W11 : Dev nD → Valuation τ sig (Elt F) := fun c => StableHlo.after hostOps5 (W10 m ρ c)
/-- The same read at the TensorCore's references (what region 5's proof data take). -/
abbrev V11 : (c : Dev nD) → (b : Ref sig .tc) → Buf (Elt F) ((c : Thread nD τ).loc b) := fun c b => W11 m ρ c b
/-- After region 5: its arrays at what its write-backs leave, every other buffer as it was on entry. -/
abbrev W12 : Dev nD → Valuation τ sig (Elt F) := fun c =>
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) :=
  Pipeline.withArrays_of_ne spec5 c _ _ b hb
/-- The same read at the TensorCore's references. -/
abbrev V12 : (c : Dev nD) → (b : Ref sig .tc) → Buf (Elt F) ((c : Thread nD τ).loc b) := fun c b => W12 m ρ c b
/-- On leaving region 5 each of its arrays holds what its write-backs leave, and every other buffer what it held on entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After stretch 6: what region 6 (dense) is entered with. -/
abbrev W13 : Dev nD → Valuation τ sig (Elt F) := fun c => StableHlo.after hostOps6 (W12 m ρ c)
/-- The same read at the TensorCore's references (what region 6's proof data take). -/
abbrev V13 : (c : Dev nD) → (b : Ref sig .tc) → Buf (Elt F) ((c : Thread nD τ).loc b) := fun c b => W13 m ρ c b
/-- After region 6: its arrays at what its write-backs leave, every other buffer as it was on entry. -/
abbrev W14 : Dev nD → Valuation τ sig (Elt F) := fun c =>
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N :=
  Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) :=
  Pipeline.withArrays_of_ne spec6 c _ _ b hb
/-- The same read at the TensorCore's references. -/
abbrev V14 : (c : Dev nD) → (b : Ref sig .tc) → Buf (Elt F) ((c : Thread nD τ).loc b) := fun c b => W14 m ρ c b
/-- On leaving region 6 each of its arrays holds what its write-backs leave, and every other buffer what it held on entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After stretch 7: what region 7 (msg) is entered with. -/
abbrev W15 : Dev nD → Valuation τ sig (Elt F) := fun c => StableHlo.after hostOps7 (W14 m ρ c)
/-- The same read at the TensorCore's references (what region 7's proof data take). -/
abbrev V15 : (c : Dev nD) → (b : Ref sig .tc) → Buf (Elt F) ((c : Thread nD τ).loc b) := fun c b => W15 m ρ c b
/-- After region 7: its arrays at what its write-backs leave, every other buffer as it was on entry. -/
abbrev W16 : Dev nD → Valuation τ sig (Elt F) := fun c =>
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N :=
  Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) :=
  Pipeline.withArrays_of_ne spec7 c _ _ b hb
/-- The same read at the TensorCore's references. -/
abbrev V16 : (c : Dev nD) → (b : Ref sig .tc) → Buf (Elt F) ((c : Thread nD τ).loc b) := fun c b => W16 m ρ c b
/-- On leaving region 7 each of its arrays holds what its write-backs leave, and every other buffer what it held on entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After stretch 8: what region 8 (update) is entered with. -/
abbrev W17 : Dev nD → Valuation τ sig (Elt F) := fun c => StableHlo.after hostOps8 (W16 m ρ c)
/-- The same read at the TensorCore's references (what region 8's proof data take). -/
abbrev V17 : (c : Dev nD) → (b : Ref sig .tc) → Buf (Elt F) ((c : Thread nD τ).loc b) := fun c b => W17 m ρ c b
/-- After region 8: its arrays at what its write-backs leave, every other buffer as it was on entry. -/
abbrev W18 : Dev nD → Valuation τ sig (Elt F) := fun c =>
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N :=
  Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) :=
  Pipeline.withArrays_of_ne spec8 c _ _ b hb
/-- The same read at the TensorCore's references. -/
abbrev V18 : (c : Dev nD) → (b : Ref sig .tc) → Buf (Elt F) ((c : Thread nD τ).loc b) := fun c b => W18 m ρ c b
/-- On leaving region 8 each of its arrays holds what its write-backs leave, and every other buffer what it held on entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After stretch 9: what region 9 (score) is entered with. -/
abbrev W19 : Dev nD → Valuation τ sig (Elt F) := fun c => StableHlo.after hostOps9 (W18 m ρ c)
/-- The same read at the TensorCore's references (what region 9's proof data take). -/
abbrev V19 : (c : Dev nD) → (b : Ref sig .tc) → Buf (Elt F) ((c : Thread nD τ).loc b) := fun c b => W19 m ρ c b
/-- After region 9: its arrays at what its write-backs leave, every other buffer as it was on entry. -/
abbrev W20 : Dev nD → Valuation τ sig (Elt F) := fun c =>
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N :=
  Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) :=
  Pipeline.withArrays_of_ne spec9 c _ _ b hb
/-- The same read at the TensorCore's references. -/
abbrev V20 : (c : Dev nD) → (b : Ref sig .tc) → Buf (Elt F) ((c : Thread nD τ).loc b) := fun c b => W20 m ρ c b
/-- On leaving region 9 each of its arrays holds what its write-backs leave, and every other buffer what it held on entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After the last stretch: the contents the run ends with. -/
abbrev W21 : Dev nD → Valuation τ sig (Elt F) := fun c => StableHlo.after hostOps10 (W20 m ρ c)
/-- The same read at the TensorCore's references. -/
abbrev V21 : (c : Dev nD) → (b : Ref sig .tc) → Buf (Elt F) ((c : Thread nD τ).loc b) := fun c b => W21 m ρ c b

/-! ## One item at a time: what it leaves alone

A stretch leaves alone every reference none of its operations writes. A region leaves alone every buffer but its output
array: a buffer that is no array of the region is bypassed, and an input array is handed back as it was found. -/

theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h

theorem W2_keep (c : Dev nD) (b : Ref sig .tc) (h : b ≠ main_v9) :
    W2 m ρ c (Proc.devRef .tc b) = W1 m ρ c (Proc.devRef .tc b) := by
  by_cases hb : ∀ w, Pipeline.arrRef spec0 w ≠ b
  · exact W2_of_ne m ρ c b hb
  · obtain ⟨w, hw⟩ := not_forall.mp hb
    obtain rfl : Pipeline.arrRef spec0 w = b := not_not.mp hw
    have hin : (cfg0.win w).isOut = false :=
      (by decide : ∀ w : Fin cfg0.W, Pipeline.arrRef spec0 w ≠ main_v9 → (cfg0.win w).isOut = false) w h
    exact (W2_arr m ρ c w).trans (((dat0 (V1 m ρ) c).arrAt_in w hin _).trans (A_eq0 (V1 m ρ) c w))

theorem W3_keep (c : Dev nD) (b : Ref sig .tc) (h : b ∉ hostOps1_W) :
    W3 m ρ c (Proc.devRef .tc b) = W2 m ρ c (Proc.devRef .tc b) :=
  StableHlo.after_of_writes_sub hostOps1 _ hostOps1_writes h

theorem W4_keep (c : Dev nD) (b : Ref sig .tc) (h : b ≠ main_v36) :
    W4 m ρ c (Proc.devRef .tc b) = W3 m ρ c (Proc.devRef .tc b) := by
  by_cases hb : ∀ w, Pipeline.arrRef spec1 w ≠ b
  · exact W4_of_ne m ρ c b hb
  · obtain ⟨w, hw⟩ := not_forall.mp hb
    obtain rfl : Pipeline.arrRef spec1 w = b := not_not.mp hw
    have hin : (cfg1.win w).isOut = false :=
      (by decide : ∀ w : Fin cfg1.W, Pipeline.arrRef spec1 w ≠ main_v36 → (cfg1.win w).isOut = false) w h
    exact (W4_arr m ρ c w).trans (((dat1 (V3 m ρ) c).arrAt_in w hin _).trans (A_eq1 (V3 m ρ) c w))

theorem W5_keep (c : Dev nD) (b : Ref sig .tc) (h : b ∉ hostOps2_W) :
    W5 m ρ c (Proc.devRef .tc b) = W4 m ρ c (Proc.devRef .tc b) :=
  StableHlo.after_of_writes_sub hostOps2 _ hostOps2_writes h

theorem W6_keep (c : Dev nD) (b : Ref sig .tc) (h : b ≠ main_v40) :
    W6 m ρ c (Proc.devRef .tc b) = W5 m ρ c (Proc.devRef .tc b) := by
  by_cases hb : ∀ w, Pipeline.arrRef spec2 w ≠ b
  · exact W6_of_ne m ρ c b hb
  · obtain ⟨w, hw⟩ := not_forall.mp hb
    obtain rfl : Pipeline.arrRef spec2 w = b := not_not.mp hw
    have hin : (cfg2.win w).isOut = false :=
      (by decide : ∀ w : Fin cfg2.W, Pipeline.arrRef spec2 w ≠ main_v40 → (cfg2.win w).isOut = false) w h
    exact (W6_arr m ρ c w).trans (((dat2 (V5 m ρ) c).arrAt_in w hin _).trans (A_eq2 (V5 m ρ) c w))

theorem W7_keep (c : Dev nD) (b : Ref sig .tc) (h : b ∉ hostOps3_W) :
    W7 m ρ c (Proc.devRef .tc b) = W6 m ρ c (Proc.devRef .tc b) :=
  StableHlo.after_of_writes_sub hostOps3 _ hostOps3_writes h

theorem W8_keep (c : Dev nD) (b : Ref sig .tc) (h : b ≠ main_v46) :
    W8 m ρ c (Proc.devRef .tc b) = W7 m ρ c (Proc.devRef .tc b) := by
  by_cases hb : ∀ w, Pipeline.arrRef spec3 w ≠ b
  · exact W8_of_ne m ρ c b hb
  · obtain ⟨w, hw⟩ := not_forall.mp hb
    obtain rfl : Pipeline.arrRef spec3 w = b := not_not.mp hw
    have hin : (cfg3.win w).isOut = false :=
      (by decide : ∀ w : Fin cfg3.W, Pipeline.arrRef spec3 w ≠ main_v46 → (cfg3.win w).isOut = false) w h
    exact (W8_arr m ρ c w).trans (((dat3 (V7 m ρ) c).arrAt_in w hin _).trans (A_eq3 (V7 m ρ) c w))

theorem W9_keep (c : Dev nD) (b : Ref sig .tc) (h : b ∉ hostOps4_W) :
    W9 m ρ c (Proc.devRef .tc b) = W8 m ρ c (Proc.devRef .tc b) :=
  StableHlo.after_of_writes_sub hostOps4 _ hostOps4_writes h

theorem W10_keep (c : Dev nD) (b : Ref sig .tc) (h : b ≠ main_v73) :
    W10 m ρ c (Proc.devRef .tc b) = W9 m ρ c (Proc.devRef .tc b) := by
  by_cases hb : ∀ w, Pipeline.arrRef spec4 w ≠ b
  · exact W10_of_ne m ρ c b hb
  · obtain ⟨w, hw⟩ := not_forall.mp hb
    obtain rfl : Pipeline.arrRef spec4 w = b := not_not.mp hw
    have hin : (cfg4.win w).isOut = false :=
      (by decide : ∀ w : Fin cfg4.W, Pipeline.arrRef spec4 w ≠ main_v73 → (cfg4.win w).isOut = false) w h
    exact (W10_arr m ρ c w).trans (((dat4 (V9 m ρ) c).arrAt_in w hin _).trans (A_eq4 (V9 m ρ) c w))

theorem W11_keep (c : Dev nD) (b : Ref sig .tc) (h : b ∉ hostOps5_W) :
    W11 m ρ c (Proc.devRef .tc b) = W10 m ρ c (Proc.devRef .tc b) :=
  StableHlo.after_of_writes_sub hostOps5 _ hostOps5_writes h

theorem W12_keep (c : Dev nD) (b : Ref sig .tc) (h : b ≠ main_v77) :
    W12 m ρ c (Proc.devRef .tc b) = W11 m ρ c (Proc.devRef .tc b) := by
  by_cases hb : ∀ w, Pipeline.arrRef spec5 w ≠ b
  · exact W12_of_ne m ρ c b hb
  · obtain ⟨w, hw⟩ := not_forall.mp hb
    obtain rfl : Pipeline.arrRef spec5 w = b := not_not.mp hw
    have hin : (cfg5.win w).isOut = false :=
      (by decide : ∀ w : Fin cfg5.W, Pipeline.arrRef spec5 w ≠ main_v77 → (cfg5.win w).isOut = false) w h
    exact (W12_arr m ρ c w).trans (((dat5 (V11 m ρ) c).arrAt_in w hin _).trans (A_eq5 (V11 m ρ) c w))

theorem W13_keep (c : Dev nD) (b : Ref sig .tc) (h : b ∉ hostOps6_W) :
    W13 m ρ c (Proc.devRef .tc b) = W12 m ρ c (Proc.devRef .tc b) :=
  StableHlo.after_of_writes_sub hostOps6 _ hostOps6_writes h

theorem W14_keep (c : Dev nD) (b : Ref sig .tc) (h : b ≠ main_v83) :
    W14 m ρ c (Proc.devRef .tc b) = W13 m ρ c (Proc.devRef .tc b) := by
  by_cases hb : ∀ w, Pipeline.arrRef spec6 w ≠ b
  · exact W14_of_ne m ρ c b hb
  · obtain ⟨w, hw⟩ := not_forall.mp hb
    obtain rfl : Pipeline.arrRef spec6 w = b := not_not.mp hw
    have hin : (cfg6.win w).isOut = false :=
      (by decide : ∀ w : Fin cfg6.W, Pipeline.arrRef spec6 w ≠ main_v83 → (cfg6.win w).isOut = false) w h
    exact (W14_arr m ρ c w).trans (((dat6 (V13 m ρ) c).arrAt_in w hin _).trans (A_eq6 (V13 m ρ) c w))

theorem W15_keep (c : Dev nD) (b : Ref sig .tc) (h : b ∉ hostOps7_W) :
    W15 m ρ c (Proc.devRef .tc b) = W14 m ρ c (Proc.devRef .tc b) :=
  StableHlo.after_of_writes_sub hostOps7 _ hostOps7_writes h

theorem W16_keep (c : Dev nD) (b : Ref sig .tc) (h : b ≠ main_v110) :
    W16 m ρ c (Proc.devRef .tc b) = W15 m ρ c (Proc.devRef .tc b) := by
  by_cases hb : ∀ w, Pipeline.arrRef spec7 w ≠ b
  · exact W16_of_ne m ρ c b hb
  · obtain ⟨w, hw⟩ := not_forall.mp hb
    obtain rfl : Pipeline.arrRef spec7 w = b := not_not.mp hw
    have hin : (cfg7.win w).isOut = false :=
      (by decide : ∀ w : Fin cfg7.W, Pipeline.arrRef spec7 w ≠ main_v110 → (cfg7.win w).isOut = false) w h
    exact (W16_arr m ρ c w).trans (((dat7 (V15 m ρ) c).arrAt_in w hin _).trans (A_eq7 (V15 m ρ) c w))

theorem W17_keep (c : Dev nD) (b : Ref sig .tc) (h : b ∉ hostOps8_W) :
    W17 m ρ c (Proc.devRef .tc b) = W16 m ρ c (Proc.devRef .tc b) :=
  StableHlo.after_of_writes_sub hostOps8 _ hostOps8_writes h

theorem W18_keep (c : Dev nD) (b : Ref sig .tc) (h : b ≠ main_v114) :
    W18 m ρ c (Proc.devRef .tc b) = W17 m ρ c (Proc.devRef .tc b) := by
  by_cases hb : ∀ w, Pipeline.arrRef spec8 w ≠ b
  · exact W18_of_ne m ρ c b hb
  · obtain ⟨w, hw⟩ := not_forall.mp hb
    obtain rfl : Pipeline.arrRef spec8 w = b := not_not.mp hw
    have hin : (cfg8.win w).isOut = false :=
      (by decide : ∀ w : Fin cfg8.W, Pipeline.arrRef spec8 w ≠ main_v114 → (cfg8.win w).isOut = false) w h
    exact (W18_arr m ρ c w).trans (((dat8 (V17 m ρ) c).arrAt_in w hin _).trans (A_eq8 (V17 m ρ) c w))

theorem W19_keep (c : Dev nD) (b : Ref sig .tc) (h : b ∉ hostOps9_W) :
    W19 m ρ c (Proc.devRef .tc b) = W18 m ρ c (Proc.devRef .tc b) :=
  StableHlo.after_of_writes_sub hostOps9 _ hostOps9_writes h

theorem W20_keep (c : Dev nD) (b : Ref sig .tc) (h : b ≠ main_v130) :
    W20 m ρ c (Proc.devRef .tc b) = W19 m ρ c (Proc.devRef .tc b) := by
  by_cases hb : ∀ w, Pipeline.arrRef spec9 w ≠ b
  · exact W20_of_ne m ρ c b hb
  · obtain ⟨w, hw⟩ := not_forall.mp hb
    obtain rfl : Pipeline.arrRef spec9 w = b := not_not.mp hw
    have hin : (cfg9.win w).isOut = false :=
      (by decide : ∀ w : Fin cfg9.W, Pipeline.arrRef spec9 w ≠ main_v130 → (cfg9.win w).isOut = false) w h
    exact (W20_arr m ρ c w).trans (((dat9 (V19 m ρ) c).arrAt_in w hin _).trans (A_eq9 (V19 m ρ) c w))

theorem W21_keep (c : Dev nD) (b : Ref sig .tc) (h : b ∉ hostOps10_W) :
    W21 m ρ c (Proc.devRef .tc b) = W20 m ρ c (Proc.devRef .tc b) :=
  StableHlo.after_of_writes_sub hostOps10 _ hostOps10_writes h

/-! ## The arguments end as launched

No stretch writes an argument and no argument is a region's output array, so each of the twenty-one items leaves it alone. -/

theorem W21_main_arg0 (c : Dev nD) : W21 m ρ c (Proc.devRef .tc main_arg0) = m ((c : Thread nD τ).loc main_arg0) :=
  calc W21 m ρ c (Proc.devRef .tc main_arg0)
    _ = W20 m ρ c (Proc.devRef .tc main_arg0) := W21_keep m ρ c main_arg0 (by decide)
    _ = W19 m ρ c (Proc.devRef .tc main_arg0) := W20_keep m ρ c main_arg0 (by decide)
    _ = W18 m ρ c (Proc.devRef .tc main_arg0) := W19_keep m ρ c main_arg0 (by decide)
    _ = W17 m ρ c (Proc.devRef .tc main_arg0) := W18_keep m ρ c main_arg0 (by decide)
    _ = W16 m ρ c (Proc.devRef .tc main_arg0) := W17_keep m ρ c main_arg0 (by decide)
    _ = W15 m ρ c (Proc.devRef .tc main_arg0) := W16_keep m ρ c main_arg0 (by decide)
    _ = W14 m ρ c (Proc.devRef .tc main_arg0) := W15_keep m ρ c main_arg0 (by decide)
    _ = W13 m ρ c (Proc.devRef .tc main_arg0) := W14_keep m ρ c main_arg0 (by decide)
    _ = W12 m ρ c (Proc.devRef .tc main_arg0) := W13_keep m ρ c main_arg0 (by decide)
    _ = W11 m ρ c (Proc.devRef .tc main_arg0) := W12_keep m ρ c main_arg0 (by decide)
    _ = W10 m ρ c (Proc.devRef .tc main_arg0) := W11_keep m ρ c main_arg0 (by decide)
    _ = W9 m ρ c (Proc.devRef .tc main_arg0) := W10_keep m ρ c main_arg0 (by decide)
    _ = W8 m ρ c (Proc.devRef .tc main_arg0) := W9_keep m ρ c main_arg0 (by decide)
    _ = W7 m ρ c (Proc.devRef .tc main_arg0) := W8_keep m ρ c main_arg0 (by decide)
    _ = W6 m ρ c (Proc.devRef .tc main_arg0) := W7_keep m ρ c main_arg0 (by decide)
    _ = W5 m ρ c (Proc.devRef .tc main_arg0) := W6_keep m ρ c main_arg0 (by decide)
    _ = W4 m ρ c (Proc.devRef .tc main_arg0) := W5_keep m ρ c main_arg0 (by decide)
    _ = W3 m ρ c (Proc.devRef .tc main_arg0) := W4_keep m ρ c main_arg0 (by decide)
    _ = W2 m ρ c (Proc.devRef .tc main_arg0) := W3_keep m ρ c main_arg0 (by decide)
    _ = W1 m ρ c (Proc.devRef .tc main_arg0) := W2_keep m ρ c main_arg0 (by decide)
    _ = W0 m ρ c (Proc.devRef .tc main_arg0) := W1_keep m ρ c main_arg0 (by decide)
    _ = m ((c : Thread nD τ).loc main_arg0) := rfl

theorem W21_main_arg1 (c : Dev nD) : W21 m ρ c (Proc.devRef .tc main_arg1) = m ((c : Thread nD τ).loc main_arg1) :=
  calc W21 m ρ c (Proc.devRef .tc main_arg1)
    _ = W20 m ρ c (Proc.devRef .tc main_arg1) := W21_keep m ρ c main_arg1 (by decide)
    _ = W19 m ρ c (Proc.devRef .tc main_arg1) := W20_keep m ρ c main_arg1 (by decide)
    _ = W18 m ρ c (Proc.devRef .tc main_arg1) := W19_keep m ρ c main_arg1 (by decide)
    _ = W17 m ρ c (Proc.devRef .tc main_arg1) := W18_keep m ρ c main_arg1 (by decide)
    _ = W16 m ρ c (Proc.devRef .tc main_arg1) := W17_keep m ρ c main_arg1 (by decide)
    _ = W15 m ρ c (Proc.devRef .tc main_arg1) := W16_keep m ρ c main_arg1 (by decide)
    _ = W14 m ρ c (Proc.devRef .tc main_arg1) := W15_keep m ρ c main_arg1 (by decide)
    _ = W13 m ρ c (Proc.devRef .tc main_arg1) := W14_keep m ρ c main_arg1 (by decide)
    _ = W12 m ρ c (Proc.devRef .tc main_arg1) := W13_keep m ρ c main_arg1 (by decide)
    _ = W11 m ρ c (Proc.devRef .tc main_arg1) := W12_keep m ρ c main_arg1 (by decide)
    _ = W10 m ρ c (Proc.devRef .tc main_arg1) := W11_keep m ρ c main_arg1 (by decide)
    _ = W9 m ρ c (Proc.devRef .tc main_arg1) := W10_keep m ρ c main_arg1 (by decide)
    _ = W8 m ρ c (Proc.devRef .tc main_arg1) := W9_keep m ρ c main_arg1 (by decide)
    _ = W7 m ρ c (Proc.devRef .tc main_arg1) := W8_keep m ρ c main_arg1 (by decide)
    _ = W6 m ρ c (Proc.devRef .tc main_arg1) := W7_keep m ρ c main_arg1 (by decide)
    _ = W5 m ρ c (Proc.devRef .tc main_arg1) := W6_keep m ρ c main_arg1 (by decide)
    _ = W4 m ρ c (Proc.devRef .tc main_arg1) := W5_keep m ρ c main_arg1 (by decide)
    _ = W3 m ρ c (Proc.devRef .tc main_arg1) := W4_keep m ρ c main_arg1 (by decide)
    _ = W2 m ρ c (Proc.devRef .tc main_arg1) := W3_keep m ρ c main_arg1 (by decide)
    _ = W1 m ρ c (Proc.devRef .tc main_arg1) := W2_keep m ρ c main_arg1 (by decide)
    _ = W0 m ρ c (Proc.devRef .tc main_arg1) := W1_keep m ρ c main_arg1 (by decide)
    _ = m ((c : Thread nD τ).loc main_arg1) := rfl

theorem W21_main_arg2 (c : Dev nD) : W21 m ρ c (Proc.devRef .tc main_arg2) = m ((c : Thread nD τ).loc main_arg2) :=
  calc W21 m ρ c (Proc.devRef .tc main_arg2)
    _ = W20 m ρ c (Proc.devRef .tc main_arg2) := W21_keep m ρ c main_arg2 (by decide)
    _ = W19 m ρ c (Proc.devRef .tc main_arg2) := W20_keep m ρ c main_arg2 (by decide)
    _ = W18 m ρ c (Proc.devRef .tc main_arg2) := W19_keep m ρ c main_arg2 (by decide)
    _ = W17 m ρ c (Proc.devRef .tc main_arg2) := W18_keep m ρ c main_arg2 (by decide)
    _ = W16 m ρ c (Proc.devRef .tc main_arg2) := W17_keep m ρ c main_arg2 (by decide)
    _ = W15 m ρ c (Proc.devRef .tc main_arg2) := W16_keep m ρ c main_arg2 (by decide)
    _ = W14 m ρ c (Proc.devRef .tc main_arg2) := W15_keep m ρ c main_arg2 (by decide)
    _ = W13 m ρ c (Proc.devRef .tc main_arg2) := W14_keep m ρ c main_arg2 (by decide)
    _ = W12 m ρ c (Proc.devRef .tc main_arg2) := W13_keep m ρ c main_arg2 (by decide)
    _ = W11 m ρ c (Proc.devRef .tc main_arg2) := W12_keep m ρ c main_arg2 (by decide)
    _ = W10 m ρ c (Proc.devRef .tc main_arg2) := W11_keep m ρ c main_arg2 (by decide)
    _ = W9 m ρ c (Proc.devRef .tc main_arg2) := W10_keep m ρ c main_arg2 (by decide)
    _ = W8 m ρ c (Proc.devRef .tc main_arg2) := W9_keep m ρ c main_arg2 (by decide)
    _ = W7 m ρ c (Proc.devRef .tc main_arg2) := W8_keep m ρ c main_arg2 (by decide)
    _ = W6 m ρ c (Proc.devRef .tc main_arg2) := W7_keep m ρ c main_arg2 (by decide)
    _ = W5 m ρ c (Proc.devRef .tc main_arg2) := W6_keep m ρ c main_arg2 (by decide)
    _ = W4 m ρ c (Proc.devRef .tc main_arg2) := W5_keep m ρ c main_arg2 (by decide)
    _ = W3 m ρ c (Proc.devRef .tc main_arg2) := W4_keep m ρ c main_arg2 (by decide)
    _ = W2 m ρ c (Proc.devRef .tc main_arg2) := W3_keep m ρ c main_arg2 (by decide)
    _ = W1 m ρ c (Proc.devRef .tc main_arg2) := W2_keep m ρ c main_arg2 (by decide)
    _ = W0 m ρ c (Proc.devRef .tc main_arg2) := W1_keep m ρ c main_arg2 (by decide)
    _ = m ((c : Thread nD τ).loc main_arg2) := rfl

theorem W21_main_arg3 (c : Dev nD) : W21 m ρ c (Proc.devRef .tc main_arg3) = m ((c : Thread nD τ).loc main_arg3) :=
  calc W21 m ρ c (Proc.devRef .tc main_arg3)
    _ = W20 m ρ c (Proc.devRef .tc main_arg3) := W21_keep m ρ c main_arg3 (by decide)
    _ = W19 m ρ c (Proc.devRef .tc main_arg3) := W20_keep m ρ c main_arg3 (by decide)
    _ = W18 m ρ c (Proc.devRef .tc main_arg3) := W19_keep m ρ c main_arg3 (by decide)
    _ = W17 m ρ c (Proc.devRef .tc main_arg3) := W18_keep m ρ c main_arg3 (by decide)
    _ = W16 m ρ c (Proc.devRef .tc main_arg3) := W17_keep m ρ c main_arg3 (by decide)
    _ = W15 m ρ c (Proc.devRef .tc main_arg3) := W16_keep m ρ c main_arg3 (by decide)
    _ = W14 m ρ c (Proc.devRef .tc main_arg3) := W15_keep m ρ c main_arg3 (by decide)
    _ = W13 m ρ c (Proc.devRef .tc main_arg3) := W14_keep m ρ c main_arg3 (by decide)
    _ = W12 m ρ c (Proc.devRef .tc main_arg3) := W13_keep m ρ c main_arg3 (by decide)
    _ = W11 m ρ c (Proc.devRef .tc main_arg3) := W12_keep m ρ c main_arg3 (by decide)
    _ = W10 m ρ c (Proc.devRef .tc main_arg3) := W11_keep m ρ c main_arg3 (by decide)
    _ = W9 m ρ c (Proc.devRef .tc main_arg3) := W10_keep m ρ c main_arg3 (by decide)
    _ = W8 m ρ c (Proc.devRef .tc main_arg3) := W9_keep m ρ c main_arg3 (by decide)
    _ = W7 m ρ c (Proc.devRef .tc main_arg3) := W8_keep m ρ c main_arg3 (by decide)
    _ = W6 m ρ c (Proc.devRef .tc main_arg3) := W7_keep m ρ c main_arg3 (by decide)
    _ = W5 m ρ c (Proc.devRef .tc main_arg3) := W6_keep m ρ c main_arg3 (by decide)
    _ = W4 m ρ c (Proc.devRef .tc main_arg3) := W5_keep m ρ c main_arg3 (by decide)
    _ = W3 m ρ c (Proc.devRef .tc main_arg3) := W4_keep m ρ c main_arg3 (by decide)
    _ = W2 m ρ c (Proc.devRef .tc main_arg3) := W3_keep m ρ c main_arg3 (by decide)
    _ = W1 m ρ c (Proc.devRef .tc main_arg3) := W2_keep m ρ c main_arg3 (by decide)
    _ = W0 m ρ c (Proc.devRef .tc main_arg3) := W1_keep m ρ c main_arg3 (by decide)
    _ = m ((c : Thread nD τ).loc main_arg3) := rfl

theorem W21_main_arg4 (c : Dev nD) : W21 m ρ c (Proc.devRef .tc main_arg4) = m ((c : Thread nD τ).loc main_arg4) :=
  calc W21 m ρ c (Proc.devRef .tc main_arg4)
    _ = W20 m ρ c (Proc.devRef .tc main_arg4) := W21_keep m ρ c main_arg4 (by decide)
    _ = W19 m ρ c (Proc.devRef .tc main_arg4) := W20_keep m ρ c main_arg4 (by decide)
    _ = W18 m ρ c (Proc.devRef .tc main_arg4) := W19_keep m ρ c main_arg4 (by decide)
    _ = W17 m ρ c (Proc.devRef .tc main_arg4) := W18_keep m ρ c main_arg4 (by decide)
    _ = W16 m ρ c (Proc.devRef .tc main_arg4) := W17_keep m ρ c main_arg4 (by decide)
    _ = W15 m ρ c (Proc.devRef .tc main_arg4) := W16_keep m ρ c main_arg4 (by decide)
    _ = W14 m ρ c (Proc.devRef .tc main_arg4) := W15_keep m ρ c main_arg4 (by decide)
    _ = W13 m ρ c (Proc.devRef .tc main_arg4) := W14_keep m ρ c main_arg4 (by decide)
    _ = W12 m ρ c (Proc.devRef .tc main_arg4) := W13_keep m ρ c main_arg4 (by decide)
    _ = W11 m ρ c (Proc.devRef .tc main_arg4) := W12_keep m ρ c main_arg4 (by decide)
    _ = W10 m ρ c (Proc.devRef .tc main_arg4) := W11_keep m ρ c main_arg4 (by decide)
    _ = W9 m ρ c (Proc.devRef .tc main_arg4) := W10_keep m ρ c main_arg4 (by decide)
    _ = W8 m ρ c (Proc.devRef .tc main_arg4) := W9_keep m ρ c main_arg4 (by decide)
    _ = W7 m ρ c (Proc.devRef .tc main_arg4) := W8_keep m ρ c main_arg4 (by decide)
    _ = W6 m ρ c (Proc.devRef .tc main_arg4) := W7_keep m ρ c main_arg4 (by decide)
    _ = W5 m ρ c (Proc.devRef .tc main_arg4) := W6_keep m ρ c main_arg4 (by decide)
    _ = W4 m ρ c (Proc.devRef .tc main_arg4) := W5_keep m ρ c main_arg4 (by decide)
    _ = W3 m ρ c (Proc.devRef .tc main_arg4) := W4_keep m ρ c main_arg4 (by decide)
    _ = W2 m ρ c (Proc.devRef .tc main_arg4) := W3_keep m ρ c main_arg4 (by decide)
    _ = W1 m ρ c (Proc.devRef .tc main_arg4) := W2_keep m ρ c main_arg4 (by decide)
    _ = W0 m ρ c (Proc.devRef .tc main_arg4) := W1_keep m ρ c main_arg4 (by decide)
    _ = m ((c : Thread nD τ).loc main_arg4) := rfl

theorem W21_main_arg5 (c : Dev nD) : W21 m ρ c (Proc.devRef .tc main_arg5) = m ((c : Thread nD τ).loc main_arg5) :=
  calc W21 m ρ c (Proc.devRef .tc main_arg5)
    _ = W20 m ρ c (Proc.devRef .tc main_arg5) := W21_keep m ρ c main_arg5 (by decide)
    _ = W19 m ρ c (Proc.devRef .tc main_arg5) := W20_keep m ρ c main_arg5 (by decide)
    _ = W18 m ρ c (Proc.devRef .tc main_arg5) := W19_keep m ρ c main_arg5 (by decide)
    _ = W17 m ρ c (Proc.devRef .tc main_arg5) := W18_keep m ρ c main_arg5 (by decide)
    _ = W16 m ρ c (Proc.devRef .tc main_arg5) := W17_keep m ρ c main_arg5 (by decide)
    _ = W15 m ρ c (Proc.devRef .tc main_arg5) := W16_keep m ρ c main_arg5 (by decide)
    _ = W14 m ρ c (Proc.devRef .tc main_arg5) := W15_keep m ρ c main_arg5 (by decide)
    _ = W13 m ρ c (Proc.devRef .tc main_arg5) := W14_keep m ρ c main_arg5 (by decide)
    _ = W12 m ρ c (Proc.devRef .tc main_arg5) := W13_keep m ρ c main_arg5 (by decide)
    _ = W11 m ρ c (Proc.devRef .tc main_arg5) := W12_keep m ρ c main_arg5 (by decide)
    _ = W10 m ρ c (Proc.devRef .tc main_arg5) := W11_keep m ρ c main_arg5 (by decide)
    _ = W9 m ρ c (Proc.devRef .tc main_arg5) := W10_keep m ρ c main_arg5 (by decide)
    _ = W8 m ρ c (Proc.devRef .tc main_arg5) := W9_keep m ρ c main_arg5 (by decide)
    _ = W7 m ρ c (Proc.devRef .tc main_arg5) := W8_keep m ρ c main_arg5 (by decide)
    _ = W6 m ρ c (Proc.devRef .tc main_arg5) := W7_keep m ρ c main_arg5 (by decide)
    _ = W5 m ρ c (Proc.devRef .tc main_arg5) := W6_keep m ρ c main_arg5 (by decide)
    _ = W4 m ρ c (Proc.devRef .tc main_arg5) := W5_keep m ρ c main_arg5 (by decide)
    _ = W3 m ρ c (Proc.devRef .tc main_arg5) := W4_keep m ρ c main_arg5 (by decide)
    _ = W2 m ρ c (Proc.devRef .tc main_arg5) := W3_keep m ρ c main_arg5 (by decide)
    _ = W1 m ρ c (Proc.devRef .tc main_arg5) := W2_keep m ρ c main_arg5 (by decide)
    _ = W0 m ρ c (Proc.devRef .tc main_arg5) := W1_keep m ρ c main_arg5 (by decide)
    _ = m ((c : Thread nD τ).loc main_arg5) := rfl

theorem W21_main_arg6 (c : Dev nD) : W21 m ρ c (Proc.devRef .tc main_arg6) = m ((c : Thread nD τ).loc main_arg6) :=
  calc W21 m ρ c (Proc.devRef .tc main_arg6)
    _ = W20 m ρ c (Proc.devRef .tc main_arg6) := W21_keep m ρ c main_arg6 (by decide)
    _ = W19 m ρ c (Proc.devRef .tc main_arg6) := W20_keep m ρ c main_arg6 (by decide)
    _ = W18 m ρ c (Proc.devRef .tc main_arg6) := W19_keep m ρ c main_arg6 (by decide)
    _ = W17 m ρ c (Proc.devRef .tc main_arg6) := W18_keep m ρ c main_arg6 (by decide)
    _ = W16 m ρ c (Proc.devRef .tc main_arg6) := W17_keep m ρ c main_arg6 (by decide)
    _ = W15 m ρ c (Proc.devRef .tc main_arg6) := W16_keep m ρ c main_arg6 (by decide)
    _ = W14 m ρ c (Proc.devRef .tc main_arg6) := W15_keep m ρ c main_arg6 (by decide)
    _ = W13 m ρ c (Proc.devRef .tc main_arg6) := W14_keep m ρ c main_arg6 (by decide)
    _ = W12 m ρ c (Proc.devRef .tc main_arg6) := W13_keep m ρ c main_arg6 (by decide)
    _ = W11 m ρ c (Proc.devRef .tc main_arg6) := W12_keep m ρ c main_arg6 (by decide)
    _ = W10 m ρ c (Proc.devRef .tc main_arg6) := W11_keep m ρ c main_arg6 (by decide)
    _ = W9 m ρ c (Proc.devRef .tc main_arg6) := W10_keep m ρ c main_arg6 (by decide)
    _ = W8 m ρ c (Proc.devRef .tc main_arg6) := W9_keep m ρ c main_arg6 (by decide)
    _ = W7 m ρ c (Proc.devRef .tc main_arg6) := W8_keep m ρ c main_arg6 (by decide)
    _ = W6 m ρ c (Proc.devRef .tc main_arg6) := W7_keep m ρ c main_arg6 (by decide)
    _ = W5 m ρ c (Proc.devRef .tc main_arg6) := W6_keep m ρ c main_arg6 (by decide)
    _ = W4 m ρ c (Proc.devRef .tc main_arg6) := W5_keep m ρ c main_arg6 (by decide)
    _ = W3 m ρ c (Proc.devRef .tc main_arg6) := W4_keep m ρ c main_arg6 (by decide)
    _ = W2 m ρ c (Proc.devRef .tc main_arg6) := W3_keep m ρ c main_arg6 (by decide)
    _ = W1 m ρ c (Proc.devRef .tc main_arg6) := W2_keep m ρ c main_arg6 (by decide)
    _ = W0 m ρ c (Proc.devRef .tc main_arg6) := W1_keep m ρ c main_arg6 (by decide)
    _ = m ((c : Thread nD τ).loc main_arg6) := rfl

theorem W21_main_arg7 (c : Dev nD) : W21 m ρ c (Proc.devRef .tc main_arg7) = m ((c : Thread nD τ).loc main_arg7) :=
  calc W21 m ρ c (Proc.devRef .tc main_arg7)
    _ = W20 m ρ c (Proc.devRef .tc main_arg7) := W21_keep m ρ c main_arg7 (by decide)
    _ = W19 m ρ c (Proc.devRef .tc main_arg7) := W20_keep m ρ c main_arg7 (by decide)
    _ = W18 m ρ c (Proc.devRef .tc main_arg7) := W19_keep m ρ c main_arg7 (by decide)
    _ = W17 m ρ c (Proc.devRef .tc main_arg7) := W18_keep m ρ c main_arg7 (by decide)
    _ = W16 m ρ c (Proc.devRef .tc main_arg7) := W17_keep m ρ c main_arg7 (by decide)
    _ = W15 m ρ c (Proc.devRef .tc main_arg7) := W16_keep m ρ c main_arg7 (by decide)
    _ = W14 m ρ c (Proc.devRef .tc main_arg7) := W15_keep m ρ c main_arg7 (by decide)
    _ = W13 m ρ c (Proc.devRef .tc main_arg7) := W14_keep m ρ c main_arg7 (by decide)
    _ = W12 m ρ c (Proc.devRef .tc main_arg7) := W13_keep m ρ c main_arg7 (by decide)
    _ = W11 m ρ c (Proc.devRef .tc main_arg7) := W12_keep m ρ c main_arg7 (by decide)
    _ = W10 m ρ c (Proc.devRef .tc main_arg7) := W11_keep m ρ c main_arg7 (by decide)
    _ = W9 m ρ c (Proc.devRef .tc main_arg7) := W10_keep m ρ c main_arg7 (by decide)
    _ = W8 m ρ c (Proc.devRef .tc main_arg7) := W9_keep m ρ c main_arg7 (by decide)
    _ = W7 m ρ c (Proc.devRef .tc main_arg7) := W8_keep m ρ c main_arg7 (by decide)
    _ = W6 m ρ c (Proc.devRef .tc main_arg7) := W7_keep m ρ c main_arg7 (by decide)
    _ = W5 m ρ c (Proc.devRef .tc main_arg7) := W6_keep m ρ c main_arg7 (by decide)
    _ = W4 m ρ c (Proc.devRef .tc main_arg7) := W5_keep m ρ c main_arg7 (by decide)
    _ = W3 m ρ c (Proc.devRef .tc main_arg7) := W4_keep m ρ c main_arg7 (by decide)
    _ = W2 m ρ c (Proc.devRef .tc main_arg7) := W3_keep m ρ c main_arg7 (by decide)
    _ = W1 m ρ c (Proc.devRef .tc main_arg7) := W2_keep m ρ c main_arg7 (by decide)
    _ = W0 m ρ c (Proc.devRef .tc main_arg7) := W1_keep m ρ c main_arg7 (by decide)
    _ = m ((c : Thread nD τ).loc main_arg7) := rfl

theorem W21_main_arg8 (c : Dev nD) : W21 m ρ c (Proc.devRef .tc main_arg8) = m ((c : Thread nD τ).loc main_arg8) :=
  calc W21 m ρ c (Proc.devRef .tc main_arg8)
    _ = W20 m ρ c (Proc.devRef .tc main_arg8) := W21_keep m ρ c main_arg8 (by decide)
    _ = W19 m ρ c (Proc.devRef .tc main_arg8) := W20_keep m ρ c main_arg8 (by decide)
    _ = W18 m ρ c (Proc.devRef .tc main_arg8) := W19_keep m ρ c main_arg8 (by decide)
    _ = W17 m ρ c (Proc.devRef .tc main_arg8) := W18_keep m ρ c main_arg8 (by decide)
    _ = W16 m ρ c (Proc.devRef .tc main_arg8) := W17_keep m ρ c main_arg8 (by decide)
    _ = W15 m ρ c (Proc.devRef .tc main_arg8) := W16_keep m ρ c main_arg8 (by decide)
    _ = W14 m ρ c (Proc.devRef .tc main_arg8) := W15_keep m ρ c main_arg8 (by decide)
    _ = W13 m ρ c (Proc.devRef .tc main_arg8) := W14_keep m ρ c main_arg8 (by decide)
    _ = W12 m ρ c (Proc.devRef .tc main_arg8) := W13_keep m ρ c main_arg8 (by decide)
    _ = W11 m ρ c (Proc.devRef .tc main_arg8) := W12_keep m ρ c main_arg8 (by decide)
    _ = W10 m ρ c (Proc.devRef .tc main_arg8) := W11_keep m ρ c main_arg8 (by decide)
    _ = W9 m ρ c (Proc.devRef .tc main_arg8) := W10_keep m ρ c main_arg8 (by decide)
    _ = W8 m ρ c (Proc.devRef .tc main_arg8) := W9_keep m ρ c main_arg8 (by decide)
    _ = W7 m ρ c (Proc.devRef .tc main_arg8) := W8_keep m ρ c main_arg8 (by decide)
    _ = W6 m ρ c (Proc.devRef .tc main_arg8) := W7_keep m ρ c main_arg8 (by decide)
    _ = W5 m ρ c (Proc.devRef .tc main_arg8) := W6_keep m ρ c main_arg8 (by decide)
    _ = W4 m ρ c (Proc.devRef .tc main_arg8) := W5_keep m ρ c main_arg8 (by decide)
    _ = W3 m ρ c (Proc.devRef .tc main_arg8) := W4_keep m ρ c main_arg8 (by decide)
    _ = W2 m ρ c (Proc.devRef .tc main_arg8) := W3_keep m ρ c main_arg8 (by decide)
    _ = W1 m ρ c (Proc.devRef .tc main_arg8) := W2_keep m ρ c main_arg8 (by decide)
    _ = W0 m ρ c (Proc.devRef .tc main_arg8) := W1_keep m ρ c main_arg8 (by decide)
    _ = m ((c : Thread nD τ).loc main_arg8) := rfl

/-! ## The proof data family and what rides beside the buffers -/

/-- No region prefetches a table. -/
abbrev adm : (p : Fin 10) → (pcfgs (F := F) p).Adm := fun p => (cfgs p).toPCfg_adm
/-- The ten regions' proof data, each at the contents its region is entered with. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers a core keeps its generator register, at some state, and owes nothing. -/
abbrev R (c : Dev nD) : sProp 𝕄 := iprop((∃ r, prngReg c r) ∗ ∃ W, owes (c : Thread nD τ) (0 : CellTallies nD τ sig Unit) W)
/-- A stretch of array operations as a segment of the run: from the unscoped buffers at contents `W` to the same buffers
    at what the operations compute from `W`, the rest `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is one of the buffers held through the run. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Reg0.lean ====
import proofs.«144474_j77214922048057_1_alg».proof.Proof.K.Chain

/-! # Region 0 (dense) as a segment of the run

Entered with every unscoped buffer at the contents after stretch 0, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 0. -/

-- deciding that a reference is none of a list of some thirty, among the program's 238, recurses past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
import proofs.«144474_j77214922048057_1_alg».proof.Proof.K.Chain

/-! # Region 1 (msg) as a segment of the run

Entered with every unscoped buffer at the contents after stretch 1, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 1. -/

-- deciding that a reference is none of a list of some thirty, among the program's 238, recurses past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
import proofs.«144474_j77214922048057_1_alg».proof.Proof.K.Chain

/-! # Region 2 (update) as a segment of the run

Entered with every unscoped buffer at the contents after stretch 2, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 2. -/

-- deciding that a reference is none of a list of some thirty, among the program's 238, recurses past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
import proofs.«144474_j77214922048057_1_alg».proof.Proof.K.Chain

/-! # Region 3 (dense) as a segment of the run

Entered with every unscoped buffer at the contents after stretch 3, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 3. -/

-- deciding that a reference is none of a list of some thirty, among the program's 238, recurses past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4.lean ====
import proofs.«144474_j77214922048057_1_alg».proof.Proof.K.Chain

/-! # Region 4 (msg) as a segment of the run

Entered with every unscoped buffer at the contents after stretch 4, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 4. -/

-- deciding that a reference is none of a list of some thirty, among the program's 238, recurses past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg5.lean ====
import proofs.«144474_j77214922048057_1_alg».proof.Proof.K.Chain

/-! # Region 5 (update) as a segment of the run

Entered with every unscoped buffer at the contents after stretch 5, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 5. -/

-- deciding that a reference is none of a list of some thirty, among the program's 238, recurses past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg6.lean ====
import proofs.«144474_j77214922048057_1_alg».proof.Proof.K.Chain

/-! # Region 6 (dense) as a segment of the run

Entered with every unscoped buffer at the contents after stretch 6, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 6. -/

-- deciding that a reference is none of a list of some thirty, among the program's 238, recurses past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg7.lean ====
import proofs.«144474_j77214922048057_1_alg».proof.Proof.K.Chain

/-! # Region 7 (msg) as a segment of the run

Entered with every unscoped buffer at the contents after stretch 7, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 7. -/

-- deciding that a reference is none of a list of some thirty, among the program's 238, recurses past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg8.lean ====
import proofs.«144474_j77214922048057_1_alg».proof.Proof.K.Chain

/-! # Region 8 (update) as a segment of the run

Entered with every unscoped buffer at the contents after stretch 8, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 8. -/

-- deciding that a reference is none of a list of some thirty, among the program's 238, recurses past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg9.lean ====
import proofs.«144474_j77214922048057_1_alg».proof.Proof.K.Chain

/-! # Region 9 (score) as a segment of the run

Entered with every unscoped buffer at the contents after stretch 9, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 9. -/

-- deciding that a reference is none of a list of some thirty, among the program's 238, recurses past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
import proofs.«144474_j77214922048057_1_alg».proof.Proof.K.Reg0
import proofs.«144474_j77214922048057_1_alg».proof.Proof.K.Reg1
import proofs.«144474_j77214922048057_1_alg».proof.Proof.K.Reg2
import proofs.«144474_j77214922048057_1_alg».proof.Proof.K.Reg3
import proofs.«144474_j77214922048057_1_alg».proof.Proof.K.Reg4
import proofs.«144474_j77214922048057_1_alg».proof.Proof.K.Reg5
import proofs.«144474_j77214922048057_1_alg».proof.Proof.K.Reg6
import proofs.«144474_j77214922048057_1_alg».proof.Proof.K.Reg7
import proofs.«144474_j77214922048057_1_alg».proof.Proof.K.Reg8
import proofs.«144474_j77214922048057_1_alg».proof.Proof.K.Reg9

/-! # The run

The program is the twenty-one segments in order: a stretch of array operations from its boundary's contents, then a
region, and so on to the last stretch. Each segment is entered with what the one before it leaves, so from any launch
memory with zero counters every weakly fair execution on the TensorCores terminates without fault, and in the final
memory every unscoped buffer of a core holds the last boundary's contents. In particular every argument is as launched. -/

-- deciding that a reference is none of a list of some thirty, among the program's 238, recurses past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The twenty-one segments in the program's order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)) ]
/-- The program is the run of the segments: it is the chain of the same items. -/
theorem main_run (c : Dev nD) : main (F := F) c = Pipeline.Seg.run (segs m ρ) := (main_chain c).trans (by chain_rfl)

/-- What a core holds when the run ends, its dues apart: every unscoped buffer at the last boundary's contents and the
    generator register at some state. -/
abbrev Tₙ (c : Dev nD) : sProp 𝕄 := iprop(StableHlo.held (c : Thread nD τ) (Pipeline.ucRefs τ sig) (W21 m ρ c) ∗ ∃ r, prngReg c r)

/-- What the last stretch leaves is the end state beside the core owing nothing (the same three parts, grouped the other way). -/
theorem end_state (c : Dev nD) :
    iprop(StableHlo.held (c : Thread nD τ) (Pipeline.ucRefs τ sig) (W21 m ρ c)
        ∗ ((∃ r, prngReg c r) ∗ ∃ W, owes (c : Thread nD τ) (0 : CellTallies nD τ sig Unit) W))
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh] <;> iassumption
  iexact HO

-- the launch theorem's implicit arguments are found by unifying its conclusion with this one, which takes unfolding
-- plain definitions in a metavariable's type
set_option backward.isDefEq.respectTransparency.types false in
/-- From any memory with zero counters, every weakly fair execution of the program on the TensorCores terminates, nothing
    faulting, and in every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => end_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

/-- Every argument of the program ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W21_main_arg0 m ρ c),
      (h c _ (mem_uc main_arg1 (by decide))).trans (W21_main_arg1 m ρ c),
      (h c _ (mem_uc main_arg2 (by decide))).trans (W21_main_arg2 m ρ c),
      (h c _ (mem_uc main_arg3 (by decide))).trans (W21_main_arg3 m ρ c),
      (h c _ (mem_uc main_arg4 (by decide))).trans (W21_main_arg4 m ρ c),
      (h c _ (mem_uc main_arg5 (by decide))).trans (W21_main_arg5 m ρ c),
      (h c _ (mem_uc main_arg6 (by decide))).trans (W21_main_arg6 m ρ c),
      (h c _ (mem_uc main_arg7 (by decide))).trans (W21_main_arg7 m ρ c),
      (h c _ (mem_uc main_arg8 (by decide))).trans (W21_main_arg8 m ρ c)⟩) (run_all m ρ)

/-- info: 'Cert.Kernel.Hand.frame' depends on axioms: [propext, Classical.choice, Quot.sound] -/
#guard_msgs in #print axioms frame

end Cert.Kernel.Hand

end
-- ==== Proof.KI.Body0.lean ====
import proofs.«144474_j77214922048057_1_alg».proof.Proof.Gen.KernelIdeal.Launch
import proofs.«144474_j77214922048057_1_alg».proof.Proof.Gen.KernelIdeal.Skeleton
import proofs.«144474_j77214922048057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 of the program (a dense layer: the rows of `x` and the weight matrix, each rounded to bf16, multiplied with
    the sums taken in f32 from zero, plus the bias row broadcast down the rows), at arbitrary
    entry contents `V` of the core's buffers: each window's block at a grid point, what the body leaves in the output
    window's buffer as a function of the three input blocks, the body's triple, the pipeline's proof data and the body
    obligation at every point. Everything is stated for any float model `F`. -/

-- membership of an index in a rectangle of these extents unfolds once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of `x`; its block moves with the point): whenever the proof data's array is the entry
    contents and the body leaves the block in place, the buffer the body is handed at any point holds that point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, one block for the whole grid, fetched at the first point only): at a later
    point the block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, likewise one block for the whole grid). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store take the whole of their buffer -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- The output buffer after the body, as a function of the three input blocks: the one store, of the payload at the
    loaded inputs. -/
def out0_3 (x0 : Vec F S5000x128 .f32) (x1 : Vec F S128x128 .f32) (x2 : Vec F S1x128 .f32) : Vec F S5000x128 .f32 :=
  View.canon [⟨r0_0, k0_pay1 (View.ld x0 r0_0) (View.ld x1 r0_1) (View.ld x2 r0_2)⟩]

/-- The store's rectangle is the whole buffer, so every index of the buffer lies in it. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 4000000 in
/-- On whole buffers, the inputs' holding `x0`, `x1`, `x2` and the output's holding anything, the body runs to a state
    where the inputs' are unchanged and the output's holds `out0_3 x0 x1 x2`. (The body also reads the output buffer
    before storing to it; the value read is not used.) -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays at the entry contents; after the body at point `t`, each input's buffer at its
    block and the output's at `out0_3` of the three input blocks; the invariant that of a region touching nothing but
    its windows; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's buffer holds its block when the body is called, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«144474_j77214922048057_1_alg».proof.Proof.Gen.KernelIdeal.Launch
import proofs.«144474_j77214922048057_1_alg».proof.Proof.Gen.KernelIdeal.Skeleton
import proofs.«144474_j77214922048057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1 of the program (the message step: per edge, the source and destination features multiplied entrywise in
    f32; that product and the weight matrix, each rounded to bf16, multiplied with the sums taken in f32 from zero; the
    edge's hidden row plus that; plus the bias row broadcast down the rows), at arbitrary entry contents `V` of the
    core's buffers: each window's block at a grid point, what the body leaves in the output window's buffer as a
    function of the five input blocks, the body's triple, the pipeline's proof data and the body obligation at every
    point. Everything is stated for any float model `F`. -/

-- membership of an index in a rectangle of these extents unfolds once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the source features of the point's edges; its block moves with the point): whenever the proof
    data's array is the entry contents and the body leaves the block in place, the buffer the body is handed at any
    point holds that point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the destination features, likewise moving with the point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the hidden rows of the edges' sources, moving with the point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the weight matrix, one block for the whole grid, fetched at the first point only): at a later
    point the block index has not moved, so the buffer still holds the block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the bias row, likewise one block for the whole grid). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the store take the whole of their buffer -/

abbrev r1_0 : Rect S4000x128 := Rect.unit (s := S4000x128) ![0, 0] S4000x128.size inb_S4000x128_S4000x128_0_0
abbrev r1_3 : Rect S128x128 := Rect.unit (s := S128x128) ![0, 0] S128x128.size inb_S128x128_S128x128_0_0
abbrev r1_4 : Rect S1x128 := Rect.unit (s := S1x128) ![0, 0] S1x128.size inb_S1x128_S1x128_0_0

/-! ## What the body leaves in the output window's buffer -/

/-- The output buffer after the body, as a function of the five input blocks taken in window order (source features,
    destination features, hidden rows, weights, bias): the one store, of the payload at the loaded inputs. The payload
    takes the weights before the hidden rows. -/
def out1_5 (x0 : Vec F S4000x128 .f32) (x1 : Vec F S4000x128 .f32) (x2 : Vec F S4000x128 .f32) (x3 : Vec F S128x128 .f32)
    (x4 : Vec F S1x128 .f32) : Vec F S4000x128 .f32 :=
  View.canon [⟨r1_0, k1_pay1 (View.ld x0 r1_0) (View.ld x1 r1_0) (View.ld x3 r1_3) (View.ld x2 r1_0) (View.ld x4 r1_4)⟩]

/-- The store's rectangle is the whole buffer, so every index of the buffer lies in it. -/
theorem cover1_5 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

/-! ## The body's triple -/

set_option maxHeartbeats 4000000 in
/-- On whole buffers, the inputs' holding `x0` … `x4` and the output's holding anything, the body runs to a state where
    the inputs' are unchanged and the output's holds `out1_5 x0 x1 x2 x3 x4`. (The body also reads the output buffer
    before storing to it; the value read is not used.) -/
theorem sound_kernel1 (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 : Vec F S4000x128 .f32) (x1 : Vec F S4000x128 .f32) (x2 : Vec F S4000x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__msg_kernel i arg1 harg1 arg2 harg2 arg3 harg3 arg4 harg4 arg5 harg5 arg6 harg6) K := by
  simp only [cc1__msg_kernel_eq_skeleton]; unfold cc1__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data on core `c`: the arrays at the entry contents; after the body at point `t`, each input's buffer at its
    block and the output's at `out1_5` of the five input blocks; the invariant that of a region touching nothing but its
    windows; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's buffer holds its block when the body is called, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    is owed pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
import proofs.«144474_j77214922048057_1_alg».proof.Proof.Gen.KernelIdeal.Launch
import proofs.«144474_j77214922048057_1_alg».proof.Proof.Gen.KernelIdeal.Skeleton
import proofs.«144474_j77214922048057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 2 of the program (the update step: the aggregate plus the hidden rows, a leaky rectifier, then each row
    divided by its Euclidean norm bounded below), at arbitrary entry contents `V` of the core's buffers: each window's
    block at a grid point, what the body leaves in the output window's buffer as a function of the two input blocks,
    the body's triple, the pipeline's proof data and the body obligation at every point. Everything is stated for any
    float model `F`. -/

-- membership of an index in a rectangle of these extents unfolds once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the aggregated messages of the point's rows): whenever the proof data's array is the entry
    contents and the body leaves the block in place, the buffer the body is handed at any point holds that point's block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the hidden rows of the same point), likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store take the whole of their buffer -/

abbrev r2_0 : Rect S5000x128 := Rect.unit (s := S5000x128) ![0, 0] S5000x128.size inb_S5000x128_S5000x128_0_0

/-! ## What the body leaves in the output window's buffer -/

/-- The output buffer after the body, as a function of the two input blocks: the one store, of the payload at the
    loaded inputs. -/
def out2_2 (x0 : Vec F S5000x128 .f32) (x1 : Vec F S5000x128 .f32) : Vec F S5000x128 .f32 :=
  View.canon [⟨r2_0, k2_pay1 (View.ld x0 r2_0) (View.ld x1 r2_0)⟩]

/-- The store's rectangle is the whole buffer, so every index of the buffer lies in it. -/
theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 4000000 in
/-- On whole buffers, the inputs' holding `x0`, `x1` and the output's holding anything, the body runs to a state where the
    inputs' are unchanged and the output's holds `out2_2 x0 x1`. (The body also reads the output buffer before storing
    to it; the value read is not used.) -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole)
    (x0 : Vec F S5000x128 .f32) (x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__update_kernel i arg1 harg1 arg2 harg2 arg3 harg3) K := by
  simp only [cc2__update_kernel_eq_skeleton]; unfold cc2__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data on core `c`: the arrays at the entry contents; after the body at point `t`, each input's buffer at its
    block and the output's at `out2_2` of the two input blocks; the invariant that of a region touching nothing but its
    windows; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's buffer holds its block when the body is called, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what
    is owed pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
import proofs.«144474_j77214922048057_1_alg».proof.Proof.Gen.KernelIdeal.Launch
import proofs.«144474_j77214922048057_1_alg».proof.Proof.Gen.KernelIdeal.Skeleton
import proofs.«144474_j77214922048057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3 of the program (a dense layer: the rows of `x` and the weight matrix, each rounded to bf16, multiplied with
    the sums taken in f32 from zero, plus the bias row broadcast down the rows), at arbitrary
    entry contents `V` of the core's buffers: each window's block at a grid point, what the body leaves in the output
    window's buffer as a function of the three input blocks, the body's triple, the pipeline's proof data and the body
    obligation at every point. Everything is stated for any float model `F`. -/

-- membership of an index in a rectangle of these extents unfolds once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the rows of `x`; its block moves with the point): whenever the proof data's array is the entry
    contents and the body leaves the block in place, the buffer the body is handed at any point holds that point's block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the weight matrix, one block for the whole grid, fetched at the first point only): at a later
    point the block index has not moved, so the buffer still holds the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the bias row, likewise one block for the whole grid). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each load and the store take the whole of their buffer -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in the output window's buffer -/

/-- The output buffer after the body, as a function of the three input blocks: the one store, of the payload at the
    loaded inputs. -/
def out3_3 (x0 : Vec F S5000x128 .f32) (x1 : Vec F S128x128 .f32) (x2 : Vec F S1x128 .f32) : Vec F S5000x128 .f32 :=
  View.canon [⟨r3_0, k3_pay1 (View.ld x0 r3_0) (View.ld x1 r3_1) (View.ld x2 r3_2)⟩]

/-- The store's rectangle is the whole buffer, so every index of the buffer lies in it. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 4000000 in
/-- On whole buffers, the inputs' holding `x0`, `x1`, `x2` and the output's holding anything, the body runs to a state
    where the inputs' are unchanged and the output's holds `out3_3 x0 x1 x2`. (The body also reads the output buffer
    before storing to it; the value read is not used.) -/
theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data on core `c`: the arrays at the entry contents; after the body at point `t`, each input's buffer at its
    block and the output's at `out3_3` of the three input blocks; the invariant that of a region touching nothing but
    its windows; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's buffer holds its block when the body is called, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and what
    is owed pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
import proofs.«144474_j77214922048057_1_alg».proof.Proof.Gen.KernelIdeal.Launch
import proofs.«144474_j77214922048057_1_alg».proof.Proof.Gen.KernelIdeal.Skeleton
import proofs.«144474_j77214922048057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4 of the program (the message step: per edge, the source and destination features multiplied entrywise in
    f32; that product and the weight matrix, each rounded to bf16, multiplied with the sums taken in f32 from zero; the
    edge's hidden row plus that; plus the bias row broadcast down the rows), at arbitrary entry contents `V` of the
    core's buffers: each window's block at a grid point, what the body leaves in the output window's buffer as a
    function of the five input blocks, the body's triple, the pipeline's proof data and the body obligation at every
    point. Everything is stated for any float model `F`. -/

-- membership of an index in a rectangle of these extents unfolds once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the source features of the point's edges; its block moves with the point): whenever the proof
    data's array is the entry contents and the body leaves the block in place, the buffer the body is handed at any
    point holds that point's block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the destination features, likewise moving with the point). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the hidden rows of the edges' sources, moving with the point). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (the weight matrix, one block for the whole grid, fetched at the first point only): at a later
    point the block index has not moved, so the buffer still holds the block. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4 (the bias row, likewise one block for the whole grid). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each load and the store take the whole of their buffer -/

abbrev r4_0 : Rect S4000x128 := Rect.unit (s := S4000x128) ![0, 0] S4000x128.size inb_S4000x128_S4000x128_0_0
abbrev r4_3 : Rect S128x128 := Rect.unit (s := S128x128) ![0, 0] S128x128.size inb_S128x128_S128x128_0_0
abbrev r4_4 : Rect S1x128 := Rect.unit (s := S1x128) ![0, 0] S1x128.size inb_S1x128_S1x128_0_0

/-! ## What the body leaves in the output window's buffer -/

/-- The output buffer after the body, as a function of the five input blocks taken in window order (source features,
    destination features, hidden rows, weights, bias): the one store, of the payload at the loaded inputs. The payload
    takes the weights before the hidden rows. -/
def out4_5 (x0 : Vec F S4000x128 .f32) (x1 : Vec F S4000x128 .f32) (x2 : Vec F S4000x128 .f32) (x3 : Vec F S128x128 .f32)
    (x4 : Vec F S1x128 .f32) : Vec F S4000x128 .f32 :=
  View.canon [⟨r4_0, k4_pay1 (View.ld x0 r4_0) (View.ld x1 r4_0) (View.ld x3 r4_3) (View.ld x2 r4_0) (View.ld x4 r4_4)⟩]

/-- The store's rectangle is the whole buffer, so every index of the buffer lies in it. -/
theorem cover4_5 (p0 : Vec F S4000x128 .f32) (y : S4000x128.Idx) :
    ∃ pc ∈ ([⟨r4_0, p0⟩] : List (View.Piece (Elt F) S4000x128 .f32)), y ∈ pc.1.set :=
  View.cover_of_tiled [⟨r4_0, p0⟩] S4000x128.size (by rfl) y

/-! ## The body's triple -/

set_option maxHeartbeats 4000000 in
/-- On whole buffers, the inputs' holding `x0` … `x4` and the output's holding anything, the body runs to a state where
    the inputs' are unchanged and the output's holds `out4_5 x0 x1 x2 x3 x4`. (The body also reads the output buffer
    before storing to it; the value read is not used.) -/
theorem sound_kernel4 (c : Dev nD) (E : Set ℕ) (i : grid4.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 : Vec F S4000x128 .f32) (x1 : Vec F S4000x128 .f32) (x2 : Vec F S4000x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__msg_kernel i arg1 harg1 arg2 harg2 arg3 harg3 arg4 harg4 arg5 harg5 arg6 harg6) K := by
  simp only [cc4__msg_kernel_eq_skeleton]; unfold cc4__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data on core `c`: the arrays at the entry contents; after the body at point `t`, each input's buffer at its
    block and the output's at `out4_5` of the five input blocks; the invariant that of a region touching nothing but its
    windows; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

/-- Each input's buffer holds its block when the body is called, at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and what
    is owed pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Body5.lean ====
import proofs.«144474_j77214922048057_1_alg».proof.Proof.Gen.KernelIdeal.Launch
import proofs.«144474_j77214922048057_1_alg».proof.Proof.Gen.KernelIdeal.Skeleton
import proofs.«144474_j77214922048057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 5 of the program (the update step: the aggregate plus the hidden rows, a leaky rectifier, then each row
    divided by its Euclidean norm bounded below), at arbitrary entry contents `V` of the core's buffers: each window's
    block at a grid point, what the body leaves in the output window's buffer as a function of the two input blocks,
    the body's triple, the pipeline's proof data and the body obligation at every point. Everything is stated for any
    float model `F`. -/

-- membership of an index in a rectangle of these extents unfolds once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the aggregated messages of the point's rows): whenever the proof data's array is the entry
    contents and the body leaves the block in place, the buffer the body is handed at any point holds that point's block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the hidden rows of the same point), likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each load and the store take the whole of their buffer -/

abbrev r5_0 : Rect S5000x128 := Rect.unit (s := S5000x128) ![0, 0] S5000x128.size inb_S5000x128_S5000x128_0_0

/-! ## What the body leaves in the output window's buffer -/

/-- The output buffer after the body, as a function of the two input blocks: the one store, of the payload at the
    loaded inputs. -/
def out5_2 (x0 : Vec F S5000x128 .f32) (x1 : Vec F S5000x128 .f32) : Vec F S5000x128 .f32 :=
  View.canon [⟨r5_0, k5_pay1 (View.ld x0 r5_0) (View.ld x1 r5_0)⟩]

/-- The store's rectangle is the whole buffer, so every index of the buffer lies in it. -/
theorem cover5_2 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 4000000 in
/-- On whole buffers, the inputs' holding `x0`, `x1` and the output's holding anything, the body runs to a state where the
    inputs' are unchanged and the output's holds `out5_2 x0 x1`. (The body also reads the output buffer before storing
    to it; the value read is not used.) -/
theorem sound_kernel5 (c : Dev nD) (E : Set ℕ) (i : grid5.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole)
    (x0 : Vec F S5000x128 .f32) (x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__update_kernel i arg1 harg1 arg2 harg2 arg3 harg3) K := by
  simp only [cc5__update_kernel_eq_skeleton]; unfold cc5__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data on core `c`: the arrays at the entry contents; after the body at point `t`, each input's buffer at its
    block and the output's at `out5_2` of the two input blocks; the invariant that of a region touching nothing but its
    windows; full shares; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's buffer holds its block when the body is called, at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's triple applies; the invariant and what
    is owed pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Body6.lean ====
import proofs.«144474_j77214922048057_1_alg».proof.Proof.Gen.KernelIdeal.Launch
import proofs.«144474_j77214922048057_1_alg».proof.Proof.Gen.KernelIdeal.Skeleton
import proofs.«144474_j77214922048057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 6 of the program (a dense layer: the rows of `x` and the weight matrix, each rounded to bf16, multiplied with
    the sums taken in f32 from zero, plus the bias row broadcast down the rows), at arbitrary
    entry contents `V` of the core's buffers: each window's block at a grid point, what the body leaves in the output
    window's buffer as a function of the three input blocks, the body's triple, the pipeline's proof data and the body
    obligation at every point. Everything is stated for any float model `F`. -/

-- membership of an index in a rectangle of these extents unfolds once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the rows of `x`; its block moves with the point): whenever the proof data's array is the entry
    contents and the body leaves the block in place, the buffer the body is handed at any point holds that point's block. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the weight matrix, one block for the whole grid, fetched at the first point only): at a later
    point the block index has not moved, so the buffer still holds the block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2 (the bias row, likewise one block for the whole grid). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each load and the store take the whole of their buffer -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0

/-! ## What the body leaves in the output window's buffer -/

/-- The output buffer after the body, as a function of the three input blocks: the one store, of the payload at the
    loaded inputs. -/
def out6_3 (x0 : Vec F S5000x128 .f32) (x1 : Vec F S128x128 .f32) (x2 : Vec F S1x128 .f32) : Vec F S5000x128 .f32 :=
  View.canon [⟨r6_0, k6_pay1 (View.ld x0 r6_0) (View.ld x1 r6_1) (View.ld x2 r6_2)⟩]

/-- The store's rectangle is the whole buffer, so every index of the buffer lies in it. -/
theorem cover6_3 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 4000000 in
/-- On whole buffers, the inputs' holding `x0`, `x1`, `x2` and the output's holding anything, the body runs to a state
    where the inputs' are unchanged and the output's holds `out6_3 x0 x1 x2`. (The body also reads the output buffer
    before storing to it; the value read is not used.) -/
theorem sound_kernel6 (c : Dev nD) (E : Set ℕ) (i : grid6.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__dense_kernel i arg1 harg1 arg2 harg2 arg3 harg3 arg4 harg4) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data on core `c`: the arrays at the entry contents; after the body at point `t`, each input's buffer at its
    block and the output's at `out6_3` of the three input blocks; the invariant that of a region touching nothing but
    its windows; full shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

/-- Each input's buffer holds its block when the body is called, at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and what
    is owed pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Body7.lean ====
import proofs.«144474_j77214922048057_1_alg».proof.Proof.Gen.KernelIdeal.Launch
import proofs.«144474_j77214922048057_1_alg».proof.Proof.Gen.KernelIdeal.Skeleton
import proofs.«144474_j77214922048057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 7 of the program (the message step: per edge, the source and destination features multiplied entrywise in
    f32; that product and the weight matrix, each rounded to bf16, multiplied with the sums taken in f32 from zero; the
    edge's hidden row plus that; plus the bias row broadcast down the rows), at arbitrary entry contents `V` of the
    core's buffers: each window's block at a grid point, what the body leaves in the output window's buffer as a
    function of the five input blocks, the body's triple, the pipeline's proof data and the body obligation at every
    point. Everything is stated for any float model `F`. -/

-- membership of an index in a rectangle of these extents unfolds once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the source features of the point's edges; its block moves with the point): whenever the proof
    data's array is the entry contents and the body leaves the block in place, the buffer the body is handed at any
    point holds that point's block. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the destination features, likewise moving with the point). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2 (the hidden rows of the edges' sources, moving with the point). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3 (the weight matrix, one block for the whole grid, fetched at the first point only): at a later
    point the block index has not moved, so the buffer still holds the block. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4 (the bias row, likewise one block for the whole grid). -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each load and the store take the whole of their buffer -/

abbrev r7_0 : Rect S4000x128 := Rect.unit (s := S4000x128) ![0, 0] S4000x128.size inb_S4000x128_S4000x128_0_0
abbrev r7_3 : Rect S128x128 := Rect.unit (s := S128x128) ![0, 0] S128x128.size inb_S128x128_S128x128_0_0
abbrev r7_4 : Rect S1x128 := Rect.unit (s := S1x128) ![0, 0] S1x128.size inb_S1x128_S1x128_0_0

/-! ## What the body leaves in the output window's buffer -/

/-- The output buffer after the body, as a function of the five input blocks taken in window order (source features,
    destination features, hidden rows, weights, bias): the one store, of the payload at the loaded inputs. The payload
    takes the weights before the hidden rows. -/
def out7_5 (x0 : Vec F S4000x128 .f32) (x1 : Vec F S4000x128 .f32) (x2 : Vec F S4000x128 .f32) (x3 : Vec F S128x128 .f32)
    (x4 : Vec F S1x128 .f32) : Vec F S4000x128 .f32 :=
  View.canon [⟨r7_0, k7_pay1 (View.ld x0 r7_0) (View.ld x1 r7_0) (View.ld x3 r7_3) (View.ld x2 r7_0) (View.ld x4 r7_4)⟩]

/-- The store's rectangle is the whole buffer, so every index of the buffer lies in it. -/
theorem cover7_5 (p0 : Vec F S4000x128 .f32) (y : S4000x128.Idx) :
    ∃ pc ∈ ([⟨r7_0, p0⟩] : List (View.Piece (Elt F) S4000x128 .f32)), y ∈ pc.1.set :=
  View.cover_of_tiled [⟨r7_0, p0⟩] S4000x128.size (by rfl) y

/-! ## The body's triple -/

set_option maxHeartbeats 4000000 in
/-- On whole buffers, the inputs' holding `x0` … `x4` and the output's holding anything, the body runs to a state where
    the inputs' are unchanged and the output's holds `out7_5 x0 x1 x2 x3 x4`. (The body also reads the output buffer
    before storing to it; the value read is not used.) -/
theorem sound_kernel7 (c : Dev nD) (E : Set ℕ) (i : grid7.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 : Vec F S4000x128 .f32) (x1 : Vec F S4000x128 .f32) (x2 : Vec F S4000x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E
          (cc7__msg_kernel i arg1 harg1 arg2 harg2 arg3 harg3 arg4 harg4 arg5 harg5 arg6 harg6) K := by
  simp only [cc7__msg_kernel_eq_skeleton]; unfold cc7__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data on core `c`: the arrays at the entry contents; after the body at point `t`, each input's buffer at its
    block and the output's at `out7_5` of the five input blocks; the invariant that of a region touching nothing but its
    windows; full shares; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

/-- Each input's buffer holds its block when the body is called, at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so the body's triple applies; the invariant and what
    is owed pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _
    (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Body8.lean ====
import proofs.«144474_j77214922048057_1_alg».proof.Proof.Gen.KernelIdeal.Launch
import proofs.«144474_j77214922048057_1_alg».proof.Proof.Gen.KernelIdeal.Skeleton
import proofs.«144474_j77214922048057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 8 of the program (the update step: the aggregate plus the hidden rows, a leaky rectifier, then each row
    divided by its Euclidean norm bounded below), at arbitrary entry contents `V` of the core's buffers: each window's
    block at a grid point, what the body leaves in the output window's buffer as a function of the two input blocks,
    the body's triple, the pipeline's proof data and the body obligation at every point. Everything is stated for any
    float model `F`. -/

-- membership of an index in a rectangle of these extents unfolds once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0 (the aggregated messages of the point's rows): whenever the proof data's array is the entry
    contents and the body leaves the block in place, the buffer the body is handed at any point holds that point's block. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1 (the hidden rows of the same point), likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each load and the store take the whole of their buffer -/

abbrev r8_0 : Rect S5000x128 := Rect.unit (s := S5000x128) ![0, 0] S5000x128.size inb_S5000x128_S5000x128_0_0

/-! ## What the body leaves in the output window's buffer -/

/-- The output buffer after the body, as a function of the two input blocks: the one store, of the payload at the
    loaded inputs. -/
def out8_2 (x0 : Vec F S5000x128 .f32) (x1 : Vec F S5000x128 .f32) : Vec F S5000x128 .f32 :=
  View.canon [⟨r8_0, k8_pay1 (View.ld x0 r8_0) (View.ld x1 r8_0)⟩]

/-- The store's rectangle is the whole buffer, so every index of the buffer lies in it. -/
theorem cover8_2 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

/-! ## The body's triple -/

set_option maxHeartbeats 4000000 in
/-- On whole buffers, the inputs' holding `x0`, `x1` and the output's holding anything, the body runs to a state where the
    inputs' are unchanged and the output's holds `out8_2 x0 x1`. (The body also reads the output buffer before storing
    to it; the value read is not used.) -/
theorem sound_kernel8 (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole)
    (x0 : Vec F S5000x128 .f32) (x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__update_kernel i arg1 harg1 arg2 harg2 arg3 harg3) K := by
  simp only [cc8__update_kernel_eq_skeleton]; unfold cc8__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data on core `c`: the arrays at the entry contents; after the body at point `t`, each input's buffer at its
    block and the output's at `out8_2` of the two input blocks; the invariant that of a region touching nothing but its
    windows; full shares; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's buffer holds its block when the body is called, at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so the body's triple applies; the invariant and what
    is owed pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Body9.lean ====
import proofs.«144474_j77214922048057_1_alg».proof.Proof.Gen.KernelIdeal.Launch
import proofs.«144474_j77214922048057_1_alg».proof.Proof.Gen.KernelIdeal.Skeleton
import proofs.«144474_j77214922048057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 9 of the program (the score: row by row, the two gathered feature rows multiplied entrywise and summed along
    the row from zero, giving one column), at arbitrary entry contents `V` of the core's buffers: each window's block at
    a grid point, what the body leaves in the output window's buffer as a function of the two input blocks, the body's
    triple, the pipeline's proof data and the body obligation at every point. Everything is stated for any float model
    `F`. -/

-- membership of an index in a rectangle of these extents unfolds once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at grid point `t`: the window's view of its array at that point, read at the entry contents. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 (the first gathered feature rows of the point): whenever the proof data's array is the entry
    contents and the body leaves the block in place, the buffer the body is handed at any point holds that point's block. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1 (the second gathered feature rows of the same point), likewise. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each load and the store take the whole of their buffer -/

abbrev r9_0 : Rect S1024x512 := Rect.unit (s := S1024x512) ![0, 0] S1024x512.size inb_S1024x512_S1024x512_0_0
abbrev r9_2 : Rect S1024x1 := Rect.unit (s := S1024x1) ![0, 0] S1024x1.size inb_S1024x1_S1024x1_0_0

/-! ## What the body leaves in the output window's buffer -/

/-- The output buffer after the body, as a function of the two input blocks: the one store, of the payload at the
    loaded inputs. -/
def out9_2 (x0 : Vec F S1024x512 .f32) (x1 : Vec F S1024x512 .f32) : Vec F S1024x1 .f32 :=
  View.canon [⟨r9_2, k9_pay1 (View.ld x0 r9_0) (View.ld x1 r9_0)⟩]

/-- The store's rectangle is the whole buffer, so every index of the buffer lies in it. -/
theorem cover9_2 (p0 : Vec F S1024x1 .f32) (y : S1024x1.Idx) :
    ∃ pc ∈ ([⟨r9_2, p0⟩] : List (View.Piece (Elt F) S1024x1 .f32)), y ∈ pc.1.set :=
  View.cover_of_tiled [⟨r9_2, p0⟩] S1024x1.size (by rfl) y

/-! ## The body's triple -/

set_option maxHeartbeats 4000000 in
/-- On whole buffers, the inputs' holding `x0`, `x1` and the output's holding anything, the body runs to a state where the
    inputs' are unchanged and the output's holds `out9_2 x0 x1`. (The body also reads the output buffer before storing
    to it; the value read is not used.) -/
theorem sound_kernel9 (c : Dev nD) (E : Set ℕ) (i : grid9.Coords)
    (arg1 : Memref sig .tc .vmem S1024x512 .f32) (harg1 : arg1.IsWhole) (arg2 : Memref sig .tc .vmem S1024x512 .f32) (harg2 : arg2.IsWhole)
    (arg3 : Memref sig .tc .vmem S1024x1 .f32) (harg3 : arg3.IsWhole)
    (x0 : Vec F S1024x512 .f32) (x1 : Vec F S1024x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9_2 x0 x1)) -∗ K ⟨⟩))
      ⊢ wp frame (wpE (defs₀ (F := F)) Variants.none c none) E (cc9__score_kernel i arg1 harg1 arg2 harg2 arg3 harg3) K := by
  simp only [cc9__score_kernel_eq_skeleton]; unfold cc9__score_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data on core `c`: the arrays at the entry contents; after the body at point `t`, each input's buffer at its
    block and the output's at `out9_2` of the two input blocks; the invariant that of a region touching nothing but its
    windows; full shares; nothing owed. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Each input's buffer holds its block when the body is called, at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' buffers hold their blocks, so the body's triple applies; the invariant and what
    is owed pass through untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Chain.lean ====
import proofs.«144474_j77214922048057_1_alg».proof.Proof.KI.Body0
import proofs.«144474_j77214922048057_1_alg».proof.Proof.KI.Body1
import proofs.«144474_j77214922048057_1_alg».proof.Proof.KI.Body2
import proofs.«144474_j77214922048057_1_alg».proof.Proof.KI.Body3
import proofs.«144474_j77214922048057_1_alg».proof.Proof.KI.Body4
import proofs.«144474_j77214922048057_1_alg».proof.Proof.KI.Body5
import proofs.«144474_j77214922048057_1_alg».proof.Proof.KI.Body6
import proofs.«144474_j77214922048057_1_alg».proof.Proof.KI.Body7
import proofs.«144474_j77214922048057_1_alg».proof.Proof.KI.Body8
import proofs.«144474_j77214922048057_1_alg».proof.Proof.KI.Body9
import proofs.«144474_j77214922048057_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The buffer contents at every boundary of the run

The program is eleven stretches of array operations with ten kernel regions between them. From the launch memory the
contents of a core's buffers are folded through the twenty-one items: a stretch replaces them by what its operations
compute from them; a region replaces its own arrays by what its write-backs leave (an input array is left as found, an
output array is the fold of the blocks written to it) and leaves every other buffer alone. The ten regions' proof data
are each taken at the contents found on entry. Every argument of the program is read back through the fold to the
launch memory: no stretch writes one, and no region has one as its output array. -/

-- deciding that a reference is none of a list of some thirty, among the program's 238, recurses past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After stretch 0: what region 0 (dense) is entered with. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- After region 0: its arrays at what its write-backs leave, every other buffer as it was on entry. -/
abbrev W2 : Dev nD → Valuation τ sig (Elt F) := fun c =>
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
/-- The same read at the TensorCore's references. -/
abbrev V2 : (c : Dev nD) → (b : Ref sig .tc) → Buf (Elt F) ((c : Thread nD τ).loc b) := fun c b => W2 m ρ c b
/-- On leaving region 0 each of its arrays holds what its write-backs leave, and every other buffer what it held on entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After stretch 1: what region 1 (msg) is entered with. -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- After region 1: its arrays at what its write-backs leave, every other buffer as it was on entry. -/
abbrev W4 : Dev nD → Valuation τ sig (Elt F) := fun c =>
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
/-- The same read at the TensorCore's references. -/
abbrev V4 : (c : Dev nD) → (b : Ref sig .tc) → Buf (Elt F) ((c : Thread nD τ).loc b) := fun c b => W4 m ρ c b
/-- On leaving region 1 each of its arrays holds what its write-backs leave, and every other buffer what it held on entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After stretch 2: what region 2 (update) is entered with. -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- After region 2: its arrays at what its write-backs leave, every other buffer as it was on entry. -/
abbrev W6 : Dev nD → Valuation τ sig (Elt F) := fun c =>
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb
/-- The same read at the TensorCore's references. -/
abbrev V6 : (c : Dev nD) → (b : Ref sig .tc) → Buf (Elt F) ((c : Thread nD τ).loc b) := fun c b => W6 m ρ c b
/-- On leaving region 2 each of its arrays holds what its write-backs leave, and every other buffer what it held on entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After stretch 3: what region 3 (dense) is entered with. -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- After region 3: its arrays at what its write-backs leave, every other buffer as it was on entry. -/
abbrev W8 : Dev nD → Valuation τ sig (Elt F) := fun c =>
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb
/-- The same read at the TensorCore's references. -/
abbrev V8 : (c : Dev nD) → (b : Ref sig .tc) → Buf (Elt F) ((c : Thread nD τ).loc b) := fun c b => W8 m ρ c b
/-- On leaving region 3 each of its arrays holds what its write-backs leave, and every other buffer what it held on entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After stretch 4: what region 4 (msg) is entered with. -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- After region 4: its arrays at what its write-backs leave, every other buffer as it was on entry. -/
abbrev W10 : Dev nD → Valuation τ sig (Elt F) := fun c =>
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb
/-- The same read at the TensorCore's references. -/
abbrev V10 : (c : Dev nD) → (b : Ref sig .tc) → Buf (Elt F) ((c : Thread nD τ).loc b) := fun c b => W10 m ρ c b
/-- On leaving region 4 each of its arrays holds what its write-backs leave, and every other buffer what it held on entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After stretch 5: what region 5 (update) is entered with. -/
abbrev W11 : Dev nD → Valuation τ sig (Elt F) := fun c => StableHlo.after hostOps5 (W10 m ρ c)
/-- The same read at the TensorCore's references (what region 5's proof data take). -/
abbrev V11 : (c : Dev nD) → (b : Ref sig .tc) → Buf (Elt F) ((c : Thread nD τ).loc b) := fun c b => W11 m ρ c b
/-- After region 5: its arrays at what its write-backs leave, every other buffer as it was on entry. -/
abbrev W12 : Dev nD → Valuation τ sig (Elt F) := fun c =>
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) :=
  Pipeline.withArrays_of_ne spec5 c _ _ b hb
/-- The same read at the TensorCore's references. -/
abbrev V12 : (c : Dev nD) → (b : Ref sig .tc) → Buf (Elt F) ((c : Thread nD τ).loc b) := fun c b => W12 m ρ c b
/-- On leaving region 5 each of its arrays holds what its write-backs leave, and every other buffer what it held on entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After stretch 6: what region 6 (dense) is entered with. -/
abbrev W13 : Dev nD → Valuation τ sig (Elt F) := fun c => StableHlo.after hostOps6 (W12 m ρ c)
/-- The same read at the TensorCore's references (what region 6's proof data take). -/
abbrev V13 : (c : Dev nD) → (b : Ref sig .tc) → Buf (Elt F) ((c : Thread nD τ).loc b) := fun c b => W13 m ρ c b
/-- After region 6: its arrays at what its write-backs leave, every other buffer as it was on entry. -/
abbrev W14 : Dev nD → Valuation τ sig (Elt F) := fun c =>
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N :=
  Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) :=
  Pipeline.withArrays_of_ne spec6 c _ _ b hb
/-- The same read at the TensorCore's references. -/
abbrev V14 : (c : Dev nD) → (b : Ref sig .tc) → Buf (Elt F) ((c : Thread nD τ).loc b) := fun c b => W14 m ρ c b
/-- On leaving region 6 each of its arrays holds what its write-backs leave, and every other buffer what it held on entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After stretch 7: what region 7 (msg) is entered with. -/
abbrev W15 : Dev nD → Valuation τ sig (Elt F) := fun c => StableHlo.after hostOps7 (W14 m ρ c)
/-- The same read at the TensorCore's references (what region 7's proof data take). -/
abbrev V15 : (c : Dev nD) → (b : Ref sig .tc) → Buf (Elt F) ((c : Thread nD τ).loc b) := fun c b => W15 m ρ c b
/-- After region 7: its arrays at what its write-backs leave, every other buffer as it was on entry. -/
abbrev W16 : Dev nD → Valuation τ sig (Elt F) := fun c =>
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N :=
  Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) :=
  Pipeline.withArrays_of_ne spec7 c _ _ b hb
/-- The same read at the TensorCore's references. -/
abbrev V16 : (c : Dev nD) → (b : Ref sig .tc) → Buf (Elt F) ((c : Thread nD τ).loc b) := fun c b => W16 m ρ c b
/-- On leaving region 7 each of its arrays holds what its write-backs leave, and every other buffer what it held on entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After stretch 8: what region 8 (update) is entered with. -/
abbrev W17 : Dev nD → Valuation τ sig (Elt F) := fun c => StableHlo.after hostOps8 (W16 m ρ c)
/-- The same read at the TensorCore's references (what region 8's proof data take). -/
abbrev V17 : (c : Dev nD) → (b : Ref sig .tc) → Buf (Elt F) ((c : Thread nD τ).loc b) := fun c b => W17 m ρ c b
/-- After region 8: its arrays at what its write-backs leave, every other buffer as it was on entry. -/
abbrev W18 : Dev nD → Valuation τ sig (Elt F) := fun c =>
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N :=
  Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) :=
  Pipeline.withArrays_of_ne spec8 c _ _ b hb
/-- The same read at the TensorCore's references. -/
abbrev V18 : (c : Dev nD) → (b : Ref sig .tc) → Buf (Elt F) ((c : Thread nD τ).loc b) := fun c b => W18 m ρ c b
/-- On leaving region 8 each of its arrays holds what its write-backs leave, and every other buffer what it held on entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After stretch 9: what region 9 (score) is entered with. -/
abbrev W19 : Dev nD → Valuation τ sig (Elt F) := fun c => StableHlo.after hostOps9 (W18 m ρ c)
/-- The same read at the TensorCore's references (what region 9's proof data take). -/
abbrev V19 : (c : Dev nD) → (b : Ref sig .tc) → Buf (Elt F) ((c : Thread nD τ).loc b) := fun c b => W19 m ρ c b
/-- After region 9: its arrays at what its write-backs leave, every other buffer as it was on entry. -/
abbrev W20 : Dev nD → Valuation τ sig (Elt F) := fun c =>
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N :=
  Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) :=
  Pipeline.withArrays_of_ne spec9 c _ _ b hb
/-- The same read at the TensorCore's references. -/
abbrev V20 : (c : Dev nD) → (b : Ref sig .tc) → Buf (Elt F) ((c : Thread nD τ).loc b) := fun c b => W20 m ρ c b
/-- On leaving region 9 each of its arrays holds what its write-backs leave, and every other buffer what it held on entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After the last stretch: the contents the run ends with. -/
abbrev W21 : Dev nD → Valuation τ sig (Elt F) := fun c => StableHlo.after hostOps10 (W20 m ρ c)
/-- The same read at the TensorCore's references. -/
abbrev V21 : (c : Dev nD) → (b : Ref sig .tc) → Buf (Elt F) ((c : Thread nD τ).loc b) := fun c b => W21 m ρ c b

/-! ## One item at a time: what it leaves alone

A stretch leaves alone every reference none of its operations writes. A region leaves alone every buffer but its output
array: a buffer that is no array of the region is bypassed, and an input array is handed back as it was found. -/

theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h

theorem W2_keep (c : Dev nD) (b : Ref sig .tc) (h : b ≠ main_v9) :
    W2 m ρ c (Proc.devRef .tc b) = W1 m ρ c (Proc.devRef .tc b) := by
  by_cases hb : ∀ w, Pipeline.arrRef spec0 w ≠ b
  · exact W2_of_ne m ρ c b hb
  · obtain ⟨w, hw⟩ := not_forall.mp hb
    obtain rfl : Pipeline.arrRef spec0 w = b := not_not.mp hw
    have hin : (cfg0.win w).isOut = false :=
      (by decide : ∀ w : Fin cfg0.W, Pipeline.arrRef spec0 w ≠ main_v9 → (cfg0.win w).isOut = false) w h
    exact (W2_arr m ρ c w).trans (((dat0 (V1 m ρ) c).arrAt_in w hin _).trans (A_eq0 (V1 m ρ) c w))

theorem W3_keep (c : Dev nD) (b : Ref sig .tc) (h : b ∉ hostOps1_W) :
    W3 m ρ c (Proc.devRef .tc b) = W2 m ρ c (Proc.devRef .tc b) :=
  StableHlo.after_of_writes_sub hostOps1 _ hostOps1_writes h

theorem W4_keep (c : Dev nD) (b : Ref sig .tc) (h : b ≠ main_v36) :
    W4 m ρ c (Proc.devRef .tc b) = W3 m ρ c (Proc.devRef .tc b) := by
  by_cases hb : ∀ w, Pipeline.arrRef spec1 w ≠ b
  · exact W4_of_ne m ρ c b hb
  · obtain ⟨w, hw⟩ := not_forall.mp hb
    obtain rfl : Pipeline.arrRef spec1 w = b := not_not.mp hw
    have hin : (cfg1.win w).isOut = false :=
      (by decide : ∀ w : Fin cfg1.W, Pipeline.arrRef spec1 w ≠ main_v36 → (cfg1.win w).isOut = false) w h
    exact (W4_arr m ρ c w).trans (((dat1 (V3 m ρ) c).arrAt_in w hin _).trans (A_eq1 (V3 m ρ) c w))

theorem W5_keep (c : Dev nD) (b : Ref sig .tc) (h : b ∉ hostOps2_W) :
    W5 m ρ c (Proc.devRef .tc b) = W4 m ρ c (Proc.devRef .tc b) :=
  StableHlo.after_of_writes_sub hostOps2 _ hostOps2_writes h

theorem W6_keep (c : Dev nD) (b : Ref sig .tc) (h : b ≠ main_v40) :
    W6 m ρ c (Proc.devRef .tc b) = W5 m ρ c (Proc.devRef .tc b) := by
  by_cases hb : ∀ w, Pipeline.arrRef spec2 w ≠ b
  · exact W6_of_ne m ρ c b hb
  · obtain ⟨w, hw⟩ := not_forall.mp hb
    obtain rfl : Pipeline.arrRef spec2 w = b := not_not.mp hw
    have hin : (cfg2.win w).isOut = false :=
      (by decide : ∀ w : Fin cfg2.W, Pipeline.arrRef spec2 w ≠ main_v40 → (cfg2.win w).isOut = false) w h
    exact (W6_arr m ρ c w).trans (((dat2 (V5 m ρ) c).arrAt_in w hin _).trans (A_eq2 (V5 m ρ) c w))

theorem W7_keep (c : Dev nD) (b : Ref sig .tc) (h : b ∉ hostOps3_W) :
    W7 m ρ c (Proc.devRef .tc b) = W6 m ρ c (Proc.devRef .tc b) :=
  StableHlo.after_of_writes_sub hostOps3 _ hostOps3_writes h

theorem W8_keep (c : Dev nD) (b : Ref sig .tc) (h : b ≠ main_v46) :
    W8 m ρ c (Proc.devRef .tc b) = W7 m ρ c (Proc.devRef .tc b) := by
  by_cases hb : ∀ w, Pipeline.arrRef spec3 w ≠ b
  · exact W8_of_ne m ρ c b hb
  · obtain ⟨w, hw⟩ := not_forall.mp hb
    obtain rfl : Pipeline.arrRef spec3 w = b := not_not.mp hw
    have hin : (cfg3.win w).isOut = false :=
      (by decide : ∀ w : Fin cfg3.W, Pipeline.arrRef spec3 w ≠ main_v46 → (cfg3.win w).isOut = false) w h
    exact (W8_arr m ρ c w).trans (((dat3 (V7 m ρ) c).arrAt_in w hin _).trans (A_eq3 (V7 m ρ) c w))

theorem W9_keep (c : Dev nD) (b : Ref sig .tc) (h : b ∉ hostOps4_W) :
    W9 m ρ c (Proc.devRef .tc b) = W8 m ρ c (Proc.devRef .tc b) :=
  StableHlo.after_of_writes_sub hostOps4 _ hostOps4_writes h

theorem W10_keep (c : Dev nD) (b : Ref sig .tc) (h : b ≠ main_v73) :
    W10 m ρ c (Proc.devRef .tc b) = W9 m ρ c (Proc.devRef .tc b) := by
  by_cases hb : ∀ w, Pipeline.arrRef spec4 w ≠ b
  · exact W10_of_ne m ρ c b hb
  · obtain ⟨w, hw⟩ := not_forall.mp hb
    obtain rfl : Pipeline.arrRef spec4 w = b := not_not.mp hw
    have hin : (cfg4.win w).isOut = false :=
      (by decide : ∀ w : Fin cfg4.W, Pipeline.arrRef spec4 w ≠ main_v73 → (cfg4.win w).isOut = false) w h
    exact (W10_arr m ρ c w).trans (((dat4 (V9 m ρ) c).arrAt_in w hin _).trans (A_eq4 (V9 m ρ) c w))

theorem W11_keep (c : Dev nD) (b : Ref sig .tc) (h : b ∉ hostOps5_W) :
    W11 m ρ c (Proc.devRef .tc b) = W10 m ρ c (Proc.devRef .tc b) :=
  StableHlo.after_of_writes_sub hostOps5 _ hostOps5_writes h

theorem W12_keep (c : Dev nD) (b : Ref sig .tc) (h : b ≠ main_v77) :
    W12 m ρ c (Proc.devRef .tc b) = W11 m ρ c (Proc.devRef .tc b) := by
  by_cases hb : ∀ w, Pipeline.arrRef spec5 w ≠ b
  · exact W12_of_ne m ρ c b hb
  · obtain ⟨w, hw⟩ := not_forall.mp hb
    obtain rfl : Pipeline.arrRef spec5 w = b := not_not.mp hw
    have hin : (cfg5.win w).isOut = false :=
      (by decide : ∀ w : Fin cfg5.W, Pipeline.arrRef spec5 w ≠ main_v77 → (cfg5.win w).isOut = false) w h
    exact (W12_arr m ρ c w).trans (((dat5 (V11 m ρ) c).arrAt_in w hin _).trans (A_eq5 (V11 m ρ) c w))

theorem W13_keep (c : Dev nD) (b : Ref sig .tc) (h : b ∉ hostOps6_W) :
    W13 m ρ c (Proc.devRef .tc b) = W12 m ρ c (Proc.devRef .tc b) :=
  StableHlo.after_of_writes_sub hostOps6 _ hostOps6_writes h

theorem W14_keep (c : Dev nD) (b : Ref sig .tc) (h : b ≠ main_v83) :
    W14 m ρ c (Proc.devRef .tc b) = W13 m ρ c (Proc.devRef .tc b) := by
  by_cases hb : ∀ w, Pipeline.arrRef spec6 w ≠ b
  · exact W14_of_ne m ρ c b hb
  · obtain ⟨w, hw⟩ := not_forall.mp hb
    obtain rfl : Pipeline.arrRef spec6 w = b := not_not.mp hw
    have hin : (cfg6.win w).isOut = false :=
      (by decide : ∀ w : Fin cfg6.W, Pipeline.arrRef spec6 w ≠ main_v83 → (cfg6.win w).isOut = false) w h
    exact (W14_arr m ρ c w).trans (((dat6 (V13 m ρ) c).arrAt_in w hin _).trans (A_eq6 (V13 m ρ) c w))

theorem W15_keep (c : Dev nD) (b : Ref sig .tc) (h : b ∉ hostOps7_W) :
    W15 m ρ c (Proc.devRef .tc b) = W14 m ρ c (Proc.devRef .tc b) :=
  StableHlo.after_of_writes_sub hostOps7 _ hostOps7_writes h

theorem W16_keep (c : Dev nD) (b : Ref sig .tc) (h : b ≠ main_v110) :
    W16 m ρ c (Proc.devRef .tc b) = W15 m ρ c (Proc.devRef .tc b) := by
  by_cases hb : ∀ w, Pipeline.arrRef spec7 w ≠ b
  · exact W16_of_ne m ρ c b hb
  · obtain ⟨w, hw⟩ := not_forall.mp hb
    obtain rfl : Pipeline.arrRef spec7 w = b := not_not.mp hw
    have hin : (cfg7.win w).isOut = false :=
      (by decide : ∀ w : Fin cfg7.W, Pipeline.arrRef spec7 w ≠ main_v110 → (cfg7.win w).isOut = false) w h
    exact (W16_arr m ρ c w).trans (((dat7 (V15 m ρ) c).arrAt_in w hin _).trans (A_eq7 (V15 m ρ) c w))

theorem W17_keep (c : Dev nD) (b : Ref sig .tc) (h : b ∉ hostOps8_W) :
    W17 m ρ c (Proc.devRef .tc b) = W16 m ρ c (Proc.devRef .tc b) :=
  StableHlo.after_of_writes_sub hostOps8 _ hostOps8_writes h

theorem W18_keep (c : Dev nD) (b : Ref sig .tc) (h : b ≠ main_v114) :
    W18 m ρ c (Proc.devRef .tc b) = W17 m ρ c (Proc.devRef .tc b) := by
  by_cases hb : ∀ w, Pipeline.arrRef spec8 w ≠ b
  · exact W18_of_ne m ρ c b hb
  · obtain ⟨w, hw⟩ := not_forall.mp hb
    obtain rfl : Pipeline.arrRef spec8 w = b := not_not.mp hw
    have hin : (cfg8.win w).isOut = false :=
      (by decide : ∀ w : Fin cfg8.W, Pipeline.arrRef spec8 w ≠ main_v114 → (cfg8.win w).isOut = false) w h
    exact (W18_arr m ρ c w).trans (((dat8 (V17 m ρ) c).arrAt_in w hin _).trans (A_eq8 (V17 m ρ) c w))

theorem W19_keep (c : Dev nD) (b : Ref sig .tc) (h : b ∉ hostOps9_W) :
    W19 m ρ c (Proc.devRef .tc b) = W18 m ρ c (Proc.devRef .tc b) :=
  StableHlo.after_of_writes_sub hostOps9 _ hostOps9_writes h

theorem W20_keep (c : Dev nD) (b : Ref sig .tc) (h : b ≠ main_v130) :
    W20 m ρ c (Proc.devRef .tc b) = W19 m ρ c (Proc.devRef .tc b) := by
  by_cases hb : ∀ w, Pipeline.arrRef spec9 w ≠ b
  · exact W20_of_ne m ρ c b hb
  · obtain ⟨w, hw⟩ := not_forall.mp hb
    obtain rfl : Pipeline.arrRef spec9 w = b := not_not.mp hw
    have hin : (cfg9.win w).isOut = false :=
      (by decide : ∀ w : Fin cfg9.W, Pipeline.arrRef spec9 w ≠ main_v130 → (cfg9.win w).isOut = false) w h
    exact (W20_arr m ρ c w).trans (((dat9 (V19 m ρ) c).arrAt_in w hin _).trans (A_eq9 (V19 m ρ) c w))

theorem W21_keep (c : Dev nD) (b : Ref sig .tc) (h : b ∉ hostOps10_W) :
    W21 m ρ c (Proc.devRef .tc b) = W20 m ρ c (Proc.devRef .tc b) :=
  StableHlo.after_of_writes_sub hostOps10 _ hostOps10_writes h

/-! ## The arguments end as launched

No stretch writes an argument and no argument is a region's output array, so each of the twenty-one items leaves it alone. -/

theorem W21_main_arg0 (c : Dev nD) : W21 m ρ c (Proc.devRef .tc main_arg0) = m ((c : Thread nD τ).loc main_arg0) :=
  calc W21 m ρ c (Proc.devRef .tc main_arg0)
    _ = W20 m ρ c (Proc.devRef .tc main_arg0) := W21_keep m ρ c main_arg0 (by decide)
    _ = W19 m ρ c (Proc.devRef .tc main_arg0) := W20_keep m ρ c main_arg0 (by decide)
    _ = W18 m ρ c (Proc.devRef .tc main_arg0) := W19_keep m ρ c main_arg0 (by decide)
    _ = W17 m ρ c (Proc.devRef .tc main_arg0) := W18_keep m ρ c main_arg0 (by decide)
    _ = W16 m ρ c (Proc.devRef .tc main_arg0) := W17_keep m ρ c main_arg0 (by decide)
    _ = W15 m ρ c (Proc.devRef .tc main_arg0) := W16_keep m ρ c main_arg0 (by decide)
    _ = W14 m ρ c (Proc.devRef .tc main_arg0) := W15_keep m ρ c main_arg0 (by decide)
    _ = W13 m ρ c (Proc.devRef .tc main_arg0) := W14_keep m ρ c main_arg0 (by decide)
    _ = W12 m ρ c (Proc.devRef .tc main_arg0) := W13_keep m ρ c main_arg0 (by decide)
    _ = W11 m ρ c (Proc.devRef .tc main_arg0) := W12_keep m ρ c main_arg0 (by decide)
    _ = W10 m ρ c (Proc.devRef .tc main_arg0) := W11_keep m ρ c main_arg0 (by decide)
    _ = W9 m ρ c (Proc.devRef .tc main_arg0) := W10_keep m ρ c main_arg0 (by decide)
    _ = W8 m ρ c (Proc.devRef .tc main_arg0) := W9_keep m ρ c main_arg0 (by decide)
    _ = W7 m ρ c (Proc.devRef .tc main_arg0) := W8_keep m ρ c main_arg0 (by decide)
    _ = W6 m ρ c (Proc.devRef .tc main_arg0) := W7_keep m ρ c main_arg0 (by decide)
    _ = W5 m ρ c (Proc.devRef .tc main_arg0) := W6_keep m ρ c main_arg0 (by decide)
    _ = W4 m ρ c (Proc.devRef .tc main_arg0) := W5_keep m ρ c main_arg0 (by decide)
    _ = W3 m ρ c (Proc.devRef .tc main_arg0) := W4_keep m ρ c main_arg0 (by decide)
    _ = W2 m ρ c (Proc.devRef .tc main_arg0) := W3_keep m ρ c main_arg0 (by decide)
    _ = W1 m ρ c (Proc.devRef .tc main_arg0) := W2_keep m ρ c main_arg0 (by decide)
    _ = W0 m ρ c (Proc.devRef .tc main_arg0) := W1_keep m ρ c main_arg0 (by decide)
    _ = m ((c : Thread nD τ).loc main_arg0) := rfl

theorem W21_main_arg1 (c : Dev nD) : W21 m ρ c (Proc.devRef .tc main_arg1) = m ((c : Thread nD τ).loc main_arg1) :=
  calc W21 m ρ c (Proc.devRef .tc main_arg1)
    _ = W20 m ρ c (Proc.devRef .tc main_arg1) := W21_keep m ρ c main_arg1 (by decide)
    _ = W19 m ρ c (Proc.devRef .tc main_arg1) := W20_keep m ρ c main_arg1 (by decide)
    _ = W18 m ρ c (Proc.devRef .tc main_arg1) := W19_keep m ρ c main_arg1 (by decide)
    _ = W17 m ρ c (Proc.devRef .tc main_arg1) := W18_keep m ρ c main_arg1 (by decide)
    _ = W16 m ρ c (Proc.devRef .tc main_arg1) := W17_keep m ρ c main_arg1 (by decide)
    _ = W15 m ρ c (Proc.devRef .tc main_arg1) := W16_keep m ρ c main_arg1 (by decide)
    _ = W14 m ρ c (Proc.devRef .tc main_arg1) := W15_keep m ρ c main_arg1 (by decide)
    _ = W13 m ρ c (Proc.devRef .tc main_arg1) := W14_keep m ρ c main_arg1 (by decide)
    _ = W12 m ρ c (Proc.devRef .tc main_arg1) := W13_keep m ρ c main_arg1 (by decide)
    _ = W11 m ρ c (Proc.devRef .tc main_arg1) := W12_keep m ρ c main_arg1 (by decide)
    _ = W10 m ρ c (Proc.devRef .tc main_arg1) := W11_keep m ρ c main_arg1 (by decide)
    _ = W9 m ρ c (Proc.devRef .tc main_arg1) := W10_keep m ρ c main_arg1 (by decide)
    _ = W8 m ρ c (Proc.devRef .tc main_arg1) := W9_keep m ρ c main_arg1 (by decide)
    _ = W7 m ρ c (Proc.devRef .tc main_arg1) := W8_keep m ρ c main_arg1 (by decide)
    _ = W6 m ρ c (Proc.devRef .tc main_arg1) := W7_keep m ρ c main_arg1 (by decide)
    _ = W5 m ρ c (Proc.devRef .tc main_arg1) := W6_keep m ρ c main_arg1 (by decide)
    _ = W4 m ρ c (Proc.devRef .tc main_arg1) := W5_keep m ρ c main_arg1 (by decide)
    _ = W3 m ρ c (Proc.devRef .tc main_arg1) := W4_keep m ρ c main_arg1 (by decide)
    _ = W2 m ρ c (Proc.devRef .tc main_arg1) := W3_keep m ρ c main_arg1 (by decide)
    _ = W1 m ρ c (Proc.devRef .tc main_arg1) := W2_keep m ρ c main_arg1 (by decide)
    _ = W0 m ρ c (Proc.devRef .tc main_arg1) := W1_keep m ρ c main_arg1 (by decide)
    _ = m ((c : Thread nD τ).loc main_arg1) := rfl

theorem W21_main_arg2 (c : Dev nD) : W21 m ρ c (Proc.devRef .tc main_arg2) = m ((c : Thread nD τ).loc main_arg2) :=
  calc W21 m ρ c (Proc.devRef .tc main_arg2)
    _ = W20 m ρ c (Proc.devRef .tc main_arg2) := W21_keep m ρ c main_arg2 (by decide)
    _ = W19 m ρ c (Proc.devRef .tc main_arg2) := W20_keep m ρ c main_arg2 (by decide)
    _ = W18 m ρ c (Proc.devRef .tc main_arg2) := W19_keep m ρ c main_arg2 (by decide)
    _ = W17 m ρ c (Proc.devRef .tc main_arg2) := W18_keep m ρ c main_arg2 (by decide)
    _ = W16 m ρ c (Proc.devRef .tc main_arg2) := W17_keep m ρ c main_arg2 (by decide)
    _ = W15 m ρ c (Proc.devRef .tc main_arg2) := W16_keep m ρ c main_arg2 (by decide)
    _ = W14 m ρ c (Proc.devRef .tc main_arg2) := W15_keep m ρ c main_arg2 (by decide)
    _ = W13 m ρ c (Proc.devRef .tc main_arg2) := W14_keep m ρ c main_arg2 (by decide)
    _ = W12 m ρ c (Proc.devRef .tc main_arg2) := W13_keep m ρ c main_arg2 (by decide)
    _ = W11 m ρ c (Proc.devRef .tc main_arg2) := W12_keep m ρ c main_arg2 (by decide)
    _ = W10 m ρ c (Proc.devRef .tc main_arg2) := W11_keep m ρ c main_arg2 (by decide)
    _ = W9 m ρ c (Proc.devRef .tc main_arg2) := W10_keep m ρ c main_arg2 (by decide)
    _ = W8 m ρ c (Proc.devRef .tc main_arg2) := W9_keep m ρ c main_arg2 (by decide)
    _ = W7 m ρ c (Proc.devRef .tc main_arg2) := W8_keep m ρ c main_arg2 (by decide)
    _ = W6 m ρ c (Proc.devRef .tc main_arg2) := W7_keep m ρ c main_arg2 (by decide)
    _ = W5 m ρ c (Proc.devRef .tc main_arg2) := W6_keep m ρ c main_arg2 (by decide)
    _ = W4 m ρ c (Proc.devRef .tc main_arg2) := W5_keep m ρ c main_arg2 (by decide)
    _ = W3 m ρ c (Proc.devRef .tc main_arg2) := W4_keep m ρ c main_arg2 (by decide)
    _ = W2 m ρ c (Proc.devRef .tc main_arg2) := W3_keep m ρ c main_arg2 (by decide)
    _ = W1 m ρ c (Proc.devRef .tc main_arg2) := W2_keep m ρ c main_arg2 (by decide)
    _ = W0 m ρ c (Proc.devRef .tc main_arg2) := W1_keep m ρ c main_arg2 (by decide)
    _ = m ((c : Thread nD τ).loc main_arg2) := rfl

theorem W21_main_arg3 (c : Dev nD) : W21 m ρ c (Proc.devRef .tc main_arg3) = m ((c : Thread nD τ).loc main_arg3) :=
  calc W21 m ρ c (Proc.devRef .tc main_arg3)
    _ = W20 m ρ c (Proc.devRef .tc main_arg3) := W21_keep m ρ c main_arg3 (by decide)
    _ = W19 m ρ c (Proc.devRef .tc main_arg3) := W20_keep m ρ c main_arg3 (by decide)
    _ = W18 m ρ c (Proc.devRef .tc main_arg3) := W19_keep m ρ c main_arg3 (by decide)
    _ = W17 m ρ c (Proc.devRef .tc main_arg3) := W18_keep m ρ c main_arg3 (by decide)
    _ = W16 m ρ c (Proc.devRef .tc main_arg3) := W17_keep m ρ c main_arg3 (by decide)
    _ = W15 m ρ c (Proc.devRef .tc main_arg3) := W16_keep m ρ c main_arg3 (by decide)
    _ = W14 m ρ c (Proc.devRef .tc main_arg3) := W15_keep m ρ c main_arg3 (by decide)
    _ = W13 m ρ c (Proc.devRef .tc main_arg3) := W14_keep m ρ c main_arg3 (by decide)
    _ = W12 m ρ c (Proc.devRef .tc main_arg3) := W13_keep m ρ c main_arg3 (by decide)
    _ = W11 m ρ c (Proc.devRef .tc main_arg3) := W12_keep m ρ c main_arg3 (by decide)
    _ = W10 m ρ c (Proc.devRef .tc main_arg3) := W11_keep m ρ c main_arg3 (by decide)
    _ = W9 m ρ c (Proc.devRef .tc main_arg3) := W10_keep m ρ c main_arg3 (by decide)
    _ = W8 m ρ c (Proc.devRef .tc main_arg3) := W9_keep m ρ c main_arg3 (by decide)
    _ = W7 m ρ c (Proc.devRef .tc main_arg3) := W8_keep m ρ c main_arg3 (by decide)
    _ = W6 m ρ c (Proc.devRef .tc main_arg3) := W7_keep m ρ c main_arg3 (by decide)
    _ = W5 m ρ c (Proc.devRef .tc main_arg3) := W6_keep m ρ c main_arg3 (by decide)
    _ = W4 m ρ c (Proc.devRef .tc main_arg3) := W5_keep m ρ c main_arg3 (by decide)
    _ = W3 m ρ c (Proc.devRef .tc main_arg3) := W4_keep m ρ c main_arg3 (by decide)
    _ = W2 m ρ c (Proc.devRef .tc main_arg3) := W3_keep m ρ c main_arg3 (by decide)
    _ = W1 m ρ c (Proc.devRef .tc main_arg3) := W2_keep m ρ c main_arg3 (by decide)
    _ = W0 m ρ c (Proc.devRef .tc main_arg3) := W1_keep m ρ c main_arg3 (by decide)
    _ = m ((c : Thread nD τ).loc main_arg3) := rfl

theorem W21_main_arg4 (c : Dev nD) : W21 m ρ c (Proc.devRef .tc main_arg4) = m ((c : Thread nD τ).loc main_arg4) :=
  calc W21 m ρ c (Proc.devRef .tc main_arg4)
    _ = W20 m ρ c (Proc.devRef .tc main_arg4) := W21_keep m ρ c main_arg4 (by decide)
    _ = W19 m ρ c (Proc.devRef .tc main_arg4) := W20_keep m ρ c main_arg4 (by decide)
    _ = W18 m ρ c (Proc.devRef .tc main_arg4) := W19_keep m ρ c main_arg4 (by decide)
    _ = W17 m ρ c (Proc.devRef .tc main_arg4) := W18_keep m ρ c main_arg4 (by decide)
    _ = W16 m ρ c (Proc.devRef .tc main_arg4) := W17_keep m ρ c main_arg4 (by decide)
    _ = W15 m ρ c (Proc.devRef .tc main_arg4) := W16_keep m ρ c main_arg4 (by decide)
    _ = W14 m ρ c (Proc.devRef .tc main_arg4) := W15_keep m ρ c main_arg4 (by decide)
    _ = W13 m ρ c (Proc.devRef .tc main_arg4) := W14_keep m ρ c main_arg4 (by decide)
    _ = W12 m ρ c (Proc.devRef .tc main_arg4) := W13_keep m ρ c main_arg4 (by decide)
    _ = W11 m ρ c (Proc.devRef .tc main_arg4) := W12_keep m ρ c main_arg4 (by decide)
    _ = W10 m ρ c (Proc.devRef .tc main_arg4) := W11_keep m ρ c main_arg4 (by decide)
    _ = W9 m ρ c (Proc.devRef .tc main_arg4) := W10_keep m ρ c main_arg4 (by decide)
    _ = W8 m ρ c (Proc.devRef .tc main_arg4) := W9_keep m ρ c main_arg4 (by decide)
    _ = W7 m ρ c (Proc.devRef .tc main_arg4) := W8_keep m ρ c main_arg4 (by decide)
    _ = W6 m ρ c (Proc.devRef .tc main_arg4) := W7_keep m ρ c main_arg4 (by decide)
    _ = W5 m ρ c (Proc.devRef .tc main_arg4) := W6_keep m ρ c main_arg4 (by decide)
    _ = W4 m ρ c (Proc.devRef .tc main_arg4) := W5_keep m ρ c main_arg4 (by decide)
    _ = W3 m ρ c (Proc.devRef .tc main_arg4) := W4_keep m ρ c main_arg4 (by decide)
    _ = W2 m ρ c (Proc.devRef .tc main_arg4) := W3_keep m ρ c main_arg4 (by decide)
    _ = W1 m ρ c (Proc.devRef .tc main_arg4) := W2_keep m ρ c main_arg4 (by decide)
    _ = W0 m ρ c (Proc.devRef .tc main_arg4) := W1_keep m ρ c main_arg4 (by decide)
    _ = m ((c : Thread nD τ).loc main_arg4) := rfl

theorem W21_main_arg5 (c : Dev nD) : W21 m ρ c (Proc.devRef .tc main_arg5) = m ((c : Thread nD τ).loc main_arg5) :=
  calc W21 m ρ c (Proc.devRef .tc main_arg5)
    _ = W20 m ρ c (Proc.devRef .tc main_arg5) := W21_keep m ρ c main_arg5 (by decide)
    _ = W19 m ρ c (Proc.devRef .tc main_arg5) := W20_keep m ρ c main_arg5 (by decide)
    _ = W18 m ρ c (Proc.devRef .tc main_arg5) := W19_keep m ρ c main_arg5 (by decide)
    _ = W17 m ρ c (Proc.devRef .tc main_arg5) := W18_keep m ρ c main_arg5 (by decide)
    _ = W16 m ρ c (Proc.devRef .tc main_arg5) := W17_keep m ρ c main_arg5 (by decide)
    _ = W15 m ρ c (Proc.devRef .tc main_arg5) := W16_keep m ρ c main_arg5 (by decide)
    _ = W14 m ρ c (Proc.devRef .tc main_arg5) := W15_keep m ρ c main_arg5 (by decide)
    _ = W13 m ρ c (Proc.devRef .tc main_arg5) := W14_keep m ρ c main_arg5 (by decide)
    _ = W12 m ρ c (Proc.devRef .tc main_arg5) := W13_keep m ρ c main_arg5 (by decide)
    _ = W11 m ρ c (Proc.devRef .tc main_arg5) := W12_keep m ρ c main_arg5 (by decide)
    _ = W10 m ρ c (Proc.devRef .tc main_arg5) := W11_keep m ρ c main_arg5 (by decide)
    _ = W9 m ρ c (Proc.devRef .tc main_arg5) := W10_keep m ρ c main_arg5 (by decide)
    _ = W8 m ρ c (Proc.devRef .tc main_arg5) := W9_keep m ρ c main_arg5 (by decide)
    _ = W7 m ρ c (Proc.devRef .tc main_arg5) := W8_keep m ρ c main_arg5 (by decide)
    _ = W6 m ρ c (Proc.devRef .tc main_arg5) := W7_keep m ρ c main_arg5 (by decide)
    _ = W5 m ρ c (Proc.devRef .tc main_arg5) := W6_keep m ρ c main_arg5 (by decide)
    _ = W4 m ρ c (Proc.devRef .tc main_arg5) := W5_keep m ρ c main_arg5 (by decide)
    _ = W3 m ρ c (Proc.devRef .tc main_arg5) := W4_keep m ρ c main_arg5 (by decide)
    _ = W2 m ρ c (Proc.devRef .tc main_arg5) := W3_keep m ρ c main_arg5 (by decide)
    _ = W1 m ρ c (Proc.devRef .tc main_arg5) := W2_keep m ρ c main_arg5 (by decide)
    _ = W0 m ρ c (Proc.devRef .tc main_arg5) := W1_keep m ρ c main_arg5 (by decide)
    _ = m ((c : Thread nD τ).loc main_arg5) := rfl

theorem W21_main_arg6 (c : Dev nD) : W21 m ρ c (Proc.devRef .tc main_arg6) = m ((c : Thread nD τ).loc main_arg6) :=
  calc W21 m ρ c (Proc.devRef .tc main_arg6)
    _ = W20 m ρ c (Proc.devRef .tc main_arg6) := W21_keep m ρ c main_arg6 (by decide)
    _ = W19 m ρ c (Proc.devRef .tc main_arg6) := W20_keep m ρ c main_arg6 (by decide)
    _ = W18 m ρ c (Proc.devRef .tc main_arg6) := W19_keep m ρ c main_arg6 (by decide)
    _ = W17 m ρ c (Proc.devRef .tc main_arg6) := W18_keep m ρ c main_arg6 (by decide)
    _ = W16 m ρ c (Proc.devRef .tc main_arg6) := W17_keep m ρ c main_arg6 (by decide)
    _ = W15 m ρ c (Proc.devRef .tc main_arg6) := W16_keep m ρ c main_arg6 (by decide)
    _ = W14 m ρ c (Proc.devRef .tc main_arg6) := W15_keep m ρ c main_arg6 (by decide)
    _ = W13 m ρ c (Proc.devRef .tc main_arg6) := W14_keep m ρ c main_arg6 (by decide)
    _ = W12 m ρ c (Proc.devRef .tc main_arg6) := W13_keep m ρ c main_arg6 (by decide)
    _ = W11 m ρ c (Proc.devRef .tc main_arg6) := W12_keep m ρ c main_arg6 (by decide)
    _ = W10 m ρ c (Proc.devRef .tc main_arg6) := W11_keep m ρ c main_arg6 (by decide)
    _ = W9 m ρ c (Proc.devRef .tc main_arg6) := W10_keep m ρ c main_arg6 (by decide)
    _ = W8 m ρ c (Proc.devRef .tc main_arg6) := W9_keep m ρ c main_arg6 (by decide)
    _ = W7 m ρ c (Proc.devRef .tc main_arg6) := W8_keep m ρ c main_arg6 (by decide)
    _ = W6 m ρ c (Proc.devRef .tc main_arg6) := W7_keep m ρ c main_arg6 (by decide)
    _ = W5 m ρ c (Proc.devRef .tc main_arg6) := W6_keep m ρ c main_arg6 (by decide)
    _ = W4 m ρ c (Proc.devRef .tc main_arg6) := W5_keep m ρ c main_arg6 (by decide)
    _ = W3 m ρ c (Proc.devRef .tc main_arg6) := W4_keep m ρ c main_arg6 (by decide)
    _ = W2 m ρ c (Proc.devRef .tc main_arg6) := W3_keep m ρ c main_arg6 (by decide)
    _ = W1 m ρ c (Proc.devRef .tc main_arg6) := W2_keep m ρ c main_arg6 (by decide)
    _ = W0 m ρ c (Proc.devRef .tc main_arg6) := W1_keep m ρ c main_arg6 (by decide)
    _ = m ((c : Thread nD τ).loc main_arg6) := rfl

theorem W21_main_arg7 (c : Dev nD) : W21 m ρ c (Proc.devRef .tc main_arg7) = m ((c : Thread nD τ).loc main_arg7) :=
  calc W21 m ρ c (Proc.devRef .tc main_arg7)
    _ = W20 m ρ c (Proc.devRef .tc main_arg7) := W21_keep m ρ c main_arg7 (by decide)
    _ = W19 m ρ c (Proc.devRef .tc main_arg7) := W20_keep m ρ c main_arg7 (by decide)
    _ = W18 m ρ c (Proc.devRef .tc main_arg7) := W19_keep m ρ c main_arg7 (by decide)
    _ = W17 m ρ c (Proc.devRef .tc main_arg7) := W18_keep m ρ c main_arg7 (by decide)
    _ = W16 m ρ c (Proc.devRef .tc main_arg7) := W17_keep m ρ c main_arg7 (by decide)
    _ = W15 m ρ c (Proc.devRef .tc main_arg7) := W16_keep m ρ c main_arg7 (by decide)
    _ = W14 m ρ c (Proc.devRef .tc main_arg7) := W15_keep m ρ c main_arg7 (by decide)
    _ = W13 m ρ c (Proc.devRef .tc main_arg7) := W14_keep m ρ c main_arg7 (by decide)
    _ = W12 m ρ c (Proc.devRef .tc main_arg7) := W13_keep m ρ c main_arg7 (by decide)
    _ = W11 m ρ c (Proc.devRef .tc main_arg7) := W12_keep m ρ c main_arg7 (by decide)
    _ = W10 m ρ c (Proc.devRef .tc main_arg7) := W11_keep m ρ c main_arg7 (by decide)
    _ = W9 m ρ c (Proc.devRef .tc main_arg7) := W10_keep m ρ c main_arg7 (by decide)
    _ = W8 m ρ c (Proc.devRef .tc main_arg7) := W9_keep m ρ c main_arg7 (by decide)
    _ = W7 m ρ c (Proc.devRef .tc main_arg7) := W8_keep m ρ c main_arg7 (by decide)
    _ = W6 m ρ c (Proc.devRef .tc main_arg7) := W7_keep m ρ c main_arg7 (by decide)
    _ = W5 m ρ c (Proc.devRef .tc main_arg7) := W6_keep m ρ c main_arg7 (by decide)
    _ = W4 m ρ c (Proc.devRef .tc main_arg7) := W5_keep m ρ c main_arg7 (by decide)
    _ = W3 m ρ c (Proc.devRef .tc main_arg7) := W4_keep m ρ c main_arg7 (by decide)
    _ = W2 m ρ c (Proc.devRef .tc main_arg7) := W3_keep m ρ c main_arg7 (by decide)
    _ = W1 m ρ c (Proc.devRef .tc main_arg7) := W2_keep m ρ c main_arg7 (by decide)
    _ = W0 m ρ c (Proc.devRef .tc main_arg7) := W1_keep m ρ c main_arg7 (by decide)
    _ = m ((c : Thread nD τ).loc main_arg7) := rfl

theorem W21_main_arg8 (c : Dev nD) : W21 m ρ c (Proc.devRef .tc main_arg8) = m ((c : Thread nD τ).loc main_arg8) :=
  calc W21 m ρ c (Proc.devRef .tc main_arg8)
    _ = W20 m ρ c (Proc.devRef .tc main_arg8) := W21_keep m ρ c main_arg8 (by decide)
    _ = W19 m ρ c (Proc.devRef .tc main_arg8) := W20_keep m ρ c main_arg8 (by decide)
    _ = W18 m ρ c (Proc.devRef .tc main_arg8) := W19_keep m ρ c main_arg8 (by decide)
    _ = W17 m ρ c (Proc.devRef .tc main_arg8) := W18_keep m ρ c main_arg8 (by decide)
    _ = W16 m ρ c (Proc.devRef .tc main_arg8) := W17_keep m ρ c main_arg8 (by decide)
    _ = W15 m ρ c (Proc.devRef .tc main_arg8) := W16_keep m ρ c main_arg8 (by decide)
    _ = W14 m ρ c (Proc.devRef .tc main_arg8) := W15_keep m ρ c main_arg8 (by decide)
    _ = W13 m ρ c (Proc.devRef .tc main_arg8) := W14_keep m ρ c main_arg8 (by decide)
    _ = W12 m ρ c (Proc.devRef .tc main_arg8) := W13_keep m ρ c main_arg8 (by decide)
    _ = W11 m ρ c (Proc.devRef .tc main_arg8) := W12_keep m ρ c main_arg8 (by decide)
    _ = W10 m ρ c (Proc.devRef .tc main_arg8) := W11_keep m ρ c main_arg8 (by decide)
    _ = W9 m ρ c (Proc.devRef .tc main_arg8) := W10_keep m ρ c main_arg8 (by decide)
    _ = W8 m ρ c (Proc.devRef .tc main_arg8) := W9_keep m ρ c main_arg8 (by decide)
    _ = W7 m ρ c (Proc.devRef .tc main_arg8) := W8_keep m ρ c main_arg8 (by decide)
    _ = W6 m ρ c (Proc.devRef .tc main_arg8) := W7_keep m ρ c main_arg8 (by decide)
    _ = W5 m ρ c (Proc.devRef .tc main_arg8) := W6_keep m ρ c main_arg8 (by decide)
    _ = W4 m ρ c (Proc.devRef .tc main_arg8) := W5_keep m ρ c main_arg8 (by decide)
    _ = W3 m ρ c (Proc.devRef .tc main_arg8) := W4_keep m ρ c main_arg8 (by decide)
    _ = W2 m ρ c (Proc.devRef .tc main_arg8) := W3_keep m ρ c main_arg8 (by decide)
    _ = W1 m ρ c (Proc.devRef .tc main_arg8) := W2_keep m ρ c main_arg8 (by decide)
    _ = W0 m ρ c (Proc.devRef .tc main_arg8) := W1_keep m ρ c main_arg8 (by decide)
    _ = m ((c : Thread nD τ).loc main_arg8) := rfl

/-! ## The proof data family and what rides beside the buffers -/

/-- No region prefetches a table. -/
abbrev adm : (p : Fin 10) → (pcfgs (F := F) p).Adm := fun p => (cfgs p).toPCfg_adm
/-- The ten regions' proof data, each at the contents its region is entered with. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers a core keeps its generator register, at some state, and owes nothing. -/
abbrev R (c : Dev nD) : sProp 𝕄 := iprop((∃ r, prngReg c r) ∗ ∃ W, owes (c : Thread nD τ) (0 : CellTallies nD τ sig Unit) W)
/-- A stretch of array operations as a segment of the run: from the unscoped buffers at contents `W` to the same buffers
    at what the operations compute from `W`, the rest `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is one of the buffers held through the run. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Reg0.lean ====
import proofs.«144474_j77214922048057_1_alg».proof.Proof.KI.Chain

/-! # Region 0 (dense) as a segment of the run

Entered with every unscoped buffer at the contents after stretch 0, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 0. -/

-- deciding that a reference is none of a list of some thirty, among the program's 238, recurses past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
import proofs.«144474_j77214922048057_1_alg».proof.Proof.KI.Chain

/-! # Region 1 (msg) as a segment of the run

Entered with every unscoped buffer at the contents after stretch 1, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 1. -/

-- deciding that a reference is none of a list of some thirty, among the program's 238, recurses past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
import proofs.«144474_j77214922048057_1_alg».proof.Proof.KI.Chain

/-! # Region 2 (update) as a segment of the run

Entered with every unscoped buffer at the contents after stretch 2, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 2. -/

-- deciding that a reference is none of a list of some thirty, among the program's 238, recurses past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
import proofs.«144474_j77214922048057_1_alg».proof.Proof.KI.Chain

/-! # Region 3 (dense) as a segment of the run

Entered with every unscoped buffer at the contents after stretch 3, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 3. -/

-- deciding that a reference is none of a list of some thirty, among the program's 238, recurses past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
import proofs.«144474_j77214922048057_1_alg».proof.Proof.KI.Chain

/-! # Region 4 (msg) as a segment of the run

Entered with every unscoped buffer at the contents after stretch 4, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 4. -/

-- deciding that a reference is none of a list of some thirty, among the program's 238, recurses past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
import proofs.«144474_j77214922048057_1_alg».proof.Proof.KI.Chain

/-! # Region 5 (update) as a segment of the run

Entered with every unscoped buffer at the contents after stretch 5, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 5. -/

-- deciding that a reference is none of a list of some thirty, among the program's 238, recurses past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg6.lean ====
import proofs.«144474_j77214922048057_1_alg».proof.Proof.KI.Chain

/-! # Region 6 (dense) as a segment of the run

Entered with every unscoped buffer at the contents after stretch 6, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 6. -/

-- deciding that a reference is none of a list of some thirty, among the program's 238, recurses past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg7.lean ====
import proofs.«144474_j77214922048057_1_alg».proof.Proof.KI.Chain

/-! # Region 7 (msg) as a segment of the run

Entered with every unscoped buffer at the contents after stretch 7, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 7. -/

-- deciding that a reference is none of a list of some thirty, among the program's 238, recurses past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg8.lean ====
import proofs.«144474_j77214922048057_1_alg».proof.Proof.KI.Chain

/-! # Region 8 (update) as a segment of the run

Entered with every unscoped buffer at the contents after stretch 8, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 8. -/

-- deciding that a reference is none of a list of some thirty, among the program's 238, recurses past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg9.lean ====
import proofs.«144474_j77214922048057_1_alg».proof.Proof.KI.Chain

/-! # Region 9 (score) as a segment of the run

Entered with every unscoped buffer at the contents after stretch 9, the region's arrays are split out of those buffers
and handed to the pipeline at its proof data's entry contents; the generator register goes into the pipeline's invariant
and comes back; nothing is owed and the kernel has no semaphore of its own. At the exit the arrays, at what the
write-backs leave, are put back beside the untouched buffers: every unscoped buffer at the contents after region 9. -/

-- deciding that a reference is none of a list of some thirty, among the program's 238, recurses past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over a pinned configuration unifies with this program's configuration only when
-- unification may unfold plain definitions in a metavariable's type
set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«144474_j77214922048057_1_alg».proof.Proof.KI.Reg0
import proofs.«144474_j77214922048057_1_alg».proof.Proof.KI.Reg1
import proofs.«144474_j77214922048057_1_alg».proof.Proof.KI.Reg2
import proofs.«144474_j77214922048057_1_alg».proof.Proof.KI.Reg3
import proofs.«144474_j77214922048057_1_alg».proof.Proof.KI.Reg4
import proofs.«144474_j77214922048057_1_alg».proof.Proof.KI.Reg5
import proofs.«144474_j77214922048057_1_alg».proof.Proof.KI.Reg6
import proofs.«144474_j77214922048057_1_alg».proof.Proof.KI.Reg7
import proofs.«144474_j77214922048057_1_alg».proof.Proof.KI.Reg8
import proofs.«144474_j77214922048057_1_alg».proof.Proof.KI.Reg9

/-! # The run

The program is the twenty-one segments in order: a stretch of array operations from its boundary's contents, then a
region, and so on to the last stretch. Each segment is entered with what the one before it leaves, so from any launch
memory with zero counters every weakly fair execution on the TensorCores terminates without fault, and in the final
memory every unscoped buffer of a core holds the last boundary's contents. In particular every argument is as launched. -/

-- deciding that a reference is none of a list of some thirty, among the program's 238, recurses past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The twenty-one segments in the program's order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)) ]
/-- The program is the run of the segments: it is the chain of the same items. -/
theorem main_run (c : Dev nD) : main (F := F) c = Pipeline.Seg.run (segs m ρ) := (main_chain c).trans (by chain_rfl)

/-- What a core holds when the run ends, its dues apart: every unscoped buffer at the last boundary's contents and the
    generator register at some state. -/
abbrev Tₙ (c : Dev nD) : sProp 𝕄 := iprop(StableHlo.held (c : Thread nD τ) (Pipeline.ucRefs τ sig) (W21 m ρ c) ∗ ∃ r, prngReg c r)

/-- What the last stretch leaves is the end state beside the core owing nothing (the same three parts, grouped the other way). -/
theorem end_state (c : Dev nD) :
    iprop(StableHlo.held (c : Thread nD τ) (Pipeline.ucRefs τ sig) (W21 m ρ c)
        ∗ ((∃ r, prngReg c r) ∗ ∃ W, owes (c : Thread nD τ) (0 : CellTallies nD τ sig Unit) W))
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh] <;> iassumption
  iexact HO

-- the launch theorem's implicit arguments are found by unifying its conclusion with this one, which takes unfolding
-- plain definitions in a metavariable's type
set_option backward.isDefEq.respectTransparency.types false in
/-- From any memory with zero counters, every weakly fair execution of the program on the TensorCores terminates, nothing
    faulting, and in every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => end_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

/-- Every argument of the program ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W21_main_arg0 m ρ c),
      (h c _ (mem_uc main_arg1 (by decide))).trans (W21_main_arg1 m ρ c),
      (h c _ (mem_uc main_arg2 (by decide))).trans (W21_main_arg2 m ρ c),
      (h c _ (mem_uc main_arg3 (by decide))).trans (W21_main_arg3 m ρ c),
      (h c _ (mem_uc main_arg4 (by decide))).trans (W21_main_arg4 m ρ c),
      (h c _ (mem_uc main_arg5 (by decide))).trans (W21_main_arg5 m ρ c),
      (h c _ (mem_uc main_arg6 (by decide))).trans (W21_main_arg6 m ρ c),
      (h c _ (mem_uc main_arg7 (by decide))).trans (W21_main_arg7 m ρ c),
      (h c _ (mem_uc main_arg8 (by decide))).trans (W21_main_arg8 m ρ c)⟩) (run_all m ρ)

/-- info: 'Cert.KernelIdeal.Hand.frame' depends on axioms: [propext, Classical.choice, Quot.sound] -/
#guard_msgs in #print axioms frame

end Cert.KernelIdeal.Hand

end
-- ==== Proof.Ref.List.lean ====
import proofs.«144474_j77214922048057_1_alg».proof.Proof.Gen.ReferenceIdeal

/-!
The reference program's @main as lists of host operations, one list per stage of the computation, in order, and for
each list the buffers its operations write, one per operation. The three calls of the outlined rectifier are its
operations in place, over each call's own buffers. Every buffer is written by exactly one operation.
-/

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

/-- The two rows of the edge list, each as a vector of 800000 indices. -/
abbrev segI : List (HloOp τ sig (Elt F)) :=
  [ unary main_arg6 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg6 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- The buffers `segI` writes, one per operation, in order. -/
abbrev segI_W : List (Ref sig .tc) :=
  [main_v0, main_v1, main_v2, main_v3]

/-- Layer 0 up to the aggregated messages: the node projection, the three row gathers, the edge message, the scatter-add into target rows. -/
abbrev segB0 : List (HloOp τ sig (Elt F)) :=
  [ unary main_arg2 main_v4 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v4 main_v5 rfl shapeCasts_S1x128x128_S128x128,
    binary main_arg0 main_v5 main_v6 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v7 ((extractStridedSlice S1x128 ![0, 0] · slices_S3x128_S1x128_0_0) : (⟨S3x128, .f32⟩ : BufTy).Contents (Elt F) → (⟨S1x128, .f32⟩ : BufTy).Contents (Elt F)),
    reshape main_v7 main_v8 rfl shapeCasts_S1x128_S128,
    unary main_v8 main_v9 (broadcastInDim S1x128 ![1] bcast_S128_S1x128_1 : (⟨S128, .f32⟩ : BufTy).Contents (Elt F) → (⟨S1x128, .f32⟩ : BufTy).Contents (Elt F)),
    unary main_v9 main_v10 (broadcastInDim S50000x128 ![0, 1] bcast_S1x128_S50000x128_0_1 : (⟨S1x128, .f32⟩ : BufTy).Contents (Elt F) → (⟨S50000x128, .f32⟩ : BufTy).Contents (Elt F)),
    binary main_v6 main_v10 main_v11 (addf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v11 main_v17 main_v18 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v19 (broadcastInDim S800000 ![] bcast_S_S800000 : (⟨S_, .i32⟩ : BufTy).Contents (Elt F) → (⟨S800000, .i32⟩ : BufTy).Contents (Elt F)),
    binary main_v1 main_v19 main_v20 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v21 (broadcastInDim S800000 ![] bcast_S_S800000 : (⟨S_, .i32⟩ : BufTy).Contents (Elt F) → (⟨S800000, .i32⟩ : BufTy).Contents (Elt F)),
    binary main_v1 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_arg0 main_v24 main_v25 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_3 (constantI S_ 32 0#32),
    unary main_c_3 main_v26 (broadcastInDim S800000 ![] bcast_S_S800000 : (⟨S_, .i32⟩ : BufTy).Contents (Elt F) → (⟨S800000, .i32⟩ : BufTy).Contents (Elt F)),
    binary main_v3 main_v26 main_v27 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v28 (broadcastInDim S800000 ![] bcast_S_S800000 : (⟨S_, .i32⟩ : BufTy).Contents (Elt F) → (⟨S800000, .i32⟩ : BufTy).Contents (Elt F)),
    binary main_v3 main_v28 main_v29 (addi : (⟨S800000, .i32⟩ : BufTy).Contents (Elt F) → (⟨S800000, .i32⟩ : BufTy).Contents (Elt F) → (⟨S800000, .i32⟩ : BufTy).Contents (Elt F)),
    ternary main_v27 main_v29 main_v3 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v30 main_v31 (broadcastInDim S800000x1 ![0] bcast_S800000_S800000x1_0 : (⟨S800000, .i32⟩ : BufTy).Contents (Elt F) → (⟨S800000x1, .i32⟩ : BufTy).Contents (Elt F)),
    binary main_arg0 main_v31 main_v32 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v25 main_v32 main_v33 (mulf : (⟨S800000x128, .f32⟩ : BufTy).Contents (Elt F) → (⟨S800000x128, .f32⟩ : BufTy).Contents (Elt F) → (⟨S800000x128, .f32⟩ : BufTy).Contents (Elt F)),
    unary main_arg3 main_v34 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v34 main_v35 rfl shapeCasts_S1x128x128_S128x128,
    binary main_v33 main_v35 main_v36 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    binary main_v18 main_v36 main_v37 (addf : (⟨S800000x128, .f32⟩ : BufTy).Contents (Elt F) → (⟨S800000x128, .f32⟩ : BufTy).Contents (Elt F) → (⟨S800000x128, .f32⟩ : BufTy).Contents (Elt F)),
    unary main_arg5 main_v38 ((extractStridedSlice S1x128 ![0, 0] · slices_S3x128_S1x128_0_0) : (⟨S3x128, .f32⟩ : BufTy).Contents (Elt F) → (⟨S1x128, .f32⟩ : BufTy).Contents (Elt F)),
    reshape main_v38 main_v39 rfl shapeCasts_S1x128_S128,
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S800000x128 ![0, 1] bcast_S1x128_S800000x128_0_1 : (⟨S1x128, .f32⟩ : BufTy).Contents (Elt F) → (⟨S800000x128, .f32⟩ : BufTy).Contents (Elt F)),
    binary main_v37 main_v41 main_v42 (addf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v43 (broadcastInDim S50000x128 ![] bcast_S_S50000x128 : (⟨S_, .f32⟩ : BufTy).Contents (Elt F) → (⟨S50000x128, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The buffers `segB0` writes, one per operation, in order. -/
abbrev segB0_W : List (Ref sig .tc) :=
  [main_v4, main_v5, main_v6, main_v7, main_v8, main_v9, main_v10, main_v11, main_c, main_v12, main_v13, main_c_0, main_v14, main_v15, main_v16, main_v17, main_v18, main_c_1, main_v19, main_v20, main_c_2, main_v21, main_v22, main_v23, main_v24, main_v25, main_c_3, main_v26, main_v27, main_c_4, main_v28, main_v29, main_v30, main_v31, main_v32, main_v33, main_v34, main_v35, main_v36, main_v37, main_v38, main_v39, main_v40, main_v41, main_v42, main_cst, main_v43, main_v44, main_v45]

/-- Layer 0's update: the sum with the projection, the leaky rectifier (the outlined function's operations in place over its call's buffers), the row normalisation. -/
abbrev segU0 : List (HloOp τ sig (Elt F)) :=
  [ binary main_v45 main_v11 main_v46 (addf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3C23D70A#32),
    TRef.nullary main_call0.cst (constant S_ .f32 0x00000000#32),
    TRef.unary main_call0.cst main_call0.v0 (broadcastInDim S50000x128 ![] bcast_S_S50000x128),
    TRef.binary (.of main_v46) main_call0.v0 main_call0.v1 (cmpf .oge),
    TRef.unary (.of main_cst_5) main_call0.v2 id,
    TRef.unary main_call0.v2 main_call0.v3 (broadcastInDim S50000x128 ![] bcast_S_S50000x128),
    TRef.binary main_call0.v3 (.of main_v46) main_call0.v4 mulf,
    TRef.ternary main_call0.v1 (.of main_v46) main_call0.v4 main_call0.call0.v0 select,
    binary main_v47 main_v47 main_v48 (mulf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    binary main_v48 main_cst_6 main_v49 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    unary main_v50 main_v51 (Host.sqrt : (⟨S50000x1, .f32⟩ : BufTy).Contents (Elt F) → (⟨S50000x1, .f32⟩ : BufTy).Contents (Elt F)),
    nullary main_cst_7 (constant S_ .f32 0x2B8CBCCC#32),
    unary main_cst_7 main_v52 (broadcastInDim S50000x1 ![] bcast_S_S50000x1 : (⟨S_, .f32⟩ : BufTy).Contents (Elt F) → (⟨S50000x1, .f32⟩ : BufTy).Contents (Elt F)),
    binary main_v51 main_v52 main_v53 (maximumf : (⟨S50000x1, .f32⟩ : BufTy).Contents (Elt F) → (⟨S50000x1, .f32⟩ : BufTy).Contents (Elt F) → (⟨S50000x1, .f32⟩ : BufTy).Contents (Elt F)),
    unary main_v53 main_v54 (broadcastInDim S50000x128 ![0, 1] bcast_S50000x1_S50000x128_0_1 : (⟨S50000x1, .f32⟩ : BufTy).Contents (Elt F) → (⟨S50000x128, .f32⟩ : BufTy).Contents (Elt F)),
    binary main_v47 main_v54 main_v55 (Host.divf : (⟨S50000x128, .f32⟩ : BufTy).Contents (Elt F) → (⟨S50000x128, .f32⟩ : BufTy).Contents (Elt F) → (⟨S50000x128, .f32⟩ : BufTy).Contents (Elt F)) ]

/-- The buffers `segU0` writes, one per operation, in order. -/
abbrev segU0_W : List (Ref sig .tc) :=
  [main_v46, main_cst_5, main_call0_cst, main_call0_v0, main_call0_v1, main_call0_v2, main_call0_v3, main_call0_v4, main_v47, main_v48, main_cst_6, main_v49, main_v50, main_v51, main_cst_7, main_v52, main_v53, main_v54, main_v55]

/-- Layer 1 up to the aggregated messages. -/
abbrev segB1 : List (HloOp τ sig (Elt F)) :=
  [ unary main_arg2 main_v56 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v56 main_v57 rfl shapeCasts_S1x128x128_S128x128,
    binary main_v55 main_v57 main_v58 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v59 ((extractStridedSlice S1x128 ![1, 0] · slices_S3x128_S1x128_1_0) : (⟨S3x128, .f32⟩ : BufTy).Contents (Elt F) → (⟨S1x128, .f32⟩ : BufTy).Contents (Elt F)),
    reshape main_v59 main_v60 rfl shapeCasts_S1x128_S128,
    unary main_v60 main_v61 (broadcastInDim S1x128 ![1] bcast_S128_S1x128_1 : (⟨S128, .f32⟩ : BufTy).Contents (Elt F) → (⟨S1x128, .f32⟩ : BufTy).Contents (Elt F)),
    unary main_v61 main_v62 (broadcastInDim S50000x128 ![0, 1] bcast_S1x128_S50000x128_0_1 : (⟨S1x128, .f32⟩ : BufTy).Contents (Elt F) → (⟨S50000x128, .f32⟩ : BufTy).Contents (Elt F)),
    binary main_v58 main_v62 main_v63 (addf : (⟨S50000x128, .f32⟩ : BufTy).Contents (Elt F) → (⟨S50000x128, .f32⟩ : BufTy).Contents (Elt F) → (⟨S50000x128, .f32⟩ : BufTy).Contents (Elt F)),
    nullary main_c_8 (constantI S_ 32 0#32),
    unary main_c_8 main_v64 (broadcastInDim S800000 ![] bcast_S_S800000 : (⟨S_, .i32⟩ : BufTy).Contents (Elt F) → (⟨S800000, .i32⟩ : BufTy).Contents (Elt F)),
    binary main_v1 main_v64 main_v65 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v66 (broadcastInDim S800000 ![] bcast_S_S800000 : (⟨S_, .i32⟩ : BufTy).Contents (Elt F) → (⟨S800000, .i32⟩ : BufTy).Contents (Elt F)),
    binary main_v1 main_v66 main_v67 (addi : (⟨S800000, .i32⟩ : BufTy).Contents (Elt F) → (⟨S800000, .i32⟩ : BufTy).Contents (Elt F) → (⟨S800000, .i32⟩ : BufTy).Contents (Elt F)),
    ternary main_v65 main_v67 main_v1 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v68 main_v69 (broadcastInDim S800000x1 ![0] bcast_S800000_S800000x1_0 : (⟨S800000, .i32⟩ : BufTy).Contents (Elt F) → (⟨S800000x1, .i32⟩ : BufTy).Contents (Elt F)),
    binary main_v63 main_v69 main_v70 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_10 (constantI S_ 32 0#32),
    unary main_c_10 main_v71 (broadcastInDim S800000 ![] bcast_S_S800000 : (⟨S_, .i32⟩ : BufTy).Contents (Elt F) → (⟨S800000, .i32⟩ : BufTy).Contents (Elt F)),
    binary main_v1 main_v71 main_v72 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v73 (broadcastInDim S800000 ![] bcast_S_S800000 : (⟨S_, .i32⟩ : BufTy).Contents (Elt F) → (⟨S800000, .i32⟩ : BufTy).Contents (Elt F)),
    binary main_v1 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v1 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v55 main_v76 main_v77 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_12 (constantI S_ 32 0#32),
    unary main_c_12 main_v78 (broadcastInDim S800000 ![] bcast_S_S800000 : (⟨S_, .i32⟩ : BufTy).Contents (Elt F) → (⟨S800000, .i32⟩ : BufTy).Contents (Elt F)),
    binary main_v3 main_v78 main_v79 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v80 (broadcastInDim S800000 ![] bcast_S_S800000 : (⟨S_, .i32⟩ : BufTy).Contents (Elt F) → (⟨S800000, .i32⟩ : BufTy).Contents (Elt F)),
    binary main_v3 main_v80 main_v81 (addi : (⟨S800000, .i32⟩ : BufTy).Contents (Elt F) → (⟨S800000, .i32⟩ : BufTy).Contents (Elt F) → (⟨S800000, .i32⟩ : BufTy).Contents (Elt F)),
    ternary main_v79 main_v81 main_v3 main_v82 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v82 main_v83 (broadcastInDim S800000x1 ![0] bcast_S800000_S800000x1_0 : (⟨S800000, .i32⟩ : BufTy).Contents (Elt F) → (⟨S800000x1, .i32⟩ : BufTy).Contents (Elt F)),
    binary main_v55 main_v83 main_v84 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v77 main_v84 main_v85 (mulf : (⟨S800000x128, .f32⟩ : BufTy).Contents (Elt F) → (⟨S800000x128, .f32⟩ : BufTy).Contents (Elt F) → (⟨S800000x128, .f32⟩ : BufTy).Contents (Elt F)),
    unary main_arg3 main_v86 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v86 main_v87 rfl shapeCasts_S1x128x128_S128x128,
    binary main_v85 main_v87 main_v88 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    binary main_v70 main_v88 main_v89 (addf : (⟨S800000x128, .f32⟩ : BufTy).Contents (Elt F) → (⟨S800000x128, .f32⟩ : BufTy).Contents (Elt F) → (⟨S800000x128, .f32⟩ : BufTy).Contents (Elt F)),
    unary main_arg5 main_v90 ((extractStridedSlice S1x128 ![1, 0] · slices_S3x128_S1x128_1_0) : (⟨S3x128, .f32⟩ : BufTy).Contents (Elt F) → (⟨S1x128, .f32⟩ : BufTy).Contents (Elt F)),
    reshape main_v90 main_v91 rfl shapeCasts_S1x128_S128,
    unary main_v91 main_v92 (broadcastInDim S1x128 ![1] bcast_S128_S1x128_1 : (⟨S128, .f32⟩ : BufTy).Contents (Elt F) → (⟨S1x128, .f32⟩ : BufTy).Contents (Elt F)),
    unary main_v92 main_v93 (broadcastInDim S800000x128 ![0, 1] bcast_S1x128_S800000x128_0_1 : (⟨S1x128, .f32⟩ : BufTy).Contents (Elt F) → (⟨S800000x128, .f32⟩ : BufTy).Contents (Elt F)),
    binary main_v89 main_v93 main_v94 (addf : (⟨S800000x128, .f32⟩ : BufTy).Contents (Elt F) → (⟨S800000x128, .f32⟩ : BufTy).Contents (Elt F) → (⟨S800000x128, .f32⟩ : BufTy).Contents (Elt F)),
    nullary main_cst_14 (constant S_ .f32 0x00000000#32),
    unary main_cst_14 main_v95 (broadcastInDim S50000x128 ![] bcast_S_S50000x128 : (⟨S_, .f32⟩ : BufTy).Contents (Elt F) → (⟨S50000x128, .f32⟩ : BufTy).Contents (Elt F)),
    unary main_v3 main_v96 (broadcastInDim S800000x1 ![0] bcast_S800000_S800000x1_0 : (⟨S800000, .i32⟩ : BufTy).Contents (Elt F) → (⟨S800000x1, .i32⟩ : BufTy).Contents (Elt F)),
    ternary main_v95 main_v96 main_v94 main_v97 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The buffers `segB1` writes, one per operation, in order. -/
abbrev segB1_W : List (Ref sig .tc) :=
  [main_v56, main_v57, main_v58, main_v59, main_v60, main_v61, main_v62, main_v63, main_c_8, main_v64, main_v65, main_c_9, main_v66, main_v67, main_v68, main_v69, main_v70, main_c_10, main_v71, main_v72, main_c_11, main_v73, main_v74, main_v75, main_v76, main_v77, main_c_12, main_v78, main_v79, main_c_13, main_v80, main_v81, main_v82, main_v83, main_v84, main_v85, main_v86, main_v87, main_v88, main_v89, main_v90, main_v91, main_v92, main_v93, main_v94, main_cst_14, main_v95, main_v96, main_v97]

/-- Layer 1's update. -/
abbrev segU1 : List (HloOp τ sig (Elt F)) :=
  [ binary main_v97 main_v63 main_v98 (addf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3C23D70A#32),
    TRef.nullary main_call1.cst (constant S_ .f32 0x00000000#32),
    TRef.unary main_call1.cst main_call1.v0 (broadcastInDim S50000x128 ![] bcast_S_S50000x128),
    TRef.binary (.of main_v98) main_call1.v0 main_call1.v1 (cmpf .oge),
    TRef.unary (.of main_cst_15) main_call1.v2 id,
    TRef.unary main_call1.v2 main_call1.v3 (broadcastInDim S50000x128 ![] bcast_S_S50000x128),
    TRef.binary main_call1.v3 (.of main_v98) main_call1.v4 mulf,
    TRef.ternary main_call1.v1 (.of main_v98) main_call1.v4 main_call1.call0.v0 select,
    binary main_v99 main_v99 main_v100 (mulf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x00000000#32),
    binary main_v100 main_cst_16 main_v101 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v101 main_v102 (broadcastInDim S50000x1 ![0] bcast_S50000_S50000x1_0 : (⟨S50000, .f32⟩ : BufTy).Contents (Elt F) → (⟨S50000x1, .f32⟩ : BufTy).Contents (Elt F)),
    unary main_v102 main_v103 (Host.sqrt : (⟨S50000x1, .f32⟩ : BufTy).Contents (Elt F) → (⟨S50000x1, .f32⟩ : BufTy).Contents (Elt F)),
    nullary main_cst_17 (constant S_ .f32 0x2B8CBCCC#32),
    unary main_cst_17 main_v104 (broadcastInDim S50000x1 ![] bcast_S_S50000x1 : (⟨S_, .f32⟩ : BufTy).Contents (Elt F) → (⟨S50000x1, .f32⟩ : BufTy).Contents (Elt F)),
    binary main_v103 main_v104 main_v105 (maximumf : (⟨S50000x1, .f32⟩ : BufTy).Contents (Elt F) → (⟨S50000x1, .f32⟩ : BufTy).Contents (Elt F) → (⟨S50000x1, .f32⟩ : BufTy).Contents (Elt F)),
    unary main_v105 main_v106 (broadcastInDim S50000x128 ![0, 1] bcast_S50000x1_S50000x128_0_1 : (⟨S50000x1, .f32⟩ : BufTy).Contents (Elt F) → (⟨S50000x128, .f32⟩ : BufTy).Contents (Elt F)),
    binary main_v99 main_v106 main_v107 (Host.divf : (⟨S50000x128, .f32⟩ : BufTy).Contents (Elt F) → (⟨S50000x128, .f32⟩ : BufTy).Contents (Elt F) → (⟨S50000x128, .f32⟩ : BufTy).Contents (Elt F)) ]

/-- The buffers `segU1` writes, one per operation, in order. -/
abbrev segU1_W : List (Ref sig .tc) :=
  [main_v98, main_cst_15, main_call1_cst, main_call1_v0, main_call1_v1, main_call1_v2, main_call1_v3, main_call1_v4, main_v99, main_v100, main_cst_16, main_v101, main_v102, main_v103, main_cst_17, main_v104, main_v105, main_v106, main_v107]

/-- Layer 2 up to the aggregated messages. -/
abbrev segB2 : List (HloOp τ sig (Elt F)) :=
  [ unary main_arg2 main_v108 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v108 main_v109 rfl shapeCasts_S1x128x128_S128x128,
    binary main_v107 main_v109 main_v110 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v111 ((extractStridedSlice S1x128 ![2, 0] · slices_S3x128_S1x128_2_0) : (⟨S3x128, .f32⟩ : BufTy).Contents (Elt F) → (⟨S1x128, .f32⟩ : BufTy).Contents (Elt F)),
    reshape main_v111 main_v112 rfl shapeCasts_S1x128_S128,
    unary main_v112 main_v113 (broadcastInDim S1x128 ![1] bcast_S128_S1x128_1 : (⟨S128, .f32⟩ : BufTy).Contents (Elt F) → (⟨S1x128, .f32⟩ : BufTy).Contents (Elt F)),
    unary main_v113 main_v114 (broadcastInDim S50000x128 ![0, 1] bcast_S1x128_S50000x128_0_1 : (⟨S1x128, .f32⟩ : BufTy).Contents (Elt F) → (⟨S50000x128, .f32⟩ : BufTy).Contents (Elt F)),
    binary main_v110 main_v114 main_v115 (addf : (⟨S50000x128, .f32⟩ : BufTy).Contents (Elt F) → (⟨S50000x128, .f32⟩ : BufTy).Contents (Elt F) → (⟨S50000x128, .f32⟩ : BufTy).Contents (Elt F)),
    nullary main_c_18 (constantI S_ 32 0#32),
    unary main_c_18 main_v116 (broadcastInDim S800000 ![] bcast_S_S800000 : (⟨S_, .i32⟩ : BufTy).Contents (Elt F) → (⟨S800000, .i32⟩ : BufTy).Contents (Elt F)),
    binary main_v1 main_v116 main_v117 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v118 (broadcastInDim S800000 ![] bcast_S_S800000 : (⟨S_, .i32⟩ : BufTy).Contents (Elt F) → (⟨S800000, .i32⟩ : BufTy).Contents (Elt F)),
    binary main_v1 main_v118 main_v119 (addi : (⟨S800000, .i32⟩ : BufTy).Contents (Elt F) → (⟨S800000, .i32⟩ : BufTy).Contents (Elt F) → (⟨S800000, .i32⟩ : BufTy).Contents (Elt F)),
    ternary main_v117 main_v119 main_v1 main_v120 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v120 main_v121 (broadcastInDim S800000x1 ![0] bcast_S800000_S800000x1_0 : (⟨S800000, .i32⟩ : BufTy).Contents (Elt F) → (⟨S800000x1, .i32⟩ : BufTy).Contents (Elt F)),
    binary main_v115 main_v121 main_v122 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_20 (constantI S_ 32 0#32),
    unary main_c_20 main_v123 (broadcastInDim S800000 ![] bcast_S_S800000 : (⟨S_, .i32⟩ : BufTy).Contents (Elt F) → (⟨S800000, .i32⟩ : BufTy).Contents (Elt F)),
    binary main_v1 main_v123 main_v124 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v125 (broadcastInDim S800000 ![] bcast_S_S800000 : (⟨S_, .i32⟩ : BufTy).Contents (Elt F) → (⟨S800000, .i32⟩ : BufTy).Contents (Elt F)),
    binary main_v1 main_v125 main_v126 (addi : (⟨S800000, .i32⟩ : BufTy).Contents (Elt F) → (⟨S800000, .i32⟩ : BufTy).Contents (Elt F) → (⟨S800000, .i32⟩ : BufTy).Contents (Elt F)),
    ternary main_v124 main_v126 main_v1 main_v127 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v127 main_v128 (broadcastInDim S800000x1 ![0] bcast_S800000_S800000x1_0 : (⟨S800000, .i32⟩ : BufTy).Contents (Elt F) → (⟨S800000x1, .i32⟩ : BufTy).Contents (Elt F)),
    binary main_v107 main_v128 main_v129 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_22 (constantI S_ 32 0#32),
    unary main_c_22 main_v130 (broadcastInDim S800000 ![] bcast_S_S800000 : (⟨S_, .i32⟩ : BufTy).Contents (Elt F) → (⟨S800000, .i32⟩ : BufTy).Contents (Elt F)),
    binary main_v3 main_v130 main_v131 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v132 (broadcastInDim S800000 ![] bcast_S_S800000 : (⟨S_, .i32⟩ : BufTy).Contents (Elt F) → (⟨S800000, .i32⟩ : BufTy).Contents (Elt F)),
    binary main_v3 main_v132 main_v133 (addi : (⟨S800000, .i32⟩ : BufTy).Contents (Elt F) → (⟨S800000, .i32⟩ : BufTy).Contents (Elt F) → (⟨S800000, .i32⟩ : BufTy).Contents (Elt F)),
    ternary main_v131 main_v133 main_v3 main_v134 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v134 main_v135 (broadcastInDim S800000x1 ![0] bcast_S800000_S800000x1_0 : (⟨S800000, .i32⟩ : BufTy).Contents (Elt F) → (⟨S800000x1, .i32⟩ : BufTy).Contents (Elt F)),
    binary main_v107 main_v135 main_v136 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v129 main_v136 main_v137 (mulf : (⟨S800000x128, .f32⟩ : BufTy).Contents (Elt F) → (⟨S800000x128, .f32⟩ : BufTy).Contents (Elt F) → (⟨S800000x128, .f32⟩ : BufTy).Contents (Elt F)),
    unary main_arg3 main_v138 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v138 main_v139 rfl shapeCasts_S1x128x128_S128x128,
    binary main_v137 main_v139 main_v140 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    binary main_v122 main_v140 main_v141 (addf : (⟨S800000x128, .f32⟩ : BufTy).Contents (Elt F) → (⟨S800000x128, .f32⟩ : BufTy).Contents (Elt F) → (⟨S800000x128, .f32⟩ : BufTy).Contents (Elt F)),
    unary main_arg5 main_v142 ((extractStridedSlice S1x128 ![2, 0] · slices_S3x128_S1x128_2_0) : (⟨S3x128, .f32⟩ : BufTy).Contents (Elt F) → (⟨S1x128, .f32⟩ : BufTy).Contents (Elt F)),
    reshape main_v142 main_v143 rfl shapeCasts_S1x128_S128,
    unary main_v143 main_v144 (broadcastInDim S1x128 ![1] bcast_S128_S1x128_1 : (⟨S128, .f32⟩ : BufTy).Contents (Elt F) → (⟨S1x128, .f32⟩ : BufTy).Contents (Elt F)),
    unary main_v144 main_v145 (broadcastInDim S800000x128 ![0, 1] bcast_S1x128_S800000x128_0_1 : (⟨S1x128, .f32⟩ : BufTy).Contents (Elt F) → (⟨S800000x128, .f32⟩ : BufTy).Contents (Elt F)),
    binary main_v141 main_v145 main_v146 (addf : (⟨S800000x128, .f32⟩ : BufTy).Contents (Elt F) → (⟨S800000x128, .f32⟩ : BufTy).Contents (Elt F) → (⟨S800000x128, .f32⟩ : BufTy).Contents (Elt F)),
    nullary main_cst_24 (constant S_ .f32 0x00000000#32),
    unary main_cst_24 main_v147 (broadcastInDim S50000x128 ![] bcast_S_S50000x128 : (⟨S_, .f32⟩ : BufTy).Contents (Elt F) → (⟨S50000x128, .f32⟩ : BufTy).Contents (Elt F)),
    unary main_v3 main_v148 (broadcastInDim S800000x1 ![0] bcast_S800000_S800000x1_0 : (⟨S800000, .i32⟩ : BufTy).Contents (Elt F) → (⟨S800000x1, .i32⟩ : BufTy).Contents (Elt F)),
    ternary main_v147 main_v148 main_v146 main_v149 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The buffers `segB2` writes, one per operation, in order. -/
abbrev segB2_W : List (Ref sig .tc) :=
  [main_v108, main_v109, main_v110, main_v111, main_v112, main_v113, main_v114, main_v115, main_c_18, main_v116, main_v117, main_c_19, main_v118, main_v119, main_v120, main_v121, main_v122, main_c_20, main_v123, main_v124, main_c_21, main_v125, main_v126, main_v127, main_v128, main_v129, main_c_22, main_v130, main_v131, main_c_23, main_v132, main_v133, main_v134, main_v135, main_v136, main_v137, main_v138, main_v139, main_v140, main_v141, main_v142, main_v143, main_v144, main_v145, main_v146, main_cst_24, main_v147, main_v148, main_v149]

/-- Layer 2's update. -/
abbrev segU2 : List (HloOp τ sig (Elt F)) :=
  [ binary main_v149 main_v115 main_v150 (addf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x3C23D70A#32),
    TRef.nullary main_call2.cst (constant S_ .f32 0x00000000#32),
    TRef.unary main_call2.cst main_call2.v0 (broadcastInDim S50000x128 ![] bcast_S_S50000x128),
    TRef.binary (.of main_v150) main_call2.v0 main_call2.v1 (cmpf .oge),
    TRef.unary (.of main_cst_25) main_call2.v2 id,
    TRef.unary main_call2.v2 main_call2.v3 (broadcastInDim S50000x128 ![] bcast_S_S50000x128),
    TRef.binary main_call2.v3 (.of main_v150) main_call2.v4 mulf,
    TRef.ternary main_call2.v1 (.of main_v150) main_call2.v4 main_call2.call0.v0 select,
    binary main_v151 main_v151 main_v152 (mulf : (⟨S50000x128, .f32⟩ : BufTy).Contents (Elt F) → (⟨S50000x128, .f32⟩ : BufTy).Contents (Elt F) → (⟨S50000x128, .f32⟩ : BufTy).Contents (Elt F)),
    nullary main_cst_26 (constant S_ .f32 0x00000000#32),
    binary main_v152 main_cst_26 main_v153 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v153 main_v154 (broadcastInDim S50000x1 ![0] bcast_S50000_S50000x1_0 : (⟨S50000, .f32⟩ : BufTy).Contents (Elt F) → (⟨S50000x1, .f32⟩ : BufTy).Contents (Elt F)),
    unary main_v154 main_v155 (Host.sqrt : (⟨S50000x1, .f32⟩ : BufTy).Contents (Elt F) → (⟨S50000x1, .f32⟩ : BufTy).Contents (Elt F)),
    nullary main_cst_27 (constant S_ .f32 0x2B8CBCCC#32),
    unary main_cst_27 main_v156 (broadcastInDim S50000x1 ![] bcast_S_S50000x1 : (⟨S_, .f32⟩ : BufTy).Contents (Elt F) → (⟨S50000x1, .f32⟩ : BufTy).Contents (Elt F)),
    binary main_v155 main_v156 main_v157 (maximumf : (⟨S50000x1, .f32⟩ : BufTy).Contents (Elt F) → (⟨S50000x1, .f32⟩ : BufTy).Contents (Elt F) → (⟨S50000x1, .f32⟩ : BufTy).Contents (Elt F)),
    unary main_v157 main_v158 (broadcastInDim S50000x128 ![0, 1] bcast_S50000x1_S50000x128_0_1 : (⟨S50000x1, .f32⟩ : BufTy).Contents (Elt F) → (⟨S50000x128, .f32⟩ : BufTy).Contents (Elt F)),
    binary main_v151 main_v158 main_v159 (Host.divf : (⟨S50000x128, .f32⟩ : BufTy).Contents (Elt F) → (⟨S50000x128, .f32⟩ : BufTy).Contents (Elt F) → (⟨S50000x128, .f32⟩ : BufTy).Contents (Elt F)) ]

/-- The buffers `segU2` writes, one per operation, in order. -/
abbrev segU2_W : List (Ref sig .tc) :=
  [main_v150, main_cst_25, main_call2_cst, main_call2_v0, main_call2_v1, main_call2_v2, main_call2_v3, main_call2_v4, main_v151, main_v152, main_cst_26, main_v153, main_v154, main_v155, main_cst_27, main_v156, main_v157, main_v158, main_v159]

/-- The four embeddings side by side, the users' and the items' rows, and the row scores. -/
abbrev segS : List (HloOp τ sig (Elt F)) :=
  [ nary ![main_arg0, main_v55, main_v107, main_v159] main_v160 (fun u => concatenate S50000x512 1 [⟨S50000x128, u 0⟩, ⟨S50000x128, u 1⟩, ⟨S50000x128, u 2⟩, ⟨S50000x128, u 3⟩] concatenates_S50000x128_S50000x128_S50000x128_S50000x128_S50000x512_d1),
    nullary main_c_28 (constantI S_ 32 0#32),
    unary main_c_28 main_v161 (broadcastInDim S4096 ![] bcast_S_S4096 : (⟨S_, .i32⟩ : BufTy).Contents (Elt F) → (⟨S4096, .i32⟩ : BufTy).Contents (Elt F)),
    binary main_arg7 main_v161 main_v162 (cmpi .slt : (⟨S4096, .i32⟩ : BufTy).Contents (Elt F) → (⟨S4096, .i32⟩ : BufTy).Contents (Elt F) → (⟨S4096, .i1⟩ : BufTy).Contents (Elt F)),
    nullary main_c_29 (constantI S_ 32 50000#32),
    unary main_c_29 main_v163 (broadcastInDim S4096 ![] bcast_S_S4096 : (⟨S_, .i32⟩ : BufTy).Contents (Elt F) → (⟨S4096, .i32⟩ : BufTy).Contents (Elt F)),
    binary main_arg7 main_v163 main_v164 (addi : (⟨S4096, .i32⟩ : BufTy).Contents (Elt F) → (⟨S4096, .i32⟩ : BufTy).Contents (Elt F) → (⟨S4096, .i32⟩ : BufTy).Contents (Elt F)),
    ternary main_v162 main_v164 main_arg7 main_v165 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v165 main_v166 (broadcastInDim S4096x1 ![0] bcast_S4096_S4096x1_0 : (⟨S4096, .i32⟩ : BufTy).Contents (Elt F) → (⟨S4096x1, .i32⟩ : BufTy).Contents (Elt F)),
    binary main_v160 main_v166 main_v167 ((fun x i => Host.gather gather_S50000x512_S4096x1_S4096x512_1_0_n_n_0_1_1512 x i) : (⟨S50000x512, .f32⟩ : BufTy).Contents (Elt F) → (⟨S4096x1, .i32⟩ : BufTy).Contents (Elt F) → (⟨S4096x512, .f32⟩ : BufTy).Contents (Elt F)),
    nullary main_c_30 (constantI S_ 32 0#32),
    unary main_c_30 main_v168 (broadcastInDim S4096 ![] bcast_S_S4096 : (⟨S_, .i32⟩ : BufTy).Contents (Elt F) → (⟨S4096, .i32⟩ : BufTy).Contents (Elt F)),
    binary main_arg8 main_v168 main_v169 (cmpi .slt : (⟨S4096, .i32⟩ : BufTy).Contents (Elt F) → (⟨S4096, .i32⟩ : BufTy).Contents (Elt F) → (⟨S4096, .i1⟩ : BufTy).Contents (Elt F)),
    nullary main_c_31 (constantI S_ 32 30000#32),
    unary main_c_31 main_v170 (broadcastInDim S4096 ![] bcast_S_S4096 : (⟨S_, .i32⟩ : BufTy).Contents (Elt F) → (⟨S4096, .i32⟩ : BufTy).Contents (Elt F)),
    binary main_arg8 main_v170 main_v171 (addi : (⟨S4096, .i32⟩ : BufTy).Contents (Elt F) → (⟨S4096, .i32⟩ : BufTy).Contents (Elt F) → (⟨S4096, .i32⟩ : BufTy).Contents (Elt F)),
    ternary main_v169 main_v171 main_arg8 main_v172 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v172 main_v173 (broadcastInDim S4096x1 ![0] bcast_S4096_S4096x1_0 : (⟨S4096, .i32⟩ : BufTy).Contents (Elt F) → (⟨S4096x1, .i32⟩ : BufTy).Contents (Elt F)),
    binary main_arg1 main_v173 main_v174 ((fun x i => Host.gather gather_S30000x512_S4096x1_S4096x512_1_0_n_n_0_1_1512 x i) : (⟨S30000x512, .f32⟩ : BufTy).Contents (Elt F) → (⟨S4096x1, .i32⟩ : BufTy).Contents (Elt F) → (⟨S4096x512, .f32⟩ : BufTy).Contents (Elt F)),
    binary main_v167 main_v174 main_v175 (mulf : (⟨S4096x512, .f32⟩ : BufTy).Contents (Elt F) → (⟨S4096x512, .f32⟩ : BufTy).Contents (Elt F) → (⟨S4096x512, .f32⟩ : BufTy).Contents (Elt F)),
    nullary main_cst_32 (constant S_ .f32 0x00000000#32),
    binary main_v175 main_cst_32 main_v176 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)) ]

/-- The buffers `segS` writes, one per operation, in order. -/
abbrev segS_W : List (Ref sig .tc) :=
  [main_v160, main_c_28, main_v161, main_v162, main_c_29, main_v163, main_v164, main_v165, main_v166, main_v167, main_c_30, main_v168, main_v169, main_c_31, main_v170, main_v171, main_v172, main_v173, main_v174, main_v175, main_cst_32, main_v176]

end Cert.ReferenceIdeal.Hand

end
-- ==== Proof.Ref.Ops.lean ====
import proofs.«144474_j77214922048057_1_alg».proof.Proof.Ref.List
import Idealize.ShloMosaic.Lib.StableHlo.Run

/-!
The bookkeeping a run of the reference's operation list needs: the whole list and what is left of it after each stage,
that the program is the list run in order, that every operation touches TensorCore buffers only, and that each stage —
and each remainder — writes only the buffers listed for it.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 230 operations, in order: the stages one after the other. -/
abbrev ops : List (HloOp τ sig (Elt F)) :=
  segI ++ (segB0 ++ (segU0 ++ (segB1 ++ (segU1 ++ (segB2 ++ (segU2 ++ (segS)))))))

/-- What runs after the first 1 stage, and the buffers it writes. -/
abbrev post1 : List (HloOp τ sig (Elt F)) := segB0 ++ (segU0 ++ (segB1 ++ (segU1 ++ (segB2 ++ (segU2 ++ (segS))))))
abbrev post1_W : List (Ref sig .tc) := segB0_W ++ (segU0_W ++ (segB1_W ++ (segU1_W ++ (segB2_W ++ (segU2_W ++ (segS_W))))))

/-- What runs after the first 2 stages, and the buffers it writes. -/
abbrev post2 : List (HloOp τ sig (Elt F)) := segU0 ++ (segB1 ++ (segU1 ++ (segB2 ++ (segU2 ++ (segS)))))
abbrev post2_W : List (Ref sig .tc) := segU0_W ++ (segB1_W ++ (segU1_W ++ (segB2_W ++ (segU2_W ++ (segS_W)))))

/-- What runs after the first 3 stages, and the buffers it writes. -/
abbrev post3 : List (HloOp τ sig (Elt F)) := segB1 ++ (segU1 ++ (segB2 ++ (segU2 ++ (segS))))
abbrev post3_W : List (Ref sig .tc) := segB1_W ++ (segU1_W ++ (segB2_W ++ (segU2_W ++ (segS_W))))

/-- What runs after the first 4 stages, and the buffers it writes. -/
abbrev post4 : List (HloOp τ sig (Elt F)) := segU1 ++ (segB2 ++ (segU2 ++ (segS)))
abbrev post4_W : List (Ref sig .tc) := segU1_W ++ (segB2_W ++ (segU2_W ++ (segS_W)))

/-- What runs after the first 5 stages, and the buffers it writes. -/
abbrev post5 : List (HloOp τ sig (Elt F)) := segB2 ++ (segU2 ++ (segS))
abbrev post5_W : List (Ref sig .tc) := segB2_W ++ (segU2_W ++ (segS_W))

/-- What runs after the first 6 stages, and the buffers it writes. -/
abbrev post6 : List (HloOp τ sig (Elt F)) := segU2 ++ (segS)
abbrev post6_W : List (Ref sig .tc) := segU2_W ++ (segS_W)

/-- What runs after the first 7 stages, and the buffers it writes. -/
abbrev post7 : List (HloOp τ sig (Elt F)) := segS
abbrev post7_W : List (Ref sig .tc) := segS_W

/-- What runs after the first 8 stages, and the buffers it writes. -/
abbrev post8 : List (HloOp τ sig (Elt F)) := []
abbrev post8_W : List (Ref sig .tc) := []

/-- The buffers the whole program writes. -/
abbrev ops_W : List (Ref sig .tc) := segI_W ++ (segB0_W ++ (segU0_W ++ (segB1_W ++ (segU1_W ++ (segB2_W ++ (segU2_W ++ (segS_W)))))))

/-! ## The program is the list -/

-- some two hundred binds reassociated: the rewrite under the chain recurses once per statement
set_option maxRecDepth 16384 in
set_option maxHeartbeats 8000000 in
/-- @main is that straight line: the four windows and the outlined functions unfolded at their calls, both sides are one
    chain of operation steps once sequencing is reassociated and a callee's closing return is dropped. -/
theorem main_eq (c : Dev nD) : main (F := F) c = seq ops := by
  simp only [main, main_part0, main_part1, main_part2, main_part3, fn_leaky_relu.body, fn_where.body, ops, seq_append, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

set_option maxRecDepth 16384 in
theorem segI_sub : (segI : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
set_option maxRecDepth 16384 in
theorem segB0_sub : (segB0 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
set_option maxRecDepth 16384 in
theorem segU0_sub : (segU0 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
set_option maxRecDepth 16384 in
theorem segB1_sub : (segB1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
set_option maxRecDepth 16384 in
theorem segU1_sub : (segU1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
set_option maxRecDepth 16384 in
theorem segB2_sub : (segB2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
set_option maxRecDepth 16384 in
theorem segU2_sub : (segU2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
set_option maxRecDepth 16384 in
theorem segS_sub : (segS : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

/-- A property of every operation of two lists holds of every operation of their concatenation. -/
theorem forall_append {p : HloOp τ sig (Elt F) → Prop} {l₁ l₂ : List (HloOp τ sig (Elt F))} (h₁ : l₁.Forall p) (h₂ : l₂.Forall p) :
    (l₁ ++ l₂).Forall p :=
  List.forall_iff_forall_mem.mpr fun op h =>
    (List.mem_append.mp h).elim (List.forall_iff_forall_mem.mp h₁ op) (List.forall_iff_forall_mem.mp h₂ op)

theorem ops_sub : (ops : List (HloOp τ sig (Elt F))).Forall fun op => op.bufs ⊆ tcRefs τ sig :=
  forall_append segI_sub (forall_append segB0_sub (forall_append segU0_sub (forall_append segB1_sub (forall_append segU1_sub (forall_append segB2_sub (forall_append segU2_sub (segS_sub)))))))

/-! ## What each stage writes -/

/-- Operations that write within one list of references, then within another, write within the two lists joined. -/
theorem writes_append {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  have hsub₁ : (W₁.map (Proc.devRef (τ := τ) .tc)).toFinset ⊆ ((W₁ ++ W₂).map (Proc.devRef (τ := τ) .tc)).toFinset := by
    intro b hb; rw [List.mem_toFinset] at hb ⊢; rw [List.map_append]; exact List.mem_append_left _ hb
  have hsub₂ : (W₂.map (Proc.devRef (τ := τ) .tc)).toFinset ⊆ ((W₁ ++ W₂).map (Proc.devRef (τ := τ) .tc)).toFinset := by
    intro b hb; rw [List.mem_toFinset] at hb ⊢; rw [List.map_append]; exact List.mem_append_right _ hb
  exact forall_append (List.forall_iff_forall_mem.mpr fun op h => (List.forall_iff_forall_mem.mp h₁ op h).trans hsub₁)
    (List.forall_iff_forall_mem.mpr fun op h => (List.forall_iff_forall_mem.mp h₂ op h).trans hsub₂)

set_option maxRecDepth 16384 in
theorem segI_writes : (segI : List (HloOp τ sig (Elt F))).Forall fun op => op.writes ⊆ (segI_W.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 16384 in
theorem segB0_writes : (segB0 : List (HloOp τ sig (Elt F))).Forall fun op => op.writes ⊆ (segB0_W.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 16384 in
theorem segU0_writes : (segU0 : List (HloOp τ sig (Elt F))).Forall fun op => op.writes ⊆ (segU0_W.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 16384 in
theorem segB1_writes : (segB1 : List (HloOp τ sig (Elt F))).Forall fun op => op.writes ⊆ (segB1_W.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 16384 in
theorem segU1_writes : (segU1 : List (HloOp τ sig (Elt F))).Forall fun op => op.writes ⊆ (segU1_W.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 16384 in
theorem segB2_writes : (segB2 : List (HloOp τ sig (Elt F))).Forall fun op => op.writes ⊆ (segB2_W.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 16384 in
theorem segU2_writes : (segU2 : List (HloOp τ sig (Elt F))).Forall fun op => op.writes ⊆ (segU2_W.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 16384 in
theorem segS_writes : (segS : List (HloOp τ sig (Elt F))).Forall fun op => op.writes ⊆ (segS_W.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

theorem post8_writes : (post8 : List (HloOp τ sig (Elt F))).Forall fun op => op.writes ⊆ (post8_W.map (Proc.devRef (τ := τ) .tc)).toFinset :=
  trivial
theorem post7_writes : (post7 : List (HloOp τ sig (Elt F))).Forall fun op => op.writes ⊆ (post7_W.map (Proc.devRef (τ := τ) .tc)).toFinset :=
  segS_writes
theorem post6_writes : (post6 : List (HloOp τ sig (Elt F))).Forall fun op => op.writes ⊆ (post6_W.map (Proc.devRef (τ := τ) .tc)).toFinset :=
  writes_append segU2_writes post7_writes
theorem post5_writes : (post5 : List (HloOp τ sig (Elt F))).Forall fun op => op.writes ⊆ (post5_W.map (Proc.devRef (τ := τ) .tc)).toFinset :=
  writes_append segB2_writes post6_writes
theorem post4_writes : (post4 : List (HloOp τ sig (Elt F))).Forall fun op => op.writes ⊆ (post4_W.map (Proc.devRef (τ := τ) .tc)).toFinset :=
  writes_append segU1_writes post5_writes
theorem post3_writes : (post3 : List (HloOp τ sig (Elt F))).Forall fun op => op.writes ⊆ (post3_W.map (Proc.devRef (τ := τ) .tc)).toFinset :=
  writes_append segB1_writes post4_writes
theorem post2_writes : (post2 : List (HloOp τ sig (Elt F))).Forall fun op => op.writes ⊆ (post2_W.map (Proc.devRef (τ := τ) .tc)).toFinset :=
  writes_append segU0_writes post3_writes
theorem post1_writes : (post1 : List (HloOp τ sig (Elt F))).Forall fun op => op.writes ⊆ (post1_W.map (Proc.devRef (τ := τ) .tc)).toFinset :=
  writes_append segB0_writes post2_writes
theorem ops_writes : (ops : List (HloOp τ sig (Elt F))).Forall fun op => op.writes ⊆ (ops_W.map (Proc.devRef (τ := τ) .tc)).toFinset :=
  writes_append segI_writes post1_writes

/-! ## Running a concatenation -/

/-- Two lists run one after the other leave what their concatenation leaves. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

end Cert.ReferenceIdeal.Hand

end
-- ==== Proof.Val.Model.lean ====
/-
  The whole computation as ONE pure function of the nine argument arrays, at the extended reals, with the four dense
  stages left as parameters (`Tiles`): a node projection `dense`, an edge message `msg`, a node update `upd` and a row
  score `score`. Everything else — the two rows of the edge list, the per-layer slices of the weights and biases, the
  wrap of negative indices, the row gathers, the scatter-add of messages into their target rows, the concatenation of
  the four embeddings and the two final gathers — is the same host operation in both programs, spelt here once.
  Layer l maps the node embedding x to  upd (scatter-add over dst of msg (x[src], x[dst], h[src])) h  with h = dense x.
-/
import proofs.«144474_j77214922048057_1_alg».proof.Proof.Gen.KernelIdeal
import Idealize.ShloMosaic.PureOps.Ideal

noncomputable section

namespace Cert.Model

open Idealize.ShloMosaic Cert.KernelIdeal Cert.KernelIdeal.Facts₀

/-- Float and 32-bit integer arrays of a shape, at the extended reals. -/
abbrev VF (s : Shape) : Type := (⟨s, .f32⟩ : BufTy).Contents (Elt Ideal)
abbrev VI (s : Shape) : Type := (⟨s, .i32⟩ : BufTy).Contents (Elt Ideal)

/-- The four dense stages: the bias a vector of 128, the score a vector of 4096. -/
structure Tiles where
  dense : VF S50000x128 → VF S128x128 → VF S128 → VF S50000x128
  msg : VF S800000x128 → VF S800000x128 → VF S800000x128 → VF S128x128 → VF S128 → VF S800000x128
  upd : VF S50000x128 → VF S50000x128 → VF S50000x128
  score : VF S4096x512 → VF S4096x512 → VF S4096

/-- Row `r` of the edge list. -/
def src (e : VI S2x800000) : VI S800000 :=
  shapeCast S800000 (extractStridedSlice S1x800000 ![0, 0] e slices_S2x800000_S1x800000_0_0) shapeCasts_S1x800000_S800000
def dst (e : VI S2x800000) : VI S800000 :=
  shapeCast S800000 (extractStridedSlice S1x800000 ![1, 0] e slices_S2x800000_S1x800000_1_0) shapeCasts_S1x800000_S800000

/-- Layer l's weight matrix and bias vector out of the stacked arrays. -/
def mat0 (w : VF S3x128x128) : VF S128x128 :=
  shapeCast S128x128 (extractStridedSlice S1x128x128 ![0, 0, 0] w slices_S3x128x128_S1x128x128_0_0_0) shapeCasts_S1x128x128_S128x128
def mat1 (w : VF S3x128x128) : VF S128x128 :=
  shapeCast S128x128 (extractStridedSlice S1x128x128 ![1, 0, 0] w slices_S3x128x128_S1x128x128_1_0_0) shapeCasts_S1x128x128_S128x128
def mat2 (w : VF S3x128x128) : VF S128x128 :=
  shapeCast S128x128 (extractStridedSlice S1x128x128 ![2, 0, 0] w slices_S3x128x128_S1x128x128_2_0_0) shapeCasts_S1x128x128_S128x128
def vec0 (b : VF S3x128) : VF S128 :=
  shapeCast S128 (extractStridedSlice S1x128 ![0, 0] b slices_S3x128_S1x128_0_0) shapeCasts_S1x128_S128
def vec1 (b : VF S3x128) : VF S128 :=
  shapeCast S128 (extractStridedSlice S1x128 ![1, 0] b slices_S3x128_S1x128_1_0) shapeCasts_S1x128_S128
def vec2 (b : VF S3x128) : VF S128 :=
  shapeCast S128 (extractStridedSlice S1x128 ![2, 0] b slices_S3x128_S1x128_2_0) shapeCasts_S1x128_S128

/-- An edge index vector as a column of start indices: a negative entry counts from the end of the 50000 rows. -/
def wrapE (i : VI S800000) : VI S800000x1 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- The same for a batch index vector into `n` rows. -/
def wrapB (n : BitVec 32) (i : VI S4096) : VI S4096x1 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 n))) i)

/-- The rows of a node array that an edge index vector names. -/
def rows (x : VF S50000x128) (i : VI S800000) : VF S800000x128 :=
  Host.gather gather_S50000x128_S800000x1_S800000x128_1_0_n_n_0_1_1128 x (wrapE i)

/-- Messages summed into their target rows, from zero. -/
def aggregate (d : VI S800000) (u : VF S800000x128) : VF S50000x128 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d) u

/-- One layer. -/
def layer (T : Tiles) (x : VF S50000x128) (w1 : VF S128x128) (b1 : VF S128) (w2 : VF S128x128) (b2 : VF S128)
    (s d : VI S800000) : VF S50000x128 :=
  T.upd (aggregate d (T.msg (rows x s) (rows x d) (rows (T.dense x w1 b1) s) w2 b2)) (T.dense x w1 b1)

variable (T : Tiles) (a0 : VF S50000x128) (a1 : VF S30000x512) (a2 a3 : VF S3x128x128) (a4 a5 : VF S3x128)
  (a6 : VI S2x800000) (a7 a8 : VI S4096)

/-- The embeddings after one, two and three layers. -/
def x1 : VF S50000x128 := layer T a0 (mat0 a2) (vec0 a4) (mat0 a3) (vec0 a5) (src a6) (dst a6)
def x2 : VF S50000x128 := layer T (x1 T a0 a2 a3 a4 a5 a6) (mat1 a2) (vec1 a4) (mat1 a3) (vec1 a5) (src a6) (dst a6)
def x3 : VF S50000x128 := layer T (x2 T a0 a2 a3 a4 a5 a6) (mat2 a2) (vec2 a4) (mat2 a3) (vec2 a5) (src a6) (dst a6)

/-- The four embeddings side by side. -/
def allEmb : VF S50000x512 :=
  concatenate S50000x512 1 [⟨S50000x128, a0⟩, ⟨S50000x128, x1 T a0 a2 a3 a4 a5 a6⟩, ⟨S50000x128, x2 T a0 a2 a3 a4 a5 a6⟩,
    ⟨S50000x128, x3 T a0 a2 a3 a4 a5 a6⟩] concatenates_S50000x128_S50000x128_S50000x128_S50000x128_S50000x512_d1

/-- The three results: the users' rows, the items' rows, their row scores. -/
def gammaU : VF S4096x512 :=
  Host.gather gather_S50000x512_S4096x1_S4096x512_1_0_n_n_0_1_1512 (allEmb T a0 a2 a3 a4 a5 a6) (wrapB 50000#32 a7)
def gammaI : VF S4096x512 :=
  Host.gather gather_S30000x512_S4096x1_S4096x512_1_0_n_n_0_1_1512 a1 (wrapB 30000#32 a8)
def xui : VF S4096 := T.score (gammaU T a0 a2 a3 a4 a5 a6 a7) (gammaI a1 a8)

end Cert.Model

end
-- ==== Proof.Ref.Tiles.lean ====
import proofs.«144474_j77214922048057_1_alg».proof.Proof.Gen.ReferenceIdeal
import proofs.«144474_j77214922048057_1_alg».proof.Proof.Val.Model
import Idealize.ShloMosaic.PureOps.Ideal

/-!
The reference's four dense stages as functions of whole arrays — the node projection, the edge message, the node update
and the row score, each the composed term of the host operations that compute it — and, at the extended reals, the four
together as the model's parameter.
-/

noncomputable section

namespace Cert.ReferenceIdeal.Hand

open Cert.ReferenceIdeal Cert.ReferenceIdeal.Gen Idealize.ShloMosaic

section Stages

variable {F : FTy → Type} [FloatOps F]

/-- Float arrays of a shape. -/
abbrev VF (F : FTy → Type) (s : Shape) : Type := (⟨s, .f32⟩ : BufTy).Contents (Elt F)

/-- The node projection: x · w, plus the bias along every row. -/
def denseF (x : VF F S50000x128) (w : VF F S128x128) (b : VF F S128) : VF F S50000x128 :=
  addf (Host.dotGeneral dot_S50000x128_S128x128_S50000x128_1_0_0_1_n_n none x w)
    (broadcastInDim S50000x128 ![0, 1] bcast_S1x128_S50000x128_0_1 (broadcastInDim S1x128 ![1] bcast_S128_S1x128_1 b))

/-- The edge message: the projected source row, plus (source row ⊙ target row) · w, plus the bias along every row. -/
def msgF (xs xd hs : VF F S800000x128) (w : VF F S128x128) (b : VF F S128) : VF F S800000x128 :=
  addf (addf hs (Host.dotGeneral dot_S800000x128_S128x128_S800000x128_1_0_0_1_n_n none (mulf xs xd) w))
    (broadcastInDim S800000x128 ![0, 1] bcast_S1x128_S800000x128_0_1 (broadcastInDim S1x128 ![1] bcast_S128_S1x128_1 b))

/-- The leaky rectifier: s where s ≥ 0, the slope (the f32 word 0x3C23D70A) times s elsewhere. -/
def leakyF (s : VF F S50000x128) : VF F S50000x128 :=
  select (cmpf .oge s (broadcastInDim S50000x128 ![] bcast_S_S50000x128 (constant (F := F) S_ .f32 0x00000000#32))) s
    (mulf (broadcastInDim S50000x128 ![] bcast_S_S50000x128 (constant (F := F) S_ .f32 0x3C23D70A#32)) s)

/-- Each row divided by its Euclidean norm, the norm kept no smaller than the f32 word 0x2B8CBCCC. -/
def normF (o : VF F S50000x128) : VF F S50000x128 :=
  Host.divf o (broadcastInDim S50000x128 ![0, 1] bcast_S50000x1_S50000x128_0_1
    (maximumf (Host.sqrt (broadcastInDim S50000x1 ![0] bcast_S50000_S50000x1_0
        (Host.reduceAdd (mulf o o) (constant (F := F) S_ .f32 0x00000000#32) reducesTo_S50000x128_S50000_d1 h_S_)))
      (broadcastInDim S50000x1 ![] bcast_S_S50000x1 (constant (F := F) S_ .f32 0x2B8CBCCC#32))))

/-- The node update: the aggregate plus the projection, rectified, each row normalised. -/
def updF (agg h : VF F S50000x128) : VF F S50000x128 := normF (leakyF (addf agg h))

/-- The row score: the sum along each row of the elementwise product. -/
def scoreF (gu gi : VF F S4096x512) : VF F S4096 :=
  Host.reduceAdd (mulf gu gi) (constant (F := F) S_ .f32 0x00000000#32) reducesTo_S4096x512_S4096_d1 h_S_

/-- Four node arrays side by side. -/
def concat4 (u0 u1 u2 u3 : VF F S50000x128) : VF F S50000x512 :=
  concatenate S50000x512 1 [⟨S50000x128, u0⟩, ⟨S50000x128, u1⟩, ⟨S50000x128, u2⟩, ⟨S50000x128, u3⟩]
    concatenates_S50000x128_S50000x128_S50000x128_S50000x128_S50000x512_d1

end Stages

/-- The reference's four dense stages, at the extended reals, as the model's parameter. -/
def refTiles : Cert.Model.Tiles := ⟨denseF (F := Ideal), msgF (F := Ideal), updF (F := Ideal), scoreF (F := Ideal)⟩

end Cert.ReferenceIdeal.Hand

end
-- ==== Proof.Ref.Reads.lean ====
import proofs.«144474_j77214922048057_1_alg».proof.Proof.Ref.Ops
import proofs.«144474_j77214922048057_1_alg».proof.Proof.Ref.Tiles

/-!
Each stage of the reference's operation list read back from ANY starting contents: the buffer a stage leaves a result in
holds, after the stage, the stage's function of the buffers it read — the edge list's two rows, a layer's projection and
its messages summed into their target rows, a layer's update, and the three results of the last stage.
-/

noncomputable section

namespace Cert.ReferenceIdeal.Hand

open Cert.ReferenceIdeal Cert.ReferenceIdeal.Gen Idealize.ShloMosaic Idealize.ShloMosaic.TcCoe Idealize.SL.Sem Idealize.ShloMosaic.StableHlo

/-- The users' rows out of the four embeddings side by side. -/
def gammaUOf (e : VF Ideal S50000x512) (i : Cert.Model.VI S4096) : VF Ideal S4096x512 :=
  Host.gather gather_S50000x512_S4096x1_S4096x512_1_0_n_n_0_1_1512 e (Cert.Model.wrapB 50000#32 i)

local notation:max V "⦃" r "⦄" => V (Proc.devRef Proc.tc r)

/-! ## Each stage, from any starting contents -/

section Read

variable (V : Valuation τ sig (Elt Ideal))

/-- The edge list's two rows. -/
theorem segI_src : (after segI V) ⦃main_v1⦄ = Cert.Model.src (V ⦃main_arg6⦄) := by
  simp only [segI]
  after_results_simp <;> rfl
theorem segI_dst : (after segI V) ⦃main_v3⦄ = Cert.Model.dst (V ⦃main_arg6⦄) := by
  simp only [segI]
  after_results_simp <;> rfl

set_option maxRecDepth 16384 in
set_option maxHeartbeats 4000000 in
/-- Layer 0: the projection of the embedding it starts from, and the messages summed into their target rows. -/
theorem segB0_h : (after segB0 V) ⦃main_v11⦄ = refTiles.dense (V ⦃main_arg0⦄) (Cert.Model.mat0 (V ⦃main_arg2⦄)) (Cert.Model.vec0 (V ⦃main_arg4⦄)) := by
  simp only [segB0]
  after_results_simp <;> rfl
set_option maxRecDepth 16384 in
set_option maxHeartbeats 4000000 in
theorem segB0_agg : (after segB0 V) ⦃main_v45⦄
    = Cert.Model.aggregate (V ⦃main_v3⦄) (refTiles.msg (Cert.Model.rows (V ⦃main_arg0⦄) (V ⦃main_v1⦄)) (Cert.Model.rows (V ⦃main_arg0⦄) (V ⦃main_v3⦄)) (Cert.Model.rows (refTiles.dense (V ⦃main_arg0⦄) (Cert.Model.mat0 (V ⦃main_arg2⦄)) (Cert.Model.vec0 (V ⦃main_arg4⦄))) (V ⦃main_v1⦄)) (Cert.Model.mat0 (V ⦃main_arg3⦄)) (Cert.Model.vec0 (V ⦃main_arg5⦄))) := by
  simp only [segB0]
  after_results_simp <;> rfl
set_option maxRecDepth 16384 in
set_option maxHeartbeats 4000000 in
/-- Layer 0's update, the outlined rectifier's operations among it. -/
theorem segU0_x : (after segU0 V) ⦃main_v55⦄ = refTiles.upd (V ⦃main_v45⦄) (V ⦃main_v11⦄) := by
  simp only [segU0]
  after_results_simp <;> rfl

set_option maxRecDepth 16384 in
set_option maxHeartbeats 4000000 in
/-- Layer 1: the projection of the embedding it starts from, and the messages summed into their target rows. -/
theorem segB1_h : (after segB1 V) ⦃main_v63⦄ = refTiles.dense (V ⦃main_v55⦄) (Cert.Model.mat1 (V ⦃main_arg2⦄)) (Cert.Model.vec1 (V ⦃main_arg4⦄)) := by
  simp only [segB1]
  after_results_simp <;> rfl
set_option maxRecDepth 16384 in
set_option maxHeartbeats 4000000 in
theorem segB1_agg : (after segB1 V) ⦃main_v97⦄
    = Cert.Model.aggregate (V ⦃main_v3⦄) (refTiles.msg (Cert.Model.rows (V ⦃main_v55⦄) (V ⦃main_v1⦄)) (Cert.Model.rows (V ⦃main_v55⦄) (V ⦃main_v3⦄)) (Cert.Model.rows (refTiles.dense (V ⦃main_v55⦄) (Cert.Model.mat1 (V ⦃main_arg2⦄)) (Cert.Model.vec1 (V ⦃main_arg4⦄))) (V ⦃main_v1⦄)) (Cert.Model.mat1 (V ⦃main_arg3⦄)) (Cert.Model.vec1 (V ⦃main_arg5⦄))) := by
  simp only [segB1]
  after_results_simp <;> rfl
set_option maxRecDepth 16384 in
set_option maxHeartbeats 4000000 in
/-- Layer 1's update, the outlined rectifier's operations among it. -/
theorem segU1_x : (after segU1 V) ⦃main_v107⦄ = refTiles.upd (V ⦃main_v97⦄) (V ⦃main_v63⦄) := by
  simp only [segU1]
  after_results_simp <;> rfl

set_option maxRecDepth 16384 in
set_option maxHeartbeats 4000000 in
/-- Layer 2: the projection of the embedding it starts from, and the messages summed into their target rows. -/
theorem segB2_h : (after segB2 V) ⦃main_v115⦄ = refTiles.dense (V ⦃main_v107⦄) (Cert.Model.mat2 (V ⦃main_arg2⦄)) (Cert.Model.vec2 (V ⦃main_arg4⦄)) := by
  simp only [segB2]
  after_results_simp <;> rfl
set_option maxRecDepth 16384 in
set_option maxHeartbeats 4000000 in
theorem segB2_agg : (after segB2 V) ⦃main_v149⦄
    = Cert.Model.aggregate (V ⦃main_v3⦄) (refTiles.msg (Cert.Model.rows (V ⦃main_v107⦄) (V ⦃main_v1⦄)) (Cert.Model.rows (V ⦃main_v107⦄) (V ⦃main_v3⦄)) (Cert.Model.rows (refTiles.dense (V ⦃main_v107⦄) (Cert.Model.mat2 (V ⦃main_arg2⦄)) (Cert.Model.vec2 (V ⦃main_arg4⦄))) (V ⦃main_v1⦄)) (Cert.Model.mat2 (V ⦃main_arg3⦄)) (Cert.Model.vec2 (V ⦃main_arg5⦄))) := by
  simp only [segB2]
  after_results_simp <;> rfl
set_option maxRecDepth 16384 in
set_option maxHeartbeats 4000000 in
/-- Layer 2's update, the outlined rectifier's operations among it. -/
theorem segU2_x : (after segU2 V) ⦃main_v159⦄ = refTiles.upd (V ⦃main_v149⦄) (V ⦃main_v115⦄) := by
  simp only [segU2]
  after_results_simp <;> rfl

set_option maxRecDepth 16384 in
set_option maxHeartbeats 4000000 in
/-- The last stage: the users' rows of the four embeddings side by side, the items' rows, the row scores. -/
theorem segS_gammaU : (after segS V) ⦃main_v167⦄ = gammaUOf (concat4 (V ⦃main_arg0⦄) (V ⦃main_v55⦄) (V ⦃main_v107⦄) (V ⦃main_v159⦄)) (V ⦃main_arg7⦄) := by
  simp only [segS]
  after_results_simp <;> rfl
set_option maxRecDepth 16384 in
set_option maxHeartbeats 4000000 in
theorem segS_gammaI : (after segS V) ⦃main_v174⦄ = Cert.Model.gammaI (V ⦃main_arg1⦄) (V ⦃main_arg8⦄) := by
  simp only [segS]
  after_results_simp <;> rfl
set_option maxRecDepth 16384 in
set_option maxHeartbeats 4000000 in
theorem segS_xui : (after segS V) ⦃main_v176⦄ = refTiles.score (gammaUOf (concat4 (V ⦃main_arg0⦄) (V ⦃main_v55⦄) (V ⦃main_v107⦄) (V ⦃main_v159⦄)) (V ⦃main_arg7⦄)) (Cert.Model.gammaI (V ⦃main_arg1⦄) (V ⦃main_arg8⦄)) := by
  simp only [segS]
  after_results_simp <;> rfl

end Read

end Cert.ReferenceIdeal.Hand

end
-- ==== Proof.Ref.Run.lean ====
import proofs.«144474_j77214922048057_1_alg».proof.Proof.Ref.Ops
import proofs.«144474_j77214922048057_1_alg».proof.Proof.Ref.Tiles
import proofs.«144474_j77214922048057_1_alg».proof.Proof.Ref.Reads

/-!
The reference's run, read back against the model. Each stage of the operation list has been read back from ANY starting
contents as its stage function of the buffers it reads. Every buffer is written once: what a buffer holds when the whole
program has run is what its stage left there, and what that stage read is what the program's end holds too. So the end
contents satisfy the model's equations one stage at a time, each over the NAMES of the earlier ones — the embedding after
a layer enters the next layer's equations as the model's name for it, never as its term.
-/

noncomputable section

namespace Cert.ReferenceIdeal.Hand

open Cert.ReferenceIdeal Cert.ReferenceIdeal.Gen Idealize.ShloMosaic Idealize.ShloMosaic.TcCoe Idealize.SL.Sem Idealize.ShloMosaic.StableHlo

local notation:max V "⦃" r "⦄" => V (Proc.devRef Proc.tc r)

/-! ## The contents after each stage, and the end contents -/

section End

variable (V0 : Valuation τ sig (Elt Ideal))

/-- The contents after the first k stages. -/
def P1 : Valuation τ sig (Elt Ideal) := after segI V0
def P2 : Valuation τ sig (Elt Ideal) := after segB0 (P1 V0)
def P3 : Valuation τ sig (Elt Ideal) := after segU0 (P2 V0)
def P4 : Valuation τ sig (Elt Ideal) := after segB1 (P3 V0)
def P5 : Valuation τ sig (Elt Ideal) := after segU1 (P4 V0)
def P6 : Valuation τ sig (Elt Ideal) := after segB2 (P5 V0)
def P7 : Valuation τ sig (Elt Ideal) := after segU2 (P6 V0)
def P8 : Valuation τ sig (Elt Ideal) := after segS (P7 V0)

/-- The whole program is the first k stages, then the rest. -/
theorem E1 : after ops V0 = after post1 (P1 V0) := after_append segI post1 V0
theorem E2 : after ops V0 = after post2 (P2 V0) := (E1 V0).trans (after_append segB0 post2 (P1 V0))
theorem E3 : after ops V0 = after post3 (P3 V0) := (E2 V0).trans (after_append segU0 post3 (P2 V0))
theorem E4 : after ops V0 = after post4 (P4 V0) := (E3 V0).trans (after_append segB1 post4 (P3 V0))
theorem E5 : after ops V0 = after post5 (P5 V0) := (E4 V0).trans (after_append segU1 post5 (P4 V0))
theorem E6 : after ops V0 = after post6 (P6 V0) := (E5 V0).trans (after_append segB2 post6 (P5 V0))
theorem E7 : after ops V0 = after post7 (P7 V0) := (E6 V0).trans (after_append segU2 post7 (P6 V0))

/-- A buffer the rest of the program does not write holds at the end what it held after the first k stages. -/
theorem at0 (r : Ref sig .tc) (h : r ∉ ops_W) : (after ops V0) ⦃r⦄ = V0 ⦃r⦄ := after_of_writes_sub ops V0 ops_writes h
theorem at1 (r : Ref sig .tc) (h : r ∉ post1_W) : (after ops V0) ⦃r⦄ = (P1 V0) ⦃r⦄ := by
  rw [E1]; exact after_of_writes_sub post1 _ post1_writes h
theorem at2 (r : Ref sig .tc) (h : r ∉ post2_W) : (after ops V0) ⦃r⦄ = (P2 V0) ⦃r⦄ := by
  rw [E2]; exact after_of_writes_sub post2 _ post2_writes h
theorem at3 (r : Ref sig .tc) (h : r ∉ post3_W) : (after ops V0) ⦃r⦄ = (P3 V0) ⦃r⦄ := by
  rw [E3]; exact after_of_writes_sub post3 _ post3_writes h
theorem at4 (r : Ref sig .tc) (h : r ∉ post4_W) : (after ops V0) ⦃r⦄ = (P4 V0) ⦃r⦄ := by
  rw [E4]; exact after_of_writes_sub post4 _ post4_writes h
theorem at5 (r : Ref sig .tc) (h : r ∉ post5_W) : (after ops V0) ⦃r⦄ = (P5 V0) ⦃r⦄ := by
  rw [E5]; exact after_of_writes_sub post5 _ post5_writes h
theorem at6 (r : Ref sig .tc) (h : r ∉ post6_W) : (after ops V0) ⦃r⦄ = (P6 V0) ⦃r⦄ := by
  rw [E6]; exact after_of_writes_sub post6 _ post6_writes h
theorem at7 (r : Ref sig .tc) (h : r ∉ post7_W) : (after ops V0) ⦃r⦄ = (P7 V0) ⦃r⦄ := by
  rw [E7]; exact after_of_writes_sub post7 _ post7_writes h
theorem at8 (r : Ref sig .tc) : (after ops V0) ⦃r⦄ = (P8 V0) ⦃r⦄ := by
  rw [E7]; rfl

/-! ## The model's equations at the end contents -/

/-- No operation writes an argument. -/
theorem E_arg0 : (after ops V0) ⦃main_arg0⦄ = V0 ⦃main_arg0⦄ := at0 V0 main_arg0 (by decide)
theorem E_arg1 : (after ops V0) ⦃main_arg1⦄ = V0 ⦃main_arg1⦄ := at0 V0 main_arg1 (by decide)
theorem E_arg2 : (after ops V0) ⦃main_arg2⦄ = V0 ⦃main_arg2⦄ := at0 V0 main_arg2 (by decide)
theorem E_arg3 : (after ops V0) ⦃main_arg3⦄ = V0 ⦃main_arg3⦄ := at0 V0 main_arg3 (by decide)
theorem E_arg4 : (after ops V0) ⦃main_arg4⦄ = V0 ⦃main_arg4⦄ := at0 V0 main_arg4 (by decide)
theorem E_arg5 : (after ops V0) ⦃main_arg5⦄ = V0 ⦃main_arg5⦄ := at0 V0 main_arg5 (by decide)
theorem E_arg6 : (after ops V0) ⦃main_arg6⦄ = V0 ⦃main_arg6⦄ := at0 V0 main_arg6 (by decide)
theorem E_arg7 : (after ops V0) ⦃main_arg7⦄ = V0 ⦃main_arg7⦄ := at0 V0 main_arg7 (by decide)
theorem E_arg8 : (after ops V0) ⦃main_arg8⦄ = V0 ⦃main_arg8⦄ := at0 V0 main_arg8 (by decide)

theorem E_src : (after ops V0) ⦃main_v1⦄ = Cert.Model.src (V0 ⦃main_arg6⦄) := by
  rw [at1 V0 main_v1 (by decide), P1, segI_src]
theorem E_dst : (after ops V0) ⦃main_v3⦄ = Cert.Model.dst (V0 ⦃main_arg6⦄) := by
  rw [at1 V0 main_v3 (by decide), P1, segI_dst]

/-- Layer 0 at the end contents, over the model's name for the embedding it starts from. -/
theorem E_h0 : (after ops V0) ⦃main_v11⦄ = refTiles.dense (V0 ⦃main_arg0⦄) (Cert.Model.mat0 (V0 ⦃main_arg2⦄)) (Cert.Model.vec0 (V0 ⦃main_arg4⦄)) := by
  rw [at2 V0 main_v11 (by decide), P2, segB0_h, ← at1 V0 main_arg0 (by decide), ← at1 V0 main_arg2 (by decide), ← at1 V0 main_arg4 (by decide),
    E_arg0, E_arg2, E_arg4]
theorem E_agg0 : (after ops V0) ⦃main_v45⦄
    = Cert.Model.aggregate (Cert.Model.dst (V0 ⦃main_arg6⦄)) (refTiles.msg (Cert.Model.rows (V0 ⦃main_arg0⦄) (Cert.Model.src (V0 ⦃main_arg6⦄))) (Cert.Model.rows (V0 ⦃main_arg0⦄) (Cert.Model.dst (V0 ⦃main_arg6⦄))) (Cert.Model.rows (refTiles.dense (V0 ⦃main_arg0⦄) (Cert.Model.mat0 (V0 ⦃main_arg2⦄)) (Cert.Model.vec0 (V0 ⦃main_arg4⦄))) (Cert.Model.src (V0 ⦃main_arg6⦄))) (Cert.Model.mat0 (V0 ⦃main_arg3⦄)) (Cert.Model.vec0 (V0 ⦃main_arg5⦄))) := by
  rw [at2 V0 main_v45 (by decide), P2, segB0_agg,
    ← at1 V0 main_arg0 (by decide), ← at1 V0 main_v1 (by decide), ← at1 V0 main_v3 (by decide), ← at1 V0 main_arg2 (by decide), ← at1 V0 main_arg3 (by decide), ← at1 V0 main_arg4 (by decide), ← at1 V0 main_arg5 (by decide),
    E_arg0, E_src, E_dst, E_arg2, E_arg3, E_arg4, E_arg5]
theorem E_x1 : (after ops V0) ⦃main_v55⦄ = Cert.Model.x1 refTiles (V0 ⦃main_arg0⦄) (V0 ⦃main_arg2⦄) (V0 ⦃main_arg3⦄) (V0 ⦃main_arg4⦄) (V0 ⦃main_arg5⦄) (V0 ⦃main_arg6⦄) := by
  rw [at3 V0 main_v55 (by decide), P3, segU0_x, ← at2 V0 main_v45 (by decide), ← at2 V0 main_v11 (by decide), E_agg0, E_h0]
  rfl

/-- Layer 1 at the end contents, over the model's name for the embedding it starts from. -/
theorem E_h1 : (after ops V0) ⦃main_v63⦄ = refTiles.dense (Cert.Model.x1 refTiles (V0 ⦃main_arg0⦄) (V0 ⦃main_arg2⦄) (V0 ⦃main_arg3⦄) (V0 ⦃main_arg4⦄) (V0 ⦃main_arg5⦄) (V0 ⦃main_arg6⦄)) (Cert.Model.mat1 (V0 ⦃main_arg2⦄)) (Cert.Model.vec1 (V0 ⦃main_arg4⦄)) := by
  rw [at4 V0 main_v63 (by decide), P4, segB1_h, ← at3 V0 main_v55 (by decide), ← at3 V0 main_arg2 (by decide), ← at3 V0 main_arg4 (by decide),
    E_x1, E_arg2, E_arg4]
theorem E_agg1 : (after ops V0) ⦃main_v97⦄
    = Cert.Model.aggregate (Cert.Model.dst (V0 ⦃main_arg6⦄)) (refTiles.msg (Cert.Model.rows (Cert.Model.x1 refTiles (V0 ⦃main_arg0⦄) (V0 ⦃main_arg2⦄) (V0 ⦃main_arg3⦄) (V0 ⦃main_arg4⦄) (V0 ⦃main_arg5⦄) (V0 ⦃main_arg6⦄)) (Cert.Model.src (V0 ⦃main_arg6⦄))) (Cert.Model.rows (Cert.Model.x1 refTiles (V0 ⦃main_arg0⦄) (V0 ⦃main_arg2⦄) (V0 ⦃main_arg3⦄) (V0 ⦃main_arg4⦄) (V0 ⦃main_arg5⦄) (V0 ⦃main_arg6⦄)) (Cert.Model.dst (V0 ⦃main_arg6⦄))) (Cert.Model.rows (refTiles.dense (Cert.Model.x1 refTiles (V0 ⦃main_arg0⦄) (V0 ⦃main_arg2⦄) (V0 ⦃main_arg3⦄) (V0 ⦃main_arg4⦄) (V0 ⦃main_arg5⦄) (V0 ⦃main_arg6⦄)) (Cert.Model.mat1 (V0 ⦃main_arg2⦄)) (Cert.Model.vec1 (V0 ⦃main_arg4⦄))) (Cert.Model.src (V0 ⦃main_arg6⦄))) (Cert.Model.mat1 (V0 ⦃main_arg3⦄)) (Cert.Model.vec1 (V0 ⦃main_arg5⦄))) := by
  rw [at4 V0 main_v97 (by decide), P4, segB1_agg,
    ← at3 V0 main_v55 (by decide), ← at3 V0 main_v1 (by decide), ← at3 V0 main_v3 (by decide), ← at3 V0 main_arg2 (by decide), ← at3 V0 main_arg3 (by decide), ← at3 V0 main_arg4 (by decide), ← at3 V0 main_arg5 (by decide),
    E_x1, E_src, E_dst, E_arg2, E_arg3, E_arg4, E_arg5]
theorem E_x2 : (after ops V0) ⦃main_v107⦄ = Cert.Model.x2 refTiles (V0 ⦃main_arg0⦄) (V0 ⦃main_arg2⦄) (V0 ⦃main_arg3⦄) (V0 ⦃main_arg4⦄) (V0 ⦃main_arg5⦄) (V0 ⦃main_arg6⦄) := by
  rw [at5 V0 main_v107 (by decide), P5, segU1_x, ← at4 V0 main_v97 (by decide), ← at4 V0 main_v63 (by decide), E_agg1, E_h1]
  rfl

/-- Layer 2 at the end contents, over the model's name for the embedding it starts from. -/
theorem E_h2 : (after ops V0) ⦃main_v115⦄ = refTiles.dense (Cert.Model.x2 refTiles (V0 ⦃main_arg0⦄) (V0 ⦃main_arg2⦄) (V0 ⦃main_arg3⦄) (V0 ⦃main_arg4⦄) (V0 ⦃main_arg5⦄) (V0 ⦃main_arg6⦄)) (Cert.Model.mat2 (V0 ⦃main_arg2⦄)) (Cert.Model.vec2 (V0 ⦃main_arg4⦄)) := by
  rw [at6 V0 main_v115 (by decide), P6, segB2_h, ← at5 V0 main_v107 (by decide), ← at5 V0 main_arg2 (by decide), ← at5 V0 main_arg4 (by decide),
    E_x2, E_arg2, E_arg4]
theorem E_agg2 : (after ops V0) ⦃main_v149⦄
    = Cert.Model.aggregate (Cert.Model.dst (V0 ⦃main_arg6⦄)) (refTiles.msg (Cert.Model.rows (Cert.Model.x2 refTiles (V0 ⦃main_arg0⦄) (V0 ⦃main_arg2⦄) (V0 ⦃main_arg3⦄) (V0 ⦃main_arg4⦄) (V0 ⦃main_arg5⦄) (V0 ⦃main_arg6⦄)) (Cert.Model.src (V0 ⦃main_arg6⦄))) (Cert.Model.rows (Cert.Model.x2 refTiles (V0 ⦃main_arg0⦄) (V0 ⦃main_arg2⦄) (V0 ⦃main_arg3⦄) (V0 ⦃main_arg4⦄) (V0 ⦃main_arg5⦄) (V0 ⦃main_arg6⦄)) (Cert.Model.dst (V0 ⦃main_arg6⦄))) (Cert.Model.rows (refTiles.dense (Cert.Model.x2 refTiles (V0 ⦃main_arg0⦄) (V0 ⦃main_arg2⦄) (V0 ⦃main_arg3⦄) (V0 ⦃main_arg4⦄) (V0 ⦃main_arg5⦄) (V0 ⦃main_arg6⦄)) (Cert.Model.mat2 (V0 ⦃main_arg2⦄)) (Cert.Model.vec2 (V0 ⦃main_arg4⦄))) (Cert.Model.src (V0 ⦃main_arg6⦄))) (Cert.Model.mat2 (V0 ⦃main_arg3⦄)) (Cert.Model.vec2 (V0 ⦃main_arg5⦄))) := by
  rw [at6 V0 main_v149 (by decide), P6, segB2_agg,
    ← at5 V0 main_v107 (by decide), ← at5 V0 main_v1 (by decide), ← at5 V0 main_v3 (by decide), ← at5 V0 main_arg2 (by decide), ← at5 V0 main_arg3 (by decide), ← at5 V0 main_arg4 (by decide), ← at5 V0 main_arg5 (by decide),
    E_x2, E_src, E_dst, E_arg2, E_arg3, E_arg4, E_arg5]
theorem E_x3 : (after ops V0) ⦃main_v159⦄ = Cert.Model.x3 refTiles (V0 ⦃main_arg0⦄) (V0 ⦃main_arg2⦄) (V0 ⦃main_arg3⦄) (V0 ⦃main_arg4⦄) (V0 ⦃main_arg5⦄) (V0 ⦃main_arg6⦄) := by
  rw [at7 V0 main_v159 (by decide), P7, segU2_x, ← at6 V0 main_v149 (by decide), ← at6 V0 main_v115 (by decide), E_agg2, E_h2]
  rfl

/-- The three results at the end contents. -/
theorem E_gammaU : (after ops V0) ⦃main_v167⦄ = Cert.Model.gammaU refTiles (V0 ⦃main_arg0⦄) (V0 ⦃main_arg2⦄) (V0 ⦃main_arg3⦄) (V0 ⦃main_arg4⦄) (V0 ⦃main_arg5⦄) (V0 ⦃main_arg6⦄) (V0 ⦃main_arg7⦄) := by
  rw [at8 V0 main_v167, P8, segS_gammaU, ← at7 V0 main_arg0 (by decide), ← at7 V0 main_v55 (by decide), ← at7 V0 main_v107 (by decide),
    ← at7 V0 main_v159 (by decide), ← at7 V0 main_arg7 (by decide), E_arg0, E_x1, E_x2, E_x3, E_arg7]
  rfl
theorem E_gammaI : (after ops V0) ⦃main_v174⦄ = Cert.Model.gammaI (V0 ⦃main_arg1⦄) (V0 ⦃main_arg8⦄) := by
  rw [at8 V0 main_v174, P8, segS_gammaI, ← at7 V0 main_arg1 (by decide), ← at7 V0 main_arg8 (by decide), E_arg1, E_arg8]
theorem E_xui : (after ops V0) ⦃main_v176⦄ = Cert.Model.xui refTiles (V0 ⦃main_arg0⦄) (V0 ⦃main_arg1⦄) (V0 ⦃main_arg2⦄) (V0 ⦃main_arg3⦄) (V0 ⦃main_arg4⦄) (V0 ⦃main_arg5⦄) (V0 ⦃main_arg6⦄) (V0 ⦃main_arg7⦄) (V0 ⦃main_arg8⦄) := by
  rw [at8 V0 main_v176, P8, segS_xui, ← at7 V0 main_arg0 (by decide), ← at7 V0 main_v55 (by decide), ← at7 V0 main_v107 (by decide),
    ← at7 V0 main_v159 (by decide), ← at7 V0 main_arg7 (by decide), ← at7 V0 main_arg1 (by decide), ← at7 V0 main_arg8 (by decide),
    E_arg0, E_x1, E_x2, E_x3, E_arg7, E_arg1, E_arg8]
  rfl

end End

/-! ## The run -/

/-- On every device, from any memory with zero counters: every weakly fair execution of @main terminates with the three
    results at the model's functions of the arguments' launch contents, the reference's four stages its parameter, and
    the nine arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v176) = Cert.Model.xui refTiles (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v167) = Cert.Model.gammaU refTiles (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v174) = Cert.Model.gammaI (m ((c.tc : Thread nD τ).loc main_arg1)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v176).trans (E_xui (launchContents m c)),
      (h c main_v167).trans (E_gammaU (launchContents m c)),
      (h c main_v174).trans (E_gammaI (launchContents m c)),
      (h c main_arg0).trans (E_arg0 (launchContents m c)),
      (h c main_arg1).trans (E_arg1 (launchContents m c)),
      (h c main_arg2).trans (E_arg2 (launchContents m c)),
      (h c main_arg3).trans (E_arg3 (launchContents m c)),
      (h c main_arg4).trans (E_arg4 (launchContents m c)),
      (h c main_arg5).trans (E_arg5 (launchContents m c)),
      (h c main_arg6).trans (E_arg6 (launchContents m c)),
      (h c main_arg7).trans (E_arg7 (launchContents m c)),
      (h c main_arg8).trans (E_arg8 (launchContents m c))⟩)
    (run_seq scopedRefs_eq scopedSems_eq defs main (fun _ => ops) main_eq (fun _ => ops_sub) m ρ)

/-- The reference runs and leaves its nine arguments as they were. -/
theorem frame_ri (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => (h c).2.2.2) (run m ρ)

end Cert.ReferenceIdeal.Hand

end
-- ==== Proof.Spec.lean ====
/-
  The four tile functions of a three-layer graph convolution followed by a pair score, at the ideal values, each
  written entry by entry over the whole array.

  A DENSE layer sends node features x [50000, 128], a weight w [128, 128] and a bias row b [1, 128] to
  x · w + b: entry (i, j) is the sum over k of x i k * w k j, plus b 0 j. A MESSAGE layer works on edge rows
  [800000, 128]: the two endpoint feature rows are multiplied entry by entry, the product row goes through the weight,
  and the edge's own row hs and the bias are added: entry (i, j) is (hs i j + sum over k of (xs i k * xd i k) * w k j) + b 0 j.
  An UPDATE adds the aggregated messages to the node's row, s = agg + h1, applies the leaky rectifier
  o = s where s > 0 and c * s elsewhere (c the binary32 word 0x3C23D70A, about a hundredth), and divides each row by
  its Euclidean length, the length bounded below by the binary32 word 0x2B8CBCCC (about 1e-12):
  entry (i, j) is o i j / max (sqrt (sum over k of o i k * o i k)) that bound. The SCORE of a pair of rows
  [4096, 512] is their inner product, kept as a column [4096, 1].

  Sums are finite sums over Fin 128 / Fin 512 in the extended reals; the comparison, the selection on its bit, the
  square root and the division are the ideal values' own (their conventions at the infinities included), so that the
  functions say nothing about finiteness. Each function is followed by its reading at an index given by coordinates.
-/
import Idealize.ShloMosaic.PureOps.Ideal
import Idealize.ShloMosaic.Lib.ValueIdx

noncomputable section

open scoped BigOperators

namespace Cert.Spec

open Idealize.ShloMosaic Idealize.ShloMosaic.ValueIdx

/-- Node features: 50000 rows of 128. -/
abbrev SU : Shape := ⟨2, ![50000, 128]⟩
/-- Edge rows: 800000 rows of 128. -/
abbrev SE : Shape := ⟨2, ![800000, 128]⟩
/-- A weight matrix. -/
abbrev SW : Shape := ⟨2, ![128, 128]⟩
/-- A bias row. -/
abbrev SB : Shape := ⟨2, ![1, 128]⟩
/-- The scored rows: 4096 rows of 512. -/
abbrev SG : Shape := ⟨2, ![4096, 512]⟩
/-- The scores, one per row, as a column. -/
abbrev SS : Shape := ⟨2, ![4096, 1]⟩

/-! ## Dense layer -/

/-- x · w + b: entry (i, j) is (∑ k, x i k * w k j) + b 0 j. -/
def dense (x : FVec Ideal SU .f32) (w : FVec Ideal SW .f32) (b : FVec Ideal SB .f32) : FVec Ideal SU .f32 :=
  fun i => (∑ k : Fin 128, x (ix2 (i 0) k) * w (ix2 k (i 1))) + b (ix2 (0 : Fin 1) (i 1))

theorem dense_apply (x : FVec Ideal SU .f32) (w : FVec Ideal SW .f32) (b : FVec Ideal SB .f32) (p : Fin 50000) (q : Fin 128) :
    dense x w b (ix2 p q) = (∑ k : Fin 128, x (ix2 p k) * w (ix2 k q)) + b (ix2 (0 : Fin 1) q) := rfl

/-! ## Message layer -/

/-- Entry (i, j) is (hs i j + ∑ k, (xs i k * xd i k) * w k j) + b 0 j. -/
def msg (xs xd hs : FVec Ideal SE .f32) (w : FVec Ideal SW .f32) (b : FVec Ideal SB .f32) : FVec Ideal SE .f32 :=
  fun i => (hs (ix2 (i 0) (i 1)) + ∑ k : Fin 128, (xs (ix2 (i 0) k) * xd (ix2 (i 0) k)) * w (ix2 k (i 1)))
    + b (ix2 (0 : Fin 1) (i 1))

theorem msg_apply (xs xd hs : FVec Ideal SE .f32) (w : FVec Ideal SW .f32) (b : FVec Ideal SB .f32)
    (p : Fin 800000) (q : Fin 128) :
    msg xs xd hs w b (ix2 p q)
      = (hs (ix2 p q) + ∑ k : Fin 128, (xs (ix2 p k) * xd (ix2 p k)) * w (ix2 k q)) + b (ix2 (0 : Fin 1) q) := rfl

/-! ## Update: leaky rectifier, then each row divided by its length -/

/-- The rectified sum at one entry: s = agg + h1 there; s itself where s > 0, else c * s. -/
def act (agg h1 : FVec Ideal SU .f32) (p : Fin 50000) (q : Fin 128) : EReal :=
  Scalar.select (Ideal.cmp .ogt (agg (ix2 p q) + h1 (ix2 p q)) (Ideal.ofBits .f32 0x00000000#32))
    (agg (ix2 p q) + h1 (ix2 p q))
    (Ideal.ofBits .f32 0x3C23D70A#32 * (agg (ix2 p q) + h1 (ix2 p q)))

/-- A row's length, bounded below: max (sqrt (∑ k, o k * o k)) ε. -/
def len (agg h1 : FVec Ideal SU .f32) (p : Fin 50000) : EReal :=
  max (Ideal.sqrt (∑ k : Fin 128, act agg h1 p k * act agg h1 p k)) (Ideal.ofBits .f32 0x2B8CBCCC#32)

/-- Entry (i, j) is the rectified sum there divided by its row's bounded length. -/
def upd (agg h1 : FVec Ideal SU .f32) : FVec Ideal SU .f32 :=
  fun i => Ideal.div (act agg h1 (i 0) (i 1)) (len agg h1 (i 0))

theorem upd_apply (agg h1 : FVec Ideal SU .f32) (p : Fin 50000) (q : Fin 128) :
    upd agg h1 (ix2 p q) = Ideal.div (act agg h1 p q) (len agg h1 p) := rfl

/-! ## Score -/

/-- Row i's score: ∑ k, gu i k * gi i k. -/
def score (gu gi : FVec Ideal SG .f32) : FVec Ideal SS .f32 :=
  fun i => ∑ k : Fin 512, gu (ix2 (i 0) k) * gi (ix2 (i 0) k)

theorem score_apply (gu gi : FVec Ideal SG .f32) (p : Fin 4096) (z : Fin 1) :
    score gu gi (ix2 p z) = ∑ k : Fin 512, gu (ix2 p k) * gi (ix2 p k) := rfl

end Cert.Spec

end
-- ==== Proof.Val.KTiles.lean ====
/-
  The four dense stages as the kernel program computes them: each region's whole output array is one of the four tile
  functions of its input arrays; the bias reaches the region as a [1,128] row, and the score leaves it as a [4096,1]
  column that the last host line flattens.
-/
import proofs.«144474_j77214922048057_1_alg».proof.Proof.Spec
import proofs.«144474_j77214922048057_1_alg».proof.Proof.Val.Model

noncomputable section

namespace Cert.Model

open Idealize.ShloMosaic Cert.KernelIdeal

/-- The kernel program's tiles. -/
def kTiles : Tiles where
  dense x w b := Cert.Spec.dense x w (shapeCast S1x128 b Facts₀.shapeCasts_S128_S1x128)
  msg xs xd hs w b := Cert.Spec.msg xs xd hs w (shapeCast S1x128 b Facts₀.shapeCasts_S128_S1x128)
  upd agg h := Cert.Spec.upd agg h
  score gu gi := shapeCast S4096 (Cert.Spec.score gu gi) Facts₀.shapeCasts_S4096x1_S4096

end Cert.Model

end
-- ==== Proof.Val.HostReads.lean ====
/-
  Each stretch of host operations between two regions, read at the buffers a later stage uses, from ANY contents V of
  the buffers before it: the edge list's two rows, the layer's weight and bias slices, the gathered rows of the node
  arrays, the messages summed into their target rows, the concatenated embeddings gathered at the users, the item rows.
  (One lemma per stretch and buffer: a table of cases, each closed by reading the stretch's operations back.)
-/
import proofs.«144474_j77214922048057_1_alg».proof.Proof.Gen.KernelIdeal.Launch
import proofs.«144474_j77214922048057_1_alg».proof.Proof.Val.Model
import Idealize.ShloMosaic.Lib.StableHlo.Run

noncomputable section

namespace Cert.KernelIdeal.Hand.Reads

open Idealize.ShloMosaic Idealize.ShloMosaic.TcCoe Idealize.SL.Sem Cert.KernelIdeal Cert.KernelIdeal.Gen Idealize.ShloMosaic.StableHlo

variable (V : Valuation τ sig (Elt Ideal))

theorem h0_src : StableHlo.after (hostOps0 (F := Ideal)) V (Proc.devRef .tc main_v1) = Cert.Model.src (V (Proc.devRef .tc main_arg6)) := by
  after_results_simp
  rfl

theorem h0_dst : StableHlo.after (hostOps0 (F := Ideal)) V (Proc.devRef .tc main_v3) = Cert.Model.dst (V (Proc.devRef .tc main_arg6)) := by
  after_results_simp
  rfl

theorem h0_mat : StableHlo.after (hostOps0 (F := Ideal)) V (Proc.devRef .tc main_v5) = Cert.Model.mat0 (V (Proc.devRef .tc main_arg2)) := by
  after_results_simp
  rfl

theorem h0_vec : StableHlo.after (hostOps0 (F := Ideal)) V (Proc.devRef .tc main_v8) = (shapeCast S1x128 (Cert.Model.vec0 (V (Proc.devRef .tc main_arg4))) Facts₀.shapeCasts_S128_S1x128) := by
  after_results_simp
  rfl

theorem h1_xs : StableHlo.after (hostOps1 (F := Ideal)) V (Proc.devRef .tc main_v16) = Cert.Model.rows (V (Proc.devRef .tc main_arg0)) (V (Proc.devRef .tc main_v1)) := by
  after_results_simp
  rfl

theorem h1_xd : StableHlo.after (hostOps1 (F := Ideal)) V (Proc.devRef .tc main_v23) = Cert.Model.rows (V (Proc.devRef .tc main_arg0)) (V (Proc.devRef .tc main_v3)) := by
  after_results_simp
  rfl

theorem h1_hs : StableHlo.after (hostOps1 (F := Ideal)) V (Proc.devRef .tc main_v30) = Cert.Model.rows (V (Proc.devRef .tc main_v9)) (V (Proc.devRef .tc main_v1)) := by
  after_results_simp
  rfl

theorem h1_mat : StableHlo.after (hostOps1 (F := Ideal)) V (Proc.devRef .tc main_v32) = Cert.Model.mat0 (V (Proc.devRef .tc main_arg3)) := by
  after_results_simp
  rfl

theorem h1_vec : StableHlo.after (hostOps1 (F := Ideal)) V (Proc.devRef .tc main_v35) = (shapeCast S1x128 (Cert.Model.vec0 (V (Proc.devRef .tc main_arg5))) Facts₀.shapeCasts_S128_S1x128) := by
  after_results_simp
  rfl

theorem h2_agg : StableHlo.after (hostOps2 (F := Ideal)) V (Proc.devRef .tc main_v39) = Cert.Model.aggregate (V (Proc.devRef .tc main_v3)) (V (Proc.devRef .tc main_v36)) := by
  after_results_simp
  rfl

theorem h3_mat : StableHlo.after (hostOps3 (F := Ideal)) V (Proc.devRef .tc main_v42) = Cert.Model.mat1 (V (Proc.devRef .tc main_arg2)) := by
  after_results_simp
  rfl

theorem h3_vec : StableHlo.after (hostOps3 (F := Ideal)) V (Proc.devRef .tc main_v45) = (shapeCast S1x128 (Cert.Model.vec1 (V (Proc.devRef .tc main_arg4))) Facts₀.shapeCasts_S128_S1x128) := by
  after_results_simp
  rfl

theorem h4_xs : StableHlo.after (hostOps4 (F := Ideal)) V (Proc.devRef .tc main_v53) = Cert.Model.rows (V (Proc.devRef .tc main_v40)) (V (Proc.devRef .tc main_v1)) := by
  after_results_simp
  rfl

theorem h4_xd : StableHlo.after (hostOps4 (F := Ideal)) V (Proc.devRef .tc main_v60) = Cert.Model.rows (V (Proc.devRef .tc main_v40)) (V (Proc.devRef .tc main_v3)) := by
  after_results_simp
  rfl

theorem h4_hs : StableHlo.after (hostOps4 (F := Ideal)) V (Proc.devRef .tc main_v67) = Cert.Model.rows (V (Proc.devRef .tc main_v46)) (V (Proc.devRef .tc main_v1)) := by
  after_results_simp
  rfl

theorem h4_mat : StableHlo.after (hostOps4 (F := Ideal)) V (Proc.devRef .tc main_v69) = Cert.Model.mat1 (V (Proc.devRef .tc main_arg3)) := by
  after_results_simp
  rfl

theorem h4_vec : StableHlo.after (hostOps4 (F := Ideal)) V (Proc.devRef .tc main_v72) = (shapeCast S1x128 (Cert.Model.vec1 (V (Proc.devRef .tc main_arg5))) Facts₀.shapeCasts_S128_S1x128) := by
  after_results_simp
  rfl

theorem h5_agg : StableHlo.after (hostOps5 (F := Ideal)) V (Proc.devRef .tc main_v76) = Cert.Model.aggregate (V (Proc.devRef .tc main_v3)) (V (Proc.devRef .tc main_v73)) := by
  after_results_simp
  rfl

theorem h6_mat : StableHlo.after (hostOps6 (F := Ideal)) V (Proc.devRef .tc main_v79) = Cert.Model.mat2 (V (Proc.devRef .tc main_arg2)) := by
  after_results_simp
  rfl

theorem h6_vec : StableHlo.after (hostOps6 (F := Ideal)) V (Proc.devRef .tc main_v82) = (shapeCast S1x128 (Cert.Model.vec2 (V (Proc.devRef .tc main_arg4))) Facts₀.shapeCasts_S128_S1x128) := by
  after_results_simp
  rfl

theorem h7_xs : StableHlo.after (hostOps7 (F := Ideal)) V (Proc.devRef .tc main_v90) = Cert.Model.rows (V (Proc.devRef .tc main_v77)) (V (Proc.devRef .tc main_v1)) := by
  after_results_simp
  rfl

theorem h7_xd : StableHlo.after (hostOps7 (F := Ideal)) V (Proc.devRef .tc main_v97) = Cert.Model.rows (V (Proc.devRef .tc main_v77)) (V (Proc.devRef .tc main_v3)) := by
  after_results_simp
  rfl

theorem h7_hs : StableHlo.after (hostOps7 (F := Ideal)) V (Proc.devRef .tc main_v104) = Cert.Model.rows (V (Proc.devRef .tc main_v83)) (V (Proc.devRef .tc main_v1)) := by
  after_results_simp
  rfl

theorem h7_mat : StableHlo.after (hostOps7 (F := Ideal)) V (Proc.devRef .tc main_v106) = Cert.Model.mat2 (V (Proc.devRef .tc main_arg3)) := by
  after_results_simp
  rfl

theorem h7_vec : StableHlo.after (hostOps7 (F := Ideal)) V (Proc.devRef .tc main_v109) = (shapeCast S1x128 (Cert.Model.vec2 (V (Proc.devRef .tc main_arg5))) Facts₀.shapeCasts_S128_S1x128) := by
  after_results_simp
  rfl

theorem h8_agg : StableHlo.after (hostOps8 (F := Ideal)) V (Proc.devRef .tc main_v113) = Cert.Model.aggregate (V (Proc.devRef .tc main_v3)) (V (Proc.devRef .tc main_v110)) := by
  after_results_simp
  rfl

theorem h9_gu : StableHlo.after (hostOps9 (F := Ideal)) V (Proc.devRef .tc main_v122) = Host.gather gather_S50000x512_S4096x1_S4096x512_1_0_n_n_0_1_1512 (concatenate S50000x512 1 [⟨S50000x128, (V (Proc.devRef .tc main_arg0))⟩, ⟨S50000x128, (V (Proc.devRef .tc main_v40))⟩, ⟨S50000x128, (V (Proc.devRef .tc main_v77))⟩, ⟨S50000x128, (V (Proc.devRef .tc main_v114))⟩] Facts₀.concatenates_S50000x128_S50000x128_S50000x128_S50000x128_S50000x512_d1) (Cert.Model.wrapB 50000#32 (V (Proc.devRef .tc main_arg7))) := by
  after_results_simp
  rfl

theorem h9_gi : StableHlo.after (hostOps9 (F := Ideal)) V (Proc.devRef .tc main_v129) = Cert.Model.gammaI (V (Proc.devRef .tc main_arg1)) (V (Proc.devRef .tc main_arg8)) := by
  after_results_simp
  rfl

theorem h10_flat : StableHlo.after (hostOps10 (F := Ideal)) V (Proc.devRef .tc main_v131) = shapeCast S4096 (V (Proc.devRef .tc main_v130)) Facts₀.shapeCasts_S4096x1_S4096 := by
  after_results_simp
  rfl

end Cert.KernelIdeal.Hand.Reads

end
-- ==== Proof.LibPlainDot.lean ====
/-
  A plain matrix product — rows × contraction times contraction × columns, one contracted axis, no batch axis — read at
  an index, for arbitrary extents and any record of dimension numbers of that form (the form is a hypothesis,
  `IsPlain`, which a literal record meets by `rfl`s). At the exact values both the host's product and a tile product
  accumulated into zero are the plain sum over the contracted coordinate, `∑ k, x (r, k) · w (k, c)`. Consequence: a
  block of rows of a product is the product of that block of rows (`matmul_rows_eq_dotGeneral`).
-/
import Idealize.ShloMosaic.Lib.ValueIdx
import Idealize.ShloMosaic.PureOps.Ideal.Laws

noncomputable section

open scoped BigOperators

namespace Cert.Gcn.PlainDot

open Idealize.ShloMosaic Idealize.ShloMosaic.ValueIdx

variable {M K N : ℕ}

/-- The dimension numbers of a plain product of an `[M, K]` by a `[K, N]` array: axis 1 of the left operand contracted
    with axis 0 of the right one, the rows and the columns kept in that order, no batch axis. -/
structure IsPlain (d : DotDims ⟨2, ![M, K]⟩ ⟨2, ![K, N]⟩ ⟨2, ![M, N]⟩) : Prop where
  lc : d.lhsContracting = [⟨1, Nat.one_lt_two⟩]
  rc : d.rhsContracting = [⟨0, Nat.zero_lt_two⟩]
  ln : d.lhsNonContracting = [⟨0, Nat.zero_lt_two⟩]
  rn : d.rhsNonContracting = [⟨1, Nat.one_lt_two⟩]
  lb : d.lhsBatch = []
  rb : d.rhsBatch = []
  cr : d.contr.rank = 1
  cs : d.contr.size ⟨0, by omega⟩ = K

variable {d : DotDims ⟨2, ![M, K]⟩ ⟨2, ![K, N]⟩ ⟨2, ![M, N]⟩}

private theorem coord_congr {s : Shape} (j : s.Idx) (p p' : ℕ) (hp : p < s.rank) (hp' : p' < s.rank) (h : p = p') :
    (j ⟨p, hp⟩).val = (j ⟨p', hp'⟩).val := by subst h; rfl

/-- The left operand's index at result index `j` and contraction position `q`: row `j 0`, column the position. -/
theorem lhsIdx_eq (hd : IsPlain d) (j : (⟨2, ![M, N]⟩ : Shape).Idx) (q : d.contr.Idx) (k : Fin K)
    (hq : (q ⟨0, by rw [hd.cr]; exact Nat.one_pos⟩).val = k.val) : d.lhsIdx j q = ix2 (j 0) k := by
  funext a
  apply Fin.ext
  match a with
  | ⟨0, h0⟩ =>
    have hb : (⟨0, h0⟩ : Fin (⟨2, ![M, K]⟩ : Shape).rank) ∉ d.lhsBatch := by rw [hd.lb]; exact List.not_mem_nil
    have hn : (⟨0, h0⟩ : Fin (⟨2, ![M, K]⟩ : Shape).rank) ∈ d.lhsNonContracting := by
      rw [hd.ln]; exact List.mem_singleton.mpr rfl
    unfold DotDims.lhsIdx
    rw [dif_neg hb, dif_pos hn]
    simp only [Fin.val_cast]
    exact coord_congr j _ _ _ _ (by rw [hd.lb, hd.ln]; rfl)
  | ⟨1, h1⟩ => exact (d.lhsIdx_val_of_single hd.lc j q).trans hq

/-- The right operand's index at result index `j` and contraction position `q`: row the position, column `j 1`. -/
theorem rhsIdx_eq (hd : IsPlain d) (j : (⟨2, ![M, N]⟩ : Shape).Idx) (q : d.contr.Idx) (k : Fin K)
    (hq : (q ⟨0, by rw [hd.cr]; exact Nat.one_pos⟩).val = k.val) : d.rhsIdx j q = ix2 k (j 1) := by
  funext a
  apply Fin.ext
  match a with
  | ⟨0, h0⟩ => exact (d.rhsIdx_val_of_single hd.rc j q).trans hq
  | ⟨1, h1⟩ =>
    have hb : (⟨1, h1⟩ : Fin (⟨2, ![K, N]⟩ : Shape).rank) ∉ d.rhsBatch := by rw [hd.rb]; exact List.not_mem_nil
    have hn : (⟨1, h1⟩ : Fin (⟨2, ![K, N]⟩ : Shape).rank) ∈ d.rhsNonContracting := by
      rw [hd.rn]; exact List.mem_singleton.mpr rfl
    unfold DotDims.rhsIdx
    rw [dif_neg hb, dif_pos hn]
    simp only [Fin.val_cast]
    exact coord_congr j _ _ _ _ (by rw [hd.lb, hd.ln, hd.rn]; rfl)

/-- The sum over the contraction positions of a plain product is the sum over the contracted coordinate. -/
theorem sum_contr (hd : IsPlain d) (j : (⟨2, ![M, N]⟩ : Shape).Idx) (x : (⟨2, ![M, K]⟩ : Shape).Idx → EReal)
    (w : (⟨2, ![K, N]⟩ : Shape).Idx → EReal) :
    ∑ q : d.contr.Idx, x (d.lhsIdx j q) * w (d.rhsIdx j q) = ∑ k : Fin K, x (ix2 (j 0) k) * w (ix2 k (j 1)) := by
  rw [← Equiv.sum_comp (contrEquiv1 d K hd.cr hd.cs).symm]
  refine Finset.sum_congr rfl fun k _ => ?_
  have hk := contrEquiv1_symm_val d K hd.cr hd.cs k
  rw [lhsIdx_eq hd j _ k hk, rhsIdx_eq hd j _ k hk]
  rfl

/-- The host's plain product at `(r, c)`, exactly: `∑ k, x (r, k) · w (k, c)`. -/
theorem dotGeneral_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral d prec x w j = ∑ k : Fin K, (x (ix2 (j 0) k) : EReal) * (w (ix2 k (j 1)) : EReal) := by
  simp only [Host.dotGeneral]
  rw [Ideal.dotGeneral_apply]
  exact sum_contr hd j x w

/-- A tile product accumulated into the zero tile, at `(r, c)`, exactly: the same sum. -/
theorem matmul_zero_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, (x (ix2 (j 0) k) : EReal) * (w (ix2 k (j 1)) : EReal) := by
  simp only [matmul]
  rw [Ideal.matmul_constant_zero_apply]
  exact sum_contr hd j x w

/-- A BLOCK OF ROWS OF A PRODUCT IS THE PRODUCT OF THE BLOCK OF ROWS: if row `p` of the tile `xb` is row `r` of the
    array `x`, and the tile `wb` is the array `w`, then the tile product into zero at `(p, c)` is the host's product
    of the whole arrays at `(r, c)` — the contraction runs over the whole shared axis on both sides. -/
theorem matmul_rows_eq_dotGeneral {B : ℕ} {dB : DotDims ⟨2, ![B, K]⟩ ⟨2, ![K, N]⟩ ⟨2, ![B, N]⟩} (hB : IsPlain dB)
    (hd : IsPlain d) {φ₁ φ₂ ψ₁ ψ₂ : FTy} (prec prec' : Option ContractPrecision)
    (xb : FVec Ideal ⟨2, ![B, K]⟩ φ₁) (wb : FVec Ideal ⟨2, ![K, N]⟩ φ₂)
    (x : FVec Ideal ⟨2, ![M, K]⟩ ψ₁) (w : FVec Ideal ⟨2, ![K, N]⟩ ψ₂) (p : Fin B) (r : Fin M) (c : Fin N)
    (hx : ∀ k : Fin K, (xb (ix2 p k) : EReal) = x (ix2 r k)) (hw : ∀ k : Fin K, (wb (ix2 k c) : EReal) = w (ix2 k c)) :
    matmul dB prec xb wb (constant ⟨2, ![B, N]⟩ .f32 0x00000000#32) (ix2 p c) = Host.dotGeneral d prec' x w (ix2 r c) := by
  rw [matmul_zero_apply hB, dotGeneral_apply hd]
  exact Finset.sum_congr rfl fun k _ => by
    show (xb (ix2 p k) : EReal) * wb (ix2 k c) = x (ix2 r k) * w (ix2 k c)
    rw [hx k, hw k]

end Cert.Gcn.PlainDot
-- ==== Proof.Val.TileDense.lean ====
/-
  A dense layer's tile at an entry, at the ideal values. The tile takes a block of 5000 rows of the features, the whole
  weight and the bias row, and stores the block's product with the weight, accumulated from zero, plus the bias row
  repeated on every row. Narrowing an operand to sixteen bits before the product changes nothing at the ideal values, a
  reshape to the same shape is the identity, and the contraction runs over the one shared axis of 128, so entry (p, q) of
  the tile is (∑ k, x p k * w k q) + b 0 q. The three dense layers' tiles are this same function.
-/
import proofs.«144474_j77214922048057_1_alg».proof.Proof.Gen.KernelIdeal.Skeleton
import proofs.«144474_j77214922048057_1_alg».proof.Proof.LibPlainDot
import proofs.«144474_j77214922048057_1_alg».proof.Proof.Spec
import Idealize.ShloMosaic.Lib.ValueLayout

noncomputable section

open scoped BigOperators

namespace Cert.Val

open Idealize.ShloMosaic Idealize.ShloMosaic.ValueIdx Cert.KernelIdeal

/-- The tile product's dimension numbers are those of a plain [5000, 128] by [128, 128] product. -/
theorem plain5000 : Cert.Gcn.PlainDot.IsPlain (M := 5000) (K := 128) (N := 128) dot_S5000x128_S128x128_S5000x128_1_0_0_1_n_n :=
  ⟨rfl, rfl, rfl, rfl, rfl, rfl, rfl, rfl⟩

/-- The first dense layer's tile at (p, q). -/
theorem k0_pay1_apply (x : Vec Ideal S5000x128 .f32) (w : Vec Ideal S128x128 .f32) (b : Vec Ideal S1x128 .f32)
    (p : Fin 5000) (q : Fin 128) :
    Gen.k0_pay1 (F := Ideal) x w b (ix2 p q)
      = (∑ k : Fin 128, x (ix2 p k) * w (ix2 k q)) + b (ix2 (0 : Fin 1) q) := by
  unfold Gen.k0_pay1
  refine (addf_apply _ _ _).trans ?_
  refine congrArg₂ (· + ·) ?_ ?_
  · refine (Cert.Gcn.PlainDot.matmul_zero_apply plain5000 none _ _ (ix2 p q)).trans ?_
    refine Finset.sum_congr rfl fun k _ => ?_
    refine congrArg₂ (· * ·) ?_ ?_
    · rfl
    · exact congrFun (shapeCast_self w _) (ix2 k q)
  · refine (broadcastTo_1b_ab_apply _ _ p q).trans ?_
    exact congrFun (shapeCast_self b _) (ix2 (0 : Fin 1) q)

/-- The second dense layer's tile at (p, q): the features pass one more reshape to their own shape. -/
theorem k3_pay1_apply (x : Vec Ideal S5000x128 .f32) (w : Vec Ideal S128x128 .f32) (b : Vec Ideal S1x128 .f32)
    (p : Fin 5000) (q : Fin 128) :
    Gen.k3_pay1 (F := Ideal) x w b (ix2 p q)
      = (∑ k : Fin 128, x (ix2 p k) * w (ix2 k q)) + b (ix2 (0 : Fin 1) q) := by
  unfold Gen.k3_pay1
  refine (addf_apply _ _ _).trans ?_
  refine congrArg₂ (· + ·) ?_ ?_
  · refine (Cert.Gcn.PlainDot.matmul_zero_apply plain5000 none _ _ (ix2 p q)).trans ?_
    refine Finset.sum_congr rfl fun k _ => ?_
    refine congrArg₂ (· * ·) ?_ ?_
    · exact congrFun (shapeCast_self x _) (ix2 p k)
    · exact congrFun (shapeCast_self w _) (ix2 k q)
  · refine (broadcastTo_1b_ab_apply _ _ p q).trans ?_
    exact congrFun (shapeCast_self b _) (ix2 (0 : Fin 1) q)

/-- The third dense layer's tile at (p, q). -/
theorem k6_pay1_apply (x : Vec Ideal S5000x128 .f32) (w : Vec Ideal S128x128 .f32) (b : Vec Ideal S1x128 .f32)
    (p : Fin 5000) (q : Fin 128) :
    Gen.k6_pay1 (F := Ideal) x w b (ix2 p q)
      = (∑ k : Fin 128, x (ix2 p k) * w (ix2 k q)) + b (ix2 (0 : Fin 1) q) := by
  unfold Gen.k6_pay1
  refine (addf_apply _ _ _).trans ?_
  refine congrArg₂ (· + ·) ?_ ?_
  · refine (Cert.Gcn.PlainDot.matmul_zero_apply plain5000 none _ _ (ix2 p q)).trans ?_
    refine Finset.sum_congr rfl fun k _ => ?_
    refine congrArg₂ (· * ·) ?_ ?_
    · exact congrFun (shapeCast_self x _) (ix2 p k)
    · exact congrFun (shapeCast_self w _) (ix2 k q)
  · refine (broadcastTo_1b_ab_apply _ _ p q).trans ?_
    exact congrFun (shapeCast_self b _) (ix2 (0 : Fin 1) q)

/-- Blocks whose row p is the features' row r, with the whole weight and bias, give there the whole arrays' dense layer. -/
theorem dense_rows (xb : Vec Ideal S5000x128 .f32) (wb : Vec Ideal S128x128 .f32) (bb : Vec Ideal S1x128 .f32)
    (x : FVec Ideal Cert.Spec.SU .f32) (w : FVec Ideal Cert.Spec.SW .f32) (b : FVec Ideal Cert.Spec.SB .f32)
    (p : Fin 5000) (r : Fin 50000) (q : Fin 128)
    (hx : ∀ k : Fin 128, xb (ix2 p k) = x (ix2 r k)) (hw : ∀ k : Fin 128, wb (ix2 k q) = w (ix2 k q))
    (hb : bb (ix2 (0 : Fin 1) q) = b (ix2 (0 : Fin 1) q)) :
    (∑ k : Fin 128, xb (ix2 p k) * wb (ix2 k q)) + bb (ix2 (0 : Fin 1) q) = Cert.Spec.dense x w b (ix2 r q) := by
  refine Eq.trans ?_ (Cert.Spec.dense_apply x w b r q).symm
  rw [hb]
  exact congrArg (· + b (ix2 (0 : Fin 1) q)) (Finset.sum_congr rfl fun k _ => by rw [hx k, hw k])

/-- Dense tile of the first layer against the whole arrays. -/
theorem k0_pay1_of_rows (xb : Vec Ideal S5000x128 .f32) (wb : Vec Ideal S128x128 .f32) (bb : Vec Ideal S1x128 .f32)
    (x : FVec Ideal Cert.Spec.SU .f32) (w : FVec Ideal Cert.Spec.SW .f32) (b : FVec Ideal Cert.Spec.SB .f32)
    (p : Fin 5000) (r : Fin 50000) (q : Fin 128)
    (hx : ∀ k : Fin 128, xb (ix2 p k) = x (ix2 r k)) (hw : ∀ k : Fin 128, wb (ix2 k q) = w (ix2 k q))
    (hb : bb (ix2 (0 : Fin 1) q) = b (ix2 (0 : Fin 1) q)) :
    Gen.k0_pay1 (F := Ideal) xb wb bb (ix2 p q) = Cert.Spec.dense x w b (ix2 r q) :=
  (k0_pay1_apply xb wb bb p q).trans (dense_rows xb wb bb x w b p r q hx hw hb)

/-- Dense tile of the second layer against the whole arrays. -/
theorem k3_pay1_of_rows (xb : Vec Ideal S5000x128 .f32) (wb : Vec Ideal S128x128 .f32) (bb : Vec Ideal S1x128 .f32)
    (x : FVec Ideal Cert.Spec.SU .f32) (w : FVec Ideal Cert.Spec.SW .f32) (b : FVec Ideal Cert.Spec.SB .f32)
    (p : Fin 5000) (r : Fin 50000) (q : Fin 128)
    (hx : ∀ k : Fin 128, xb (ix2 p k) = x (ix2 r k)) (hw : ∀ k : Fin 128, wb (ix2 k q) = w (ix2 k q))
    (hb : bb (ix2 (0 : Fin 1) q) = b (ix2 (0 : Fin 1) q)) :
    Gen.k3_pay1 (F := Ideal) xb wb bb (ix2 p q) = Cert.Spec.dense x w b (ix2 r q) :=
  (k3_pay1_apply xb wb bb p q).trans (dense_rows xb wb bb x w b p r q hx hw hb)

/-- Dense tile of the third layer against the whole arrays. -/
theorem k6_pay1_of_rows (xb : Vec Ideal S5000x128 .f32) (wb : Vec Ideal S128x128 .f32) (bb : Vec Ideal S1x128 .f32)
    (x : FVec Ideal Cert.Spec.SU .f32) (w : FVec Ideal Cert.Spec.SW .f32) (b : FVec Ideal Cert.Spec.SB .f32)
    (p : Fin 5000) (r : Fin 50000) (q : Fin 128)
    (hx : ∀ k : Fin 128, xb (ix2 p k) = x (ix2 r k)) (hw : ∀ k : Fin 128, wb (ix2 k q) = w (ix2 k q))
    (hb : bb (ix2 (0 : Fin 1) q) = b (ix2 (0 : Fin 1) q)) :
    Gen.k6_pay1 (F := Ideal) xb wb bb (ix2 p q) = Cert.Spec.dense x w b (ix2 r q) :=
  (k6_pay1_apply xb wb bb p q).trans (dense_rows xb wb bb x w b p r q hx hw hb)

end Cert.Val

end
-- ==== Proof.Val.Final0.lean ====
/-
  A dense layer's output array after its region, at the ideal values: the whole-array dense layer of the three
  arrays the region finds. Grid point t handles rows 5000 t … 5000 t + 4999: its features block and its output block
  sit at block index t of their arrays, the weight and the bias are whole-array blocks at index 0. So what point t writes
  back is the output block's rows of the whole-array function (a block row p is array row 5000 t + p, and the
  contraction runs over the whole shared axis), and the ten blocks cover every row r, row r by point r / 5000.
-/
import proofs.«144474_j77214922048057_1_alg».proof.Proof.KI.Body0
import proofs.«144474_j77214922048057_1_alg».proof.Proof.Val.TileDense
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
private theorem zero_off2 : (![0, 0] : Fin 2 → Nat) = fun _ => 0 := funext fun a => by fin_cases a <;> rfl

/-- The block indices at point t, decided over the ten points: features and output at (t, 0), weight and bias at (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 1000000 in
/-- Row p of point t's features block is row 5000 t + p of the features. -/
theorem read0_0 (c : Dev nD) (t : Fin cfg0.N) (p : Fin 5000) (k : Fin 128) (r : Fin 50000)
    (hr : r.val = t.val * 5000 + p.val) :
    iblk0 V c 0 t (ix2 p k) = V c (Pipeline.arrRef spec0 0) (ix2 r k) := by
  obtain ⟨e00, e01, -⟩ := blockIdx0 t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

set_option maxHeartbeats 1000000 in
/-- The weight's one block is the whole weight. -/
theorem read0_1 (c : Dev nD) (t : Fin cfg0.N) (k q : Fin 128) :
    iblk0 V c 1 t (ix2 k q) = V c (Pipeline.arrRef spec0 1) (ix2 k q) := by
  obtain ⟨-, -, e10, e11, -⟩ := blockIdx0 t
  show V c (Pipeline.arrRef spec0 1) (((cfg0.win 1).blk t).view.emb (ix2 k q)) = V c (Pipeline.arrRef spec0 1) (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

set_option maxHeartbeats 1000000 in
/-- The bias's one block is the whole bias row. -/
theorem read0_2 (c : Dev nD) (t : Fin cfg0.N) (q : Fin 128) :
    iblk0 V c 2 t (ix2 (0 : Fin 1) q) = V c (Pipeline.arrRef spec0 2) (ix2 (0 : Fin 1) q) := by
  obtain ⟨-, -, -, -, e20, e21, -⟩ := blockIdx0 t
  show V c (Pipeline.arrRef spec0 2) (((cfg0.win 2).blk t).view.emb (ix2 (0 : Fin 1) q)) = V c (Pipeline.arrRef spec0 2) (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

set_option maxHeartbeats 1000000 in
/-- Row p of point t's output block sits at row 5000 t + p of the output array. -/
theorem emb0_3 (t : Fin cfg0.N) (p : Fin 5000) (q : Fin 128) (r : Fin 50000) (hr : r.val = t.val * 5000 + p.val) :
    ((cfg0.win 3).blk t).view.emb (ix2 p q) = ix2 r q := by
  obtain ⟨-, -, -, -, -, -, e30, e31⟩ := blockIdx0 t
  funext a; apply Fin.ext
  match a with
  | ⟨0, _⟩ => show win0_3.index t (0 : Fin 2) * 5000 + 1 * p.val = r.val; omega
  | ⟨1, _⟩ => show win0_3.index t (1 : Fin 2) * 128 + 1 * q.val = q.val; omega

set_option maxHeartbeats 1000000 in
/-- What point t writes back is the output block's rows of the whole-array dense layer. -/
theorem flushed0_eq (c : Dev nD) (t : Fin cfg0.N) :
    (dat0 V c).flushed 3 t = ((cfg0.win 3).blk t).view.read (Elt Ideal)
      (Cert.Spec.dense (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_off2]
  simp only [View.ld_unit_zero (S := S5000x128) zero_off2, View.ld_unit_zero (S := S128x128) zero_off2,
    View.ld_unit_zero (S := S1x128) zero_off2]
  have ht : t.val < 10 := lt_of_lt_of_eq t.isLt N_0
  funext j
  obtain ⟨p, q, rfl⟩ : ∃ (p : Fin 5000) (q : Fin 128), j = ix2 p q := ⟨j 0, j 1, eq_ix2 j⟩
  obtain ⟨r, hr⟩ : ∃ r : Fin 50000, r.val = t.val * 5000 + p.val := ⟨⟨t.val * 5000 + p.val, by omega⟩, rfl⟩
  show Gen.k0_pay1 (F := Ideal) (iblk0 V c 0 t) (iblk0 V c 1 t) (iblk0 V c 2 t) (ix2 p q)
    = Cert.Spec.dense (V c (Pipeline.arrRef spec0 0)) (V c (Pipeline.arrRef spec0 1)) (V c (Pipeline.arrRef spec0 2))
        (((cfg0.win 3).blk t).view.emb (ix2 p q))
  rw [emb0_3 t p q r hr]
  exact k0_pay1_of_rows (iblk0 V c 0 t) (iblk0 V c 1 t) (iblk0 V c 2 t)
    (V c (Pipeline.arrRef spec0 0)) (V c (Pipeline.arrRef spec0 1)) (V c (Pipeline.arrRef spec0 2))
    p r q (fun k => read0_0 V c t p k r hr) (fun k => read0_1 V c t k q) (read0_2 V c t q)

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v9).slice (win0_3.rect t)).set ↔ _
  rw [View.set_slice_whole, Rect.mem_set_unit]
  exact Iff.rfl

/-- Every row r of the output is in the block of point r / 5000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 5000, by rw [show cfg0.N = 10 from N_0]; omega⟩, flush0_3 _, ?_⟩
  rw [mem_blk0]
  obtain ⟨-, -, -, -, -, -, e30, e31⟩ := blockIdx0 ⟨(i 0).val / 5000, by rw [show cfg0.N = 10 from N_0]; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e31]; omega

end Cert.Val

namespace Cert.KernelIdeal.Hand

open Cert.KernelIdeal Cert.KernelIdeal.Gen
open Idealize.ShloMosaic Idealize.ShloMosaic.TcCoe Idealize.SL.Sem

/-- The output array after the region is the whole-array dense layer of the arrays the region finds. -/
theorem final0 (V : (c : Dev nD) → (b : Ref sig .tc) → Buf (Elt Ideal) ((c : Thread nD τ).loc b)) (c : Dev nD) :
    (dat0 (F := Ideal) V c).arrAt 3 cfg0.N
      = Cert.Spec.dense (V c (Pipeline.arrRef spec0 0)) (V c (Pipeline.arrRef spec0 1)) (V c (Pipeline.arrRef spec0 2)) :=
  (dat0 (F := Ideal) V c).arrAt_eq_of_cover 3 _ (fun t _ => Cert.Val.flushed0_eq V c t) Cert.Val.cover0

end Cert.KernelIdeal.Hand

end
-- ==== Proof.Val.TileMsg.lean ====
/-
  A message layer's tile at an entry, at the ideal values. The tile takes a block of 4000 edge rows of the two endpoint
  features and of the edges' own rows, the whole weight and the bias row; it multiplies the endpoint rows entry by entry,
  sends the product block through the weight (accumulated from zero), adds the edges' own rows and then the bias row
  repeated on every row. Narrowing to sixteen bits and reshapes to the same shape are the identity at the ideal values,
  so entry (p, q) of the tile is (hs p q + ∑ k, (xs p k * xd p k) * w k q) + b 0 q. The three message layers' tiles
  are this same function.
-/
import proofs.«144474_j77214922048057_1_alg».proof.Proof.Gen.KernelIdeal.Skeleton
import proofs.«144474_j77214922048057_1_alg».proof.Proof.LibPlainDot
import proofs.«144474_j77214922048057_1_alg».proof.Proof.Spec
import Idealize.ShloMosaic.Lib.ValueLayout

noncomputable section

open scoped BigOperators

namespace Cert.Val

open Idealize.ShloMosaic Idealize.ShloMosaic.ValueIdx Cert.KernelIdeal

/-- The tile product's dimension numbers are those of a plain [4000, 128] by [128, 128] product. -/
theorem plain4000 : Cert.Gcn.PlainDot.IsPlain (M := 4000) (K := 128) (N := 128) dot_S4000x128_S128x128_S4000x128_1_0_0_1_n_n :=
  ⟨rfl, rfl, rfl, rfl, rfl, rfl, rfl, rfl⟩

/-- The first message layer's tile at (p, q). -/
theorem k1_pay1_apply (xs xd : Vec Ideal S4000x128 .f32) (w : Vec Ideal S128x128 .f32) (hs : Vec Ideal S4000x128 .f32)
    (b : Vec Ideal S1x128 .f32) (p : Fin 4000) (q : Fin 128) :
    Gen.k1_pay1 (F := Ideal) xs xd w hs b (ix2 p q)
      = (hs (ix2 p q) + ∑ k : Fin 128, (xs (ix2 p k) * xd (ix2 p k)) * w (ix2 k q)) + b (ix2 (0 : Fin 1) q) := by
  unfold Gen.k1_pay1
  refine (addf_apply _ _ _).trans ?_
  refine congrArg₂ (· + ·) ?_ ?_
  · refine (addf_apply _ _ _).trans ?_
    refine congrArg₂ (· + ·) ?_ ?_
    · exact congrFun (shapeCast_self hs _) (ix2 p q)
    · refine (Cert.Gcn.PlainDot.matmul_zero_apply plain4000 none _ _ (ix2 p q)).trans ?_
      refine Finset.sum_congr rfl fun k _ => ?_
      refine congrArg₂ (· * ·) ?_ ?_
      · refine (mulf_apply _ _ _).trans ?_
        refine congrArg₂ (· * ·) ?_ ?_
        · exact congrFun (shapeCast_self xs _) (ix2 p k)
        · exact congrFun (shapeCast_self xd _) (ix2 p k)
      · exact congrFun (shapeCast_self w _) (ix2 k q)
  · refine (broadcastTo_1b_ab_apply _ _ p q).trans ?_
    exact congrFun (shapeCast_self b _) (ix2 (0 : Fin 1) q)

/-- The second message layer's tile at (p, q). -/
theorem k4_pay1_apply (xs xd : Vec Ideal S4000x128 .f32) (w : Vec Ideal S128x128 .f32) (hs : Vec Ideal S4000x128 .f32)
    (b : Vec Ideal S1x128 .f32) (p : Fin 4000) (q : Fin 128) :
    Gen.k4_pay1 (F := Ideal) xs xd w hs b (ix2 p q)
      = (hs (ix2 p q) + ∑ k : Fin 128, (xs (ix2 p k) * xd (ix2 p k)) * w (ix2 k q)) + b (ix2 (0 : Fin 1) q) := by
  unfold Gen.k4_pay1
  refine (addf_apply _ _ _).trans ?_
  refine congrArg₂ (· + ·) ?_ ?_
  · refine (addf_apply _ _ _).trans ?_
    refine congrArg₂ (· + ·) ?_ ?_
    · exact congrFun (shapeCast_self hs _) (ix2 p q)
    · refine (Cert.Gcn.PlainDot.matmul_zero_apply plain4000 none _ _ (ix2 p q)).trans ?_
      refine Finset.sum_congr rfl fun k _ => ?_
      refine congrArg₂ (· * ·) ?_ ?_
      · refine (mulf_apply _ _ _).trans ?_
        refine congrArg₂ (· * ·) ?_ ?_
        · exact congrFun (shapeCast_self xs _) (ix2 p k)
        · exact congrFun (shapeCast_self xd _) (ix2 p k)
      · exact congrFun (shapeCast_self w _) (ix2 k q)
  · refine (broadcastTo_1b_ab_apply _ _ p q).trans ?_
    exact congrFun (shapeCast_self b _) (ix2 (0 : Fin 1) q)

/-- The third message layer's tile at (p, q). -/
theorem k7_pay1_apply (xs xd : Vec Ideal S4000x128 .f32) (w : Vec Ideal S128x128 .f32) (hs : Vec Ideal S4000x128 .f32)
    (b : Vec Ideal S1x128 .f32) (p : Fin 4000) (q : Fin 128) :
    Gen.k7_pay1 (F := Ideal) xs xd w hs b (ix2 p q)
      = (hs (ix2 p q) + ∑ k : Fin 128, (xs (ix2 p k) * xd (ix2 p k)) * w (ix2 k q)) + b (ix2 (0 : Fin 1) q) := by
  unfold Gen.k7_pay1
  refine (addf_apply _ _ _).trans ?_
  refine congrArg₂ (· + ·) ?_ ?_
  · refine (addf_apply _ _ _).trans ?_
    refine congrArg₂ (· + ·) ?_ ?_
    · exact congrFun (shapeCast_self hs _) (ix2 p q)
    · refine (Cert.Gcn.PlainDot.matmul_zero_apply plain4000 none _ _ (ix2 p q)).trans ?_
      refine Finset.sum_congr rfl fun k _ => ?_
      refine congrArg₂ (· * ·) ?_ ?_
      · refine (mulf_apply _ _ _).trans ?_
        refine congrArg₂ (· * ·) ?_ ?_
        · exact congrFun (shapeCast_self xs _) (ix2 p k)
        · exact congrFun (shapeCast_self xd _) (ix2 p k)
      · exact congrFun (shapeCast_self w _) (ix2 k q)
  · refine (broadcastTo_1b_ab_apply _ _ p q).trans ?_
    exact congrFun (shapeCast_self b _) (ix2 (0 : Fin 1) q)

/-- Blocks whose row p is the edge arrays' row r, with the whole weight and bias, give there the whole arrays' message layer. -/
theorem msg_rows (xsb xdb : Vec Ideal S4000x128 .f32) (wb : Vec Ideal S128x128 .f32) (hsb : Vec Ideal S4000x128 .f32) (bb : Vec Ideal S1x128 .f32)
    (xs xd hs : FVec Ideal Cert.Spec.SE .f32) (w : FVec Ideal Cert.Spec.SW .f32) (b : FVec Ideal Cert.Spec.SB .f32)
    (p : Fin 4000) (r : Fin 800000) (q : Fin 128)
    (hxs : ∀ k : Fin 128, xsb (ix2 p k) = xs (ix2 r k)) (hxd : ∀ k : Fin 128, xdb (ix2 p k) = xd (ix2 r k))
    (hhs : hsb (ix2 p q) = hs (ix2 r q)) (hw : ∀ k : Fin 128, wb (ix2 k q) = w (ix2 k q))
    (hb : bb (ix2 (0 : Fin 1) q) = b (ix2 (0 : Fin 1) q)) :
    (hsb (ix2 p q) + ∑ k : Fin 128, (xsb (ix2 p k) * xdb (ix2 p k)) * wb (ix2 k q)) + bb (ix2 (0 : Fin 1) q)
      = Cert.Spec.msg xs xd hs w b (ix2 r q) := by
  refine Eq.trans ?_ (Cert.Spec.msg_apply xs xd hs w b r q).symm
  rw [hb, hhs]
  exact congrArg (fun s => (hs (ix2 r q) + s) + b (ix2 (0 : Fin 1) q))
    (Finset.sum_congr rfl fun k _ => by rw [hxs k, hxd k, hw k])

/-- Message tile of the first layer against the whole arrays (arguments in the tile's own order). -/
theorem k1_pay1_of_rows (xsb xdb : Vec Ideal S4000x128 .f32) (wb : Vec Ideal S128x128 .f32) (hsb : Vec Ideal S4000x128 .f32) (bb : Vec Ideal S1x128 .f32)
    (xs xd hs : FVec Ideal Cert.Spec.SE .f32) (w : FVec Ideal Cert.Spec.SW .f32) (b : FVec Ideal Cert.Spec.SB .f32)
    (p : Fin 4000) (r : Fin 800000) (q : Fin 128)
    (hxs : ∀ k : Fin 128, xsb (ix2 p k) = xs (ix2 r k)) (hxd : ∀ k : Fin 128, xdb (ix2 p k) = xd (ix2 r k))
    (hhs : hsb (ix2 p q) = hs (ix2 r q)) (hw : ∀ k : Fin 128, wb (ix2 k q) = w (ix2 k q))
    (hb : bb (ix2 (0 : Fin 1) q) = b (ix2 (0 : Fin 1) q)) :
    Gen.k1_pay1 (F := Ideal) xsb xdb wb hsb bb (ix2 p q) = Cert.Spec.msg xs xd hs w b (ix2 r q) :=
  (k1_pay1_apply xsb xdb wb hsb bb p q).trans (msg_rows xsb xdb wb hsb bb xs xd hs w b p r q hxs hxd hhs hw hb)

/-- Message tile of the second layer against the whole arrays (arguments in the tile's own order). -/
theorem k4_pay1_of_rows (xsb xdb : Vec Ideal S4000x128 .f32) (wb : Vec Ideal S128x128 .f32) (hsb : Vec Ideal S4000x128 .f32) (bb : Vec Ideal S1x128 .f32)
    (xs xd hs : FVec Ideal Cert.Spec.SE .f32) (w : FVec Ideal Cert.Spec.SW .f32) (b : FVec Ideal Cert.Spec.SB .f32)
    (p : Fin 4000) (r : Fin 800000) (q : Fin 128)
    (hxs : ∀ k : Fin 128, xsb (ix2 p k) = xs (ix2 r k)) (hxd : ∀ k : Fin 128, xdb (ix2 p k) = xd (ix2 r k))
    (hhs : hsb (ix2 p q) = hs (ix2 r q)) (hw : ∀ k : Fin 128, wb (ix2 k q) = w (ix2 k q))
    (hb : bb (ix2 (0 : Fin 1) q) = b (ix2 (0 : Fin 1) q)) :
    Gen.k4_pay1 (F := Ideal) xsb xdb wb hsb bb (ix2 p q) = Cert.Spec.msg xs xd hs w b (ix2 r q) :=
  (k4_pay1_apply xsb xdb wb hsb bb p q).trans (msg_rows xsb xdb wb hsb bb xs xd hs w b p r q hxs hxd hhs hw hb)

/-- Message tile of the third layer against the whole arrays (arguments in the tile's own order). -/
theorem k7_pay1_of_rows (xsb xdb : Vec Ideal S4000x128 .f32) (wb : Vec Ideal S128x128 .f32) (hsb : Vec Ideal S4000x128 .f32) (bb : Vec Ideal S1x128 .f32)
    (xs xd hs : FVec Ideal Cert.Spec.SE .f32) (w : FVec Ideal Cert.Spec.SW .f32) (b : FVec Ideal Cert.Spec.SB .f32)
    (p : Fin 4000) (r : Fin 800000) (q : Fin 128)
    (hxs : ∀ k : Fin 128, xsb (ix2 p k) = xs (ix2 r k)) (hxd : ∀ k : Fin 128, xdb (ix2 p k) = xd (ix2 r k))
    (hhs : hsb (ix2 p q) = hs (ix2 r q)) (hw : ∀ k : Fin 128, wb (ix2 k q) = w (ix2 k q))
    (hb : bb (ix2 (0 : Fin 1) q) = b (ix2 (0 : Fin 1) q)) :
    Gen.k7_pay1 (F := Ideal) xsb xdb wb hsb bb (ix2 p q) = Cert.Spec.msg xs xd hs w b (ix2 r q) :=
  (k7_pay1_apply xsb xdb wb hsb bb p q).trans (msg_rows xsb xdb wb hsb bb xs xd hs w b p r q hxs hxd hhs hw hb)

end Cert.Val

end
-- ==== Proof.Val.Final1.lean ====
/-
  A message layer's output array after its region, at the ideal values: the whole-array message layer of the five arrays
  the region finds. Grid point t handles edge rows 4000 t … 4000 t + 3999: the two endpoint-feature blocks, the edges'
  own block and the output block sit at block index t of their arrays, the weight and the bias are whole-array blocks at
  index 0. So what point t writes back is the output block's rows of the whole-array function (a block row p is array row
  4000 t + p, and the contraction runs over the whole shared axis), and the two hundred blocks cover every row r, row r by
  point r / 4000.
-/
import proofs.«144474_j77214922048057_1_alg».proof.Proof.KI.Body1
import proofs.«144474_j77214922048057_1_alg».proof.Proof.Val.TileMsg
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
private theorem zero_off2 : (![0, 0] : Fin 2 → Nat) = fun _ => 0 := funext fun a => by fin_cases a <;> rfl

/-- The block indices at point t, decided over the two hundred points: the three edge inputs and the output at (t, 0),
    weight and bias at (0, 0). -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 1000000 in
/-- Row p of point t's block of the first endpoint's features is row 4000 t + p of the array. -/
theorem read1_0 (c : Dev nD) (t : Fin cfg1.N) (p : Fin 4000) (k : Fin 128) (r : Fin 800000)
    (hr : r.val = t.val * 4000 + p.val) :
    iblk1 V c 0 t (ix2 p k) = V c (Pipeline.arrRef spec1 0) (ix2 r k) := by
  obtain ⟨e00, e01, e10, e11, e20, e21, -⟩ := blockIdx1 t
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

set_option maxHeartbeats 1000000 in
/-- Row p of point t's block of the second endpoint's features is row 4000 t + p of the array. -/
theorem read1_1 (c : Dev nD) (t : Fin cfg1.N) (p : Fin 4000) (k : Fin 128) (r : Fin 800000)
    (hr : r.val = t.val * 4000 + p.val) :
    iblk1 V c 1 t (ix2 p k) = V c (Pipeline.arrRef spec1 1) (ix2 r k) := by
  obtain ⟨e00, e01, e10, e11, e20, e21, -⟩ := blockIdx1 t
  show V c (Pipeline.arrRef spec1 1) (((cfg1.win 1).blk t).view.emb (ix2 p k)) = V c (Pipeline.arrRef spec1 1) (ix2 r k)
  refine congrArg _ (funext fun a => Fin.ext ?_)
  match a with
  | ⟨0, _⟩ => show win1_1.index t (0 : Fin 2) * 4000 + 1 * p.val = r.val; omega
  | ⟨1, _⟩ => show win1_1.index t (1 : Fin 2) * 128 + 1 * k.val = k.val; omega

set_option maxHeartbeats 1000000 in
/-- Row p of point t's block of the edges' own rows is row 4000 t + p of the array. -/
theorem read1_2 (c : Dev nD) (t : Fin cfg1.N) (p : Fin 4000) (k : Fin 128) (r : Fin 800000)
    (hr : r.val = t.val * 4000 + p.val) :
    iblk1 V c 2 t (ix2 p k) = V c (Pipeline.arrRef spec1 2) (ix2 r k) := by
  obtain ⟨e00, e01, e10, e11, e20, e21, -⟩ := blockIdx1 t
  show V c (Pipeline.arrRef spec1 2) (((cfg1.win 2).blk t).view.emb (ix2 p k)) = V c (Pipeline.arrRef spec1 2) (ix2 r k)
  refine congrArg _ (funext fun a => Fin.ext ?_)
  match a with
  | ⟨0, _⟩ => show win1_2.index t (0 : Fin 2) * 4000 + 1 * p.val = r.val; omega
  | ⟨1, _⟩ => show win1_2.index t (1 : Fin 2) * 128 + 1 * k.val = k.val; omega

set_option maxHeartbeats 1000000 in
/-- The weight's one block is the whole weight. -/
theorem read1_3 (c : Dev nD) (t : Fin cfg1.N) (k q : Fin 128) :
    iblk1 V c 3 t (ix2 k q) = V c (Pipeline.arrRef spec1 3) (ix2 k q) := by
  obtain ⟨-, -, -, -, -, -, e30, e31, -⟩ := blockIdx1 t
  show V c (Pipeline.arrRef spec1 3) (((cfg1.win 3).blk t).view.emb (ix2 k q)) = V c (Pipeline.arrRef spec1 3) (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

set_option maxHeartbeats 1000000 in
/-- The bias's one block is the whole bias row. -/
theorem read1_4 (c : Dev nD) (t : Fin cfg1.N) (q : Fin 128) :
    iblk1 V c 4 t (ix2 (0 : Fin 1) q) = V c (Pipeline.arrRef spec1 4) (ix2 (0 : Fin 1) q) := by
  obtain ⟨-, -, -, -, -, -, -, -, e40, e41, -⟩ := blockIdx1 t
  show V c (Pipeline.arrRef spec1 4) (((cfg1.win 4).blk t).view.emb (ix2 (0 : Fin 1) q)) = V c (Pipeline.arrRef spec1 4) (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

set_option maxHeartbeats 1000000 in
/-- Row p of point t's output block sits at row 4000 t + p of the output array. -/
theorem emb1_5 (t : Fin cfg1.N) (p : Fin 4000) (q : Fin 128) (r : Fin 800000) (hr : r.val = t.val * 4000 + p.val) :
    ((cfg1.win 5).blk t).view.emb (ix2 p q) = ix2 r q := by
  obtain ⟨-, -, -, -, -, -, -, -, -, -, e50, e51⟩ := blockIdx1 t
  funext a; apply Fin.ext
  match a with
  | ⟨0, _⟩ => show win1_5.index t (0 : Fin 2) * 4000 + 1 * p.val = r.val; omega
  | ⟨1, _⟩ => show win1_5.index t (1 : Fin 2) * 128 + 1 * q.val = q.val; omega

set_option maxHeartbeats 1000000 in
/-- What point t writes back is the output block's rows of the whole-array message layer. -/
theorem flushed1_eq (c : Dev nD) (t : Fin cfg1.N) :
    (dat1 V c).flushed 5 t = ((cfg1.win 5).blk t).view.read (Elt Ideal)
      (Cert.Spec.msg (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zero_off2]
  simp only [View.ld_unit_zero (S := S4000x128) zero_off2, View.ld_unit_zero (S := S128x128) zero_off2,
    View.ld_unit_zero (S := S1x128) zero_off2]
  have ht : t.val < 200 := lt_of_lt_of_eq t.isLt N_1
  funext j
  obtain ⟨p, q, rfl⟩ : ∃ (p : Fin 4000) (q : Fin 128), j = ix2 p q := ⟨j 0, j 1, eq_ix2 j⟩
  obtain ⟨r, hr⟩ : ∃ r : Fin 800000, r.val = t.val * 4000 + p.val := ⟨⟨t.val * 4000 + p.val, by omega⟩, rfl⟩
  show Gen.k1_pay1 (F := Ideal) (iblk1 V c 0 t) (iblk1 V c 1 t) (iblk1 V c 3 t) (iblk1 V c 2 t) (iblk1 V c 4 t) (ix2 p q)
    = Cert.Spec.msg (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb (ix2 p q))
  rw [emb1_5 t p q r hr]
  exact k1_pay1_of_rows (iblk1 V c 0 t) (iblk1 V c 1 t) (iblk1 V c 3 t) (iblk1 V c 2 t) (iblk1 V c 4 t)
    (V c (Pipeline.arrRef spec1 0)) (V c (Pipeline.arrRef spec1 1)) (V c (Pipeline.arrRef spec1 2))
    (V c (Pipeline.arrRef spec1 3)) (V c (Pipeline.arrRef spec1 4))
    p r q (fun k => read1_0 V c t p k r hr) (fun k => read1_1 V c t p k r hr) (read1_2 V c t p q r hr)
    (fun k => read1_3 V c t k q) (read1_4 V c t q)

/-- An index of the output array is in point t's block iff each coordinate is in the block's range on its axis. -/
theorem mem_blk1 (t : Fin cfg1.N) (i : S800000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v36).slice (win1_5.rect t)).set ↔ _
  rw [View.set_slice_whole, Rect.mem_set_unit]
  exact Iff.rfl

/-- Every row r of the output is in the block of point r / 4000. -/
theorem cover1 (i : S800000x128.Idx) : ∃ t : Fin cfg1.N, (cfg1.win 5).flush t = true ∧ i ∈ ((cfg1.win 5).blk t).view.set := by
  have hi0 : (i 0).val < 800000 := (i 0).isLt
  have hi1 : (i 1).val < 128 := (i 1).isLt
  refine ⟨⟨(i 0).val / 4000, by rw [show cfg1.N = 200 from N_1]; omega⟩, flush1_5 _, ?_⟩
  rw [mem_blk1]
  obtain ⟨-, -, -, -, -, -, -, -, -, -, e50, e51⟩ := blockIdx1 ⟨(i 0).val / 4000, by rw [show cfg1.N = 200 from N_1]; omega⟩
  intro a
  match a with
  | ⟨0, _⟩ =>
    show win1_5.index _ (0 : Fin 2) * 4000 ≤ (i 0).val ∧ (i 0).val < win1_5.index _ (0 : Fin 2) * 4000 + 4000
    rw [e50]; show (i 0).val / 4000 * 4000 ≤ (i 0).val ∧ (i 0).val < (i 0).val / 4000 * 4000 + 4000; omega
  | ⟨1, _⟩ =>
    show win1_5.index _ (1 : Fin 2) * 128 ≤ (i 1).val ∧ (i 1).val < win1_5.index _ (1 : Fin 2) * 128 + 128
    rw [e51]; omega

end Cert.Val

namespace Cert.KernelIdeal.Hand

open Cert.KernelIdeal Cert.KernelIdeal.Gen
open Idealize.ShloMosaic Idealize.ShloMosaic.TcCoe Idealize.SL.Sem

/-- The output array after the region is the whole-array message layer of the arrays the region finds. -/
theorem final1 (V : (c : Dev nD) → (b : Ref sig .tc) → Buf (Elt Ideal) ((c : Thread nD τ).loc b)) (c : Dev nD) :
    (dat1 (F := Ideal) V c).arrAt 5 cfg1.N
      = Cert.Spec.msg (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => Cert.Val.flushed1_eq V c t) Cert.Val.cover1

end Cert.KernelIdeal.Hand

end
-- ==== Proof.LibColumnLayout.lean ====
/-
  Two layout readings of a column, for arrays of any extents: a vector `[a]` reshaped to a column `[a, 1]` holds the
  vector's entry `i` at `(i, 0)`, and a column `[a, 1]` broadcast along a second axis to `[a, b]` holds at `(p, c)` the
  column's entry of row `p`. (The row forms `[a] → [1, a]` and `[1, b] → [a, b]` are in the library's layout file.)
-/
import Idealize.ShloMosaic.Lib.ValueIdx
import Idealize.ShloMosaic.Lib.ValueLayout
import Idealize.ShloMosaic.Lib.Pipeline.Value

namespace Cert.Gcn.Layout

open Idealize.ShloMosaic Idealize.ShloMosaic.ValueIdx

/-- A column `[a, 1]` broadcast along the rows' features to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn.Layout
-- ==== Proof.Val.RowSum.lean ====
/-
  The sum along the rows of a matrix, read at a row, at the ideal values: reducing an [a, b] array by addition over
  its second axis leaves, at row r, the finite sum ∑ k, src r k over the b columns. The reduction's own description
  sums over the source indices that project to r; those are the pairs (r, k), one for each column k.
-/
import Idealize.ShloMosaic.Lib.ValueIdx
import Idealize.ShloMosaic.PureOps.Ideal.Laws

noncomputable section

open scoped BigOperators

namespace Cert.Val

open Idealize.ShloMosaic Idealize.ShloMosaic.ValueIdx

/-- Over row r, the source index whose column is k is the pair (r, k). -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- An add-reduction of an [a, b] array over its columns, at row r: ∑ k, src r k. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Cert.Val

end
-- ==== Proof.Val.TileUpd.lean ====
/-
  An update tile at an entry, at the ideal values. The tile takes a block of 5000 rows of the aggregated messages and
  of the node rows, adds them, applies the leaky rectifier entry by entry (the sum itself where it is above zero, the
  sum times the constant elsewhere), squares, sums each row over its 128 columns, takes the square root, bounds it below
  by the small constant, and divides every entry of the rectified row by that bounded length. The row sum is kept as a
  column and repeated along the row, so entry (p, q) is the rectified sum at (p, q) divided by
  max (sqrt (∑ k, o p k * o p k)) ε, with o the rectified sum. The three update tiles are this same function.
-/
import proofs.«144474_j77214922048057_1_alg».proof.Proof.Gen.KernelIdeal.Skeleton
import proofs.«144474_j77214922048057_1_alg».proof.Proof.LibColumnLayout
import proofs.«144474_j77214922048057_1_alg».proof.Proof.Val.RowSum
import proofs.«144474_j77214922048057_1_alg».proof.Proof.Spec

noncomputable section

open scoped BigOperators

namespace Cert.Val

open Idealize.ShloMosaic Idealize.ShloMosaic.ValueIdx Cert.KernelIdeal

/-- The rectified sum of the two blocks at (p, q). -/
def rect (a h : Vec Ideal S5000x128 .f32) (p : Fin 5000) (q : Fin 128) : EReal :=
  Scalar.select (Ideal.cmp .ogt (a (ix2 p q) + h (ix2 p q)) (Ideal.ofBits .f32 0x00000000#32))
    (a (ix2 p q) + h (ix2 p q))
    (Ideal.ofBits .f32 0x3C23D70A#32 * (a (ix2 p q) + h (ix2 p q)))

/-- The two blocks' sum at (p, q); the reshapes to the same shape drop out. -/
theorem sum_cast (a h : FVec Ideal S5000x128 .f32) (ca ch : S5000x128.ShapeCasts S5000x128) (p : Fin 5000) (q : Fin 128) :
    addf (F := Ideal) (φ := .f32) (shapeCast S5000x128 a ca) (shapeCast S5000x128 h ch) (ix2 p q)
      = a (ix2 p q) + h (ix2 p q) := by
  refine (addf_apply _ _ _).trans ?_
  exact congrArg₂ (· + ·) (congrFun (shapeCast_self a _) (ix2 p q)) (congrFun (shapeCast_self h _) (ix2 p q))

/-- The leaky rectifier on a block, at an index where the block's value is v: v where v is above zero, else c * v. -/
theorem rect_of_sum (s : FVec Ideal S5000x128 .f32) (j : S5000x128.Idx) (v : EReal) (hv : s j = v) :
    select (cmpf .ogt s (broadcast S5000x128 (Scalar.ofBits (F := Ideal) .f32 0x00000000#32))) s
        (mulf (broadcast S5000x128 (Scalar.ofBits (F := Ideal) .f32 0x3C23D70A#32)) s) j
      = Scalar.select (Ideal.cmp .ogt v (Ideal.ofBits .f32 0x00000000#32)) v (Ideal.ofBits .f32 0x3C23D70A#32 * v) := by
  subst hv; rfl

/-- Blocks whose row p is the arrays' row r have there the arrays' rectified sums and bounded length. -/
theorem rect_rows (ab hb : Vec Ideal S5000x128 .f32) (agg h1 : FVec Ideal Cert.Spec.SU .f32)
    (p : Fin 5000) (r : Fin 50000) (q : Fin 128)
    (ha : ∀ k : Fin 128, ab (ix2 p k) = agg (ix2 r k)) (hh : ∀ k : Fin 128, hb (ix2 p k) = h1 (ix2 r k)) :
    Ideal.div (rect ab hb p q)
        (max (Ideal.sqrt (∑ k : Fin 128, rect ab hb p k * rect ab hb p k)) (Ideal.ofBits .f32 0x2B8CBCCC#32))
      = Cert.Spec.upd agg h1 (ix2 r q) := by
  have hr : ∀ k : Fin 128, rect ab hb p k = Cert.Spec.act agg h1 r k := fun k => by
    unfold rect Cert.Spec.act; rw [ha k, hh k]
  refine Eq.trans ?_ (Cert.Spec.upd_apply agg h1 r q).symm
  unfold Cert.Spec.len
  rw [hr q]
  exact congrArg (fun s => Ideal.div (Cert.Spec.act agg h1 r q) (max (Ideal.sqrt s) (Ideal.ofBits .f32 0x2B8CBCCC#32)))
    (Finset.sum_congr rfl fun k _ => by rw [hr k])

/-- The first update tile at (p, q). -/
theorem k2_pay1_apply (a h : Vec Ideal S5000x128 .f32) (p : Fin 5000) (q : Fin 128) :
    Gen.k2_pay1 (F := Ideal) a h (ix2 p q)
      = Ideal.div (rect a h p q)
          (max (Ideal.sqrt (∑ k : Fin 128, rect a h p k * rect a h p k)) (Ideal.ofBits .f32 0x2B8CBCCC#32)) := by
  unfold Gen.k2_pay1
  refine (divf_apply _ _ _).trans ?_
  refine congrArg₂ Ideal.div ?_ ?_
  · exact rect_of_sum _ (ix2 p q) _ (sum_cast a h _ _ p q)
  · refine (Cert.Gcn.Layout.broadcastTo_a1_ab_apply _ _ p q).trans ?_
    refine (maximumf_apply _ _ _).trans ?_
    refine congrArg₂ max ?_ rfl
    show Ideal.sqrt _ = Ideal.sqrt _
    refine congrArg Ideal.sqrt ?_
    refine (Cert.Gcn.Layout.shapeCast_a_a1_apply _ _ p (0 : Fin 1)).trans ?_
    refine (rowSum_apply _ _ _ _ _ p).trans ?_
    refine Finset.sum_congr rfl fun k _ => ?_
    refine (mulf_apply _ _ _).trans ?_
    exact congrArg₂ (· * ·) (rect_of_sum _ (ix2 p k) _ (sum_cast a h _ _ p k)) (rect_of_sum _ (ix2 p k) _ (sum_cast a h _ _ p k))

/-- If row p of each block is row r of its array, the tile's entry (p, q) is the whole arrays' update at (r, q). -/
theorem k2_pay1_of_rows (ab hb : Vec Ideal S5000x128 .f32) (agg h1 : FVec Ideal Cert.Spec.SU .f32)
    (p : Fin 5000) (r : Fin 50000) (q : Fin 128)
    (ha : ∀ k : Fin 128, ab (ix2 p k) = agg (ix2 r k)) (hh : ∀ k : Fin 128, hb (ix2 p k) = h1 (ix2 r k)) :
    Gen.k2_pay1 (F := Ideal) ab hb (ix2 p q) = Cert.Spec.upd agg h1 (ix2 r q) :=
  (k2_pay1_apply ab hb p q).trans (rect_rows ab hb agg h1 p r q ha hh)

/-- The second update tile at (p, q). -/
theorem k5_pay1_apply (a h : Vec Ideal S5000x128 .f32) (p : Fin 5000) (q : Fin 128) :
    Gen.k5_pay1 (F := Ideal) a h (ix2 p q)
      = Ideal.div (rect a h p q)
          (max (Ideal.sqrt (∑ k : Fin 128, rect a h p k * rect a h p k)) (Ideal.ofBits .f32 0x2B8CBCCC#32)) := by
  unfold Gen.k5_pay1
  refine (divf_apply _ _ _).trans ?_
  refine congrArg₂ Ideal.div ?_ ?_
  · exact rect_of_sum _ (ix2 p q) _ (sum_cast a h _ _ p q)
  · refine (Cert.Gcn.Layout.broadcastTo_a1_ab_apply _ _ p q).trans ?_
    refine (maximumf_apply _ _ _).trans ?_
    refine congrArg₂ max ?_ rfl
    show Ideal.sqrt _ = Ideal.sqrt _
    refine congrArg Ideal.sqrt ?_
    refine (Cert.Gcn.Layout.shapeCast_a_a1_apply _ _ p (0 : Fin 1)).trans ?_
    refine (rowSum_apply _ _ _ _ _ p).trans ?_
    refine Finset.sum_congr rfl fun k _ => ?_
    refine (mulf_apply _ _ _).trans ?_
    exact congrArg₂ (· * ·) (rect_of_sum _ (ix2 p k) _ (sum_cast a h _ _ p k)) (rect_of_sum _ (ix2 p k) _ (sum_cast a h _ _ p k))

/-- If row p of each block is row r of its array, the tile's entry (p, q) is the whole arrays' update at (r, q). -/
theorem k5_pay1_of_rows (ab hb : Vec Ideal S5000x128 .f32) (agg h1 : FVec Ideal Cert.Spec.SU .f32)
    (p : Fin 5000) (r : Fin 50000) (q : Fin 128)
    (ha : ∀ k : Fin 128, ab (ix2 p k) = agg (ix2 r k)) (hh : ∀ k : Fin 128, hb (ix2 p k) = h1 (ix2 r k)) :
    Gen.k5_pay1 (F := Ideal) ab hb (ix2 p q) = Cert.Spec.upd agg h1 (ix2 r q) :=
  (k5_pay1_apply ab hb p q).trans (rect_rows ab hb agg h1 p r q ha hh)

/-- The third update tile at (p, q). -/
theorem k8_pay1_apply (a h : Vec Ideal S5000x128 .f32) (p : Fin 5000) (q : Fin 128) :
    Gen.k8_pay1 (F := Ideal) a h (ix2 p q)
      = Ideal.div (rect a h p q)
          (max (Ideal.sqrt (∑ k : Fin 128, rect a h p k * rect a h p k)) (Ideal.ofBits .f32 0x2B8CBCCC#32)) := by
  unfold Gen.k8_pay1
  refine (divf_apply _ _ _).trans ?_
  refine congrArg₂ Ideal.div ?_ ?_
  · exact rect_of_sum _ (ix2 p q) _ (sum_cast a h _ _ p q)
  · refine (Cert.Gcn.Layout.broadcastTo_a1_ab_apply _ _ p q).trans ?_
    refine (maximumf_apply _ _ _).trans ?_
    refine congrArg₂ max ?_ rfl
    show Ideal.sqrt _ = Ideal.sqrt _
    refine congrArg Ideal.sqrt ?_
    refine (Cert.Gcn.Layout.shapeCast_a_a1_apply _ _ p (0 : Fin 1)).trans ?_
    refine (rowSum_apply _ _ _ _ _ p).trans ?_
    refine Finset.sum_congr rfl fun k _ => ?_
    refine (mulf_apply _ _ _).trans ?_
    exact congrArg₂ (· * ·) (rect_of_sum _ (ix2 p k) _ (sum_cast a h _ _ p k)) (rect_of_sum _ (ix2 p k) _ (sum_cast a h _ _ p k))

/-- If row p of each block is row r of its array, the tile's entry (p, q) is the whole arrays' update at (r, q). -/
theorem k8_pay1_of_rows (ab hb : Vec Ideal S5000x128 .f32) (agg h1 : FVec Ideal Cert.Spec.SU .f32)
    (p : Fin 5000) (r : Fin 50000) (q : Fin 128)
    (ha : ∀ k : Fin 128, ab (ix2 p k) = agg (ix2 r k)) (hh : ∀ k : Fin 128, hb (ix2 p k) = h1 (ix2 r k)) :
    Gen.k8_pay1 (F := Ideal) ab hb (ix2 p q) = Cert.Spec.upd agg h1 (ix2 r q) :=
  (k8_pay1_apply ab hb p q).trans (rect_rows ab hb agg h1 p r q ha hh)

end Cert.Val

end
-- ==== Proof.Val.Final2.lean ====
/-
  An update's output array after its region, at the ideal values: the whole-array update of the two arrays the region
  finds. Grid point t handles rows 5000 t … 5000 t + 4999: both input blocks and the output block sit at block index t of
  their arrays, so a block row p is array row 5000 t + p in all three, and a row's length is taken over that row alone.
  What point t writes back is therefore the output block's rows of the whole-array function, and the ten blocks cover
  every row r, row r by point r / 5000.
-/
import proofs.«144474_j77214922048057_1_alg».proof.Proof.KI.Body2
import proofs.«144474_j77214922048057_1_alg».proof.Proof.Val.TileUpd
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
private theorem zero_off2 : (![0, 0] : Fin 2 → Nat) = fun _ => 0 := funext fun a => by fin_cases a <;> rfl

/-- The block indices at point t, decided over the ten points: all three windows at (t, 0). -/
theorem blockIdx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

set_option maxHeartbeats 1000000 in
/-- Row p of point t's block of the aggregated messages is row 5000 t + p of the array. -/
theorem read2_0 (c : Dev nD) (t : Fin cfg2.N) (p : Fin 5000) (k : Fin 128) (r : Fin 50000)
    (hr : r.val = t.val * 5000 + p.val) :
    iblk2 V c 0 t (ix2 p k) = V c (Pipeline.arrRef spec2 0) (ix2 r k) := by
  obtain ⟨e00, e01, e10, e11, -⟩ := blockIdx2 t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

set_option maxHeartbeats 1000000 in
/-- Row p of point t's block of the node rows is row 5000 t + p of the array. -/
theorem read2_1 (c : Dev nD) (t : Fin cfg2.N) (p : Fin 5000) (k : Fin 128) (r : Fin 50000)
    (hr : r.val = t.val * 5000 + p.val) :
    iblk2 V c 1 t (ix2 p k) = V c (Pipeline.arrRef spec2 1) (ix2 r k) := by
  obtain ⟨e00, e01, e10, e11, -⟩ := blockIdx2 t
  show V c (Pipeline.arrRef spec2 1) (((cfg2.win 1).blk t).view.emb (ix2 p k)) = V c (Pipeline.arrRef spec2 1) (ix2 r k)
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

set_option maxHeartbeats 1000000 in
/-- Row p of point t's output block sits at row 5000 t + p of the output array. -/
theorem emb2_2 (t : Fin cfg2.N) (p : Fin 5000) (q : Fin 128) (r : Fin 50000) (hr : r.val = t.val * 5000 + p.val) :
    ((cfg2.win 2).blk t).view.emb (ix2 p q) = ix2 r q := by
  obtain ⟨-, -, -, -, e20, e21⟩ := blockIdx2 t
  funext a; apply Fin.ext
  match a with
  | ⟨0, _⟩ => show win2_2.index t (0 : Fin 2) * 5000 + 1 * p.val = r.val; omega
  | ⟨1, _⟩ => show win2_2.index t (1 : Fin 2) * 128 + 1 * q.val = q.val; omega

set_option maxHeartbeats 1000000 in
/-- What point t writes back is the output block's rows of the whole-array update. -/
theorem flushed2_eq (c : Dev nD) (t : Fin cfg2.N) :
    (dat2 V c).flushed 2 t = ((cfg2.win 2).blk t).view.read (Elt Ideal)
      (Cert.Spec.upd (V c (Pipeline.arrRef spec2 0)) (V c (Pipeline.arrRef spec2 1))) := by
  show (cfg2.win 2).cut (grid2.coords t) ((dat2 V c).after 2 t) = _
  rw [after2_2]
  unfold out2_2
  rw [View.canon_unit_zero zero_off2]
  simp only [View.ld_unit_zero (S := S5000x128) zero_off2]
  have ht : t.val < 10 := lt_of_lt_of_eq t.isLt N_2
  funext j
  obtain ⟨p, q, rfl⟩ : ∃ (p : Fin 5000) (q : Fin 128), j = ix2 p q := ⟨j 0, j 1, eq_ix2 j⟩
  obtain ⟨r, hr⟩ : ∃ r : Fin 50000, r.val = t.val * 5000 + p.val := ⟨⟨t.val * 5000 + p.val, by omega⟩, rfl⟩
  show Gen.k2_pay1 (F := Ideal) (iblk2 V c 0 t) (iblk2 V c 1 t) (ix2 p q)
    = Cert.Spec.upd (V c (Pipeline.arrRef spec2 0)) (V c (Pipeline.arrRef spec2 1))
        (((cfg2.win 2).blk t).view.emb (ix2 p q))
  rw [emb2_2 t p q r hr]
  exact k2_pay1_of_rows (iblk2 V c 0 t) (iblk2 V c 1 t)
    (V c (Pipeline.arrRef spec2 0)) (V c (Pipeline.arrRef spec2 1))
    p r q (fun k => read2_0 V c t p k r hr) (fun k => read2_1 V c t p k r hr)

/-- An index of the output array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v40).slice (win2_2.rect t)).set ↔ _
  rw [View.set_slice_whole, Rect.mem_set_unit]
  exact Iff.rfl

/-- Every row r of the output is in the block of point r / 5000. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  refine ⟨⟨(i 0).val / 5000, by rw [show cfg2.N = 10 from N_2]; omega⟩, flush2_2 _, ?_⟩
  rw [mem_blk2]
  obtain ⟨-, -, -, -, e20, e21⟩ := blockIdx2 ⟨(i 0).val / 5000, by rw [show cfg2.N = 10 from N_2]; omega⟩
  intro a
  match a with
  | ⟨0, _⟩ =>
    show win2_2.index _ (0 : Fin 2) * 5000 ≤ (i 0).val ∧ (i 0).val < win2_2.index _ (0 : Fin 2) * 5000 + 5000
    rw [e20]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e21]; omega

end Cert.Val

namespace Cert.KernelIdeal.Hand

open Cert.KernelIdeal Cert.KernelIdeal.Gen
open Idealize.ShloMosaic Idealize.ShloMosaic.TcCoe Idealize.SL.Sem

/-- The output array after the region is the whole-array update of the arrays the region finds. -/
theorem final2 (V : (c : Dev nD) → (b : Ref sig .tc) → Buf (Elt Ideal) ((c : Thread nD τ).loc b)) (c : Dev nD) :
    (dat2 (F := Ideal) V c).arrAt 2 cfg2.N
      = Cert.Spec.upd (V c (Pipeline.arrRef spec2 0)) (V c (Pipeline.arrRef spec2 1)) :=
  (dat2 (F := Ideal) V c).arrAt_eq_of_cover 2 _ (fun t _ => Cert.Val.flushed2_eq V c t) Cert.Val.cover2

end Cert.KernelIdeal.Hand

end
-- ==== Proof.Val.Final3.lean ====
/-
  A dense layer's output array after its region, at the ideal values: the whole-array dense layer of the three
  arrays the region finds. Grid point t handles rows 5000 t … 5000 t + 4999: its features block and its output block
  sit at block index t of their arrays, the weight and the bias are whole-array blocks at index 0. So what point t writes
  back is the output block's rows of the whole-array function (a block row p is array row 5000 t + p, and the
  contraction runs over the whole shared axis), and the ten blocks cover every row r, row r by point r / 5000.
-/
import proofs.«144474_j77214922048057_1_alg».proof.Proof.KI.Body3
import proofs.«144474_j77214922048057_1_alg».proof.Proof.Val.TileDense
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
private theorem zero_off2 : (![0, 0] : Fin 2 → Nat) = fun _ => 0 := funext fun a => by fin_cases a <;> rfl

/-- The block indices at point t, decided over the ten points: features and output at (t, 0), weight and bias at (0, 0). -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 1000000 in
/-- Row p of point t's features block is row 5000 t + p of the features. -/
theorem read3_0 (c : Dev nD) (t : Fin cfg3.N) (p : Fin 5000) (k : Fin 128) (r : Fin 50000)
    (hr : r.val = t.val * 5000 + p.val) :
    iblk3 V c 0 t (ix2 p k) = V c (Pipeline.arrRef spec3 0) (ix2 r k) := by
  obtain ⟨e00, e01, -⟩ := blockIdx3 t
  show V c (Pipeline.arrRef spec3 0) (((cfg3.win 0).blk t).view.emb (ix2 p k)) = V c (Pipeline.arrRef spec3 0) (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

set_option maxHeartbeats 1000000 in
/-- The weight's one block is the whole weight. -/
theorem read3_1 (c : Dev nD) (t : Fin cfg3.N) (k q : Fin 128) :
    iblk3 V c 1 t (ix2 k q) = V c (Pipeline.arrRef spec3 1) (ix2 k q) := by
  obtain ⟨-, -, e10, e11, -⟩ := blockIdx3 t
  show V c (Pipeline.arrRef spec3 1) (((cfg3.win 1).blk t).view.emb (ix2 k q)) = V c (Pipeline.arrRef spec3 1) (ix2 k q)
  refine congrArg _ (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

set_option maxHeartbeats 1000000 in
/-- The bias's one block is the whole bias row. -/
theorem read3_2 (c : Dev nD) (t : Fin cfg3.N) (q : Fin 128) :
    iblk3 V c 2 t (ix2 (0 : Fin 1) q) = V c (Pipeline.arrRef spec3 2) (ix2 (0 : Fin 1) q) := by
  obtain ⟨-, -, -, -, e20, e21, -⟩ := blockIdx3 t
  show V c (Pipeline.arrRef spec3 2) (((cfg3.win 2).blk t).view.emb (ix2 (0 : Fin 1) q)) = V c (Pipeline.arrRef spec3 2) (ix2 (0 : Fin 1) q)
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

set_option maxHeartbeats 1000000 in
/-- Row p of point t's output block sits at row 5000 t + p of the output array. -/
theorem emb3_3 (t : Fin cfg3.N) (p : Fin 5000) (q : Fin 128) (r : Fin 50000) (hr : r.val = t.val * 5000 + p.val) :
    ((cfg3.win 3).blk t).view.emb (ix2 p q) = ix2 r q := by
  obtain ⟨-, -, -, -, -, -, e30, e31⟩ := blockIdx3 t
  funext a; apply Fin.ext
  match a with
  | ⟨0, _⟩ => show win3_3.index t (0 : Fin 2) * 5000 + 1 * p.val = r.val; omega
  | ⟨1, _⟩ => show win3_3.index t (1 : Fin 2) * 128 + 1 * q.val = q.val; omega

set_option maxHeartbeats 1000000 in
/-- What point t writes back is the output block's rows of the whole-array dense layer. -/
theorem flushed3_eq (c : Dev nD) (t : Fin cfg3.N) :
    (dat3 V c).flushed 3 t = ((cfg3.win 3).blk t).view.read (Elt Ideal)
      (Cert.Spec.dense (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zero_off2]
  simp only [View.ld_unit_zero (S := S5000x128) zero_off2, View.ld_unit_zero (S := S128x128) zero_off2,
    View.ld_unit_zero (S := S1x128) zero_off2]
  have ht : t.val < 10 := lt_of_lt_of_eq t.isLt N_3
  funext j
  obtain ⟨p, q, rfl⟩ : ∃ (p : Fin 5000) (q : Fin 128), j = ix2 p q := ⟨j 0, j 1, eq_ix2 j⟩
  obtain ⟨r, hr⟩ : ∃ r : Fin 50000, r.val = t.val * 5000 + p.val := ⟨⟨t.val * 5000 + p.val, by omega⟩, rfl⟩
  show Gen.k3_pay1 (F := Ideal) (iblk3 V c 0 t) (iblk3 V c 1 t) (iblk3 V c 2 t) (ix2 p q)
    = Cert.Spec.dense (V c (Pipeline.arrRef spec3 0)) (V c (Pipeline.arrRef spec3 1)) (V c (Pipeline.arrRef spec3 2))
        (((cfg3.win 3).blk t).view.emb (ix2 p q))
  rw [emb3_3 t p q r hr]
  exact k3_pay1_of_rows (iblk3 V c 0 t) (iblk3 V c 1 t) (iblk3 V c 2 t)
    (V c (Pipeline.arrRef spec3 0)) (V c (Pipeline.arrRef spec3 1)) (V c (Pipeline.arrRef spec3 2))
    p r q (fun k => read3_0 V c t p k r hr) (fun k => read3_1 V c t k q) (read3_2 V c t q)

/-- An index of the output array is in point t's block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v46).slice (win3_3.rect t)).set ↔ _
  rw [View.set_slice_whole, Rect.mem_set_unit]
  exact Iff.rfl

/-- Every row r of the output is in the block of point r / 5000. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  refine ⟨⟨(i 0).val / 5000, by rw [show cfg3.N = 10 from N_3]; omega⟩, flush3_3 _, ?_⟩
  rw [mem_blk3]
  obtain ⟨-, -, -, -, -, -, e30, e31⟩ := blockIdx3 ⟨(i 0).val / 5000, by rw [show cfg3.N = 10 from N_3]; omega⟩
  intro a
  match a with
  | ⟨0, _⟩ =>
    show win3_3.index _ (0 : Fin 2) * 5000 ≤ (i 0).val ∧ (i 0).val < win3_3.index _ (0 : Fin 2) * 5000 + 5000
    rw [e30]; show (i 0).val / 5000 * 5000 ≤ (i 0).val ∧ (i 0).val < (i 0).val / 5000 * 5000 + 5000; omega
  | ⟨1, _⟩ =>
    show win3_3.index _ (1 : Fin 2) * 128 ≤ (i 1).val ∧ (i 1).val < win3_3.index _ (1 : Fin 2) * 128 + 128
    rw [e31]; omega

end Cert.Val

namespace Cert.KernelIdeal.Hand

open Cert.KernelIdeal Cert.KernelIdeal.Gen
open Idealize.ShloMosaic Idealize.ShloMosaic.TcCoe Idealize.SL.Sem

/-- The output array after the region is the whole-array dense layer of the arrays the region finds. -/
theorem final3 (V : (c : Dev nD) → (b : Ref sig .tc) → Buf (Elt Ideal) ((c : Thread nD τ).loc b)) (c : Dev nD) :
    (dat3 (F := Ideal) V c).arrAt 3 cfg3.N
      = Cert.Spec.dense (V c (Pipeline.arrRef spec3 0)) (V c (Pipeline.arrRef spec3 1)) (V c (Pipeline.arrRef spec3 2)) :=
  (dat3 (F := Ideal) V c).arrAt_eq_of_cover 3 _ (fun t _ => Cert.Val.flushed3_eq V c t) Cert.Val.cover3

end Cert.KernelIdeal.Hand

end
-- ==== Proof.Val.Final4.lean ====
/-
  A message layer's output array after its region, at the ideal values: the whole-array message layer of the five arrays
  the region finds. Grid point t handles edge rows 4000 t … 4000 t + 3999: the two endpoint-feature blocks, the edges'
  own block and the output block sit at block index t of their arrays, the weight and the bias are whole-array blocks at
  index 0. So what point t writes back is the output block's rows of the whole-array function (a block row p is array row
  4000 t + p, and the contraction runs over the whole shared axis), and the two hundred blocks cover every row r, row r by
  point r / 4000.
-/
import proofs.«144474_j77214922048057_1_alg».proof.Proof.KI.Body4
import proofs.«144474_j77214922048057_1_alg».proof.Proof.Val.TileMsg
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
private theorem zero_off2 : (![0, 0] : Fin 2 → Nat) = fun _ => 0 := funext fun a => by fin_cases a <;> rfl

/-- The block indices at point t, decided over the two hundred points: the three edge inputs and the output at (t, 0),
    weight and bias at (0, 0). -/
theorem blockIdx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

set_option maxHeartbeats 1000000 in
/-- Row p of point t's block of the first endpoint's features is row 4000 t + p of the array. -/
theorem read4_0 (c : Dev nD) (t : Fin cfg4.N) (p : Fin 4000) (k : Fin 128) (r : Fin 800000)
    (hr : r.val = t.val * 4000 + p.val) :
    iblk4 V c 0 t (ix2 p k) = V c (Pipeline.arrRef spec4 0) (ix2 r k) := by
  obtain ⟨e00, e01, e10, e11, e20, e21, -⟩ := blockIdx4 t
  show V c (Pipeline.arrRef spec4 0) (((cfg4.win 0).blk t).view.emb (ix2 p k)) = V c (Pipeline.arrRef spec4 0) (ix2 r k)
  refine congrArg _ (funext fun a => Fin.ext ?_)
  match a with
  | ⟨0, _⟩ => show win4_0.index t (0 : Fin 2) * 4000 + 1 * p.val = r.val; omega
  | ⟨1, _⟩ => show win4_0.index t (1 : Fin 2) * 128 + 1 * k.val = k.val; omega

set_option maxHeartbeats 1000000 in
/-- Row p of point t's block of the second endpoint's features is row 4000 t + p of the array. -/
theorem read4_1 (c : Dev nD) (t : Fin cfg4.N) (p : Fin 4000) (k : Fin 128) (r : Fin 800000)
    (hr : r.val = t.val * 4000 + p.val) :
    iblk4 V c 1 t (ix2 p k) = V c (Pipeline.arrRef spec4 1) (ix2 r k) := by
  obtain ⟨e00, e01, e10, e11, e20, e21, -⟩ := blockIdx4 t
  show V c (Pipeline.arrRef spec4 1) (((cfg4.win 1).blk t).view.emb (ix2 p k)) = V c (Pipeline.arrRef spec4 1) (ix2 r k)
  refine congrArg _ (funext fun a => Fin.ext ?_)
  match a with
  | ⟨0, _⟩ => show win4_1.index t (0 : Fin 2) * 4000 + 1 * p.val = r.val; omega
  | ⟨1, _⟩ => show win4_1.index t (1 : Fin 2) * 128 + 1 * k.val = k.val; omega

set_option maxHeartbeats 1000000 in
/-- Row p of point t's block of the edges' own rows is row 4000 t + p of the array. -/
theorem read4_2 (c : Dev nD) (t : Fin cfg4.N) (p : Fin 4000) (k : Fin 128) (r : Fin 800000)
    (hr : r.val = t.val * 4000 + p.val) :
    iblk4 V c 2 t (ix2 p k) = V c (Pipeline.arrRef spec4 2) (ix2 r k) := by
  obtain ⟨e00, e01, e10, e11, e20, e21, -⟩ := blockIdx4 t
  show V c (Pipeline.arrRef spec4 2) (((cfg4.win 2).blk t).view.emb (ix2 p k)) = V c (Pipeline.arrRef spec4 2) (ix2 r k)
  refine congrArg _ (funext fun a => Fin.ext ?_)
  match a with
  | ⟨0, _⟩ => show win4_2.index t (0 : Fin 2) * 4000 + 1 * p.val = r.val; omega
  | ⟨1, _⟩ => show win4_2.index t (1 : Fin 2) * 128 + 1 * k.val = k.val; omega

set_option maxHeartbeats 1000000 in
/-- The weight's one block is the whole weight. -/
theorem read4_3 (c : Dev nD) (t : Fin cfg4.N) (k q : Fin 128) :
    iblk4 V c 3 t (ix2 k q) = V c (Pipeline.arrRef spec4 3) (ix2 k q) := by
  obtain ⟨-, -, -, -, -, -, e30, e31, -⟩ := blockIdx4 t
  show V c (Pipeline.arrRef spec4 3) (((cfg4.win 3).blk t).view.emb (ix2 k q)) = V c (Pipeline.arrRef spec4 3) (ix2 k q)
  refine congrArg _ (funext fun a => Fin.ext ?_)
  match a with
  | ⟨0, _⟩ => show win4_3.index t (0 : Fin 2) * 128 + 1 * k.val = k.val; omega
  | ⟨1, _⟩ => show win4_3.index t (1 : Fin 2) * 128 + 1 * q.val = q.val; omega

set_option maxHeartbeats 1000000 in
/-- The bias's one block is the whole bias row. -/
theorem read4_4 (c : Dev nD) (t : Fin cfg4.N) (q : Fin 128) :
    iblk4 V c 4 t (ix2 (0 : Fin 1) q) = V c (Pipeline.arrRef spec4 4) (ix2 (0 : Fin 1) q) := by
  obtain ⟨-, -, -, -, -, -, -, -, e40, e41, -⟩ := blockIdx4 t
  show V c (Pipeline.arrRef spec4 4) (((cfg4.win 4).blk t).view.emb (ix2 (0 : Fin 1) q)) = V c (Pipeline.arrRef spec4 4) (ix2 (0 : Fin 1) q)
  refine congrArg _ (funext fun a => Fin.ext ?_)
  match a with
  | ⟨0, _⟩ => show win4_4.index t (0 : Fin 2) * 1 + 1 * 0 = 0; omega
  | ⟨1, _⟩ => show win4_4.index t (1 : Fin 2) * 128 + 1 * q.val = q.val; omega

set_option maxHeartbeats 1000000 in
/-- Row p of point t's output block sits at row 4000 t + p of the output array. -/
theorem emb4_5 (t : Fin cfg4.N) (p : Fin 4000) (q : Fin 128) (r : Fin 800000) (hr : r.val = t.val * 4000 + p.val) :
    ((cfg4.win 5).blk t).view.emb (ix2 p q) = ix2 r q := by
  obtain ⟨-, -, -, -, -, -, -, -, -, -, e50, e51⟩ := blockIdx4 t
  funext a; apply Fin.ext
  match a with
  | ⟨0, _⟩ => show win4_5.index t (0 : Fin 2) * 4000 + 1 * p.val = r.val; omega
  | ⟨1, _⟩ => show win4_5.index t (1 : Fin 2) * 128 + 1 * q.val = q.val; omega

set_option maxHeartbeats 1000000 in
/-- What point t writes back is the output block's rows of the whole-array message layer. -/
theorem flushed4_eq (c : Dev nD) (t : Fin cfg4.N) :
    (dat4 V c).flushed 5 t = ((cfg4.win 5).blk t).view.read (Elt Ideal)
      (Cert.Spec.msg (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero zero_off2]
  simp only [View.ld_unit_zero (S := S4000x128) zero_off2, View.ld_unit_zero (S := S128x128) zero_off2,
    View.ld_unit_zero (S := S1x128) zero_off2]
  have ht : t.val < 200 := lt_of_lt_of_eq t.isLt N_4
  funext j
  obtain ⟨p, q, rfl⟩ : ∃ (p : Fin 4000) (q : Fin 128), j = ix2 p q := ⟨j 0, j 1, eq_ix2 j⟩
  obtain ⟨r, hr⟩ : ∃ r : Fin 800000, r.val = t.val * 4000 + p.val := ⟨⟨t.val * 4000 + p.val, by omega⟩, rfl⟩
  show Gen.k4_pay1 (F := Ideal) (iblk4 V c 0 t) (iblk4 V c 1 t) (iblk4 V c 3 t) (iblk4 V c 2 t) (iblk4 V c 4 t) (ix2 p q)
    = Cert.Spec.msg (V c (Pipeline.arrRef spec4 0)) (V c (Pipeline.arrRef spec4 1)) (V c (Pipeline.arrRef spec4 2))
        (V c (Pipeline.arrRef spec4 3)) (V c (Pipeline.arrRef spec4 4)) (((cfg4.win 5).blk t).view.emb (ix2 p q))
  rw [emb4_5 t p q r hr]
  exact k4_pay1_of_rows (iblk4 V c 0 t) (iblk4 V c 1 t) (iblk4 V c 3 t) (iblk4 V c 2 t) (iblk4 V c 4 t)
    (V c (Pipeline.arrRef spec4 0)) (V c (Pipeline.arrRef spec4 1)) (V c (Pipeline.arrRef spec4 2))
    (V c (Pipeline.arrRef spec4 3)) (V c (Pipeline.arrRef spec4 4))
    p r q (fun k => read4_0 V c t p k r hr) (fun k => read4_1 V c t p k r hr) (read4_2 V c t p q r hr)
    (fun k => read4_3 V c t k q) (read4_4 V c t q)

/-- An index of the output array is in point t's block iff each coordinate is in the block's range on its axis. -/
theorem mem_blk4 (t : Fin cfg4.N) (i : S800000x128.Idx) :
    i ∈ ((cfg4.win 5).blk t).view.set ↔ ∀ a : Fin 2, win4_5.index t a * S4000x128.size a ≤ (i a).val
      ∧ (i a).val < win4_5.index t a * S4000x128.size a + S4000x128.size a := by
  show i ∈ ((View.whole main_v73).slice (win4_5.rect t)).set ↔ _
  rw [View.set_slice_whole, Rect.mem_set_unit]
  exact Iff.rfl

/-- Every row r of the output is in the block of point r / 4000. -/
theorem cover4 (i : S800000x128.Idx) : ∃ t : Fin cfg4.N, (cfg4.win 5).flush t = true ∧ i ∈ ((cfg4.win 5).blk t).view.set := by
  have hi0 : (i 0).val < 800000 := (i 0).isLt
  have hi1 : (i 1).val < 128 := (i 1).isLt
  refine ⟨⟨(i 0).val / 4000, by rw [show cfg4.N = 200 from N_4]; omega⟩, flush4_5 _, ?_⟩
  rw [mem_blk4]
  obtain ⟨-, -, -, -, -, -, -, -, -, -, e50, e51⟩ := blockIdx4 ⟨(i 0).val / 4000, by rw [show cfg4.N = 200 from N_4]; omega⟩
  intro a
  match a with
  | ⟨0, _⟩ =>
    show win4_5.index _ (0 : Fin 2) * 4000 ≤ (i 0).val ∧ (i 0).val < win4_5.index _ (0 : Fin 2) * 4000 + 4000
    rw [e50]; show (i 0).val / 4000 * 4000 ≤ (i 0).val ∧ (i 0).val < (i 0).val / 4000 * 4000 + 4000; omega
  | ⟨1, _⟩ =>
    show win4_5.index _ (1 : Fin 2) * 128 ≤ (i 1).val ∧ (i 1).val < win4_5.index _ (1 : Fin 2) * 128 + 128
    rw [e51]; omega

end Cert.Val

namespace Cert.KernelIdeal.Hand

open Cert.KernelIdeal Cert.KernelIdeal.Gen
open Idealize.ShloMosaic Idealize.ShloMosaic.TcCoe Idealize.SL.Sem

/-- The output array after the region is the whole-array message layer of the arrays the region finds. -/
theorem final4 (V : (c : Dev nD) → (b : Ref sig .tc) → Buf (Elt Ideal) ((c : Thread nD τ).loc b)) (c : Dev nD) :
    (dat4 (F := Ideal) V c).arrAt 5 cfg4.N
      = Cert.Spec.msg (V c (Pipeline.arrRef spec4 0)) (V c (Pipeline.arrRef spec4 1)) (V c (Pipeline.arrRef spec4 2))
          (V c (Pipeline.arrRef spec4 3)) (V c (Pipeline.arrRef spec4 4)) :=
  (dat4 (F := Ideal) V c).arrAt_eq_of_cover 5 _ (fun t _ => Cert.Val.flushed4_eq V c t) Cert.Val.cover4

end Cert.KernelIdeal.Hand

end
-- ==== Proof.Val.Final5.lean ====
/-
  An update's output array after its region, at the ideal values: the whole-array update of the two arrays the region
  finds. Grid point t handles rows 5000 t … 5000 t + 4999: both input blocks and the output block sit at block index t of
  their arrays, so a block row p is array row 5000 t + p in all three, and a row's length is taken over that row alone.
  What point t writes back is therefore the output block's rows of the whole-array function, and the ten blocks cover
  every row r, row r by point r / 5000.
-/
import proofs.«144474_j77214922048057_1_alg».proof.Proof.KI.Body5
import proofs.«144474_j77214922048057_1_alg».proof.Proof.Val.TileUpd
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
private theorem zero_off2 : (![0, 0] : Fin 2 → Nat) = fun _ => 0 := funext fun a => by fin_cases a <;> rfl

/-- The block indices at point t, decided over the ten points: all three windows at (t, 0). -/
theorem blockIdx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

set_option maxHeartbeats 1000000 in
/-- Row p of point t's block of the aggregated messages is row 5000 t + p of the array. -/
theorem read5_0 (c : Dev nD) (t : Fin cfg5.N) (p : Fin 5000) (k : Fin 128) (r : Fin 50000)
    (hr : r.val = t.val * 5000 + p.val) :
    iblk5 V c 0 t (ix2 p k) = V c (Pipeline.arrRef spec5 0) (ix2 r k) := by
  obtain ⟨e00, e01, e10, e11, -⟩ := blockIdx5 t
  show V c (Pipeline.arrRef spec5 0) (((cfg5.win 0).blk t).view.emb (ix2 p k)) = V c (Pipeline.arrRef spec5 0) (ix2 r k)
  refine congrArg _ (funext fun a => Fin.ext ?_)
  match a with
  | ⟨0, _⟩ => show win5_0.index t (0 : Fin 2) * 5000 + 1 * p.val = r.val; omega
  | ⟨1, _⟩ => show win5_0.index t (1 : Fin 2) * 128 + 1 * k.val = k.val; omega

set_option maxHeartbeats 1000000 in
/-- Row p of point t's block of the node rows is row 5000 t + p of the array. -/
theorem read5_1 (c : Dev nD) (t : Fin cfg5.N) (p : Fin 5000) (k : Fin 128) (r : Fin 50000)
    (hr : r.val = t.val * 5000 + p.val) :
    iblk5 V c 1 t (ix2 p k) = V c (Pipeline.arrRef spec5 1) (ix2 r k) := by
  obtain ⟨e00, e01, e10, e11, -⟩ := blockIdx5 t
  show V c (Pipeline.arrRef spec5 1) (((cfg5.win 1).blk t).view.emb (ix2 p k)) = V c (Pipeline.arrRef spec5 1) (ix2 r k)
  refine congrArg _ (funext fun a => Fin.ext ?_)
  match a with
  | ⟨0, _⟩ => show win5_1.index t (0 : Fin 2) * 5000 + 1 * p.val = r.val; omega
  | ⟨1, _⟩ => show win5_1.index t (1 : Fin 2) * 128 + 1 * k.val = k.val; omega

set_option maxHeartbeats 1000000 in
/-- Row p of point t's output block sits at row 5000 t + p of the output array. -/
theorem emb5_2 (t : Fin cfg5.N) (p : Fin 5000) (q : Fin 128) (r : Fin 50000) (hr : r.val = t.val * 5000 + p.val) :
    ((cfg5.win 2).blk t).view.emb (ix2 p q) = ix2 r q := by
  obtain ⟨-, -, -, -, e20, e21⟩ := blockIdx5 t
  funext a; apply Fin.ext
  match a with
  | ⟨0, _⟩ => show win5_2.index t (0 : Fin 2) * 5000 + 1 * p.val = r.val; omega
  | ⟨1, _⟩ => show win5_2.index t (1 : Fin 2) * 128 + 1 * q.val = q.val; omega

set_option maxHeartbeats 1000000 in
/-- What point t writes back is the output block's rows of the whole-array update. -/
theorem flushed5_eq (c : Dev nD) (t : Fin cfg5.N) :
    (dat5 V c).flushed 2 t = ((cfg5.win 2).blk t).view.read (Elt Ideal)
      (Cert.Spec.upd (V c (Pipeline.arrRef spec5 0)) (V c (Pipeline.arrRef spec5 1))) := by
  show (cfg5.win 2).cut (grid5.coords t) ((dat5 V c).after 2 t) = _
  rw [after5_2]
  unfold out5_2
  rw [View.canon_unit_zero zero_off2]
  simp only [View.ld_unit_zero (S := S5000x128) zero_off2]
  have ht : t.val < 10 := lt_of_lt_of_eq t.isLt N_5
  funext j
  obtain ⟨p, q, rfl⟩ : ∃ (p : Fin 5000) (q : Fin 128), j = ix2 p q := ⟨j 0, j 1, eq_ix2 j⟩
  obtain ⟨r, hr⟩ : ∃ r : Fin 50000, r.val = t.val * 5000 + p.val := ⟨⟨t.val * 5000 + p.val, by omega⟩, rfl⟩
  show Gen.k5_pay1 (F := Ideal) (iblk5 V c 0 t) (iblk5 V c 1 t) (ix2 p q)
    = Cert.Spec.upd (V c (Pipeline.arrRef spec5 0)) (V c (Pipeline.arrRef spec5 1))
        (((cfg5.win 2).blk t).view.emb (ix2 p q))
  rw [emb5_2 t p q r hr]
  exact k5_pay1_of_rows (iblk5 V c 0 t) (iblk5 V c 1 t)
    (V c (Pipeline.arrRef spec5 0)) (V c (Pipeline.arrRef spec5 1))
    p r q (fun k => read5_0 V c t p k r hr) (fun k => read5_1 V c t p k r hr)

/-- An index of the output array is in point t's block iff each coordinate is in the block's range on its axis. -/
theorem mem_blk5 (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v77).slice (win5_2.rect t)).set ↔ _
  rw [View.set_slice_whole, Rect.mem_set_unit]
  exact Iff.rfl

/-- Every row r of the output is in the block of point r / 5000. -/
theorem cover5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  refine ⟨⟨(i 0).val / 5000, by rw [show cfg5.N = 10 from N_5]; omega⟩, flush5_2 _, ?_⟩
  rw [mem_blk5]
  obtain ⟨-, -, -, -, e20, e21⟩ := blockIdx5 ⟨(i 0).val / 5000, by rw [show cfg5.N = 10 from N_5]; omega⟩
  intro a
  match a with
  | ⟨0, _⟩ =>
    show win5_2.index _ (0 : Fin 2) * 5000 ≤ (i 0).val ∧ (i 0).val < win5_2.index _ (0 : Fin 2) * 5000 + 5000
    rw [e20]; show (i 0).val / 5000 * 5000 ≤ (i 0).val ∧ (i 0).val < (i 0).val / 5000 * 5000 + 5000; omega
  | ⟨1, _⟩ =>
    show win5_2.index _ (1 : Fin 2) * 128 ≤ (i 1).val ∧ (i 1).val < win5_2.index _ (1 : Fin 2) * 128 + 128
    rw [e21]; omega

end Cert.Val

namespace Cert.KernelIdeal.Hand

open Cert.KernelIdeal Cert.KernelIdeal.Gen
open Idealize.ShloMosaic Idealize.ShloMosaic.TcCoe Idealize.SL.Sem

/-- The output array after the region is the whole-array update of the arrays the region finds. -/
theorem final5 (V : (c : Dev nD) → (b : Ref sig .tc) → Buf (Elt Ideal) ((c : Thread nD τ).loc b)) (c : Dev nD) :
    (dat5 (F := Ideal) V c).arrAt 2 cfg5.N
      = Cert.Spec.upd (V c (Pipeline.arrRef spec5 0)) (V c (Pipeline.arrRef spec5 1)) :=
  (dat5 (F := Ideal) V c).arrAt_eq_of_cover 2 _ (fun t _ => Cert.Val.flushed5_eq V c t) Cert.Val.cover5

end Cert.KernelIdeal.Hand

end
-- ==== Proof.Val.Final6.lean ====
/-
  A dense layer's output array after its region, at the ideal values: the whole-array dense layer of the three
  arrays the region finds. Grid point t handles rows 5000 t … 5000 t + 4999: its features block and its output block
  sit at block index t of their arrays, the weight and the bias are whole-array blocks at index 0. So what point t writes
  back is the output block's rows of the whole-array function (a block row p is array row 5000 t + p, and the
  contraction runs over the whole shared axis), and the ten blocks cover every row r, row r by point r / 5000.
-/
import proofs.«144474_j77214922048057_1_alg».proof.Proof.KI.Body6
import proofs.«144474_j77214922048057_1_alg».proof.Proof.Val.TileDense
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
private theorem zero_off2 : (![0, 0] : Fin 2 → Nat) = fun _ => 0 := funext fun a => by fin_cases a <;> rfl

/-- The block indices at point t, decided over the ten points: features and output at (t, 0), weight and bias at (0, 0). -/
theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

set_option maxHeartbeats 1000000 in
/-- Row p of point t's features block is row 5000 t + p of the features. -/
theorem read6_0 (c : Dev nD) (t : Fin cfg6.N) (p : Fin 5000) (k : Fin 128) (r : Fin 50000)
    (hr : r.val = t.val * 5000 + p.val) :
    iblk6 V c 0 t (ix2 p k) = V c (Pipeline.arrRef spec6 0) (ix2 r k) := by
  obtain ⟨e00, e01, -⟩ := blockIdx6 t
  show V c (Pipeline.arrRef spec6 0) (((cfg6.win 0).blk t).view.emb (ix2 p k)) = V c (Pipeline.arrRef spec6 0) (ix2 r k)
  refine congrArg _ (funext fun a => Fin.ext ?_)
  match a with
  | ⟨0, _⟩ => show win6_0.index t (0 : Fin 2) * 5000 + 1 * p.val = r.val; omega
  | ⟨1, _⟩ => show win6_0.index t (1 : Fin 2) * 128 + 1 * k.val = k.val; omega

set_option maxHeartbeats 1000000 in
/-- The weight's one block is the whole weight. -/
theorem read6_1 (c : Dev nD) (t : Fin cfg6.N) (k q : Fin 128) :
    iblk6 V c 1 t (ix2 k q) = V c (Pipeline.arrRef spec6 1) (ix2 k q) := by
  obtain ⟨-, -, e10, e11, -⟩ := blockIdx6 t
  show V c (Pipeline.arrRef spec6 1) (((cfg6.win 1).blk t).view.emb (ix2 k q)) = V c (Pipeline.arrRef spec6 1) (ix2 k q)
  refine congrArg _ (funext fun a => Fin.ext ?_)
  match a with
  | ⟨0, _⟩ => show win6_1.index t (0 : Fin 2) * 128 + 1 * k.val = k.val; omega
  | ⟨1, _⟩ => show win6_1.index t (1 : Fin 2) * 128 + 1 * q.val = q.val; omega

set_option maxHeartbeats 1000000 in
/-- The bias's one block is the whole bias row. -/
theorem read6_2 (c : Dev nD) (t : Fin cfg6.N) (q : Fin 128) :
    iblk6 V c 2 t (ix2 (0 : Fin 1) q) = V c (Pipeline.arrRef spec6 2) (ix2 (0 : Fin 1) q) := by
  obtain ⟨-, -, -, -, e20, e21, -⟩ := blockIdx6 t
  show V c (Pipeline.arrRef spec6 2) (((cfg6.win 2).blk t).view.emb (ix2 (0 : Fin 1) q)) = V c (Pipeline.arrRef spec6 2) (ix2 (0 : Fin 1) q)
  refine congrArg _ (funext fun a => Fin.ext ?_)
  match a with
  | ⟨0, _⟩ => show win6_2.index t (0 : Fin 2) * 1 + 1 * 0 = 0; omega
  | ⟨1, _⟩ => show win6_2.index t (1 : Fin 2) * 128 + 1 * q.val = q.val; omega

set_option maxHeartbeats 1000000 in
/-- Row p of point t's output block sits at row 5000 t + p of the output array. -/
theorem emb6_3 (t : Fin cfg6.N) (p : Fin 5000) (q : Fin 128) (r : Fin 50000) (hr : r.val = t.val * 5000 + p.val) :
    ((cfg6.win 3).blk t).view.emb (ix2 p q) = ix2 r q := by
  obtain ⟨-, -, -, -, -, -, e30, e31⟩ := blockIdx6 t
  funext a; apply Fin.ext
  match a with
  | ⟨0, _⟩ => show win6_3.index t (0 : Fin 2) * 5000 + 1 * p.val = r.val; omega
  | ⟨1, _⟩ => show win6_3.index t (1 : Fin 2) * 128 + 1 * q.val = q.val; omega

set_option maxHeartbeats 1000000 in
/-- What point t writes back is the output block's rows of the whole-array dense layer. -/
theorem flushed6_eq (c : Dev nD) (t : Fin cfg6.N) :
    (dat6 V c).flushed 3 t = ((cfg6.win 3).blk t).view.read (Elt Ideal)
      (Cert.Spec.dense (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero zero_off2]
  simp only [View.ld_unit_zero (S := S5000x128) zero_off2, View.ld_unit_zero (S := S128x128) zero_off2,
    View.ld_unit_zero (S := S1x128) zero_off2]
  have ht : t.val < 10 := lt_of_lt_of_eq t.isLt N_6
  funext j
  obtain ⟨p, q, rfl⟩ : ∃ (p : Fin 5000) (q : Fin 128), j = ix2 p q := ⟨j 0, j 1, eq_ix2 j⟩
  obtain ⟨r, hr⟩ : ∃ r : Fin 50000, r.val = t.val * 5000 + p.val := ⟨⟨t.val * 5000 + p.val, by omega⟩, rfl⟩
  show Gen.k6_pay1 (F := Ideal) (iblk6 V c 0 t) (iblk6 V c 1 t) (iblk6 V c 2 t) (ix2 p q)
    = Cert.Spec.dense (V c (Pipeline.arrRef spec6 0)) (V c (Pipeline.arrRef spec6 1)) (V c (Pipeline.arrRef spec6 2))
        (((cfg6.win 3).blk t).view.emb (ix2 p q))
  rw [emb6_3 t p q r hr]
  exact k6_pay1_of_rows (iblk6 V c 0 t) (iblk6 V c 1 t) (iblk6 V c 2 t)
    (V c (Pipeline.arrRef spec6 0)) (V c (Pipeline.arrRef spec6 1)) (V c (Pipeline.arrRef spec6 2))
    p r q (fun k => read6_0 V c t p k r hr) (fun k => read6_1 V c t k q) (read6_2 V c t q)

/-- An index of the output array is in point t's block iff each coordinate is in the block's range on its axis. -/
theorem mem_blk6 (t : Fin cfg6.N) (i : S50000x128.Idx) :
    i ∈ ((cfg6.win 3).blk t).view.set ↔ ∀ a : Fin 2, win6_3.index t a * S5000x128.size a ≤ (i a).val
      ∧ (i a).val < win6_3.index t a * S5000x128.size a + S5000x128.size a := by
  show i ∈ ((View.whole main_v83).slice (win6_3.rect t)).set ↔ _
  rw [View.set_slice_whole, Rect.mem_set_unit]
  exact Iff.rfl

/-- Every row r of the output is in the block of point r / 5000. -/
theorem cover6 (i : S50000x128.Idx) : ∃ t : Fin cfg6.N, (cfg6.win 3).flush t = true ∧ i ∈ ((cfg6.win 3).blk t).view.set := by
  have hi0 : (i 0).val < 50000 := (i 0).isLt
  have hi1 : (i 1).val < 128 := (i 1).isLt
  refine ⟨⟨(i 0).val / 5000, by rw [show cfg6.N = 10 from N_6]; omega⟩, flush6_3 _, ?_⟩
  rw [mem_blk6]
  obtain ⟨-, -, -, -, -, -, e30, e31⟩ := blockIdx6 ⟨(i 0).val / 5000, by rw [show cfg6.N = 10 from N_6]; omega⟩
  intro a
  match a with
  | ⟨0, _⟩ =>
    show win6_3.index _ (0 : Fin 2) * 5000 ≤ (i 0).val ∧ (i 0).val < win6_3.index _ (0 : Fin 2) * 5000 + 5000
    rw [e30]; show (i 0).val / 5000 * 5000 ≤ (i 0).val ∧ (i 0).val < (i 0).val / 5000 * 5000 + 5000; omega
  | ⟨1, _⟩ =>
    show win6_3.index _ (1 : Fin 2) * 128 ≤ (i 1).val ∧ (i 1).val < win6_3.index _ (1 : Fin 2) * 128 + 128
    rw [e31]; omega

end Cert.Val

namespace Cert.KernelIdeal.Hand

open Cert.KernelIdeal Cert.KernelIdeal.Gen
open Idealize.ShloMosaic Idealize.ShloMosaic.TcCoe Idealize.SL.Sem

/-- The output array after the region is the whole-array dense layer of the arrays the region finds. -/
theorem final6 (V : (c : Dev nD) → (b : Ref sig .tc) → Buf (Elt Ideal) ((c : Thread nD τ).loc b)) (c : Dev nD) :
    (dat6 (F := Ideal) V c).arrAt 3 cfg6.N
      = Cert.Spec.dense (V c (Pipeline.arrRef spec6 0)) (V c (Pipeline.arrRef spec6 1)) (V c (Pipeline.arrRef spec6 2)) :=
  (dat6 (F := Ideal) V c).arrAt_eq_of_cover 3 _ (fun t _ => Cert.Val.flushed6_eq V c t) Cert.Val.cover6

end Cert.KernelIdeal.Hand

end
-- ==== Proof.Val.Final7.lean ====
/-
  A message layer's output array after its region, at the ideal values: the whole-array message layer of the five arrays
  the region finds. Grid point t handles edge rows 4000 t … 4000 t + 3999: the two endpoint-feature blocks, the edges'
  own block and the output block sit at block index t of their arrays, the weight and the bias are whole-array blocks at
  index 0. So what point t writes back is the output block's rows of the whole-array function (a block row p is array row
  4000 t + p, and the contraction runs over the whole shared axis), and the two hundred blocks cover every row r, row r by
  point r / 4000.
-/
import proofs.«144474_j77214922048057_1_alg».proof.Proof.KI.Body7
import proofs.«144474_j77214922048057_1_alg».proof.Proof.Val.TileMsg
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
private theorem zero_off2 : (![0, 0] : Fin 2 → Nat) = fun _ => 0 := funext fun a => by fin_cases a <;> rfl

/-- The block indices at point t, decided over the two hundred points: the three edge inputs and the output at (t, 0),
    weight and bias at (0, 0). -/
theorem blockIdx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

set_option maxHeartbeats 1000000 in
/-- Row p of point t's block of the first endpoint's features is row 4000 t + p of the array. -/
theorem read7_0 (c : Dev nD) (t : Fin cfg7.N) (p : Fin 4000) (k : Fin 128) (r : Fin 800000)
    (hr : r.val = t.val * 4000 + p.val) :
    iblk7 V c 0 t (ix2 p k) = V c (Pipeline.arrRef spec7 0) (ix2 r k) := by
  obtain ⟨e00, e01, e10, e11, e20, e21, -⟩ := blockIdx7 t
  show V c (Pipeline.arrRef spec7 0) (((cfg7.win 0).blk t).view.emb (ix2 p k)) = V c (Pipeline.arrRef spec7 0) (ix2 r k)
  refine congrArg _ (funext fun a => Fin.ext ?_)
  match a with
  | ⟨0, _⟩ => show win7_0.index t (0 : Fin 2) * 4000 + 1 * p.val = r.val; omega
  | ⟨1, _⟩ => show win7_0.index t (1 : Fin 2) * 128 + 1 * k.val = k.val; omega

set_option maxHeartbeats 1000000 in
/-- Row p of point t's block of the second endpoint's features is row 4000 t + p of the array. -/
theorem read7_1 (c : Dev nD) (t : Fin cfg7.N) (p : Fin 4000) (k : Fin 128) (r : Fin 800000)
    (hr : r.val = t.val * 4000 + p.val) :
    iblk7 V c 1 t (ix2 p k) = V c (Pipeline.arrRef spec7 1) (ix2 r k) := by
  obtain ⟨e00, e01, e10, e11, e20, e21, -⟩ := blockIdx7 t
  show V c (Pipeline.arrRef spec7 1) (((cfg7.win 1).blk t).view.emb (ix2 p k)) = V c (Pipeline.arrRef spec7 1) (ix2 r k)
  refine congrArg _ (funext fun a => Fin.ext ?_)
  match a with
  | ⟨0, _⟩ => show win7_1.index t (0 : Fin 2) * 4000 + 1 * p.val = r.val; omega
  | ⟨1, _⟩ => show win7_1.index t (1 : Fin 2) * 128 + 1 * k.val = k.val; omega

set_option maxHeartbeats 1000000 in
/-- Row p of point t's block of the edges' own rows is row 4000 t + p of the array. -/
theorem read7_2 (c : Dev nD) (t : Fin cfg7.N) (p : Fin 4000) (k : Fin 128) (r : Fin 800000)
    (hr : r.val = t.val * 4000 + p.val) :
    iblk7 V c 2 t (ix2 p k) = V c (Pipeline.arrRef spec7 2) (ix2 r k) := by
  obtain ⟨e00, e01, e10, e11, e20, e21, -⟩ := blockIdx7 t
  show V c (Pipeline.arrRef spec7 2) (((cfg7.win 2).blk t).view.emb (ix2 p k)) = V c (Pipeline.arrRef spec7 2) (ix2 r k)
  refine congrArg _ (funext fun a => Fin.ext ?_)
  match a with
  | ⟨0, _⟩ => show win7_2.index t (0 : Fin 2) * 4000 + 1 * p.val = r.val; omega
  | ⟨1, _⟩ => show win7_2.index t (1 : Fin 2) * 128 + 1 * k.val = k.val; omega

set_option maxHeartbeats 1000000 in
/-- The weight's one block is the whole weight. -/
theorem read7_3 (c : Dev nD) (t : Fin cfg7.N) (k q : Fin 128) :
    iblk7 V c 3 t (ix2 k q) = V c (Pipeline.arrRef spec7 3) (ix2 k q) := by
  obtain ⟨-, -, -, -, -, -, e30, e31, -⟩ := blockIdx7 t
  show V c (Pipeline.arrRef spec7 3) (((cfg7.win 3).blk t).view.emb (ix2 k q)) = V c (Pipeline.arrRef spec7 3) (ix2 k q)
  refine congrArg _ (funext fun a => Fin.ext ?_)
  match a with
  | ⟨0, _⟩ => show win7_3.index t (0 : Fin 2) * 128 + 1 * k.val = k.val; omega
  | ⟨1, _⟩ => show win7_3.index t (1 : Fin 2) * 128 + 1 * q.val = q.val; omega

set_option maxHeartbeats 1000000 in
/-- The bias's one block is the whole bias row. -/
theorem read7_4 (c : Dev nD) (t : Fin cfg7.N) (q : Fin 128) :
    iblk7 V c 4 t (ix2 (0 : Fin 1) q) = V c (Pipeline.arrRef spec7 4) (ix2 (0 : Fin 1) q) := by
  obtain ⟨-, -, -, -, -, -, -, -, e40, e41, -⟩ := blockIdx7 t
  show V c (Pipeline.arrRef spec7 4) (((cfg7.win 4).blk t).view.emb (ix2 (0 : Fin 1) q)) = V c (Pipeline.arrRef spec7 4) (ix2 (0 : Fin 1) q)
  refine congrArg _ (funext fun a => Fin.ext ?_)
  match a with
  | ⟨0, _⟩ => show win7_4.index t (0 : Fin 2) * 1 + 1 * 0 = 0; omega
  | ⟨1, _⟩ => show win7_4.index t (1 : Fin 2) * 128 + 1 * q.val = q.val; omega

set_option maxHeartbeats 1000000 in
/-- Row p of point t's output block sits at row 4000 t + p of the output array. -/
theorem emb7_5 (t : Fin cfg7.N) (p : Fin 4000) (q : Fin 128) (r : Fin 800000) (hr : r.val = t.val * 4000 + p.val) :
    ((cfg7.win 5).blk t).view.emb (ix2 p q) = ix2 r q := by
  obtain ⟨-, -, -, -, -, -, -, -, -, -, e50, e51⟩ := blockIdx7 t
  funext a; apply Fin.ext
  match a with
  | ⟨0, _⟩ => show win7_5.index t (0 : Fin 2) * 4000 + 1 * p.val = r.val; omega
  | ⟨1, _⟩ => show win7_5.index t (1 : Fin 2) * 128 + 1 * q.val = q.val; omega

set_option maxHeartbeats 1000000 in
/-- What point t writes back is the output block's rows of the whole-array message layer. -/
theorem flushed7_eq (c : Dev nD) (t : Fin cfg7.N) :
    (dat7 V c).flushed 5 t = ((cfg7.win 5).blk t).view.read (Elt Ideal)
      (Cert.Spec.msg (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 V c).after 5 t) = _
  rw [after7_5]
  unfold out7_5
  rw [View.canon_unit_zero zero_off2]
  simp only [View.ld_unit_zero (S := S4000x128) zero_off2, View.ld_unit_zero (S := S128x128) zero_off2,
    View.ld_unit_zero (S := S1x128) zero_off2]
  have ht : t.val < 200 := lt_of_lt_of_eq t.isLt N_7
  funext j
  obtain ⟨p, q, rfl⟩ : ∃ (p : Fin 4000) (q : Fin 128), j = ix2 p q := ⟨j 0, j 1, eq_ix2 j⟩
  obtain ⟨r, hr⟩ : ∃ r : Fin 800000, r.val = t.val * 4000 + p.val := ⟨⟨t.val * 4000 + p.val, by omega⟩, rfl⟩
  show Gen.k7_pay1 (F := Ideal) (iblk7 V c 0 t) (iblk7 V c 1 t) (iblk7 V c 3 t) (iblk7 V c 2 t) (iblk7 V c 4 t) (ix2 p q)
    = Cert.Spec.msg (V c (Pipeline.arrRef spec7 0)) (V c (Pipeline.arrRef spec7 1)) (V c (Pipeline.arrRef spec7 2))
        (V c (Pipeline.arrRef spec7 3)) (V c (Pipeline.arrRef spec7 4)) (((cfg7.win 5).blk t).view.emb (ix2 p q))
  rw [emb7_5 t p q r hr]
  exact k7_pay1_of_rows (iblk7 V c 0 t) (iblk7 V c 1 t) (iblk7 V c 3 t) (iblk7 V c 2 t) (iblk7 V c 4 t)
    (V c (Pipeline.arrRef spec7 0)) (V c (Pipeline.arrRef spec7 1)) (V c (Pipeline.arrRef spec7 2))
    (V c (Pipeline.arrRef spec7 3)) (V c (Pipeline.arrRef spec7 4))
    p r q (fun k => read7_0 V c t p k r hr) (fun k => read7_1 V c t p k r hr) (read7_2 V c t p q r hr)
    (fun k => read7_3 V c t k q) (read7_4 V c t q)

/-- An index of the output array is in point t's block iff each coordinate is in the block's range on its axis. -/
theorem mem_blk7 (t : Fin cfg7.N) (i : S800000x128.Idx) :
    i ∈ ((cfg7.win 5).blk t).view.set ↔ ∀ a : Fin 2, win7_5.index t a * S4000x128.size a ≤ (i a).val
      ∧ (i a).val < win7_5.index t a * S4000x128.size a + S4000x128.size a := by
  show i ∈ ((View.whole main_v110).slice (win7_5.rect t)).set ↔ _
  rw [View.set_slice_whole, Rect.mem_set_unit]
  exact Iff.rfl

/-- Every row r of the output is in the block of point r / 4000. -/
theorem cover7 (i : S800000x128.Idx) : ∃ t : Fin cfg7.N, (cfg7.win 5).flush t = true ∧ i ∈ ((cfg7.win 5).blk t).view.set := by
  have hi0 : (i 0).val < 800000 := (i 0).isLt
  have hi1 : (i 1).val < 128 := (i 1).isLt
  refine ⟨⟨(i 0).val / 4000, by rw [show cfg7.N = 200 from N_7]; omega⟩, flush7_5 _, ?_⟩
  rw [mem_blk7]
  obtain ⟨-, -, -, -, -, -, -, -, -, -, e50, e51⟩ := blockIdx7 ⟨(i 0).val / 4000, by rw [show cfg7.N = 200 from N_7]; omega⟩
  intro a
  match a with
  | ⟨0, _⟩ =>
    show win7_5.index _ (0 : Fin 2) * 4000 ≤ (i 0).val ∧ (i 0).val < win7_5.index _ (0 : Fin 2) * 4000 + 4000
    rw [e50]; show (i 0).val / 4000 * 4000 ≤ (i 0).val ∧ (i 0).val < (i 0).val / 4000 * 4000 + 4000; omega
  | ⟨1, _⟩ =>
    show win7_5.index _ (1 : Fin 2) * 128 ≤ (i 1).val ∧ (i 1).val < win7_5.index _ (1 : Fin 2) * 128 + 128
    rw [e51]; omega

end Cert.Val

namespace Cert.KernelIdeal.Hand

open Cert.KernelIdeal Cert.KernelIdeal.Gen
open Idealize.ShloMosaic Idealize.ShloMosaic.TcCoe Idealize.SL.Sem

/-- The output array after the region is the whole-array message layer of the arrays the region finds. -/
theorem final7 (V : (c : Dev nD) → (b : Ref sig .tc) → Buf (Elt Ideal) ((c : Thread nD τ).loc b)) (c : Dev nD) :
    (dat7 (F := Ideal) V c).arrAt 5 cfg7.N
      = Cert.Spec.msg (V c (Pipeline.arrRef spec7 0)) (V c (Pipeline.arrRef spec7 1)) (V c (Pipeline.arrRef spec7 2))
          (V c (Pipeline.arrRef spec7 3)) (V c (Pipeline.arrRef spec7 4)) :=
  (dat7 (F := Ideal) V c).arrAt_eq_of_cover 5 _ (fun t _ => Cert.Val.flushed7_eq V c t) Cert.Val.cover7

end Cert.KernelIdeal.Hand

end
-- ==== Proof.Val.Final8.lean ====
/-
  An update's output array after its region, at the ideal values: the whole-array update of the two arrays the region
  finds. Grid point t handles rows 5000 t … 5000 t + 4999: both input blocks and the output block sit at block index t of
  their arrays, so a block row p is array row 5000 t + p in all three, and a row's length is taken over that row alone.
  What point t writes back is therefore the output block's rows of the whole-array function, and the ten blocks cover
  every row r, row r by point r / 5000.
-/
import proofs.«144474_j77214922048057_1_alg».proof.Proof.KI.Body8
import proofs.«144474_j77214922048057_1_alg».proof.Proof.Val.TileUpd
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
private theorem zero_off2 : (![0, 0] : Fin 2 → Nat) = fun _ => 0 := funext fun a => by fin_cases a <;> rfl

/-- The block indices at point t, decided over the ten points: all three windows at (t, 0). -/
theorem blockIdx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

set_option maxHeartbeats 1000000 in
/-- Row p of point t's block of the aggregated messages is row 5000 t + p of the array. -/
theorem read8_0 (c : Dev nD) (t : Fin cfg8.N) (p : Fin 5000) (k : Fin 128) (r : Fin 50000)
    (hr : r.val = t.val * 5000 + p.val) :
    iblk8 V c 0 t (ix2 p k) = V c (Pipeline.arrRef spec8 0) (ix2 r k) := by
  obtain ⟨e00, e01, e10, e11, -⟩ := blockIdx8 t
  show V c (Pipeline.arrRef spec8 0) (((cfg8.win 0).blk t).view.emb (ix2 p k)) = V c (Pipeline.arrRef spec8 0) (ix2 r k)
  refine congrArg _ (funext fun a => Fin.ext ?_)
  match a with
  | ⟨0, _⟩ => show win8_0.index t (0 : Fin 2) * 5000 + 1 * p.val = r.val; omega
  | ⟨1, _⟩ => show win8_0.index t (1 : Fin 2) * 128 + 1 * k.val = k.val; omega

set_option maxHeartbeats 1000000 in
/-- Row p of point t's block of the node rows is row 5000 t + p of the array. -/
theorem read8_1 (c : Dev nD) (t : Fin cfg8.N) (p : Fin 5000) (k : Fin 128) (r : Fin 50000)
    (hr : r.val = t.val * 5000 + p.val) :
    iblk8 V c 1 t (ix2 p k) = V c (Pipeline.arrRef spec8 1) (ix2 r k) := by
  obtain ⟨e00, e01, e10, e11, -⟩ := blockIdx8 t
  show V c (Pipeline.arrRef spec8 1) (((cfg8.win 1).blk t).view.emb (ix2 p k)) = V c (Pipeline.arrRef spec8 1) (ix2 r k)
  refine congrArg _ (funext fun a => Fin.ext ?_)
  match a with
  | ⟨0, _⟩ => show win8_1.index t (0 : Fin 2) * 5000 + 1 * p.val = r.val; omega
  | ⟨1, _⟩ => show win8_1.index t (1 : Fin 2) * 128 + 1 * k.val = k.val; omega

set_option maxHeartbeats 1000000 in
/-- Row p of point t's output block sits at row 5000 t + p of the output array. -/
theorem emb8_2 (t : Fin cfg8.N) (p : Fin 5000) (q : Fin 128) (r : Fin 50000) (hr : r.val = t.val * 5000 + p.val) :
    ((cfg8.win 2).blk t).view.emb (ix2 p q) = ix2 r q := by
  obtain ⟨-, -, -, -, e20, e21⟩ := blockIdx8 t
  funext a; apply Fin.ext
  match a with
  | ⟨0, _⟩ => show win8_2.index t (0 : Fin 2) * 5000 + 1 * p.val = r.val; omega
  | ⟨1, _⟩ => show win8_2.index t (1 : Fin 2) * 128 + 1 * q.val = q.val; omega

set_option maxHeartbeats 1000000 in
/-- What point t writes back is the output block's rows of the whole-array update. -/
theorem flushed8_eq (c : Dev nD) (t : Fin cfg8.N) :
    (dat8 V c).flushed 2 t = ((cfg8.win 2).blk t).view.read (Elt Ideal)
      (Cert.Spec.upd (V c (Pipeline.arrRef spec8 0)) (V c (Pipeline.arrRef spec8 1))) := by
  show (cfg8.win 2).cut (grid8.coords t) ((dat8 V c).after 2 t) = _
  rw [after8_2]
  unfold out8_2
  rw [View.canon_unit_zero zero_off2]
  simp only [View.ld_unit_zero (S := S5000x128) zero_off2]
  have ht : t.val < 10 := lt_of_lt_of_eq t.isLt N_8
  funext j
  obtain ⟨p, q, rfl⟩ : ∃ (p : Fin 5000) (q : Fin 128), j = ix2 p q := ⟨j 0, j 1, eq_ix2 j⟩
  obtain ⟨r, hr⟩ : ∃ r : Fin 50000, r.val = t.val * 5000 + p.val := ⟨⟨t.val * 5000 + p.val, by omega⟩, rfl⟩
  show Gen.k8_pay1 (F := Ideal) (iblk8 V c 0 t) (iblk8 V c 1 t) (ix2 p q)
    = Cert.Spec.upd (V c (Pipeline.arrRef spec8 0)) (V c (Pipeline.arrRef spec8 1))
        (((cfg8.win 2).blk t).view.emb (ix2 p q))
  rw [emb8_2 t p q r hr]
  exact k8_pay1_of_rows (iblk8 V c 0 t) (iblk8 V c 1 t)
    (V c (Pipeline.arrRef spec8 0)) (V c (Pipeline.arrRef spec8 1))
    p r q (fun k => read8_0 V c t p k r hr) (fun k => read8_1 V c t p k r hr)

/-- An index of the output array is in point t's block iff each coordinate is in the block's range on its axis. -/
theorem mem_blk8 (t : Fin cfg8.N) (i : S50000x128.Idx) :
    i ∈ ((cfg8.win 2).blk t).view.set ↔ ∀ a : Fin 2, win8_2.index t a * S5000x128.size a ≤ (i a).val
      ∧ (i a).val < win8_2.index t a * S5000x128.size a + S5000x128.size a := by
  show i ∈ ((View.whole main_v114).slice (win8_2.rect t)).set ↔ _
  rw [View.set_slice_whole, Rect.mem_set_unit]
  exact Iff.rfl

/-- Every row r of the output is in the block of point r / 5000. -/
theorem cover8 (i : S50000x128.Idx) : ∃ t : Fin cfg8.N, (cfg8.win 2).flush t = true ∧ i ∈ ((cfg8.win 2).blk t).view.set := by
  have hi0 : (i 0).val < 50000 := (i 0).isLt
  have hi1 : (i 1).val < 128 := (i 1).isLt
  refine ⟨⟨(i 0).val / 5000, by rw [show cfg8.N = 10 from N_8]; omega⟩, flush8_2 _, ?_⟩
  rw [mem_blk8]
  obtain ⟨-, -, -, -, e20, e21⟩ := blockIdx8 ⟨(i 0).val / 5000, by rw [show cfg8.N = 10 from N_8]; omega⟩
  intro a
  match a with
  | ⟨0, _⟩ =>
    show win8_2.index _ (0 : Fin 2) * 5000 ≤ (i 0).val ∧ (i 0).val < win8_2.index _ (0 : Fin 2) * 5000 + 5000
    rw [e20]; show (i 0).val / 5000 * 5000 ≤ (i 0).val ∧ (i 0).val < (i 0).val / 5000 * 5000 + 5000; omega
  | ⟨1, _⟩ =>
    show win8_2.index _ (1 : Fin 2) * 128 ≤ (i 1).val ∧ (i 1).val < win8_2.index _ (1 : Fin 2) * 128 + 128
    rw [e21]; omega

end Cert.Val

namespace Cert.KernelIdeal.Hand

open Cert.KernelIdeal Cert.KernelIdeal.Gen
open Idealize.ShloMosaic Idealize.ShloMosaic.TcCoe Idealize.SL.Sem

/-- The output array after the region is the whole-array update of the arrays the region finds. -/
theorem final8 (V : (c : Dev nD) → (b : Ref sig .tc) → Buf (Elt Ideal) ((c : Thread nD τ).loc b)) (c : Dev nD) :
    (dat8 (F := Ideal) V c).arrAt 2 cfg8.N
      = Cert.Spec.upd (V c (Pipeline.arrRef spec8 0)) (V c (Pipeline.arrRef spec8 1)) :=
  (dat8 (F := Ideal) V c).arrAt_eq_of_cover 2 _ (fun t _ => Cert.Val.flushed8_eq V c t) Cert.Val.cover8

end Cert.KernelIdeal.Hand

end
-- ==== Proof.Val.TileScore.lean ====
/-
  The score tile at an entry, at the ideal values. The tile takes a block of 1024 rows of each of the two arrays,
  multiplies them entry by entry, sums each row over its 512 columns and keeps the sums as a column. A reshape to the
  same shape is the identity, the row sum at row p is ∑ k over the columns, and the column holds row p's sum at (p, 0):
  entry (p, 0) of the tile is ∑ k, gu p k * gi p k.
-/
import proofs.«144474_j77214922048057_1_alg».proof.Proof.Gen.KernelIdeal.Skeleton
import proofs.«144474_j77214922048057_1_alg».proof.Proof.LibColumnLayout
import proofs.«144474_j77214922048057_1_alg».proof.Proof.Val.RowSum
import proofs.«144474_j77214922048057_1_alg».proof.Proof.Spec

noncomputable section

open scoped BigOperators

namespace Cert.Val

open Idealize.ShloMosaic Idealize.ShloMosaic.ValueIdx Cert.KernelIdeal

/-- The score tile at (p, z), z the column's one coordinate. -/
theorem k9_pay1_apply (gu gi : Vec Ideal S1024x512 .f32) (p : Fin 1024) (z : Fin 1) :
    Gen.k9_pay1 (F := Ideal) gu gi (ix2 p z) = ∑ k : Fin 512, gu (ix2 p k) * gi (ix2 p k) := by
  unfold Gen.k9_pay1
  refine (Cert.Gcn.Layout.shapeCast_a_a1_apply _ _ p z).trans ?_
  refine (rowSum_apply _ _ _ _ _ p).trans ?_
  refine Finset.sum_congr rfl fun k _ => ?_
  refine (mulf_apply _ _ _).trans ?_
  refine congrArg₂ (· * ·) ?_ ?_
  · exact congrFun (shapeCast_self gu _) (ix2 p k)
  · exact congrFun (shapeCast_self gi _) (ix2 p k)

/-- If row p of each block is row r of its array, the tile's entry (p, z) is the whole arrays' score of row r. -/
theorem k9_pay1_of_rows (gub gib : Vec Ideal S1024x512 .f32) (gu gi : FVec Ideal Cert.Spec.SG .f32)
    (p : Fin 1024) (r : Fin 4096) (z : Fin 1)
    (hu : ∀ k : Fin 512, gub (ix2 p k) = gu (ix2 r k)) (hi : ∀ k : Fin 512, gib (ix2 p k) = gi (ix2 r k)) :
    Gen.k9_pay1 (F := Ideal) gub gib (ix2 p z) = Cert.Spec.score gu gi (ix2 r z) := by
  refine (k9_pay1_apply gub gib p z).trans ?_
  refine Eq.trans ?_ (Cert.Spec.score_apply gu gi r z).symm
  exact Finset.sum_congr rfl fun k _ => by rw [hu k, hi k]

end Cert.Val

end
-- ==== Proof.Val.Final9.lean ====
/-
  The score array after its region, at the ideal values: the whole-array score of the two arrays the region finds. Grid
  point t handles rows 1024 t … 1024 t + 1023: both input blocks and the output column's block sit at block index t, so a
  block row p is array row 1024 t + p, and a row's score is taken over that row alone. What point t writes back is the
  output block's rows of the whole-array function, and the four blocks cover every row r, row r by point r / 1024.
-/
import proofs.«144474_j77214922048057_1_alg».proof.Proof.KI.Body9
import proofs.«144474_j77214922048057_1_alg».proof.Proof.Val.TileScore
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
private theorem zero_off2 : (![0, 0] : Fin 2 → Nat) = fun _ => 0 := funext fun a => by fin_cases a <;> rfl

/-- The block indices at point t, decided over the four points: all three windows at (t, 0). -/
theorem blockIdx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

/-- What point t writes back is the output block's rows of the whole-array score. -/
theorem flushed9_eq (c : Dev nD) (t : Fin cfg9.N) :
    (dat9 V c).flushed 2 t = ((cfg9.win 2).blk t).view.read (Elt Ideal)
      (Cert.Spec.score (V c (Pipeline.arrRef spec9 0)) (V c (Pipeline.arrRef spec9 1))) := by
  show (cfg9.win 2).cut (grid9.coords t) ((dat9 V c).after 2 t) = _
  rw [after9_2]
  unfold out9_2
  rw [View.canon_unit_zero zero_off2]
  simp only [View.ld_unit_zero (S := S1024x512) zero_off2]
  obtain ⟨e00, e01, e10, e11, e20, e21⟩ := blockIdx9 t
  have ht : t.val < 4 := lt_of_lt_of_eq t.isLt N_9
  funext j
  obtain ⟨p, z, rfl⟩ : ∃ (p : Fin 1024) (z : Fin 1), j = ix2 p z := ⟨j 0, j 1, eq_ix2 j⟩
  have hemb : ((cfg9.win 2).blk t).view.emb (ix2 p z) = ix2 (⟨t.val * 1024 + p.val, by omega⟩ : Fin 4096) z := by
    funext a; apply Fin.ext
    match a with
    | ⟨0, _⟩ => show win9_2.index t (0 : Fin 2) * 1024 + 1 * p.val = t.val * 1024 + p.val; omega
    | ⟨1, _⟩ => show win9_2.index t (1 : Fin 2) * 1 + 1 * z.val = z.val; omega
  show Gen.k9_pay1 (F := Ideal) (iblk9 V c 0 t) (iblk9 V c 1 t) (ix2 p z)
    = Cert.Spec.score (V c (Pipeline.arrRef spec9 0)) (V c (Pipeline.arrRef spec9 1))
        (((cfg9.win 2).blk t).view.emb (ix2 p z))
  rw [hemb]
  refine k9_pay1_of_rows (iblk9 V c 0 t) (iblk9 V c 1 t)
    (V c (Pipeline.arrRef spec9 0)) (V c (Pipeline.arrRef spec9 1))
    p ⟨t.val * 1024 + p.val, by omega⟩ z (fun k => ?_) (fun k => ?_)
  · show V c (Pipeline.arrRef spec9 0) (((cfg9.win 0).blk t).view.emb (ix2 p k)) = V c (Pipeline.arrRef spec9 0) (ix2 _ k)
    refine congrArg _ (funext fun a => Fin.ext ?_)
    match a with
    | ⟨0, _⟩ => show win9_0.index t (0 : Fin 2) * 1024 + 1 * p.val = t.val * 1024 + p.val; omega
    | ⟨1, _⟩ => show win9_0.index t (1 : Fin 2) * 512 + 1 * k.val = k.val; omega
  · show V c (Pipeline.arrRef spec9 1) (((cfg9.win 1).blk t).view.emb (ix2 p k)) = V c (Pipeline.arrRef spec9 1) (ix2 _ k)
    refine congrArg _ (funext fun a => Fin.ext ?_)
    match a with
    | ⟨0, _⟩ => show win9_1.index t (0 : Fin 2) * 1024 + 1 * p.val = t.val * 1024 + p.val; omega
    | ⟨1, _⟩ => show win9_1.index t (1 : Fin 2) * 512 + 1 * k.val = k.val; omega

/-- An index of the output array is in point t's block iff each coordinate is in the block's range on its axis. -/
theorem mem_blk9 (t : Fin cfg9.N) (i : S4096x1.Idx) :
    i ∈ ((cfg9.win 2).blk t).view.set ↔ ∀ a : Fin 2, win9_2.index t a * S1024x1.size a ≤ (i a).val
      ∧ (i a).val < win9_2.index t a * S1024x1.size a + S1024x1.size a := by
  show i ∈ ((View.whole main_v130).slice (win9_2.rect t)).set ↔ _
  rw [View.set_slice_whole, Rect.mem_set_unit]
  exact Iff.rfl

/-- Every row r of the output is in the block of point r / 1024. -/
theorem cover9 (i : S4096x1.Idx) : ∃ t : Fin cfg9.N, (cfg9.win 2).flush t = true ∧ i ∈ ((cfg9.win 2).blk t).view.set := by
  have hi0 : (i 0).val < 4096 := (i 0).isLt
  have hi1 : (i 1).val < 1 := (i 1).isLt
  refine ⟨⟨(i 0).val / 1024, by rw [show cfg9.N = 4 from N_9]; omega⟩, flush9_2 _, ?_⟩
  rw [mem_blk9]
  obtain ⟨-, -, -, -, e20, e21⟩ := blockIdx9 ⟨(i 0).val / 1024, by rw [show cfg9.N = 4 from N_9]; omega⟩
  intro a
  match a with
  | ⟨0, _⟩ =>
    show win9_2.index _ (0 : Fin 2) * 1024 ≤ (i 0).val ∧ (i 0).val < win9_2.index _ (0 : Fin 2) * 1024 + 1024
    rw [e20]; show (i 0).val / 1024 * 1024 ≤ (i 0).val ∧ (i 0).val < (i 0).val / 1024 * 1024 + 1024; omega
  | ⟨1, _⟩ =>
    show win9_2.index _ (1 : Fin 2) * 1 ≤ (i 1).val ∧ (i 1).val < win9_2.index _ (1 : Fin 2) * 1 + 1
    rw [e21]; omega

end Cert.Val

namespace Cert.KernelIdeal.Hand

open Cert.KernelIdeal Cert.KernelIdeal.Gen
open Idealize.ShloMosaic Idealize.ShloMosaic.TcCoe Idealize.SL.Sem

/-- The score array after the region is the whole-array score of the arrays the region finds. -/
theorem final9 (V : (c : Dev nD) → (b : Ref sig .tc) → Buf (Elt Ideal) ((c : Thread nD τ).loc b)) (c : Dev nD) :
    (dat9 (F := Ideal) V c).arrAt 2 cfg9.N
      = Cert.Spec.score (V c (Pipeline.arrRef spec9 0)) (V c (Pipeline.arrRef spec9 1)) :=
  (dat9 (F := Ideal) V c).arrAt_eq_of_cover 2 _ (fun t _ => Cert.Val.flushed9_eq V c t) Cert.Val.cover9

end Cert.KernelIdeal.Hand

end
-- ==== Proof.Val.KChain.lean ====
/-
  What the kernel program's buffers hold at every boundary between its twenty-one items, as the model's named values:
  the edge list's rows s and d, the layer's weight and bias slices, and per layer l the projection H_l = dense x_l,
  the message M_l = msg (x_l[s], x_l[d], H_l[s]), the aggregate G_l = the messages summed into their d rows, and the
  next embedding x_{l+1} = upd G_l H_l; then the concatenated embeddings gathered at the users, the item rows, and
  their row scores. A buffer no item writes in between keeps its contents; a stretch of host operations is read back
  from the contents before it; a region's output array is its tile function of its input arrays.
  (One lemma per boundary and live buffer: a table of cases.)
-/
import proofs.«144474_j77214922048057_1_alg».proof.Proof.KI.Chain
import proofs.«144474_j77214922048057_1_alg».proof.Proof.Val.KTiles
import proofs.«144474_j77214922048057_1_alg».proof.Proof.Val.HostReads
import proofs.«144474_j77214922048057_1_alg».proof.Proof.Val.Final0
import proofs.«144474_j77214922048057_1_alg».proof.Proof.Val.Final1
import proofs.«144474_j77214922048057_1_alg».proof.Proof.Val.Final2
import proofs.«144474_j77214922048057_1_alg».proof.Proof.Val.Final3
import proofs.«144474_j77214922048057_1_alg».proof.Proof.Val.Final4
import proofs.«144474_j77214922048057_1_alg».proof.Proof.Val.Final5
import proofs.«144474_j77214922048057_1_alg».proof.Proof.Val.Final6
import proofs.«144474_j77214922048057_1_alg».proof.Proof.Val.Final7
import proofs.«144474_j77214922048057_1_alg».proof.Proof.Val.Final8
import proofs.«144474_j77214922048057_1_alg».proof.Proof.Val.Final9

set_option maxRecDepth 16384

noncomputable section

namespace Cert.KernelIdeal.Hand.Vals

open Idealize.ShloMosaic Idealize.ShloMosaic.TcCoe Idealize.SL.Sem Cert.KernelIdeal Cert.KernelIdeal.Gen Cert.KernelIdeal.Hand Cert.Model

/-- The nine argument arrays on core c. -/
abbrev A0 (m : (ℓ : Loc nD τ sig) → Buf (Elt Ideal) ℓ) (c : Dev nD) : VF S50000x128 := m ((c : Thread nD τ).loc main_arg0)
abbrev A1 (m : (ℓ : Loc nD τ sig) → Buf (Elt Ideal) ℓ) (c : Dev nD) : VF S30000x512 := m ((c : Thread nD τ).loc main_arg1)
abbrev A2 (m : (ℓ : Loc nD τ sig) → Buf (Elt Ideal) ℓ) (c : Dev nD) : VF S3x128x128 := m ((c : Thread nD τ).loc main_arg2)
abbrev A3 (m : (ℓ : Loc nD τ sig) → Buf (Elt Ideal) ℓ) (c : Dev nD) : VF S3x128x128 := m ((c : Thread nD τ).loc main_arg3)
abbrev A4 (m : (ℓ : Loc nD τ sig) → Buf (Elt Ideal) ℓ) (c : Dev nD) : VF S3x128 := m ((c : Thread nD τ).loc main_arg4)
abbrev A5 (m : (ℓ : Loc nD τ sig) → Buf (Elt Ideal) ℓ) (c : Dev nD) : VF S3x128 := m ((c : Thread nD τ).loc main_arg5)
abbrev A6 (m : (ℓ : Loc nD τ sig) → Buf (Elt Ideal) ℓ) (c : Dev nD) : VI S2x800000 := m ((c : Thread nD τ).loc main_arg6)
abbrev A7 (m : (ℓ : Loc nD τ sig) → Buf (Elt Ideal) ℓ) (c : Dev nD) : VI S4096 := m ((c : Thread nD τ).loc main_arg7)
abbrev A8 (m : (ℓ : Loc nD τ sig) → Buf (Elt Ideal) ℓ) (c : Dev nD) : VI S4096 := m ((c : Thread nD τ).loc main_arg8)

variable (m : (ℓ : Loc nD τ sig) → Buf (Elt Ideal) ℓ) (ρ : Dev nD → PrngReg) (c : Dev nD)

/-- The edge list's source and target rows. -/
abbrev Sv : VI S800000 := src (A6 m c)
abbrev Dv : VI S800000 := dst (A6 m c)
/-- The embeddings. -/
abbrev X0 : VF S50000x128 := A0 m c
abbrev X1 : VF S50000x128 := x1 kTiles (A0 m c) (A2 m c) (A3 m c) (A4 m c) (A5 m c) (A6 m c)
abbrev X2 : VF S50000x128 := x2 kTiles (A0 m c) (A2 m c) (A3 m c) (A4 m c) (A5 m c) (A6 m c)
abbrev X3 : VF S50000x128 := x3 kTiles (A0 m c) (A2 m c) (A3 m c) (A4 m c) (A5 m c) (A6 m c)
/-- Per layer: the projection, the messages, the aggregate. -/
abbrev H0 : VF S50000x128 := kTiles.dense (X0 m c) (mat0 (A2 m c)) (vec0 (A4 m c))
abbrev H1 : VF S50000x128 := kTiles.dense (X1 m c) (mat1 (A2 m c)) (vec1 (A4 m c))
abbrev H2 : VF S50000x128 := kTiles.dense (X2 m c) (mat2 (A2 m c)) (vec2 (A4 m c))
abbrev M0 : VF S800000x128 := kTiles.msg (rows (X0 m c) (Sv m c)) (rows (X0 m c) (Dv m c)) (rows (H0 m c) (Sv m c)) (mat0 (A3 m c)) (vec0 (A5 m c))
abbrev M1 : VF S800000x128 := kTiles.msg (rows (X1 m c) (Sv m c)) (rows (X1 m c) (Dv m c)) (rows (H1 m c) (Sv m c)) (mat1 (A3 m c)) (vec1 (A5 m c))
abbrev M2 : VF S800000x128 := kTiles.msg (rows (X2 m c) (Sv m c)) (rows (X2 m c) (Dv m c)) (rows (H2 m c) (Sv m c)) (mat2 (A3 m c)) (vec2 (A5 m c))
abbrev G0 : VF S50000x128 := aggregate (Dv m c) (M0 m c)
abbrev G1 : VF S50000x128 := aggregate (Dv m c) (M1 m c)
abbrev G2 : VF S50000x128 := aggregate (Dv m c) (M2 m c)
/-- The users' rows of the concatenated embeddings, and the item rows. -/
abbrev GU : VF S4096x512 := gammaU kTiles (A0 m c) (A2 m c) (A3 m c) (A4 m c) (A5 m c) (A6 m c) (A7 m c)
abbrev GI : VF S4096x512 := gammaI (A1 m c) (A8 m c)

/-- The kernel program's update tile is the update function itself. -/
theorem kTiles_upd (a b : VF S50000x128) : kTiles.upd a b = Cert.Spec.upd a b := rfl

/-- Each embedding is the update of its layer's aggregate and projection (the layer's definition, opened once). -/
theorem X1_eq : X1 m c = Cert.Spec.upd (G0 m c) (H0 m c) := by
  show x1 kTiles (A0 m c) (A2 m c) (A3 m c) (A4 m c) (A5 m c) (A6 m c) = _
  unfold x1 layer
  exact kTiles_upd _ _
theorem X2_eq : X2 m c = Cert.Spec.upd (G1 m c) (H1 m c) := by
  show x2 kTiles (A0 m c) (A2 m c) (A3 m c) (A4 m c) (A5 m c) (A6 m c) = _
  unfold x2 layer
  exact kTiles_upd _ _
theorem X3_eq : X3 m c = Cert.Spec.upd (G2 m c) (H2 m c) := by
  show x3 kTiles (A0 m c) (A2 m c) (A3 m c) (A4 m c) (A5 m c) (A6 m c) = _
  unfold x3 layer
  exact kTiles_upd _ _

theorem w0_a0 : W0 m ρ c (Proc.devRef .tc main_arg0) = A0 m c := rfl
theorem w0_a1 : W0 m ρ c (Proc.devRef .tc main_arg1) = A1 m c := rfl
theorem w0_a2 : W0 m ρ c (Proc.devRef .tc main_arg2) = A2 m c := rfl
theorem w0_a3 : W0 m ρ c (Proc.devRef .tc main_arg3) = A3 m c := rfl
theorem w0_a4 : W0 m ρ c (Proc.devRef .tc main_arg4) = A4 m c := rfl
theorem w0_a5 : W0 m ρ c (Proc.devRef .tc main_arg5) = A5 m c := rfl
theorem w0_a6 : W0 m ρ c (Proc.devRef .tc main_arg6) = A6 m c := rfl
theorem w0_a7 : W0 m ρ c (Proc.devRef .tc main_arg7) = A7 m c := rfl
theorem w0_a8 : W0 m ρ c (Proc.devRef .tc main_arg8) = A8 m c := rfl
/-! ### After item 0 -/
theorem w1_a0 : W1 m ρ c (Proc.devRef .tc main_arg0) = A0 m c :=
  (W1_keep m ρ c main_arg0 (by decide)).trans (w0_a0 m ρ c)
theorem w1_a1 : W1 m ρ c (Proc.devRef .tc main_arg1) = A1 m c :=
  (W1_keep m ρ c main_arg1 (by decide)).trans (w0_a1 m ρ c)
theorem w1_a2 : W1 m ρ c (Proc.devRef .tc main_arg2) = A2 m c :=
  (W1_keep m ρ c main_arg2 (by decide)).trans (w0_a2 m ρ c)
theorem w1_a3 : W1 m ρ c (Proc.devRef .tc main_arg3) = A3 m c :=
  (W1_keep m ρ c main_arg3 (by decide)).trans (w0_a3 m ρ c)
theorem w1_a4 : W1 m ρ c (Proc.devRef .tc main_arg4) = A4 m c :=
  (W1_keep m ρ c main_arg4 (by decide)).trans (w0_a4 m ρ c)
theorem w1_a5 : W1 m ρ c (Proc.devRef .tc main_arg5) = A5 m c :=
  (W1_keep m ρ c main_arg5 (by decide)).trans (w0_a5 m ρ c)
theorem w1_a7 : W1 m ρ c (Proc.devRef .tc main_arg7) = A7 m c :=
  (W1_keep m ρ c main_arg7 (by decide)).trans (w0_a7 m ρ c)
theorem w1_a8 : W1 m ρ c (Proc.devRef .tc main_arg8) = A8 m c :=
  (W1_keep m ρ c main_arg8 (by decide)).trans (w0_a8 m ρ c)
set_option maxHeartbeats 1000000 in
theorem w1_v1 : W1 m ρ c (Proc.devRef .tc main_v1) = Sv m c := by
  refine (Reads.h0_src (W0 m ρ c)).trans ?_
  rw [w0_a6 m ρ c]
  all_goals rfl
set_option maxHeartbeats 1000000 in
theorem w1_v3 : W1 m ρ c (Proc.devRef .tc main_v3) = Dv m c := by
  refine (Reads.h0_dst (W0 m ρ c)).trans ?_
  rw [w0_a6 m ρ c]
  all_goals rfl
set_option maxHeartbeats 1000000 in
theorem w1_v5 : W1 m ρ c (Proc.devRef .tc main_v5) = mat0 (A2 m c) := by
  refine (Reads.h0_mat (W0 m ρ c)).trans ?_
  rw [w0_a2 m ρ c]
  all_goals rfl
set_option maxHeartbeats 1000000 in
theorem w1_v8 : W1 m ρ c (Proc.devRef .tc main_v8) = (shapeCast S1x128 (vec0 (A4 m c)) Facts₀.shapeCasts_S128_S1x128) := by
  refine (Reads.h0_vec (W0 m ρ c)).trans ?_
  rw [w0_a4 m ρ c]
  all_goals rfl
/-! ### After item 1 -/
theorem w2_a0 : W2 m ρ c (Proc.devRef .tc main_arg0) = A0 m c :=
  (W2_keep m ρ c main_arg0 (by decide)).trans (w1_a0 m ρ c)
theorem w2_a1 : W2 m ρ c (Proc.devRef .tc main_arg1) = A1 m c :=
  (W2_keep m ρ c main_arg1 (by decide)).trans (w1_a1 m ρ c)
theorem w2_a2 : W2 m ρ c (Proc.devRef .tc main_arg2) = A2 m c :=
  (W2_keep m ρ c main_arg2 (by decide)).trans (w1_a2 m ρ c)
theorem w2_a3 : W2 m ρ c (Proc.devRef .tc main_arg3) = A3 m c :=
  (W2_keep m ρ c main_arg3 (by decide)).trans (w1_a3 m ρ c)
theorem w2_a4 : W2 m ρ c (Proc.devRef .tc main_arg4) = A4 m c :=
  (W2_keep m ρ c main_arg4 (by decide)).trans (w1_a4 m ρ c)
theorem w2_a5 : W2 m ρ c (Proc.devRef .tc main_arg5) = A5 m c :=
  (W2_keep m ρ c main_arg5 (by decide)).trans (w1_a5 m ρ c)
theorem w2_a7 : W2 m ρ c (Proc.devRef .tc main_arg7) = A7 m c :=
  (W2_keep m ρ c main_arg7 (by decide)).trans (w1_a7 m ρ c)
theorem w2_a8 : W2 m ρ c (Proc.devRef .tc main_arg8) = A8 m c :=
  (W2_keep m ρ c main_arg8 (by decide)).trans (w1_a8 m ρ c)
theorem w2_v1 : W2 m ρ c (Proc.devRef .tc main_v1) = Sv m c :=
  (W2_keep m ρ c main_v1 (by decide)).trans (w1_v1 m ρ c)
theorem w2_v3 : W2 m ρ c (Proc.devRef .tc main_v3) = Dv m c :=
  (W2_keep m ρ c main_v3 (by decide)).trans (w1_v3 m ρ c)
set_option maxHeartbeats 1000000 in
theorem w2_v9 : W2 m ρ c (Proc.devRef .tc main_v9) = H0 m c := by
  refine (W2_arr m ρ c 3).trans ?_
  refine (final0 (V1 m ρ) c).trans ?_
  show Cert.Spec.dense (W1 m ρ c (Proc.devRef .tc main_arg0)) (W1 m ρ c (Proc.devRef .tc main_v5)) (W1 m ρ c (Proc.devRef .tc main_v8)) = _
  rw [w1_a0 m ρ c, w1_v5 m ρ c, w1_v8 m ρ c]
  all_goals rfl
/-! ### After item 2 -/
theorem w3_a0 : W3 m ρ c (Proc.devRef .tc main_arg0) = A0 m c :=
  (W3_keep m ρ c main_arg0 (by decide)).trans (w2_a0 m ρ c)
theorem w3_a1 : W3 m ρ c (Proc.devRef .tc main_arg1) = A1 m c :=
  (W3_keep m ρ c main_arg1 (by decide)).trans (w2_a1 m ρ c)
theorem w3_a2 : W3 m ρ c (Proc.devRef .tc main_arg2) = A2 m c :=
  (W3_keep m ρ c main_arg2 (by decide)).trans (w2_a2 m ρ c)
theorem w3_a3 : W3 m ρ c (Proc.devRef .tc main_arg3) = A3 m c :=
  (W3_keep m ρ c main_arg3 (by decide)).trans (w2_a3 m ρ c)
theorem w3_a4 : W3 m ρ c (Proc.devRef .tc main_arg4) = A4 m c :=
  (W3_keep m ρ c main_arg4 (by decide)).trans (w2_a4 m ρ c)
theorem w3_a5 : W3 m ρ c (Proc.devRef .tc main_arg5) = A5 m c :=
  (W3_keep m ρ c main_arg5 (by decide)).trans (w2_a5 m ρ c)
theorem w3_a7 : W3 m ρ c (Proc.devRef .tc main_arg7) = A7 m c :=
  (W3_keep m ρ c main_arg7 (by decide)).trans (w2_a7 m ρ c)
theorem w3_a8 : W3 m ρ c (Proc.devRef .tc main_arg8) = A8 m c :=
  (W3_keep m ρ c main_arg8 (by decide)).trans (w2_a8 m ρ c)
theorem w3_v1 : W3 m ρ c (Proc.devRef .tc main_v1) = Sv m c :=
  (W3_keep m ρ c main_v1 (by decide)).trans (w2_v1 m ρ c)
theorem w3_v3 : W3 m ρ c (Proc.devRef .tc main_v3) = Dv m c :=
  (W3_keep m ρ c main_v3 (by decide)).trans (w2_v3 m ρ c)
theorem w3_v9 : W3 m ρ c (Proc.devRef .tc main_v9) = H0 m c :=
  (W3_keep m ρ c main_v9 (by decide)).trans (w2_v9 m ρ c)
set_option maxHeartbeats 1000000 in
theorem w3_v16 : W3 m ρ c (Proc.devRef .tc main_v16) = rows (X0 m c) (Sv m c) := by
  refine (Reads.h1_xs (W2 m ρ c)).trans ?_
  rw [w2_a0 m ρ c, w2_v1 m ρ c]
  all_goals rfl
set_option maxHeartbeats 1000000 in
theorem w3_v23 : W3 m ρ c (Proc.devRef .tc main_v23) = rows (X0 m c) (Dv m c) := by
  refine (Reads.h1_xd (W2 m ρ c)).trans ?_
  rw [w2_a0 m ρ c, w2_v3 m ρ c]
  all_goals rfl
set_option maxHeartbeats 1000000 in
theorem w3_v30 : W3 m ρ c (Proc.devRef .tc main_v30) = rows (H0 m c) (Sv m c) := by
  refine (Reads.h1_hs (W2 m ρ c)).trans ?_
  rw [w2_v9 m ρ c, w2_v1 m ρ c]
  all_goals rfl
set_option maxHeartbeats 1000000 in
theorem w3_v32 : W3 m ρ c (Proc.devRef .tc main_v32) = mat0 (A3 m c) := by
  refine (Reads.h1_mat (W2 m ρ c)).trans ?_
  rw [w2_a3 m ρ c]
  all_goals rfl
set_option maxHeartbeats 1000000 in
theorem w3_v35 : W3 m ρ c (Proc.devRef .tc main_v35) = (shapeCast S1x128 (vec0 (A5 m c)) Facts₀.shapeCasts_S128_S1x128) := by
  refine (Reads.h1_vec (W2 m ρ c)).trans ?_
  rw [w2_a5 m ρ c]
  all_goals rfl
/-! ### After item 3 -/
theorem w4_a0 : W4 m ρ c (Proc.devRef .tc main_arg0) = A0 m c :=
  (W4_keep m ρ c main_arg0 (by decide)).trans (w3_a0 m ρ c)
theorem w4_a1 : W4 m ρ c (Proc.devRef .tc main_arg1) = A1 m c :=
  (W4_keep m ρ c main_arg1 (by decide)).trans (w3_a1 m ρ c)
theorem w4_a2 : W4 m ρ c (Proc.devRef .tc main_arg2) = A2 m c :=
  (W4_keep m ρ c main_arg2 (by decide)).trans (w3_a2 m ρ c)
theorem w4_a3 : W4 m ρ c (Proc.devRef .tc main_arg3) = A3 m c :=
  (W4_keep m ρ c main_arg3 (by decide)).trans (w3_a3 m ρ c)
theorem w4_a4 : W4 m ρ c (Proc.devRef .tc main_arg4) = A4 m c :=
  (W4_keep m ρ c main_arg4 (by decide)).trans (w3_a4 m ρ c)
theorem w4_a5 : W4 m ρ c (Proc.devRef .tc main_arg5) = A5 m c :=
  (W4_keep m ρ c main_arg5 (by decide)).trans (w3_a5 m ρ c)
theorem w4_a7 : W4 m ρ c (Proc.devRef .tc main_arg7) = A7 m c :=
  (W4_keep m ρ c main_arg7 (by decide)).trans (w3_a7 m ρ c)
theorem w4_a8 : W4 m ρ c (Proc.devRef .tc main_arg8) = A8 m c :=
  (W4_keep m ρ c main_arg8 (by decide)).trans (w3_a8 m ρ c)
theorem w4_v1 : W4 m ρ c (Proc.devRef .tc main_v1) = Sv m c :=
  (W4_keep m ρ c main_v1 (by decide)).trans (w3_v1 m ρ c)
theorem w4_v3 : W4 m ρ c (Proc.devRef .tc main_v3) = Dv m c :=
  (W4_keep m ρ c main_v3 (by decide)).trans (w3_v3 m ρ c)
theorem w4_v9 : W4 m ρ c (Proc.devRef .tc main_v9) = H0 m c :=
  (W4_keep m ρ c main_v9 (by decide)).trans (w3_v9 m ρ c)
set_option maxHeartbeats 1000000 in
theorem w4_v36 : W4 m ρ c (Proc.devRef .tc main_v36) = M0 m c := by
  refine (W4_arr m ρ c 5).trans ?_
  refine (final1 (V3 m ρ) c).trans ?_
  show Cert.Spec.msg (W3 m ρ c (Proc.devRef .tc main_v16)) (W3 m ρ c (Proc.devRef .tc main_v23)) (W3 m ρ c (Proc.devRef .tc main_v30)) (W3 m ρ c (Proc.devRef .tc main_v32)) (W3 m ρ c (Proc.devRef .tc main_v35)) = _
  rw [w3_v16 m ρ c, w3_v23 m ρ c, w3_v30 m ρ c, w3_v32 m ρ c, w3_v35 m ρ c]
  all_goals rfl
/-! ### After item 4 -/
theorem w5_a0 : W5 m ρ c (Proc.devRef .tc main_arg0) = A0 m c :=
  (W5_keep m ρ c main_arg0 (by decide)).trans (w4_a0 m ρ c)
theorem w5_a1 : W5 m ρ c (Proc.devRef .tc main_arg1) = A1 m c :=
  (W5_keep m ρ c main_arg1 (by decide)).trans (w4_a1 m ρ c)
theorem w5_a2 : W5 m ρ c (Proc.devRef .tc main_arg2) = A2 m c :=
  (W5_keep m ρ c main_arg2 (by decide)).trans (w4_a2 m ρ c)
theorem w5_a3 : W5 m ρ c (Proc.devRef .tc main_arg3) = A3 m c :=
  (W5_keep m ρ c main_arg3 (by decide)).trans (w4_a3 m ρ c)
theorem w5_a4 : W5 m ρ c (Proc.devRef .tc main_arg4) = A4 m c :=
  (W5_keep m ρ c main_arg4 (by decide)).trans (w4_a4 m ρ c)
theorem w5_a5 : W5 m ρ c (Proc.devRef .tc main_arg5) = A5 m c :=
  (W5_keep m ρ c main_arg5 (by decide)).trans (w4_a5 m ρ c)
theorem w5_a7 : W5 m ρ c (Proc.devRef .tc main_arg7) = A7 m c :=
  (W5_keep m ρ c main_arg7 (by decide)).trans (w4_a7 m ρ c)
theorem w5_a8 : W5 m ρ c (Proc.devRef .tc main_arg8) = A8 m c :=
  (W5_keep m ρ c main_arg8 (by decide)).trans (w4_a8 m ρ c)
theorem w5_v1 : W5 m ρ c (Proc.devRef .tc main_v1) = Sv m c :=
  (W5_keep m ρ c main_v1 (by decide)).trans (w4_v1 m ρ c)
theorem w5_v3 : W5 m ρ c (Proc.devRef .tc main_v3) = Dv m c :=
  (W5_keep m ρ c main_v3 (by decide)).trans (w4_v3 m ρ c)
theorem w5_v9 : W5 m ρ c (Proc.devRef .tc main_v9) = H0 m c :=
  (W5_keep m ρ c main_v9 (by decide)).trans (w4_v9 m ρ c)
set_option maxHeartbeats 1000000 in
theorem w5_v39 : W5 m ρ c (Proc.devRef .tc main_v39) = G0 m c := by
  refine (Reads.h2_agg (W4 m ρ c)).trans ?_
  rw [w4_v3 m ρ c, w4_v36 m ρ c]
  all_goals rfl
/-! ### After item 5 -/
theorem w6_a0 : W6 m ρ c (Proc.devRef .tc main_arg0) = A0 m c :=
  (W6_keep m ρ c main_arg0 (by decide)).trans (w5_a0 m ρ c)
theorem w6_a1 : W6 m ρ c (Proc.devRef .tc main_arg1) = A1 m c :=
  (W6_keep m ρ c main_arg1 (by decide)).trans (w5_a1 m ρ c)
theorem w6_a2 : W6 m ρ c (Proc.devRef .tc main_arg2) = A2 m c :=
  (W6_keep m ρ c main_arg2 (by decide)).trans (w5_a2 m ρ c)
theorem w6_a3 : W6 m ρ c (Proc.devRef .tc main_arg3) = A3 m c :=
  (W6_keep m ρ c main_arg3 (by decide)).trans (w5_a3 m ρ c)
theorem w6_a4 : W6 m ρ c (Proc.devRef .tc main_arg4) = A4 m c :=
  (W6_keep m ρ c main_arg4 (by decide)).trans (w5_a4 m ρ c)
theorem w6_a5 : W6 m ρ c (Proc.devRef .tc main_arg5) = A5 m c :=
  (W6_keep m ρ c main_arg5 (by decide)).trans (w5_a5 m ρ c)
theorem w6_a7 : W6 m ρ c (Proc.devRef .tc main_arg7) = A7 m c :=
  (W6_keep m ρ c main_arg7 (by decide)).trans (w5_a7 m ρ c)
theorem w6_a8 : W6 m ρ c (Proc.devRef .tc main_arg8) = A8 m c :=
  (W6_keep m ρ c main_arg8 (by decide)).trans (w5_a8 m ρ c)
theorem w6_v1 : W6 m ρ c (Proc.devRef .tc main_v1) = Sv m c :=
  (W6_keep m ρ c main_v1 (by decide)).trans (w5_v1 m ρ c)
theorem w6_v3 : W6 m ρ c (Proc.devRef .tc main_v3) = Dv m c :=
  (W6_keep m ρ c main_v3 (by decide)).trans (w5_v3 m ρ c)
set_option maxHeartbeats 1000000 in
theorem w6_v40 : W6 m ρ c (Proc.devRef .tc main_v40) = X1 m c := by
  refine (W6_arr m ρ c 2).trans ?_
  refine (final2 (V5 m ρ) c).trans ?_
  show Cert.Spec.upd (W5 m ρ c (Proc.devRef .tc main_v39)) (W5 m ρ c (Proc.devRef .tc main_v9)) = _
  rw [w5_v39 m ρ c, w5_v9 m ρ c]
  exact (X1_eq m c).symm
/-! ### After item 6 -/
theorem w7_a0 : W7 m ρ c (Proc.devRef .tc main_arg0) = A0 m c :=
  (W7_keep m ρ c main_arg0 (by decide)).trans (w6_a0 m ρ c)
theorem w7_a1 : W7 m ρ c (Proc.devRef .tc main_arg1) = A1 m c :=
  (W7_keep m ρ c main_arg1 (by decide)).trans (w6_a1 m ρ c)
theorem w7_a2 : W7 m ρ c (Proc.devRef .tc main_arg2) = A2 m c :=
  (W7_keep m ρ c main_arg2 (by decide)).trans (w6_a2 m ρ c)
theorem w7_a3 : W7 m ρ c (Proc.devRef .tc main_arg3) = A3 m c :=
  (W7_keep m ρ c main_arg3 (by decide)).trans (w6_a3 m ρ c)
theorem w7_a4 : W7 m ρ c (Proc.devRef .tc main_arg4) = A4 m c :=
  (W7_keep m ρ c main_arg4 (by decide)).trans (w6_a4 m ρ c)
theorem w7_a5 : W7 m ρ c (Proc.devRef .tc main_arg5) = A5 m c :=
  (W7_keep m ρ c main_arg5 (by decide)).trans (w6_a5 m ρ c)
theorem w7_a7 : W7 m ρ c (Proc.devRef .tc main_arg7) = A7 m c :=
  (W7_keep m ρ c main_arg7 (by decide)).trans (w6_a7 m ρ c)
theorem w7_a8 : W7 m ρ c (Proc.devRef .tc main_arg8) = A8 m c :=
  (W7_keep m ρ c main_arg8 (by decide)).trans (w6_a8 m ρ c)
theorem w7_v1 : W7 m ρ c (Proc.devRef .tc main_v1) = Sv m c :=
  (W7_keep m ρ c main_v1 (by decide)).trans (w6_v1 m ρ c)
theorem w7_v3 : W7 m ρ c (Proc.devRef .tc main_v3) = Dv m c :=
  (W7_keep m ρ c main_v3 (by decide)).trans (w6_v3 m ρ c)
theorem w7_v40 : W7 m ρ c (Proc.devRef .tc main_v40) = X1 m c :=
  (W7_keep m ρ c main_v40 (by decide)).trans (w6_v40 m ρ c)
set_option maxHeartbeats 1000000 in
theorem w7_v42 : W7 m ρ c (Proc.devRef .tc main_v42) = mat1 (A2 m c) := by
  refine (Reads.h3_mat (W6 m ρ c)).trans ?_
  rw [w6_a2 m ρ c]
  all_goals rfl
set_option maxHeartbeats 1000000 in
theorem w7_v45 : W7 m ρ c (Proc.devRef .tc main_v45) = (shapeCast S1x128 (vec1 (A4 m c)) Facts₀.shapeCasts_S128_S1x128) := by
  refine (Reads.h3_vec (W6 m ρ c)).trans ?_
  rw [w6_a4 m ρ c]
  all_goals rfl
/-! ### After item 7 -/
theorem w8_a0 : W8 m ρ c (Proc.devRef .tc main_arg0) = A0 m c :=
  (W8_keep m ρ c main_arg0 (by decide)).trans (w7_a0 m ρ c)
theorem w8_a1 : W8 m ρ c (Proc.devRef .tc main_arg1) = A1 m c :=
  (W8_keep m ρ c main_arg1 (by decide)).trans (w7_a1 m ρ c)
theorem w8_a2 : W8 m ρ c (Proc.devRef .tc main_arg2) = A2 m c :=
  (W8_keep m ρ c main_arg2 (by decide)).trans (w7_a2 m ρ c)
theorem w8_a3 : W8 m ρ c (Proc.devRef .tc main_arg3) = A3 m c :=
  (W8_keep m ρ c main_arg3 (by decide)).trans (w7_a3 m ρ c)
theorem w8_a4 : W8 m ρ c (Proc.devRef .tc main_arg4) = A4 m c :=
  (W8_keep m ρ c main_arg4 (by decide)).trans (w7_a4 m ρ c)
theorem w8_a5 : W8 m ρ c (Proc.devRef .tc main_arg5) = A5 m c :=
  (W8_keep m ρ c main_arg5 (by decide)).trans (w7_a5 m ρ c)
theorem w8_a7 : W8 m ρ c (Proc.devRef .tc main_arg7) = A7 m c :=
  (W8_keep m ρ c main_arg7 (by decide)).trans (w7_a7 m ρ c)
theorem w8_a8 : W8 m ρ c (Proc.devRef .tc main_arg8) = A8 m c :=
  (W8_keep m ρ c main_arg8 (by decide)).trans (w7_a8 m ρ c)
theorem w8_v1 : W8 m ρ c (Proc.devRef .tc main_v1) = Sv m c :=
  (W8_keep m ρ c main_v1 (by decide)).trans (w7_v1 m ρ c)
theorem w8_v3 : W8 m ρ c (Proc.devRef .tc main_v3) = Dv m c :=
  (W8_keep m ρ c main_v3 (by decide)).trans (w7_v3 m ρ c)
theorem w8_v40 : W8 m ρ c (Proc.devRef .tc main_v40) = X1 m c :=
  (W8_keep m ρ c main_v40 (by decide)).trans (w7_v40 m ρ c)
set_option maxHeartbeats 1000000 in
theorem w8_v46 : W8 m ρ c (Proc.devRef .tc main_v46) = H1 m c := by
  refine (W8_arr m ρ c 3).trans ?_
  refine (final3 (V7 m ρ) c).trans ?_
  show Cert.Spec.dense (W7 m ρ c (Proc.devRef .tc main_v40)) (W7 m ρ c (Proc.devRef .tc main_v42)) (W7 m ρ c (Proc.devRef .tc main_v45)) = _
  rw [w7_v40 m ρ c, w7_v42 m ρ c, w7_v45 m ρ c]
  all_goals rfl
/-! ### After item 8 -/
theorem w9_a0 : W9 m ρ c (Proc.devRef .tc main_arg0) = A0 m c :=
  (W9_keep m ρ c main_arg0 (by decide)).trans (w8_a0 m ρ c)
theorem w9_a1 : W9 m ρ c (Proc.devRef .tc main_arg1) = A1 m c :=
  (W9_keep m ρ c main_arg1 (by decide)).trans (w8_a1 m ρ c)
theorem w9_a2 : W9 m ρ c (Proc.devRef .tc main_arg2) = A2 m c :=
  (W9_keep m ρ c main_arg2 (by decide)).trans (w8_a2 m ρ c)
theorem w9_a3 : W9 m ρ c (Proc.devRef .tc main_arg3) = A3 m c :=
  (W9_keep m ρ c main_arg3 (by decide)).trans (w8_a3 m ρ c)
theorem w9_a4 : W9 m ρ c (Proc.devRef .tc main_arg4) = A4 m c :=
  (W9_keep m ρ c main_arg4 (by decide)).trans (w8_a4 m ρ c)
theorem w9_a5 : W9 m ρ c (Proc.devRef .tc main_arg5) = A5 m c :=
  (W9_keep m ρ c main_arg5 (by decide)).trans (w8_a5 m ρ c)
theorem w9_a7 : W9 m ρ c (Proc.devRef .tc main_arg7) = A7 m c :=
  (W9_keep m ρ c main_arg7 (by decide)).trans (w8_a7 m ρ c)
theorem w9_a8 : W9 m ρ c (Proc.devRef .tc main_arg8) = A8 m c :=
  (W9_keep m ρ c main_arg8 (by decide)).trans (w8_a8 m ρ c)
theorem w9_v1 : W9 m ρ c (Proc.devRef .tc main_v1) = Sv m c :=
  (W9_keep m ρ c main_v1 (by decide)).trans (w8_v1 m ρ c)
theorem w9_v3 : W9 m ρ c (Proc.devRef .tc main_v3) = Dv m c :=
  (W9_keep m ρ c main_v3 (by decide)).trans (w8_v3 m ρ c)
theorem w9_v40 : W9 m ρ c (Proc.devRef .tc main_v40) = X1 m c :=
  (W9_keep m ρ c main_v40 (by decide)).trans (w8_v40 m ρ c)
theorem w9_v46 : W9 m ρ c (Proc.devRef .tc main_v46) = H1 m c :=
  (W9_keep m ρ c main_v46 (by decide)).trans (w8_v46 m ρ c)
set_option maxHeartbeats 1000000 in
theorem w9_v53 : W9 m ρ c (Proc.devRef .tc main_v53) = rows (X1 m c) (Sv m c) := by
  refine (Reads.h4_xs (W8 m ρ c)).trans ?_
  rw [w8_v40 m ρ c, w8_v1 m ρ c]
  all_goals rfl
set_option maxHeartbeats 1000000 in
theorem w9_v60 : W9 m ρ c (Proc.devRef .tc main_v60) = rows (X1 m c) (Dv m c) := by
  refine (Reads.h4_xd (W8 m ρ c)).trans ?_
  rw [w8_v40 m ρ c, w8_v3 m ρ c]
  all_goals rfl
set_option maxHeartbeats 1000000 in
theorem w9_v67 : W9 m ρ c (Proc.devRef .tc main_v67) = rows (H1 m c) (Sv m c) := by
  refine (Reads.h4_hs (W8 m ρ c)).trans ?_
  rw [w8_v46 m ρ c, w8_v1 m ρ c]
  all_goals rfl
set_option maxHeartbeats 1000000 in
theorem w9_v69 : W9 m ρ c (Proc.devRef .tc main_v69) = mat1 (A3 m c) := by
  refine (Reads.h4_mat (W8 m ρ c)).trans ?_
  rw [w8_a3 m ρ c]
  all_goals rfl
set_option maxHeartbeats 1000000 in
theorem w9_v72 : W9 m ρ c (Proc.devRef .tc main_v72) = (shapeCast S1x128 (vec1 (A5 m c)) Facts₀.shapeCasts_S128_S1x128) := by
  refine (Reads.h4_vec (W8 m ρ c)).trans ?_
  rw [w8_a5 m ρ c]
  all_goals rfl
/-! ### After item 9 -/
theorem w10_a0 : W10 m ρ c (Proc.devRef .tc main_arg0) = A0 m c :=
  (W10_keep m ρ c main_arg0 (by decide)).trans (w9_a0 m ρ c)
theorem w10_a1 : W10 m ρ c (Proc.devRef .tc main_arg1) = A1 m c :=
  (W10_keep m ρ c main_arg1 (by decide)).trans (w9_a1 m ρ c)
theorem w10_a2 : W10 m ρ c (Proc.devRef .tc main_arg2) = A2 m c :=
  (W10_keep m ρ c main_arg2 (by decide)).trans (w9_a2 m ρ c)
theorem w10_a3 : W10 m ρ c (Proc.devRef .tc main_arg3) = A3 m c :=
  (W10_keep m ρ c main_arg3 (by decide)).trans (w9_a3 m ρ c)
theorem w10_a4 : W10 m ρ c (Proc.devRef .tc main_arg4) = A4 m c :=
  (W10_keep m ρ c main_arg4 (by decide)).trans (w9_a4 m ρ c)
theorem w10_a5 : W10 m ρ c (Proc.devRef .tc main_arg5) = A5 m c :=
  (W10_keep m ρ c main_arg5 (by decide)).trans (w9_a5 m ρ c)
theorem w10_a7 : W10 m ρ c (Proc.devRef .tc main_arg7) = A7 m c :=
  (W10_keep m ρ c main_arg7 (by decide)).trans (w9_a7 m ρ c)
theorem w10_a8 : W10 m ρ c (Proc.devRef .tc main_arg8) = A8 m c :=
  (W10_keep m ρ c main_arg8 (by decide)).trans (w9_a8 m ρ c)
theorem w10_v1 : W10 m ρ c (Proc.devRef .tc main_v1) = Sv m c :=
  (W10_keep m ρ c main_v1 (by decide)).trans (w9_v1 m ρ c)
theorem w10_v3 : W10 m ρ c (Proc.devRef .tc main_v3) = Dv m c :=
  (W10_keep m ρ c main_v3 (by decide)).trans (w9_v3 m ρ c)
theorem w10_v40 : W10 m ρ c (Proc.devRef .tc main_v40) = X1 m c :=
  (W10_keep m ρ c main_v40 (by decide)).trans (w9_v40 m ρ c)
theorem w10_v46 : W10 m ρ c (Proc.devRef .tc main_v46) = H1 m c :=
  (W10_keep m ρ c main_v46 (by decide)).trans (w9_v46 m ρ c)
set_option maxHeartbeats 1000000 in
theorem w10_v73 : W10 m ρ c (Proc.devRef .tc main_v73) = M1 m c := by
  refine (W10_arr m ρ c 5).trans ?_
  refine (final4 (V9 m ρ) c).trans ?_
  show Cert.Spec.msg (W9 m ρ c (Proc.devRef .tc main_v53)) (W9 m ρ c (Proc.devRef .tc main_v60)) (W9 m ρ c (Proc.devRef .tc main_v67)) (W9 m ρ c (Proc.devRef .tc main_v69)) (W9 m ρ c (Proc.devRef .tc main_v72)) = _
  rw [w9_v53 m ρ c, w9_v60 m ρ c, w9_v67 m ρ c, w9_v69 m ρ c, w9_v72 m ρ c]
  all_goals rfl
/-! ### After item 10 -/
theorem w11_a0 : W11 m ρ c (Proc.devRef .tc main_arg0) = A0 m c :=
  (W11_keep m ρ c main_arg0 (by decide)).trans (w10_a0 m ρ c)
theorem w11_a1 : W11 m ρ c (Proc.devRef .tc main_arg1) = A1 m c :=
  (W11_keep m ρ c main_arg1 (by decide)).trans (w10_a1 m ρ c)
theorem w11_a2 : W11 m ρ c (Proc.devRef .tc main_arg2) = A2 m c :=
  (W11_keep m ρ c main_arg2 (by decide)).trans (w10_a2 m ρ c)
theorem w11_a3 : W11 m ρ c (Proc.devRef .tc main_arg3) = A3 m c :=
  (W11_keep m ρ c main_arg3 (by decide)).trans (w10_a3 m ρ c)
theorem w11_a4 : W11 m ρ c (Proc.devRef .tc main_arg4) = A4 m c :=
  (W11_keep m ρ c main_arg4 (by decide)).trans (w10_a4 m ρ c)
theorem w11_a5 : W11 m ρ c (Proc.devRef .tc main_arg5) = A5 m c :=
  (W11_keep m ρ c main_arg5 (by decide)).trans (w10_a5 m ρ c)
theorem w11_a7 : W11 m ρ c (Proc.devRef .tc main_arg7) = A7 m c :=
  (W11_keep m ρ c main_arg7 (by decide)).trans (w10_a7 m ρ c)
theorem w11_a8 : W11 m ρ c (Proc.devRef .tc main_arg8) = A8 m c :=
  (W11_keep m ρ c main_arg8 (by decide)).trans (w10_a8 m ρ c)
theorem w11_v1 : W11 m ρ c (Proc.devRef .tc main_v1) = Sv m c :=
  (W11_keep m ρ c main_v1 (by decide)).trans (w10_v1 m ρ c)
theorem w11_v3 : W11 m ρ c (Proc.devRef .tc main_v3) = Dv m c :=
  (W11_keep m ρ c main_v3 (by decide)).trans (w10_v3 m ρ c)
theorem w11_v40 : W11 m ρ c (Proc.devRef .tc main_v40) = X1 m c :=
  (W11_keep m ρ c main_v40 (by decide)).trans (w10_v40 m ρ c)
theorem w11_v46 : W11 m ρ c (Proc.devRef .tc main_v46) = H1 m c :=
  (W11_keep m ρ c main_v46 (by decide)).trans (w10_v46 m ρ c)
set_option maxHeartbeats 1000000 in
theorem w11_v76 : W11 m ρ c (Proc.devRef .tc main_v76) = G1 m c := by
  refine (Reads.h5_agg (W10 m ρ c)).trans ?_
  rw [w10_v3 m ρ c, w10_v73 m ρ c]
  all_goals rfl
/-! ### After item 11 -/
theorem w12_a0 : W12 m ρ c (Proc.devRef .tc main_arg0) = A0 m c :=
  (W12_keep m ρ c main_arg0 (by decide)).trans (w11_a0 m ρ c)
theorem w12_a1 : W12 m ρ c (Proc.devRef .tc main_arg1) = A1 m c :=
  (W12_keep m ρ c main_arg1 (by decide)).trans (w11_a1 m ρ c)
theorem w12_a2 : W12 m ρ c (Proc.devRef .tc main_arg2) = A2 m c :=
  (W12_keep m ρ c main_arg2 (by decide)).trans (w11_a2 m ρ c)
theorem w12_a3 : W12 m ρ c (Proc.devRef .tc main_arg3) = A3 m c :=
  (W12_keep m ρ c main_arg3 (by decide)).trans (w11_a3 m ρ c)
theorem w12_a4 : W12 m ρ c (Proc.devRef .tc main_arg4) = A4 m c :=
  (W12_keep m ρ c main_arg4 (by decide)).trans (w11_a4 m ρ c)
theorem w12_a5 : W12 m ρ c (Proc.devRef .tc main_arg5) = A5 m c :=
  (W12_keep m ρ c main_arg5 (by decide)).trans (w11_a5 m ρ c)
theorem w12_a7 : W12 m ρ c (Proc.devRef .tc main_arg7) = A7 m c :=
  (W12_keep m ρ c main_arg7 (by decide)).trans (w11_a7 m ρ c)
theorem w12_a8 : W12 m ρ c (Proc.devRef .tc main_arg8) = A8 m c :=
  (W12_keep m ρ c main_arg8 (by decide)).trans (w11_a8 m ρ c)
theorem w12_v1 : W12 m ρ c (Proc.devRef .tc main_v1) = Sv m c :=
  (W12_keep m ρ c main_v1 (by decide)).trans (w11_v1 m ρ c)
theorem w12_v3 : W12 m ρ c (Proc.devRef .tc main_v3) = Dv m c :=
  (W12_keep m ρ c main_v3 (by decide)).trans (w11_v3 m ρ c)
theorem w12_v40 : W12 m ρ c (Proc.devRef .tc main_v40) = X1 m c :=
  (W12_keep m ρ c main_v40 (by decide)).trans (w11_v40 m ρ c)
set_option maxHeartbeats 1000000 in
theorem w12_v77 : W12 m ρ c (Proc.devRef .tc main_v77) = X2 m c := by
  refine (W12_arr m ρ c 2).trans ?_
  refine (final5 (V11 m ρ) c).trans ?_
  show Cert.Spec.upd (W11 m ρ c (Proc.devRef .tc main_v76)) (W11 m ρ c (Proc.devRef .tc main_v46)) = _
  rw [w11_v76 m ρ c, w11_v46 m ρ c]
  exact (X2_eq m c).symm
/-! ### After item 12 -/
theorem w13_a0 : W13 m ρ c (Proc.devRef .tc main_arg0) = A0 m c :=
  (W13_keep m ρ c main_arg0 (by decide)).trans (w12_a0 m ρ c)
theorem w13_a1 : W13 m ρ c (Proc.devRef .tc main_arg1) = A1 m c :=
  (W13_keep m ρ c main_arg1 (by decide)).trans (w12_a1 m ρ c)
theorem w13_a3 : W13 m ρ c (Proc.devRef .tc main_arg3) = A3 m c :=
  (W13_keep m ρ c main_arg3 (by decide)).trans (w12_a3 m ρ c)
theorem w13_a5 : W13 m ρ c (Proc.devRef .tc main_arg5) = A5 m c :=
  (W13_keep m ρ c main_arg5 (by decide)).trans (w12_a5 m ρ c)
theorem w13_a7 : W13 m ρ c (Proc.devRef .tc main_arg7) = A7 m c :=
  (W13_keep m ρ c main_arg7 (by decide)).trans (w12_a7 m ρ c)
theorem w13_a8 : W13 m ρ c (Proc.devRef .tc main_arg8) = A8 m c :=
  (W13_keep m ρ c main_arg8 (by decide)).trans (w12_a8 m ρ c)
theorem w13_v1 : W13 m ρ c (Proc.devRef .tc main_v1) = Sv m c :=
  (W13_keep m ρ c main_v1 (by decide)).trans (w12_v1 m ρ c)
theorem w13_v3 : W13 m ρ c (Proc.devRef .tc main_v3) = Dv m c :=
  (W13_keep m ρ c main_v3 (by decide)).trans (w12_v3 m ρ c)
theorem w13_v40 : W13 m ρ c (Proc.devRef .tc main_v40) = X1 m c :=
  (W13_keep m ρ c main_v40 (by decide)).trans (w12_v40 m ρ c)
theorem w13_v77 : W13 m ρ c (Proc.devRef .tc main_v77) = X2 m c :=
  (W13_keep m ρ c main_v77 (by decide)).trans (w12_v77 m ρ c)
set_option maxHeartbeats 1000000 in
theorem w13_v79 : W13 m ρ c (Proc.devRef .tc main_v79) = mat2 (A2 m c) := by
  refine (Reads.h6_mat (W12 m ρ c)).trans ?_
  rw [w12_a2 m ρ c]
  all_goals rfl
set_option maxHeartbeats 1000000 in
theorem w13_v82 : W13 m ρ c (Proc.devRef .tc main_v82) = (shapeCast S1x128 (vec2 (A4 m c)) Facts₀.shapeCasts_S128_S1x128) := by
  refine (Reads.h6_vec (W12 m ρ c)).trans ?_
  rw [w12_a4 m ρ c]
  all_goals rfl
/-! ### After item 13 -/
theorem w14_a0 : W14 m ρ c (Proc.devRef .tc main_arg0) = A0 m c :=
  (W14_keep m ρ c main_arg0 (by decide)).trans (w13_a0 m ρ c)
theorem w14_a1 : W14 m ρ c (Proc.devRef .tc main_arg1) = A1 m c :=
  (W14_keep m ρ c main_arg1 (by decide)).trans (w13_a1 m ρ c)
theorem w14_a3 : W14 m ρ c (Proc.devRef .tc main_arg3) = A3 m c :=
  (W14_keep m ρ c main_arg3 (by decide)).trans (w13_a3 m ρ c)
theorem w14_a5 : W14 m ρ c (Proc.devRef .tc main_arg5) = A5 m c :=
  (W14_keep m ρ c main_arg5 (by decide)).trans (w13_a5 m ρ c)
theorem w14_a7 : W14 m ρ c (Proc.devRef .tc main_arg7) = A7 m c :=
  (W14_keep m ρ c main_arg7 (by decide)).trans (w13_a7 m ρ c)
theorem w14_a8 : W14 m ρ c (Proc.devRef .tc main_arg8) = A8 m c :=
  (W14_keep m ρ c main_arg8 (by decide)).trans (w13_a8 m ρ c)
theorem w14_v1 : W14 m ρ c (Proc.devRef .tc main_v1) = Sv m c :=
  (W14_keep m ρ c main_v1 (by decide)).trans (w13_v1 m ρ c)
theorem w14_v3 : W14 m ρ c (Proc.devRef .tc main_v3) = Dv m c :=
  (W14_keep m ρ c main_v3 (by decide)).trans (w13_v3 m ρ c)
theorem w14_v40 : W14 m ρ c (Proc.devRef .tc main_v40) = X1 m c :=
  (W14_keep m ρ c main_v40 (by decide)).trans (w13_v40 m ρ c)
theorem w14_v77 : W14 m ρ c (Proc.devRef .tc main_v77) = X2 m c :=
  (W14_keep m ρ c main_v77 (by decide)).trans (w13_v77 m ρ c)
set_option maxHeartbeats 1000000 in
theorem w14_v83 : W14 m ρ c (Proc.devRef .tc main_v83) = H2 m c := by
  refine (W14_arr m ρ c 3).trans ?_
  refine (final6 (V13 m ρ) c).trans ?_
  show Cert.Spec.dense (W13 m ρ c (Proc.devRef .tc main_v77)) (W13 m ρ c (Proc.devRef .tc main_v79)) (W13 m ρ c (Proc.devRef .tc main_v82)) = _
  rw [w13_v77 m ρ c, w13_v79 m ρ c, w13_v82 m ρ c]
  all_goals rfl
/-! ### After item 14 -/
theorem w15_a0 : W15 m ρ c (Proc.devRef .tc main_arg0) = A0 m c :=
  (W15_keep m ρ c main_arg0 (by decide)).trans (w14_a0 m ρ c)
theorem w15_a1 : W15 m ρ c (Proc.devRef .tc main_arg1) = A1 m c :=
  (W15_keep m ρ c main_arg1 (by decide)).trans (w14_a1 m ρ c)
theorem w15_a7 : W15 m ρ c (Proc.devRef .tc main_arg7) = A7 m c :=
  (W15_keep m ρ c main_arg7 (by decide)).trans (w14_a7 m ρ c)
theorem w15_a8 : W15 m ρ c (Proc.devRef .tc main_arg8) = A8 m c :=
  (W15_keep m ρ c main_arg8 (by decide)).trans (w14_a8 m ρ c)
theorem w15_v3 : W15 m ρ c (Proc.devRef .tc main_v3) = Dv m c :=
  (W15_keep m ρ c main_v3 (by decide)).trans (w14_v3 m ρ c)
theorem w15_v40 : W15 m ρ c (Proc.devRef .tc main_v40) = X1 m c :=
  (W15_keep m ρ c main_v40 (by decide)).trans (w14_v40 m ρ c)
theorem w15_v77 : W15 m ρ c (Proc.devRef .tc main_v77) = X2 m c :=
  (W15_keep m ρ c main_v77 (by decide)).trans (w14_v77 m ρ c)
theorem w15_v83 : W15 m ρ c (Proc.devRef .tc main_v83) = H2 m c :=
  (W15_keep m ρ c main_v83 (by decide)).trans (w14_v83 m ρ c)
set_option maxHeartbeats 1000000 in
theorem w15_v90 : W15 m ρ c (Proc.devRef .tc main_v90) = rows (X2 m c) (Sv m c) := by
  refine (Reads.h7_xs (W14 m ρ c)).trans ?_
  rw [w14_v77 m ρ c, w14_v1 m ρ c]
  all_goals rfl
set_option maxHeartbeats 1000000 in
theorem w15_v97 : W15 m ρ c (Proc.devRef .tc main_v97) = rows (X2 m c) (Dv m c) := by
  refine (Reads.h7_xd (W14 m ρ c)).trans ?_
  rw [w14_v77 m ρ c, w14_v3 m ρ c]
  all_goals rfl
set_option maxHeartbeats 1000000 in
theorem w15_v104 : W15 m ρ c (Proc.devRef .tc main_v104) = rows (H2 m c) (Sv m c) := by
  refine (Reads.h7_hs (W14 m ρ c)).trans ?_
  rw [w14_v83 m ρ c, w14_v1 m ρ c]
  all_goals rfl
set_option maxHeartbeats 1000000 in
theorem w15_v106 : W15 m ρ c (Proc.devRef .tc main_v106) = mat2 (A3 m c) := by
  refine (Reads.h7_mat (W14 m ρ c)).trans ?_
  rw [w14_a3 m ρ c]
  all_goals rfl
set_option maxHeartbeats 1000000 in
theorem w15_v109 : W15 m ρ c (Proc.devRef .tc main_v109) = (shapeCast S1x128 (vec2 (A5 m c)) Facts₀.shapeCasts_S128_S1x128) := by
  refine (Reads.h7_vec (W14 m ρ c)).trans ?_
  rw [w14_a5 m ρ c]
  all_goals rfl
/-! ### After item 15 -/
theorem w16_a0 : W16 m ρ c (Proc.devRef .tc main_arg0) = A0 m c :=
  (W16_keep m ρ c main_arg0 (by decide)).trans (w15_a0 m ρ c)
theorem w16_a1 : W16 m ρ c (Proc.devRef .tc main_arg1) = A1 m c :=
  (W16_keep m ρ c main_arg1 (by decide)).trans (w15_a1 m ρ c)
theorem w16_a7 : W16 m ρ c (Proc.devRef .tc main_arg7) = A7 m c :=
  (W16_keep m ρ c main_arg7 (by decide)).trans (w15_a7 m ρ c)
theorem w16_a8 : W16 m ρ c (Proc.devRef .tc main_arg8) = A8 m c :=
  (W16_keep m ρ c main_arg8 (by decide)).trans (w15_a8 m ρ c)
theorem w16_v3 : W16 m ρ c (Proc.devRef .tc main_v3) = Dv m c :=
  (W16_keep m ρ c main_v3 (by decide)).trans (w15_v3 m ρ c)
theorem w16_v40 : W16 m ρ c (Proc.devRef .tc main_v40) = X1 m c :=
  (W16_keep m ρ c main_v40 (by decide)).trans (w15_v40 m ρ c)
theorem w16_v77 : W16 m ρ c (Proc.devRef .tc main_v77) = X2 m c :=
  (W16_keep m ρ c main_v77 (by decide)).trans (w15_v77 m ρ c)
theorem w16_v83 : W16 m ρ c (Proc.devRef .tc main_v83) = H2 m c :=
  (W16_keep m ρ c main_v83 (by decide)).trans (w15_v83 m ρ c)
set_option maxHeartbeats 1000000 in
theorem w16_v110 : W16 m ρ c (Proc.devRef .tc main_v110) = M2 m c := by
  refine (W16_arr m ρ c 5).trans ?_
  refine (final7 (V15 m ρ) c).trans ?_
  show Cert.Spec.msg (W15 m ρ c (Proc.devRef .tc main_v90)) (W15 m ρ c (Proc.devRef .tc main_v97)) (W15 m ρ c (Proc.devRef .tc main_v104)) (W15 m ρ c (Proc.devRef .tc main_v106)) (W15 m ρ c (Proc.devRef .tc main_v109)) = _
  rw [w15_v90 m ρ c, w15_v97 m ρ c, w15_v104 m ρ c, w15_v106 m ρ c, w15_v109 m ρ c]
  all_goals rfl
/-! ### After item 16 -/
theorem w17_a0 : W17 m ρ c (Proc.devRef .tc main_arg0) = A0 m c :=
  (W17_keep m ρ c main_arg0 (by decide)).trans (w16_a0 m ρ c)
theorem w17_a1 : W17 m ρ c (Proc.devRef .tc main_arg1) = A1 m c :=
  (W17_keep m ρ c main_arg1 (by decide)).trans (w16_a1 m ρ c)
theorem w17_a7 : W17 m ρ c (Proc.devRef .tc main_arg7) = A7 m c :=
  (W17_keep m ρ c main_arg7 (by decide)).trans (w16_a7 m ρ c)
theorem w17_a8 : W17 m ρ c (Proc.devRef .tc main_arg8) = A8 m c :=
  (W17_keep m ρ c main_arg8 (by decide)).trans (w16_a8 m ρ c)
theorem w17_v40 : W17 m ρ c (Proc.devRef .tc main_v40) = X1 m c :=
  (W17_keep m ρ c main_v40 (by decide)).trans (w16_v40 m ρ c)
theorem w17_v77 : W17 m ρ c (Proc.devRef .tc main_v77) = X2 m c :=
  (W17_keep m ρ c main_v77 (by decide)).trans (w16_v77 m ρ c)
theorem w17_v83 : W17 m ρ c (Proc.devRef .tc main_v83) = H2 m c :=
  (W17_keep m ρ c main_v83 (by decide)).trans (w16_v83 m ρ c)
set_option maxHeartbeats 1000000 in
theorem w17_v113 : W17 m ρ c (Proc.devRef .tc main_v113) = G2 m c := by
  refine (Reads.h8_agg (W16 m ρ c)).trans ?_
  rw [w16_v3 m ρ c, w16_v110 m ρ c]
  all_goals rfl
/-! ### After item 17 -/
theorem w18_a0 : W18 m ρ c (Proc.devRef .tc main_arg0) = A0 m c :=
  (W18_keep m ρ c main_arg0 (by decide)).trans (w17_a0 m ρ c)
theorem w18_a1 : W18 m ρ c (Proc.devRef .tc main_arg1) = A1 m c :=
  (W18_keep m ρ c main_arg1 (by decide)).trans (w17_a1 m ρ c)
theorem w18_a7 : W18 m ρ c (Proc.devRef .tc main_arg7) = A7 m c :=
  (W18_keep m ρ c main_arg7 (by decide)).trans (w17_a7 m ρ c)
theorem w18_a8 : W18 m ρ c (Proc.devRef .tc main_arg8) = A8 m c :=
  (W18_keep m ρ c main_arg8 (by decide)).trans (w17_a8 m ρ c)
theorem w18_v40 : W18 m ρ c (Proc.devRef .tc main_v40) = X1 m c :=
  (W18_keep m ρ c main_v40 (by decide)).trans (w17_v40 m ρ c)
theorem w18_v77 : W18 m ρ c (Proc.devRef .tc main_v77) = X2 m c :=
  (W18_keep m ρ c main_v77 (by decide)).trans (w17_v77 m ρ c)
set_option maxHeartbeats 1000000 in
theorem w18_v114 : W18 m ρ c (Proc.devRef .tc main_v114) = X3 m c := by
  refine (W18_arr m ρ c 2).trans ?_
  refine (final8 (V17 m ρ) c).trans ?_
  show Cert.Spec.upd (W17 m ρ c (Proc.devRef .tc main_v113)) (W17 m ρ c (Proc.devRef .tc main_v83)) = _
  rw [w17_v113 m ρ c, w17_v83 m ρ c]
  exact (X3_eq m c).symm
/-! ### After item 18 -/
set_option maxHeartbeats 1000000 in
theorem w19_v122 : W19 m ρ c (Proc.devRef .tc main_v122) = GU m c := by
  refine (Reads.h9_gu (W18 m ρ c)).trans ?_
  rw [w18_a0 m ρ c, w18_v40 m ρ c, w18_v77 m ρ c, w18_v114 m ρ c, w18_a7 m ρ c]
  all_goals rfl
set_option maxHeartbeats 1000000 in
theorem w19_v129 : W19 m ρ c (Proc.devRef .tc main_v129) = GI m c := by
  refine (Reads.h9_gi (W18 m ρ c)).trans ?_
  rw [w18_a1 m ρ c, w18_a8 m ρ c]
  all_goals rfl
/-! ### After item 19 -/
theorem w20_v122 : W20 m ρ c (Proc.devRef .tc main_v122) = GU m c :=
  (W20_keep m ρ c main_v122 (by decide)).trans (w19_v122 m ρ c)
theorem w20_v129 : W20 m ρ c (Proc.devRef .tc main_v129) = GI m c :=
  (W20_keep m ρ c main_v129 (by decide)).trans (w19_v129 m ρ c)
set_option maxHeartbeats 1000000 in
theorem w20_v130 : W20 m ρ c (Proc.devRef .tc main_v130) = Cert.Spec.score (GU m c) (GI m c) := by
  refine (W20_arr m ρ c 2).trans ?_
  refine (final9 (V19 m ρ) c).trans ?_
  show Cert.Spec.score (W19 m ρ c (Proc.devRef .tc main_v122)) (W19 m ρ c (Proc.devRef .tc main_v129)) = _
  rw [w19_v122 m ρ c, w19_v129 m ρ c]
  all_goals rfl
/-! ### After item 20 -/
theorem w21_v122 : W21 m ρ c (Proc.devRef .tc main_v122) = GU m c :=
  (W21_keep m ρ c main_v122 (by decide)).trans (w20_v122 m ρ c)
theorem w21_v129 : W21 m ρ c (Proc.devRef .tc main_v129) = GI m c :=
  (W21_keep m ρ c main_v129 (by decide)).trans (w20_v129 m ρ c)
set_option maxHeartbeats 1000000 in
theorem w21_v131 : W21 m ρ c (Proc.devRef .tc main_v131) = xui kTiles (A0 m c) (A1 m c) (A2 m c) (A3 m c) (A4 m c) (A5 m c) (A6 m c) (A7 m c) (A8 m c) := by
  refine (Reads.h10_flat (W20 m ρ c)).trans ?_
  rw [w20_v130 m ρ c]
  all_goals rfl

/-! ### The three results -/
theorem res_xui : W21 m ρ c (Proc.devRef .tc main_v131) = xui kTiles (A0 m c) (A1 m c) (A2 m c) (A3 m c) (A4 m c) (A5 m c) (A6 m c) (A7 m c) (A8 m c) := w21_v131 m ρ c
theorem res_gammaU : W21 m ρ c (Proc.devRef .tc main_v122) = gammaU kTiles (A0 m c) (A2 m c) (A3 m c) (A4 m c) (A5 m c) (A6 m c) (A7 m c) := w21_v122 m ρ c
theorem res_gammaI : W21 m ρ c (Proc.devRef .tc main_v129) = gammaI (A1 m c) (A8 m c) := w21_v129 m ρ c

end Cert.KernelIdeal.Hand.Vals

end
-- ==== Proof.Val.RefDense.lean ====
/-
  A dense layer computed with whole-array operations: the plain product of the node features [50000, 128] with a weight
  [128, 128], plus a bias vector of 128 entries laid along a one-row matrix and then along every row. Entry (i, j) of
  the result is (the sum over k of x i k * w k j) + b j, which is the dense tile function at the bias recast as a row.
-/
import proofs.«144474_j77214922048057_1_alg».proof.KernelIdeal
import proofs.«144474_j77214922048057_1_alg».proof.ReferenceIdeal
import proofs.«144474_j77214922048057_1_alg».proof.Proof.Spec
import proofs.«144474_j77214922048057_1_alg».proof.Proof.LibPlainDot
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

open scoped BigOperators

namespace Cert.Val

open Idealize.ShloMosaic Idealize.ShloMosaic.ValueIdx

/-- A vector of n entries laid along a one-row matrix, and that row along each of m rows, reads entry q at (p, q). -/
theorem bias_rows_apply {α : Type} {m n : ℕ} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (p : Fin m) (q : Fin n) :
    broadcastInDim ⟨2, ![m, n]⟩ ![0, 1] h2 (broadcastInDim ⟨2, ![1, n]⟩ ![1] h1 b) (ix2 p q) = b (ix1 q) := by
  rw [broadcastInDim_oneRow_apply]
  refine broadcastInDim_apply ![1] h1 b (ix2 (0 : Fin 1) q) (ix1 q) fun a => ?_
  match a with
  | ⟨0, _⟩ =>
    show q.val = if n = 1 then 0 else q.val
    split
    · have := q.isLt; omega
    · rfl

/-- The product of [50000, 128] by [128, 128] the reference takes is a plain one: one contracted axis, no batch axis. -/
theorem isPlain_node [Cert.ReferenceIdeal.Facts₀] :
    Cert.Gcn.PlainDot.IsPlain (M := 50000) (K := 128) (N := 128)
      Cert.ReferenceIdeal.dot_S50000x128_S128x128_S50000x128_1_0_0_1_n_n :=
  ⟨rfl, rfl, rfl, rfl, rfl, rfl, rfl, rfl⟩

/-- The product plus the bias laid along every row is the dense tile function at the bias recast as a row. -/
theorem ref_dense [Cert.ReferenceIdeal.Facts₀] [Cert.KernelIdeal.Facts₀]
    (x : FVec Ideal Cert.ReferenceIdeal.S50000x128 .f32) (w : FVec Ideal Cert.ReferenceIdeal.S128x128 .f32)
    (b : FVec Ideal Cert.ReferenceIdeal.S128 .f32) :
    addf (Host.dotGeneral (F := Ideal) Cert.ReferenceIdeal.dot_S50000x128_S128x128_S50000x128_1_0_0_1_n_n none x w)
        (broadcastInDim Cert.ReferenceIdeal.S50000x128 ![0, 1] Cert.ReferenceIdeal.Facts₀.bcast_S1x128_S50000x128_0_1
          (broadcastInDim Cert.ReferenceIdeal.S1x128 ![1] Cert.ReferenceIdeal.Facts₀.bcast_S128_S1x128_1 b))
      = Cert.Spec.dense x w (shapeCast Cert.KernelIdeal.S1x128 b Cert.KernelIdeal.Facts₀.shapeCasts_S128_S1x128) := by
  funext j
  obtain ⟨p, q, rfl⟩ : ∃ (p : Fin 50000) (q : Fin 128), j = ix2 p q := ⟨j 0, j 1, eq_ix2 j⟩
  rw [addf_apply, Cert.Gcn.PlainDot.dotGeneral_apply isPlain_node, bias_rows_apply, Cert.Spec.dense_apply,
    shapeCast_a_1a_apply]

end Cert.Val

end
-- ==== Proof.Val.RefMsg.lean ====
/-
  A message layer computed with whole-array operations on edge rows [800000, 128]: the two endpoint rows multiplied
  entry by entry, the product taken through a weight [128, 128] by a plain product, the edge's own row added in front,
  and a bias vector of 128 entries laid along every row added last. Entry (i, j) of the result is
  (hs i j + the sum over k of (xs i k * xd i k) * w k j) + b j, the message tile function at the bias recast as a row.
-/
import proofs.«144474_j77214922048057_1_alg».proof.KernelIdeal
import proofs.«144474_j77214922048057_1_alg».proof.ReferenceIdeal
import proofs.«144474_j77214922048057_1_alg».proof.Proof.Spec
import proofs.«144474_j77214922048057_1_alg».proof.Proof.LibPlainDot
import proofs.«144474_j77214922048057_1_alg».proof.Proof.Val.RefDense
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

open scoped BigOperators

namespace Cert.Val

open Idealize.ShloMosaic Idealize.ShloMosaic.ValueIdx

/-- The product of [800000, 128] by [128, 128] the reference takes is a plain one: one contracted axis, no batch axis. -/
theorem isPlain_edge [Cert.ReferenceIdeal.Facts₀] :
    Cert.Gcn.PlainDot.IsPlain (M := 800000) (K := 128) (N := 128)
      Cert.ReferenceIdeal.dot_S800000x128_S128x128_S800000x128_1_0_0_1_n_n :=
  ⟨rfl, rfl, rfl, rfl, rfl, rfl, rfl, rfl⟩

/-- The edge's own row, plus the weighted product of the endpoint rows, plus the bias laid along every row, is the
    message tile function at the bias recast as a row. -/
theorem ref_msg [Cert.ReferenceIdeal.Facts₀] [Cert.KernelIdeal.Facts₀]
    (xs xd hs : FVec Ideal Cert.ReferenceIdeal.S800000x128 .f32) (w : FVec Ideal Cert.ReferenceIdeal.S128x128 .f32)
    (b : FVec Ideal Cert.ReferenceIdeal.S128 .f32) :
    addf
        (addf hs
          (Host.dotGeneral (F := Ideal) Cert.ReferenceIdeal.dot_S800000x128_S128x128_S800000x128_1_0_0_1_n_n none
            (mulf xs xd) w))
        (broadcastInDim Cert.ReferenceIdeal.S800000x128 ![0, 1] Cert.ReferenceIdeal.Facts₀.bcast_S1x128_S800000x128_0_1
          (broadcastInDim Cert.ReferenceIdeal.S1x128 ![1] Cert.ReferenceIdeal.Facts₀.bcast_S128_S1x128_1 b))
      = Cert.Spec.msg xs xd hs w
          (shapeCast Cert.KernelIdeal.S1x128 b Cert.KernelIdeal.Facts₀.shapeCasts_S128_S1x128) := by
  funext j
  obtain ⟨p, q, rfl⟩ : ∃ (p : Fin 800000) (q : Fin 128), j = ix2 p q := ⟨j 0, j 1, eq_ix2 j⟩
  rw [addf_apply, addf_apply, Cert.Gcn.PlainDot.dotGeneral_apply isPlain_edge, bias_rows_apply, Cert.Spec.msg_apply,
    shapeCast_a_1a_apply]
  rfl

end Cert.Val

end
-- ==== Proof.Val.RefUpd.lean ====
/-
  A node update computed with whole-array operations on [50000, 128] arrays: s = agg + h1; the leaky rectifier taken as
  s where s ≥ 0 and c * s elsewhere; the squares summed along each row from the initial value zero, laid out as a
  column, the square root taken, bounded below by ε, the column laid along every row, and the rectified array divided
  by it entry by entry. The tile function selects on s > 0 instead: at s = 0 the two branches are s = 0 and c * 0 = 0,
  so the selections agree at every extended real. Entry (i, j) is then o i j / max (sqrt (∑ k, o i k * o i k)) ε on
  both sides.
-/
import proofs.«144474_j77214922048057_1_alg».proof.KernelIdeal
import proofs.«144474_j77214922048057_1_alg».proof.ReferenceIdeal
import proofs.«144474_j77214922048057_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

open scoped BigOperators

namespace Cert.Val

open Idealize.ShloMosaic Idealize.ShloMosaic.ValueIdx

/-- Selecting s or c * s on s ≥ 0 is selecting on s > 0: the two differ only at s = 0, where both branches are 0. -/
theorem select_oge_eq_select_ogt (c s : EReal) :
    Scalar.select (Ideal.cmp .oge s 0) s (c * s) = Scalar.select (Ideal.cmp .ogt s 0) s (c * s) := by
  unfold Scalar.select Ideal.cmp
  by_cases h : (0 : EReal) < s
  · simp [h, h.le]
  · by_cases h0 : s = 0
    · subst h0; simp
    · have hle : ¬ (0 : EReal) ≤ s := fun hle => h (lt_of_le_of_ne hle (Ne.symm h0))
      simp [h, hle]

/-- The sums along the rows of an [m, n] array, from the initial value zero: entry i is ∑ k, x i k. -/
theorem hostRowSum_apply {m n : ℕ} (h' : (⟨2, ![m, n]⟩ : Shape).ReducesTo [1] ⟨1, ![m]⟩) (hS : 0 < (⟨0, ![]⟩ : Shape).numel)
    (x : FVec Ideal ⟨2, ![m, n]⟩ .f32) (i : Fin m) :
    Host.reduceAdd (F := Ideal) x (constant (F := Ideal) ⟨0, ![]⟩ .f32 0x00000000#32) h' hS (ix1 i)
      = ∑ k : Fin n, x (ix2 i k) := by
  have h : (⟨2, ![m, n]⟩ : Shape).Reduces [1] ⟨1, ![m]⟩ := ⟨h'.1, Nat.one_pos, h'.2⟩
  rw [hostReduceAdd_apply, Ideal.hostReduceAdd_single h' h, constant_apply, Ideal.ofBits_zero_f32, zero_add]
  refine Finset.sum_congr rfl fun k _ => ?_
  have e : h.lift (ix1 i) k = ix2 i k := by
    funext a
    match a with
    | ⟨0, _⟩ => rfl
    | ⟨1, _⟩ => rfl
  show x (h.lift (ix1 i) k) = _
  rw [e]
  rfl

/-- The square root of an array, entry by entry. -/
theorem hostSqrt_apply {s : Shape} {φ : FTy} (x : FVec Ideal s φ) (i : s.Idx) :
    Host.sqrt (F := Ideal) x i = Ideal.sqrt (x i) := rfl

/-- A vector of a entries laid out as a column reads entry i at (i, u). -/
theorem vec_col_apply {α : Type} {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column of a entries laid along b columns reads the column's entry of row p at (p, c). -/
theorem col_rows_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The leaky rectifier as the reference takes it: s where s ≥ 0, the constant times s elsewhere. -/
abbrev refAct [Cert.ReferenceIdeal.Facts₀] (s : FVec Ideal Cert.ReferenceIdeal.S50000x128 .f32) :
    FVec Ideal Cert.ReferenceIdeal.S50000x128 .f32 :=
  select
    (cmpf .oge s
      (broadcastInDim Cert.ReferenceIdeal.S50000x128 ![] Cert.ReferenceIdeal.Facts₀.bcast_S_S50000x128
        (constant (F := Ideal) Cert.ReferenceIdeal.S_ .f32 0x00000000#32)))
    s
    (mulf
      (broadcastInDim Cert.ReferenceIdeal.S50000x128 ![] Cert.ReferenceIdeal.Facts₀.bcast_S_S50000x128
        (id (constant (F := Ideal) Cert.ReferenceIdeal.S_ .f32 0x3C23D70A#32)))
      s)

/-- The reference's rectified sum at (p, q) is the tile function's. -/
theorem refAct_apply [Cert.ReferenceIdeal.Facts₀] (agg h1 : FVec Ideal Cert.ReferenceIdeal.S50000x128 .f32)
    (p : Fin 50000) (q : Fin 128) : refAct (addf agg h1) (ix2 p q) = Cert.Spec.act agg h1 p q := by
  show Scalar.select (Ideal.cmp .oge (agg (ix2 p q) + h1 (ix2 p q)) (Ideal.ofBits .f32 0x00000000#32))
      (agg (ix2 p q) + h1 (ix2 p q)) (Ideal.ofBits .f32 0x3C23D70A#32 * (agg (ix2 p q) + h1 (ix2 p q))) = _
  unfold Cert.Spec.act
  rw [Ideal.ofBits_zero_f32]
  exact select_oge_eq_select_ogt _ _

/-- The rectified sum divided by its rows' bounded lengths is the update tile function. -/
theorem ref_upd [Cert.ReferenceIdeal.Facts₀] (agg h1 : FVec Ideal Cert.ReferenceIdeal.S50000x128 .f32) :
    Host.divf (F := Ideal) (refAct (addf agg h1))
        (broadcastInDim Cert.ReferenceIdeal.S50000x128 ![0, 1] Cert.ReferenceIdeal.Facts₀.bcast_S50000x1_S50000x128_0_1
          (maximumf
            (Host.sqrt (F := Ideal)
              (broadcastInDim Cert.ReferenceIdeal.S50000x1 ![0] Cert.ReferenceIdeal.Facts₀.bcast_S50000_S50000x1_0
                (Host.reduceAdd (F := Ideal) (mulf (refAct (addf agg h1)) (refAct (addf agg h1)))
                  (constant (F := Ideal) Cert.ReferenceIdeal.S_ .f32 0x00000000#32)
                  Cert.ReferenceIdeal.Facts₀.reducesTo_S50000x128_S50000_d1 Cert.ReferenceIdeal.Facts₀.h_S_)))
            (broadcastInDim Cert.ReferenceIdeal.S50000x1 ![] Cert.ReferenceIdeal.Facts₀.bcast_S_S50000x1
              (constant (F := Ideal) Cert.ReferenceIdeal.S_ .f32 0x2B8CBCCC#32))))
      = Cert.Spec.upd agg h1 := by
  funext j
  obtain ⟨p, q, rfl⟩ : ∃ (p : Fin 50000) (q : Fin 128), j = ix2 p q := ⟨j 0, j 1, eq_ix2 j⟩
  rw [hostDivf_apply, Cert.Spec.upd_apply, refAct_apply, col_rows_apply, maximumf_apply, hostSqrt_apply, vec_col_apply,
    hostRowSum_apply, broadcastInDim_scalar_apply, constant_apply]
  unfold Cert.Spec.len
  refine congrArg (fun t => Ideal.div _ (max (Ideal.sqrt t) _)) (Finset.sum_congr rfl fun k _ => ?_)
  rw [mulf_apply, refAct_apply]

end Cert.Val

end
-- ==== Proof.Val.RefScore.lean ====
/-
  The score of a pair of [4096, 512] arrays, computed with whole-array operations: the entry-by-entry product summed
  along each row from the initial value zero. Entry i of that vector is the sum over k of gu i k * gi i k, which is entry
  (i, 0) of the column of row scores; so the vector is that column with its unit axis dropped.
-/
import proofs.«144474_j77214922048057_1_alg».proof.KernelIdeal
import proofs.«144474_j77214922048057_1_alg».proof.ReferenceIdeal
import proofs.«144474_j77214922048057_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

open scoped BigOperators

namespace Cert.Val

open Idealize.ShloMosaic Idealize.ShloMosaic.ValueIdx

/-- Entry i of the row sums of the product: ∑ k, gu i k * gi i k. -/
theorem ref_score_apply (h' : (⟨2, ![4096, 512]⟩ : Shape).ReducesTo [1] ⟨1, ![4096]⟩) (hS : 0 < (⟨0, ![]⟩ : Shape).numel)
    (gu gi : FVec Ideal ⟨2, ![4096, 512]⟩ .f32) (i : Fin 4096) :
    Host.reduceAdd (F := Ideal) (mulf gu gi) (constant (F := Ideal) ⟨0, ![]⟩ .f32 0x00000000#32) h' hS (ix1 i)
      = ∑ k : Fin 512, gu (ix2 i k) * gi (ix2 i k) := by
  have h : (⟨2, ![4096, 512]⟩ : Shape).Reduces [1] ⟨1, ![4096]⟩ := ⟨h'.1, Nat.one_pos, h'.2⟩
  rw [hostReduceAdd_apply, Ideal.hostReduceAdd_single h' h, constant_apply, Ideal.ofBits_zero_f32, zero_add]
  refine Finset.sum_congr rfl fun k _ => ?_
  have e : h.lift (ix1 i) k = ix2 i k := by
    funext a
    match a with
    | ⟨0, _⟩ => rfl
    | ⟨1, _⟩ => rfl
  show gu (h.lift (ix1 i) k) * gi (h.lift (ix1 i) k) = _
  rw [e]
  rfl

/-- The row sums of the product are the column of row scores with its unit axis dropped. -/
theorem ref_score [Cert.ReferenceIdeal.Facts₀] [Cert.KernelIdeal.Facts₀]
    (gu gi : FVec Ideal Cert.ReferenceIdeal.S4096x512 .f32) :
    Host.reduceAdd (F := Ideal) (mulf gu gi) (constant (F := Ideal) Cert.ReferenceIdeal.S_ .f32 0x00000000#32)
        Cert.ReferenceIdeal.Facts₀.reducesTo_S4096x512_S4096_d1 Cert.ReferenceIdeal.Facts₀.h_S_
      = shapeCast Cert.KernelIdeal.S4096 (Cert.Spec.score gu gi) Cert.KernelIdeal.Facts₀.shapeCasts_S4096x1_S4096 := by
  funext j
  obtain ⟨i, rfl⟩ : ∃ i : Fin 4096, j = ix1 i := ⟨j 0, eq_ix1 j⟩
  rw [ref_score_apply]
  refine Eq.symm ((shapeCast_apply (Cert.Spec.score gu gi) _ (ix1 i) (ix2 i (0 : Fin 1)) ?_).trans ?_)
  · rw [Shape.rowMajor_val_two, Shape.rowMajor_val_one]
    show i.val * 1 + 0 = i.val
    omega
  · exact Cert.Spec.score_apply gu gi i 0

end Cert.Val

end
-- ==== Proof.Val.Bridge.lean ====
/-
  The reference's four dense stages — each a short chain of whole-array operations: the plain product plus the bias
  laid along every row; the edge's own row plus the weighted product of the endpoint rows plus the bias; the leaky
  rectifier of the sum followed by the division of each row by its bounded length; the row sums of the entry-by-entry
  product — are the kernel program's four tile functions, the bias recast as a row and the scores read off their
  column. So the two programs compute with the same four stages, and the model gives them the same three results.
-/
import proofs.«144474_j77214922048057_1_alg».proof.Proof.Ref.Tiles
import proofs.«144474_j77214922048057_1_alg».proof.Proof.Val.Model
import proofs.«144474_j77214922048057_1_alg».proof.Proof.Val.KTiles
import proofs.«144474_j77214922048057_1_alg».proof.Proof.Val.RefDense
import proofs.«144474_j77214922048057_1_alg».proof.Proof.Val.RefMsg
import proofs.«144474_j77214922048057_1_alg».proof.Proof.Val.RefUpd
import proofs.«144474_j77214922048057_1_alg».proof.Proof.Val.RefScore

noncomputable section

namespace Cert.Val

open Idealize.ShloMosaic

/-- The reference's tiles are the kernel program's. -/
theorem refTiles_eq : Cert.ReferenceIdeal.Hand.refTiles = Cert.Model.kTiles := by
  unfold Cert.ReferenceIdeal.Hand.refTiles Cert.Model.kTiles
  refine (Cert.Model.Tiles.mk.injEq _ _ _ _ _ _ _ _).mpr ⟨?_, ?_, ?_, ?_⟩
  · funext x w b
    exact ref_dense x w b
  · funext xs xd hs w b
    exact ref_msg xs xd hs w b
  · funext agg h1
    exact ref_upd agg h1
  · funext gu gi
    exact ref_score gu gi

end Cert.Val

end
-- ==== Proof.lean ====
/-
  The certificate of a three-layer graph-convolution program against its plain reference, at the extended reals.
  Each layer maps a node embedding x to  upd (Σ over edges into a node of msg (x[src], x[dst], h[src])) h  with
  h = dense x: a node projection, an edge message, a sum of messages into their target rows, and a node update
  (a leaky threshold followed by a row normalisation); the result is the users' rows of the four embeddings side by side,
  the items' rows of a second table, and the row-wise inner product of the two.
  The kernel program computes dense, msg, upd and the inner product in ten tiled regions (every region one whole-block
  computation per grid point; Proof/KI, Proof/K: the run of the regions and the host stretches between them, with the
  buffers' contents named at every boundary); the reference computes them as groups of array operations (Proof/Ref).
  Both are the ONE pure function Cert.Model.xui / gammaU / gammaI of the nine arguments (Proof/Val/Model.lean) at their
  own four tile functions, and the two quadruples of tile functions are equal index by index (Proof/Val/Bridge.lean):
  a matrix product is the same finite sum however it is blocked, a change of float format is the identity, and the two
  thresholds s > 0 and s ≥ 0 select equal values at s = 0. No step uses that the inputs are finite.
-/
import proofs.«144474_j77214922048057_1_alg».proof.Defs
import proofs.«144474_j77214922048057_1_alg».proof.Proof.Gen.Kernel
import proofs.«144474_j77214922048057_1_alg».proof.Proof.Gen.KernelIdeal
import proofs.«144474_j77214922048057_1_alg».proof.Proof.Gen.ReferenceIdeal
import proofs.«144474_j77214922048057_1_alg».proof.Proof.Gen.Pre_finite_inputs
import proofs.«144474_j77214922048057_1_alg».proof.Proof.K.Run
import proofs.«144474_j77214922048057_1_alg».proof.Proof.KI.Run
import proofs.«144474_j77214922048057_1_alg».proof.Proof.Ref.Run
import proofs.«144474_j77214922048057_1_alg».proof.Proof.Val.KChain
import proofs.«144474_j77214922048057_1_alg».proof.Proof.Val.Bridge
import Idealize.ShloMosaic.Adequacy
import Idealize.ShloMosaic.Init

set_option maxRecDepth 16384

noncomputable section

namespace Cert.Proof

open Idealize.ShloMosaic Idealize.SL.Sem

/-- The word-level program runs to the end and leaves its arguments as launched. -/
theorem frame_k : Cert.frame_Kernel := fun m ρ _ => Cert.Kernel.Hand.frame m ρ

/-- So does the program read at the extended reals. -/
theorem frame_ki : Cert.frame_KernelIdeal := fun m ρ _ => Cert.KernelIdeal.Hand.frame m ρ

/-- So does the reference. -/
theorem frame_ri : Cert.frame_ReferenceIdeal := fun m ρ _ => Cert.ReferenceIdeal.Hand.frame_ri m ρ

open Cert.KernelIdeal.Hand Cert.KernelIdeal.Hand.Vals Cert.Model in
/-- Both programs end with the model's three results at the kernel program's tiles: the kernel program by its run and the
    buffers' contents at the last boundary, the reference by its run at its own tiles, which are the same four functions. -/
theorem algebraic : Cert.algebraic_KernelIdeal_ReferenceIdeal := by
  intro m ρ m' ρ' _ hagree
  refine ⟨fun c => xui kTiles (A0 m c) (A1 m c) (A2 m c) (A3 m c) (A4 m c) (A5 m c) (A6 m c) (A7 m c) (A8 m c),
    fun c => gammaU kTiles (A0 m c) (A2 m c) (A3 m c) (A4 m c) (A5 m c) (A6 m c) (A7 m c),
    fun c => gammaI (A1 m c) (A8 m c), ?_, ?_⟩
  · refine (θ_run Cert.KernelIdeal.defs _ _).mono (fun r h c => ?_) (Cert.KernelIdeal.Hand.run_all (F := Ideal) m ρ)
    exact ⟨(h c _ (mem_uc Cert.KernelIdeal.main_v131 (by decide))).trans (res_xui m ρ c),
      (h c _ (mem_uc Cert.KernelIdeal.main_v122 (by decide))).trans (res_gammaU m ρ c),
      (h c _ (mem_uc Cert.KernelIdeal.main_v129 (by decide))).trans (res_gammaI m ρ c),
      (h c _ (mem_uc Cert.KernelIdeal.main_arg0 (by decide))).trans (W21_main_arg0 m ρ c),
      (h c _ (mem_uc Cert.KernelIdeal.main_arg1 (by decide))).trans (W21_main_arg1 m ρ c),
      (h c _ (mem_uc Cert.KernelIdeal.main_arg2 (by decide))).trans (W21_main_arg2 m ρ c),
      (h c _ (mem_uc Cert.KernelIdeal.main_arg3 (by decide))).trans (W21_main_arg3 m ρ c),
      (h c _ (mem_uc Cert.KernelIdeal.main_arg4 (by decide))).trans (W21_main_arg4 m ρ c),
      (h c _ (mem_uc Cert.KernelIdeal.main_arg5 (by decide))).trans (W21_main_arg5 m ρ c),
      (h c _ (mem_uc Cert.KernelIdeal.main_arg6 (by decide))).trans (W21_main_arg6 m ρ c),
      (h c _ (mem_uc Cert.KernelIdeal.main_arg7 (by decide))).trans (W21_main_arg7 m ρ c),
      (h c _ (mem_uc Cert.KernelIdeal.main_arg8 (by decide))).trans (W21_main_arg8 m ρ c)⟩
  · refine (θ_run Cert.ReferenceIdeal.defs _ _).mono (fun r h c => ?_) (Cert.ReferenceIdeal.Hand.run m' ρ')
    obtain ⟨e0, e1, e2, e3, e4, e5, e6, e7, e8⟩ := hagree c
    obtain ⟨h0, h1, h2, hargs⟩ := h c
    refine ⟨h0.trans ?_, h1.trans ?_, h2.trans ?_, hargs⟩
    · rw [Cert.Val.refTiles_eq, e0, e1, e2, e3, e4, e5, e6, e7, e8]
    · rw [Cert.Val.refTiles_eq, e0, e2, e3, e4, e5, e6, e7]
    · rw [e1, e8]

/-- The five claims, behind the witnesses of the programs' stated side conditions. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
